-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S128x512 : Shape := ⟨2, ![128, 512]⟩
abbrev S30522x128 : Shape := ⟨2, ![30522, 128]⟩
abbrev S519x128 : Shape := ⟨2, ![519, 128]⟩
abbrev S128x480 : Shape := ⟨2, ![128, 480]⟩
abbrev S480 : Shape := ⟨1, ![480]⟩
abbrev S_ : Shape := ⟨0, ![]⟩

class Facts : Prop where
  bcast_S_S30522x128 : S_.BroadcastsInDim S30522x128 (![] : Fin 0 → Fin S30522x128.rank)
  reducesTo_S30522x128_S_d0_1 : S30522x128.ReducesTo [0, 1] S_
  h_S_ : 0 < S_.numel
  bcast_S_S519x128 : S_.BroadcastsInDim S519x128 (![] : Fin 0 → Fin S519x128.rank)
  reducesTo_S519x128_S_d0_1 : S519x128.ReducesTo [0, 1] S_
  bcast_S_S128x480 : S_.BroadcastsInDim S128x480 (![] : Fin 0 → Fin S128x480.rank)
  reducesTo_S128x480_S_d0_1 : S128x480.ReducesTo [0, 1] S_
  bcast_S_S480 : S_.BroadcastsInDim S480 (![] : Fin 0 → Fin S480.rank)
  reducesTo_S480_S_d0 : S480.ReducesTo [0] S_
  bcast_S_S128x512 : S_.BroadcastsInDim S128x512 (![] : Fin 0 → Fin S128x512.rank)
  reducesTo_S128x512_S_d0_1 : S128x512.ReducesTo [0, 1] S_

variable [Facts]

def fn_part2 {F : FTy → Type} [FloatOps F] (main_v28 : IVec S_ 1) (main_v33 : IVec S128x512 1) : IVec S_ 1 :=
  let main_c_12 : IVec S_ 1 := constantI S_ 1 1#1
  let main_v34 : IVec S_ 1 := (fun x v => Host.reduce IntOp.andi x v reducesTo_S128x512_S_d0_1 h_S_) main_v33 main_c_12
  let main_v35 : IVec S_ 1 := andi main_v28 main_v34
  main_v35

def fn_part1 {F : FTy → Type} [FloatOps F] (main_arg0 : IVec S128x512 32) (main_arg5 : FVec F S480 .f32) (main_arg6 : FVec F S480 .f32) (main_v13 : IVec S_ 1) (main_v16 : IVec S480 1) : IVec S_ 1 :=
  let main_c_5 : IVec S_ 1 := constantI S_ 1 1#1
  let main_v17 : IVec S_ 1 := (fun x v => Host.reduce IntOp.andi x v reducesTo_S480_S_d0 h_S_) main_v16 main_c_5
  let main_v18 : IVec S_ 1 := andi main_v13 main_v17
  let main_v19 : FVec F S480 .f32 := Host.absf main_arg5
  let main_cst_6 : FVec F S_ .f32 := constant S_ .f32 0x7F800000#32
  let main_v20 : FVec F S480 .f32 := broadcastInDim S480 ![] bcast_S_S480 main_cst_6
  let main_v21 : IVec S480 1 := cmpf .olt main_v19 main_v20
  let main_c_7 : IVec S_ 1 := constantI S_ 1 1#1
  let main_v22 : IVec S_ 1 := (fun x v => Host.reduce IntOp.andi x v reducesTo_S480_S_d0 h_S_) main_v21 main_c_7
  let main_v23 : IVec S_ 1 := andi main_v18 main_v22
  let main_v24 : FVec F S480 .f32 := Host.absf main_arg6
  let main_cst_8 : FVec F S_ .f32 := constant S_ .f32 0x7F800000#32
  let main_v25 : FVec F S480 .f32 := broadcastInDim S480 ![] bcast_S_S480 main_cst_8
  let main_v26 : IVec S480 1 := cmpf .olt main_v24 main_v25
  let main_c_9 : IVec S_ 1 := constantI S_ 1 1#1
  let main_v27 : IVec S_ 1 := (fun x v => Host.reduce IntOp.andi x v reducesTo_S480_S_d0 h_S_) main_v26 main_c_9
  let main_v28 : IVec S_ 1 := andi main_v23 main_v27
  let main_c_10 : IVec S_ 32 := constantI S_ 32 0#32
  let main_v29 : IVec S128x512 32 := broadcastInDim S128x512 ![] bcast_S_S128x512 main_c_10
  let main_v30 : IVec S128x512 1 := cmpi .sge main_arg0 main_v29
  let main_c_11 : IVec S_ 32 := constantI S_ 32 30521#32
  let main_v31 : IVec S128x512 32 := broadcastInDim S128x512 ![] bcast_S_S128x512 main_c_11
  let main_v32 : IVec S128x512 1 := cmpi .sle main_arg0 main_v31
  let main_v33 : IVec S128x512 1 := andi main_v30 main_v32
  fn_part2 (F := F) main_v28 main_v33

def fn {F : FTy → Type} [FloatOps F] (main_arg0 : IVec S128x512 32) (main_arg1 : FVec F S30522x128 .f32) (main_arg2 : FVec F S519x128 .f32) (main_arg3 : FVec F S128x480 .f32) (main_arg4 : FVec F S480 .f32) (main_arg5 : FVec F S480 .f32) (main_arg6 : FVec F S480 .f32) : IVec S_ 1 :=
  let main_v0 : FVec F S30522x128 .f32 := Host.absf main_arg1
  let main_cst : FVec F S_ .f32 := constant S_ .f32 0x7F800000#32
  let main_v1 : FVec F S30522x128 .f32 := broadcastInDim S30522x128 ![] bcast_S_S30522x128 main_cst
  let main_v2 : IVec S30522x128 1 := cmpf .olt main_v0 main_v1
  let main_c : IVec S_ 1 := constantI S_ 1 1#1
  let main_v3 : IVec S_ 1 := (fun x v => Host.reduce IntOp.andi x v reducesTo_S30522x128_S_d0_1 h_S_) main_v2 main_c
  let main_v4 : FVec F S519x128 .f32 := Host.absf main_arg2
  let main_cst_0 : FVec F S_ .f32 := constant S_ .f32 0x7F800000#32
  let main_v5 : FVec F S519x128 .f32 := broadcastInDim S519x128 ![] bcast_S_S519x128 main_cst_0
  let main_v6 : IVec S519x128 1 := cmpf .olt main_v4 main_v5
  let main_c_1 : IVec S_ 1 := constantI S_ 1 1#1
  let main_v7 : IVec S_ 1 := (fun x v => Host.reduce IntOp.andi x v reducesTo_S519x128_S_d0_1 h_S_) main_v6 main_c_1
  let main_v8 : IVec S_ 1 := andi main_v3 main_v7
  let main_v9 : FVec F S128x480 .f32 := Host.absf main_arg3
  let main_cst_2 : FVec F S_ .f32 := constant S_ .f32 0x7F800000#32
  let main_v10 : FVec F S128x480 .f32 := broadcastInDim S128x480 ![] bcast_S_S128x480 main_cst_2
  let main_v11 : IVec S128x480 1 := cmpf .olt main_v9 main_v10
  let main_c_3 : IVec S_ 1 := constantI S_ 1 1#1
  let main_v12 : IVec S_ 1 := (fun x v => Host.reduce IntOp.andi x v reducesTo_S128x480_S_d0_1 h_S_) main_v11 main_c_3
  let main_v13 : IVec S_ 1 := andi main_v8 main_v12
  let main_v14 : FVec F S480 .f32 := Host.absf main_arg4
  let main_cst_4 : FVec F S_ .f32 := constant S_ .f32 0x7F800000#32
  let main_v15 : FVec F S480 .f32 := broadcastInDim S480 ![] bcast_S_S480 main_cst_4
  let main_v16 : IVec S480 1 := cmpf .olt main_v14 main_v15
  fn_part1 (F := F) main_arg0 main_arg5 main_arg6 main_v13 main_v16
-- ==== Kernel.lean ====
abbrev S128x512 : Shape := ⟨2, ![128, 512]⟩
abbrev S30522x128 : Shape := ⟨2, ![30522, 128]⟩
abbrev S519x128 : Shape := ⟨2, ![519, 128]⟩
abbrev S128x480 : Shape := ⟨2, ![128, 480]⟩
abbrev S480 : Shape := ⟨1, ![480]⟩
abbrev S512x128 : Shape := ⟨2, ![512, 128]⟩
abbrev S65536x128 : Shape := ⟨2, ![65536, 128]⟩
abbrev S16x128 : Shape := ⟨2, ![16, 128]⟩
abbrev S2x128x128 : Shape := ⟨3, ![2, 128, 128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S480x128 : Shape := ⟨2, ![480, 128]⟩
abbrev S480x1 : Shape := ⟨2, ![480, 1]⟩
abbrev S128x480x512 : Shape := ⟨3, ![128, 480, 512]⟩
abbrev S2048x128 : Shape := ⟨2, ![2048, 128]⟩
abbrev S4x480x512 : Shape := ⟨3, ![4, 480, 512]⟩
abbrev S480x512 : Shape := ⟨2, ![480, 512]⟩
abbrev S512 : Shape := ⟨1, ![512]⟩
abbrev S1x512 : Shape := ⟨2, ![1, 512]⟩
abbrev S1x480x512 : Shape := ⟨3, ![1, 480, 512]⟩
abbrev S128x512x480 : Shape := ⟨3, ![128, 512, 480]⟩

abbrev nBuf : Table → Nat
  | .hbm => 16
  | .local .tc .vmem => 9
  | .local .scVector .vmem => 2
  | _ => 0

abbrev bufTy : (tb : Table) → Fin (nBuf tb) → BufTy
  | .hbm, ⟨0, _⟩ => ⟨S128x512, .i32⟩
  | .hbm, ⟨1, _⟩ => ⟨S30522x128, .f32⟩
  | .hbm, ⟨2, _⟩ => ⟨S519x128, .f32⟩
  | .hbm, ⟨3, _⟩ => ⟨S128x480, .f32⟩
  | .hbm, ⟨4, _⟩ => ⟨S480, .f32⟩
  | .hbm, ⟨5, _⟩ => ⟨S480, .f32⟩
  | .hbm, ⟨6, _⟩ => ⟨S480, .f32⟩
  | .hbm, ⟨7, _⟩ => ⟨S512x128, .i32⟩
  | .hbm, ⟨8, _⟩ => ⟨S65536x128, .f32⟩
  | .hbm, ⟨9, _⟩ => ⟨S512x128, .f32⟩
  | .hbm, ⟨10, _⟩ => ⟨S480x128, .f32⟩
  | .hbm, ⟨11, _⟩ => ⟨S480x1, .f32⟩
  | .hbm, ⟨12, _⟩ => ⟨S480x1, .f32⟩
  | .hbm, ⟨13, _⟩ => ⟨S480x1, .f32⟩
  | .hbm, ⟨14, _⟩ => ⟨S128x480x512, .f32⟩
  | .hbm, ⟨15, _⟩ => ⟨S128x512x480, .f32⟩
  | .local .tc .vmem, ⟨0, _⟩ => ⟨S2048x128, .f32⟩
  | .local .tc .vmem, ⟨1, _⟩ => ⟨S2048x128, .f32⟩
  | .local .tc .vmem, ⟨2, _⟩ => ⟨S512x128, .f32⟩
  | .local .tc .vmem, ⟨3, _⟩ => ⟨S480x128, .f32⟩
  | .local .tc .vmem, ⟨4, _⟩ => ⟨S480x1, .f32⟩
  | .local .tc .vmem, ⟨5, _⟩ => ⟨S480x1, .f32⟩
  | .local .tc .vmem, ⟨6, _⟩ => ⟨S480x1, .f32⟩
  | .local .tc .vmem, ⟨7, _⟩ => ⟨S4x480x512, .f32⟩
  | .local .tc .vmem, ⟨8, _⟩ => ⟨S4x480x512, .f32⟩
  | .local .scVector .vmem, ⟨0, _⟩ => ⟨S16x128, .i32⟩
  | .local .scVector .vmem, ⟨1, _⟩ => ⟨S2x128x128, .f32⟩
  | _, _ => ⟨S128x512, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v0_scv : Ref sig .scVector := ⟨.hbm, 7, rfl⟩
abbrev main_arg1_scv : Ref sig .scVector := ⟨.hbm, 1, rfl⟩
abbrev main_v1_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg6_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_227_r0 : BitVec 32 := 0#32
  ![v2.toNat, 0]
def k0_off2 (i : grid0.Coords) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c128_i32 : BitVec 32 := 128#32
  let v3 : BitVec 32 := Scalar.muli v2 c128_i32
  let v19 : BitVec 32 := Scalar.addi v3 c0_i32_19
  let c0_i32_229_r1 : BitVec 32 := 0#32
  ![v19.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S480x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S480x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S480x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S480x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4x480x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128x512_S512x128 : S128x512.ShapeCasts S512x128
  inb_S2x128x128_S1x128x128_0_0_0 : ∀ a, (![0, 0, 0] : Fin 3 → Nat) a + S1x128x128.size a ≤ S2x128x128.size a
  squeezes_S1x128x128_S128x128 : S1x128x128.Squeezes S128x128
  inb_S16x128_S1x128_0_0 : ∀ a, (![0, 0] : Fin 2 → Nat) a + S1x128.size a ≤ S16x128.size a
  squeezes_S1x128_S128 : S1x128.Squeezes S128
  inb_S30522x128_S30522x128_0_0 : ∀ a, (![0, 0] : Fin 2 → Nat) a + S30522x128.size a ≤ S30522x128.size a
  gathers_S30522x128_S128x128 : S30522x128.Gathers 0 S128x128
  inb_S2x128x128_S1x128x128_1_0_0 : ∀ a, (![1, 0, 0] : Fin 3 → Nat) a + S1x128x128.size a ≤ S2x128x128.size a
  inb_S16x128_S1x128_1_0 : ∀ a, (![1, 0] : Fin 2 → Nat) a + S1x128.size a ≤ S16x128.size a
  inb_S16x128_S1x128_2_0 : ∀ a, (![2, 0] : Fin 2 → Nat) a + S1x128.size a ≤ S16x128.size a
  inb_S16x128_S1x128_3_0 : ∀ a, (![3, 0] : Fin 2 → Nat) a + S1x128.size a ≤ S16x128.size a
  inb_S16x128_S1x128_4_0 : ∀ a, (![4, 0] : Fin 2 → Nat) a + S1x128.size a ≤ S16x128.size a
  inb_S16x128_S1x128_5_0 : ∀ a, (![5, 0] : Fin 2 → Nat) a + S1x128.size a ≤ S16x128.size a
  inb_S16x128_S1x128_6_0 : ∀ a, (![6, 0] : Fin 2 → Nat) a + S1x128.size a ≤ S16x128.size a
  inb_S16x128_S1x128_7_0 : ∀ a, (![7, 0] : Fin 2 → Nat) a + S1x128.size a ≤ S16x128.size a
  inb_S16x128_S1x128_8_0 : ∀ a, (![8, 0] : Fin 2 → Nat) a + S1x128.size a ≤ S16x128.size a
  inb_S16x128_S1x128_9_0 : ∀ a, (![9, 0] : Fin 2 → Nat) a + S1x128.size a ≤ S16x128.size a
  inb_S16x128_S1x128_10_0 : ∀ a, (![10, 0] : Fin 2 → Nat) a + S1x128.size a ≤ S16x128.size a
  inb_S16x128_S1x128_11_0 : ∀ a, (![11, 0] : Fin 2 → Nat) a + S1x128.size a ≤ S16x128.size a
  inb_S16x128_S1x128_12_0 : ∀ a, (![12, 0] : Fin 2 → Nat) a + S1x128.size a ≤ S16x128.size a
  inb_S16x128_S1x128_13_0 : ∀ a, (![13, 0] : Fin 2 → Nat) a + S1x128.size a ≤ S16x128.size a
  inb_S16x128_S1x128_14_0 : ∀ a, (![14, 0] : Fin 2 → Nat) a + S1x128.size a ≤ S16x128.size a
  inb_S16x128_S1x128_15_0 : ∀ a, (![15, 0] : Fin 2 → Nat) a + S1x128.size a ≤ S16x128.size a
  slices_S519x128_S512x128_0_0 : S519x128.Slices ![0, 0] S512x128
  transposes_S128x480_S480x128_1_0 : S128x480.Transposes [1, 0] S480x128
  shapeCasts_S480_S480x1 : S480.ShapeCasts S480x1
  inb_S480x128_S480x128_0_0 : ∀ a, (![0, 0] : Fin 2 → Nat) a + S480x128.size a ≤ S480x128.size a
  h_S480x128 : 0 < S480x128.numel
  shapeCasts_S480x128_S480x128 : S480x128.ShapeCasts S480x128
  inb_S2048x128_S512x128_0_0 : ∀ a, (![0, 0] : Fin 2 → Nat) a + S512x128.size a ≤ S2048x128.size a
  h_S512x128 : 0 < S512x128.numel
  shapeCasts_S512x128_S512x128 : S512x128.ShapeCasts S512x128
  inb_S512x128_S512x128_0_0 : ∀ a, (![0, 0] : Fin 2 → Nat) a + S512x128.size a ≤ S512x128.size a
  inb_S480x1_S480x1_0_0 : ∀ a, (![0, 0] : Fin 2 → Nat) a + S480x1.size a ≤ S480x1.size a
  h_S480x1 : 0 < S480x1.numel
  shapeCasts_S480x1_S480x1 : S480x1.ShapeCasts S480x1
  broadcasts_S480x1_S480x512 : S480x1.Broadcasts S480x512
  reduces_S480x512_S512 : S480x512.Reduces [0] S512
  shapeCasts_S512_S1x512 : S512.ShapeCasts S1x512
  broadcasts_S1x512_S480x512 : S1x512.Broadcasts S480x512
  inb_S4x480x512_S1x480x512_0_0_0 : ∀ a, (![0, 0, 0] : Fin 3 → Nat) a + S1x480x512.size a ≤ S4x480x512.size a
  h_S1x480x512 : 0 < S1x480x512.numel
  shapeCasts_S1x480x512_S480x512 : S1x480x512.ShapeCasts S480x512
  shapeCasts_S480x512_S1x480x512 : S480x512.ShapeCasts S1x480x512
  inb_S2048x128_S512x128_512_0 : ∀ a, (![512, 0] : Fin 2 → Nat) a + S512x128.size a ≤ S2048x128.size a
  inb_S4x480x512_S1x480x512_1_0_0 : ∀ a, (![1, 0, 0] : Fin 3 → Nat) a + S1x480x512.size a ≤ S4x480x512.size a
  inb_S2048x128_S512x128_1024_0 : ∀ a, (![1024, 0] : Fin 2 → Nat) a + S512x128.size a ≤ S2048x128.size a
  inb_S4x480x512_S1x480x512_2_0_0 : ∀ a, (![2, 0, 0] : Fin 3 → Nat) a + S1x480x512.size a ≤ S4x480x512.size a
  inb_S2048x128_S512x128_1536_0 : ∀ a, (![1536, 0] : Fin 2 → Nat) a + S512x128.size a ≤ S2048x128.size a
  inb_S4x480x512_S1x480x512_3_0_0 : ∀ a, (![3, 0, 0] : Fin 3 → Nat) a + S1x480x512.size a ≤ S4x480x512.size a
  transposes_S128x480x512_S128x512x480_0_2_1 : S128x480x512.Transposes [0, 2, 1] S128x512x480
  dot_S480x128_S512x128_S480x512_1_1_0_0_n_n_wf : DotDims.WF S480x128 S512x128 S480x512 [1] [1] [0] [0] [] []
  hcc0_scratch2 : 0 + S_.numel ≤ 28
  hcc0_scratch3 : 1 + S_.numel ≤ 28
  hcc0_scoped0 : 2 + S_.numel ≤ 28
  hcc0_scoped1 : 3 + S_.numel ≤ 28
  hcc0_scoped2 : 4 + S_.numel ≤ 28
  hcc0_scoped3 : 5 + S_.numel ≤ 28
  hcc0_scoped4 : 6 + S_.numel ≤ 28
  hcc0_scoped5 : 7 + S_.numel ≤ 28
  hcc0_scoped6 : 8 + S_.numel ≤ 28
  hcc0_scoped7 : 9 + S_.numel ≤ 28
  hcc0_scoped8 : 10 + S_.numel ≤ 28
  hcc0_scoped9 : 11 + S_.numel ≤ 28
  hcc0_scoped10 : 12 + S_.numel ≤ 28
  hcc0_scoped11 : 13 + S_.numel ≤ 28
  hcc0_scoped12 : 14 + S_.numel ≤ 28
  hcc0_scoped13 : 15 + S_.numel ≤ 28
  hcc0_scoped14 : 16 + S_.numel ≤ 28
  hcc0_scoped15 : 17 + S_.numel ≤ 28
  hcc0_scoped16 : 18 + S_.numel ≤ 28
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16x128.size a ≤ S512x128.size a
  k0_off2_inb : ∀ i : grid0.Coords, ∀ (r : Fin 16), ∀ a, (k0_off2 i (BitVec.ofNat 32 (128 * r.val))) a + S128x128.size a ≤ S65536x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S65536x128.size a
  hwx1_0 : ∀ i : grid1.Coords, EltTy.bits .f32 = 32 ∨ (Rect.block (s := S65536x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S480x128.size a ≤ S480x128.size a
  hwx1_2 : ∀ i : grid1.Coords, EltTy.bits .f32 = 32 ∨ (Rect.block (s := S480x128) S480x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S480x1.size a ≤ S480x1.size a
  hwx1_3 : ∀ i : grid1.Coords, EltTy.bits .f32 = 32 ∨ (Rect.block (s := S480x1) S480x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S480x1.size a ≤ S480x1.size a
  hwx1_4 : ∀ i : grid1.Coords, EltTy.bits .f32 = 32 ∨ (Rect.block (s := S480x1) S480x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S480x1.size a ≤ S480x1.size a
  hwx1_5 : ∀ i : grid1.Coords, EltTy.bits .f32 = 32 ∨ (Rect.block (s := S480x1) S480x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4x480x512.size a ≤ S128x480x512.size a
  hwx1_6 : ∀ i : grid1.Coords, EltTy.bits .f32 = 32 ∨ (Rect.block (s := S128x480x512) S4x480x512.size (cc1_transform_6 i) (hinb1_6 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
abbrev cc0_scoped7 : DmaSems sig S_ := SemArray.consecutive 9 S_ hcc0_scoped7
abbrev cc0_scoped8 : DmaSems sig S_ := SemArray.consecutive 10 S_ hcc0_scoped8
abbrev cc0_scoped9 : DmaSems sig S_ := SemArray.consecutive 11 S_ hcc0_scoped9
abbrev cc0_scoped10 : DmaSems sig S_ := SemArray.consecutive 12 S_ hcc0_scoped10
abbrev cc0_scoped11 : DmaSems sig S_ := SemArray.consecutive 13 S_ hcc0_scoped11
abbrev cc0_scoped12 : DmaSems sig S_ := SemArray.consecutive 14 S_ hcc0_scoped12
abbrev cc0_scoped13 : DmaSems sig S_ := SemArray.consecutive 15 S_ hcc0_scoped13
abbrev cc0_scoped14 : DmaSems sig S_ := SemArray.consecutive 16 S_ hcc0_scoped14
abbrev cc0_scoped15 : DmaSems sig S_ := SemArray.consecutive 17 S_ hcc0_scoped15
abbrev cc0_scoped16 : DmaSems sig S_ := SemArray.consecutive 18 S_ hcc0_scoped16
def dot_S480x128_S512x128_S480x512_1_1_0_0_n_n : DotDims S480x128 S512x128 S480x512 where
  lhsContracting := [1]
  rhsContracting := [1]
  lhsNonContracting := [0]
  rhsNonContracting := [0]
  lhsBatch := []
  rhsBatch := []
  wf := dot_S480x128_S512x128_S480x512_1_1_0_0_n_n_wf

abbrev win1_0 : Pipeline.Window sig grid1 :=
  Pipeline.Window.ofSpec (Memref.whole main_v1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S480x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S480x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S480x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S480x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S4x480x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S128x512 : Shape := ⟨2, ![128, 512]⟩
abbrev S30522x128 : Shape := ⟨2, ![30522, 128]⟩
abbrev S519x128 : Shape := ⟨2, ![519, 128]⟩
abbrev S128x480 : Shape := ⟨2, ![128, 480]⟩
abbrev S480 : Shape := ⟨1, ![480]⟩
abbrev S_ : Shape := ⟨0, ![]⟩
abbrev S128x512x1 : Shape := ⟨3, ![128, 512, 1]⟩
abbrev S1 : Shape := ⟨1, ![1]⟩
abbrev S1x1x1 : Shape := ⟨3, ![1, 1, 1]⟩
abbrev S128x512x128 : Shape := ⟨3, ![128, 512, 128]⟩
abbrev S512 : Shape := ⟨1, ![512]⟩
abbrev S512x1 : Shape := ⟨2, ![512, 1]⟩
abbrev S1x1 : Shape := ⟨2, ![1, 1]⟩
abbrev S512x128 : Shape := ⟨2, ![512, 128]⟩
abbrev S1x512x128 : Shape := ⟨3, ![1, 512, 128]⟩
abbrev S128x512x480 : Shape := ⟨3, ![128, 512, 480]⟩
abbrev S1x1x480 : Shape := ⟨3, ![1, 1, 480]⟩

abbrev nBuf : Space → Nat
  | .hbm => 90
  | .vmem => 0
  | .smem => 0
  | _ => 0

abbrev bufTy : (tb : Table) → Fin (tcTables nBuf tb) → BufTy
  | .hbm, ⟨0, _⟩ => ⟨S128x512, .i32⟩
  | .hbm, ⟨1, _⟩ => ⟨S30522x128, .f32⟩
  | .hbm, ⟨2, _⟩ => ⟨S519x128, .f32⟩
  | .hbm, ⟨3, _⟩ => ⟨S128x480, .f32⟩
  | .hbm, ⟨4, _⟩ => ⟨S480, .f32⟩
  | .hbm, ⟨5, _⟩ => ⟨S480, .f32⟩
  | .hbm, ⟨6, _⟩ => ⟨S480, .f32⟩
  | .hbm, ⟨7, _⟩ => ⟨S_, .i32⟩
  | .hbm, ⟨8, _⟩ => ⟨S128x512, .i32⟩
  | .hbm, ⟨9, _⟩ => ⟨S128x512, .i1⟩
  | .hbm, ⟨10, _⟩ => ⟨S_, .i32⟩
  | .hbm, ⟨11, _⟩ => ⟨S128x512, .i32⟩
  | .hbm, ⟨12, _⟩ => ⟨S128x512, .i32⟩
  | .hbm, ⟨13, _⟩ => ⟨S128x512, .i32⟩
  | .hbm, ⟨14, _⟩ => ⟨S128x512x1, .i32⟩
  | .hbm, ⟨15, _⟩ => ⟨S1, .i32⟩
  | .hbm, ⟨16, _⟩ => ⟨S_, .i32⟩
  | .hbm, ⟨17, _⟩ => ⟨S128x512x1, .i32⟩
  | .hbm, ⟨18, _⟩ => ⟨S128x512x1, .i1⟩
  | .hbm, ⟨19, _⟩ => ⟨S1x1x1, .i32⟩
  | .hbm, ⟨20, _⟩ => ⟨S128x512x1, .i32⟩
  | .hbm, ⟨21, _⟩ => ⟨S128x512x1, .i1⟩
  | .hbm, ⟨22, _⟩ => ⟨S128x512x1, .i1⟩
  | .hbm, ⟨23, _⟩ => ⟨S_, .i1⟩
  | .hbm, ⟨24, _⟩ => ⟨S128x512, .i1⟩
  | .hbm, ⟨25, _⟩ => ⟨S128x512x128, .f32⟩
  | .hbm, ⟨26, _⟩ => ⟨S128x512x128, .i1⟩
  | .hbm, ⟨27, _⟩ => ⟨S_, .f32⟩
  | .hbm, ⟨28, _⟩ => ⟨S128x512x128, .f32⟩
  | .hbm, ⟨29, _⟩ => ⟨S128x512x128, .f32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S1, .i32⟩
  | .hbm, ⟨40, _⟩ => ⟨S_, .i32⟩
  | .hbm, ⟨41, _⟩ => ⟨S512x1, .i32⟩
  | .hbm, ⟨42, _⟩ => ⟨S512x1, .i1⟩
  | .hbm, ⟨43, _⟩ => ⟨S1x1, .i32⟩
  | .hbm, ⟨44, _⟩ => ⟨S512x1, .i32⟩
  | .hbm, ⟨45, _⟩ => ⟨S512x1, .i1⟩
  | .hbm, ⟨46, _⟩ => ⟨S512x1, .i1⟩
  | .hbm, ⟨47, _⟩ => ⟨S_, .i1⟩
  | .hbm, ⟨48, _⟩ => ⟨S512, .i1⟩
  | .hbm, ⟨49, _⟩ => ⟨S512x128, .f32⟩
  | .hbm, ⟨50, _⟩ => ⟨S512x128, .i1⟩
  | .hbm, ⟨51, _⟩ => ⟨S_, .f32⟩
  | .hbm, ⟨52, _⟩ => ⟨S512x128, .f32⟩
  | .hbm, ⟨53, _⟩ => ⟨S512x128, .f32⟩
  | .hbm, ⟨54, _⟩ => ⟨S1x512x128, .f32⟩
  | .hbm, ⟨55, _⟩ => ⟨S128x512x128, .f32⟩
  | .hbm, ⟨56, _⟩ => ⟨S128x512x128, .f32⟩
  | .hbm, ⟨57, _⟩ => ⟨S128x512x480, .f32⟩
  | .hbm, ⟨58, _⟩ => ⟨S1x1x480, .f32⟩
  | .hbm, ⟨59, _⟩ => ⟨S128x512x480, .f32⟩
  | .hbm, ⟨60, _⟩ => ⟨S128x512x480, .f32⟩
  | .hbm, ⟨61, _⟩ => ⟨S_, .f32⟩
  | .hbm, ⟨62, _⟩ => ⟨S128x512, .f32⟩
  | .hbm, ⟨63, _⟩ => ⟨S128x512x1, .f32⟩
  | .hbm, ⟨64, _⟩ => ⟨S_, .f32⟩
  | .hbm, ⟨65, _⟩ => ⟨S128x512x1, .f32⟩
  | .hbm, ⟨66, _⟩ => ⟨S128x512x1, .f32⟩
  | .hbm, ⟨67, _⟩ => ⟨S128x512x480, .f32⟩
  | .hbm, ⟨68, _⟩ => ⟨S128x512x480, .f32⟩
  | .hbm, ⟨69, _⟩ => ⟨S128x512x480, .f32⟩
  | .hbm, ⟨70, _⟩ => ⟨S_, .f32⟩
  | .hbm, ⟨71, _⟩ => ⟨S128x512, .f32⟩
  | .hbm, ⟨72, _⟩ => ⟨S128x512x1, .f32⟩
  | .hbm, ⟨73, _⟩ => ⟨S_, .f32⟩
  | .hbm, ⟨74, _⟩ => ⟨S128x512x1, .f32⟩
  | .hbm, ⟨75, _⟩ => ⟨S128x512x1, .f32⟩
  | .hbm, ⟨76, _⟩ => ⟨S128x512x480, .f32⟩
  | .hbm, ⟨77, _⟩ => ⟨S128x512x480, .f32⟩
  | .hbm, ⟨78, _⟩ => ⟨S_, .f32⟩
  | .hbm, ⟨79, _⟩ => ⟨S128x512x1, .f32⟩
  | .hbm, ⟨80, _⟩ => ⟨S128x512x1, .f32⟩
  | .hbm, ⟨81, _⟩ => ⟨S128x512x1, .f32⟩
  | .hbm, ⟨82, _⟩ => ⟨S128x512x480, .f32⟩
  | .hbm, ⟨83, _⟩ => ⟨S128x512x480, .f32⟩
  | .hbm, ⟨84, _⟩ => ⟨S1x1x480, .f32⟩
  | .hbm, ⟨85, _⟩ => ⟨S128x512x480, .f32⟩
  | .hbm, ⟨86, _⟩ => ⟨S128x512x480, .f32⟩
  | .hbm, ⟨87, _⟩ => ⟨S1x1x480, .f32⟩
  | .hbm, ⟨88, _⟩ => ⟨S128x512x480, .f32⟩
  | .hbm, ⟨89, _⟩ => ⟨S128x512x480, .f32⟩
  | _, _ => ⟨S128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_cst : Ref sig .tc := ⟨.hbm, 61, rfl⟩
abbrev main_v10 : Ref sig .tc := ⟨.hbm, 62, rfl⟩
abbrev main_v11 : Ref sig .tc := ⟨.hbm, 63, rfl⟩
abbrev main_cst_0 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_cst_1 : Ref sig .tc := ⟨.hbm, 70, rfl⟩
abbrev main_v17 : Ref sig .tc := ⟨.hbm, 71, rfl⟩
abbrev main_v18 : Ref sig .tc := ⟨.hbm, 72, rfl⟩
abbrev main_cst_2 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_cst_3 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S_S128x512x1 : S_.BroadcastsInDim S128x512x1 (![] : Fin 0 → Fin S128x512x1.rank)
  bcast_S1_S1x1x1_2 : S1.BroadcastsInDim S1x1x1 (![2] : Fin 1 → Fin S1x1x1.rank)
  bcast_S1x1x1_S128x512x1_0_1_2 : S1x1x1.BroadcastsInDim S128x512x1 (![0, 1, 2] : Fin 3 → Fin S128x512x1.rank)
  reducesTo_S128x512x1_S128x512_d2 : S128x512x1.ReducesTo [2] S128x512
  h_S_ : 0 < S_.numel
  bcast_S128x512_S128x512x128_0_1 : S128x512.BroadcastsInDim S128x512x128 (![0, 1] : Fin 2 → Fin S128x512x128.rank)
  bcast_S_S128x512x128 : S_.BroadcastsInDim S128x512x128 (![] : Fin 0 → Fin S128x512x128.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  bcast_S512_S512x128_0 : S512.BroadcastsInDim S512x128 (![0] : Fin 1 → Fin S512x128.rank)
  bcast_S_S512x128 : S_.BroadcastsInDim S512x128 (![] : Fin 0 → Fin S512x128.rank)
  bcast_S512x128_S1x512x128_1_2 : S512x128.BroadcastsInDim S1x512x128 (![1, 2] : Fin 2 → Fin S1x512x128.rank)
  bcast_S1x512x128_S128x512x128_0_1_2 : S1x512x128.BroadcastsInDim S128x512x128 (![0, 1, 2] : Fin 3 → Fin S128x512x128.rank)
  bcast_S480_S1x1x480_2 : S480.BroadcastsInDim S1x1x480 (![2] : Fin 1 → Fin S1x1x480.rank)
  bcast_S1x1x480_S128x512x480_0_1_2 : S1x1x480.BroadcastsInDim S128x512x480 (![0, 1, 2] : Fin 3 → Fin S128x512x480.rank)
  reducesTo_S128x512x480_S128x512_d2 : S128x512x480.ReducesTo [2] S128x512
  bcast_S128x512x1_S128x512x480_0_1_2 : S128x512x1.BroadcastsInDim S128x512x480 (![0, 1, 2] : Fin 3 → Fin S128x512x480.rank)
  gather_S30522x128_S128x512x1_S128x512x128_2_0_n_n_0_2_1128_wf : GatherDims.WF S30522x128 S128x512x1 S128x512x128 [2] [0] [] [0] [] 2 ![1, 128]
  gather_S519x128_S512x1_S512x128_1_0_n_n_0_1_1128_wf : GatherDims.WF S519x128 S512x1 S512x128 [1] [0] [] [0] [] 1 ![1, 128]
  dot_S128x512x128_S128x480_S128x512x480_2_0_01_1_n_n_wf : DotDims.WF S128x512x128 S128x480 S128x512x480 [2] [0] [0, 1] [1] [] []

variable [Facts₀]

def gather_S30522x128_S128x512x1_S128x512x128_2_0_n_n_0_2_1128 : GatherDims S30522x128 S128x512x1 S128x512x128 where
  offsetDims := [2]
  collapsedSliceDims := [0]
  operandBatchingDims := []
  startIndicesBatchingDims := []
  startIndexMap := [0]
  indexVectorDim := 2
  sliceSizes := ![1, 128]
  wf := gather_S30522x128_S128x512x1_S128x512x128_2_0_n_n_0_2_1128_wf
def gather_S519x128_S512x1_S512x128_1_0_n_n_0_1_1128 : GatherDims S519x128 S512x1 S512x128 where
  offsetDims := [1]
  collapsedSliceDims := [0]
  operandBatchingDims := []
  startIndicesBatchingDims := []
  startIndexMap := [0]
  indexVectorDim := 1
  sliceSizes := ![1, 128]
  wf := gather_S519x128_S512x1_S512x128_1_0_n_n_0_1_1128_wf
def dot_S128x512x128_S128x480_S128x512x480_2_0_01_1_n_n : DotDims S128x512x128 S128x480 S128x512x480 where
  lhsContracting := [2]
  rhsContracting := [0]
  lhsNonContracting := [0, 1]
  rhsNonContracting := [1]
  lhsBatch := []
  rhsBatch := []
  wf := dot_S128x512x128_S128x480_S128x512x480_2_0_01_1_n_n_wf

class Facts : Prop extends Facts₀ where

variable [Facts]
-- ==== Proof.ScDefs.lean ====
/-
  The SparseCore gather's setting, shared by the modules that prove its frame.

  The kernel runs on 2 SparseCores x 16 vector subcores. The tile at grid point L = (c, s) is worker w = 2 s + c: it
  copies rows [16 w, 16 w + 16) of the reshaped index array [512, 128] into its index scratch, and for j = 0 .. 15
  gathers the 128 table rows named by scratch row j into one of two 128-row slots and copies the slot out to rows
  [2048 w + 128 j, 2048 w + 128 j + 128) of the result [65536, 128]. The memrefs below are the program's own slices:
  the tile's 16 index rows, the whole table as the gathers' source, the two slots, the 16 offset rows of the index
  scratch and the tile's 16 result chunks.
-/
import proofs.«207697_g22892175687689_cont_8to1_1704_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207697_g22892175687689_cont_8to1_1704_9_alg».proof.Proof.Gen.KernelIdeal
import proofs.«207697_g22892175687689_cont_8to1_1704_9_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the launch handshakes' rounds, the TensorCore pipeline's cells' rounds, the local transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)
instance EP_landsIn : (EP : Emb UP 𝕄).LandsIn (upEmb : UEmb _ 𝕄) := by unfold EP; infer_instance

local notation "iV" => (Memref.whole Cert.KernelIdeal.main_v0_scv : Memref Cert.KernelIdeal.sig Kind.scVector Space.hbm Cert.KernelIdeal.S512x128 EltTy.i32)
local notation "tV" => (Memref.whole Cert.KernelIdeal.main_arg1_scv : Memref Cert.KernelIdeal.sig Kind.scVector Space.hbm Cert.KernelIdeal.S30522x128 EltTy.f32)
local notation "oV" => (Memref.whole Cert.KernelIdeal.main_v1_scv : Memref Cert.KernelIdeal.sig Kind.scVector Space.hbm Cert.KernelIdeal.S65536x128 EltTy.f32)
local notation "sI" => (Memref.whole Cert.KernelIdeal.cc0_scratch0 : Memref Cert.KernelIdeal.sig Kind.scVector Space.vmem Cert.KernelIdeal.S16x128 EltTy.i32)
local notation "sR" => (Memref.whole Cert.KernelIdeal.cc0_scratch1 : Memref Cert.KernelIdeal.sig Kind.scVector Space.vmem Cert.KernelIdeal.S2x128x128 EltTy.f32)

abbrev cV (L : grid0.Coords) : Fin τ.nSC := (L 0).castLE hcore0
abbrev jV (L : grid0.Coords) : Fin τ.nSub := (L 1).castLE hsub0

abbrev idxSl (L : grid0.Coords) : Memref sig .scVector .hbm S16x128 .i32 := (iV).slice (Rect.unit (s := S512x128) (k0_off1 L) S16x128.size (k0_off1_inb L)) (fun _ => rfl)
abbrev tAll : Memref sig .scVector .hbm S30522x128 .f32 := (tV).slice (Rect.unit (s := S30522x128) ![0, 0] S30522x128.size inb_S30522x128_S30522x128_0_0) (fun _ => rfl)
abbrev slot0 : Memref sig .scVector .vmem S128x128 .f32 := ((sR).slice (Rect.unit (s := S2x128x128) ![0, 0, 0] S1x128x128.size inb_S2x128x128_S1x128x128_0_0_0) (fun _ => rfl)).squeeze S128x128 squeezes_S1x128x128_S128x128
abbrev slot1 : Memref sig .scVector .vmem S128x128 .f32 := ((sR).slice (Rect.unit (s := S2x128x128) ![1, 0, 0] S1x128x128.size inb_S2x128x128_S1x128x128_1_0_0) (fun _ => rfl)).squeeze S128x128 squeezes_S1x128x128_S128x128
abbrev offs0 : Memref sig .scVector .vmem S128 .i32 := ((sI).slice (Rect.unit (s := S16x128) ![0, 0] S1x128.size inb_S16x128_S1x128_0_0) (fun _ => rfl)).squeeze S128 squeezes_S1x128_S128
abbrev offs1 : Memref sig .scVector .vmem S128 .i32 := ((sI).slice (Rect.unit (s := S16x128) ![1, 0] S1x128.size inb_S16x128_S1x128_1_0) (fun _ => rfl)).squeeze S128 squeezes_S1x128_S128
abbrev offs2 : Memref sig .scVector .vmem S128 .i32 := ((sI).slice (Rect.unit (s := S16x128) ![2, 0] S1x128.size inb_S16x128_S1x128_2_0) (fun _ => rfl)).squeeze S128 squeezes_S1x128_S128
abbrev offs3 : Memref sig .scVector .vmem S128 .i32 := ((sI).slice (Rect.unit (s := S16x128) ![3, 0] S1x128.size inb_S16x128_S1x128_3_0) (fun _ => rfl)).squeeze S128 squeezes_S1x128_S128
abbrev offs4 : Memref sig .scVector .vmem S128 .i32 := ((sI).slice (Rect.unit (s := S16x128) ![4, 0] S1x128.size inb_S16x128_S1x128_4_0) (fun _ => rfl)).squeeze S128 squeezes_S1x128_S128
abbrev offs5 : Memref sig .scVector .vmem S128 .i32 := ((sI).slice (Rect.unit (s := S16x128) ![5, 0] S1x128.size inb_S16x128_S1x128_5_0) (fun _ => rfl)).squeeze S128 squeezes_S1x128_S128
abbrev offs6 : Memref sig .scVector .vmem S128 .i32 := ((sI).slice (Rect.unit (s := S16x128) ![6, 0] S1x128.size inb_S16x128_S1x128_6_0) (fun _ => rfl)).squeeze S128 squeezes_S1x128_S128
abbrev offs7 : Memref sig .scVector .vmem S128 .i32 := ((sI).slice (Rect.unit (s := S16x128) ![7, 0] S1x128.size inb_S16x128_S1x128_7_0) (fun _ => rfl)).squeeze S128 squeezes_S1x128_S128
abbrev offs8 : Memref sig .scVector .vmem S128 .i32 := ((sI).slice (Rect.unit (s := S16x128) ![8, 0] S1x128.size inb_S16x128_S1x128_8_0) (fun _ => rfl)).squeeze S128 squeezes_S1x128_S128
abbrev offs9 : Memref sig .scVector .vmem S128 .i32 := ((sI).slice (Rect.unit (s := S16x128) ![9, 0] S1x128.size inb_S16x128_S1x128_9_0) (fun _ => rfl)).squeeze S128 squeezes_S1x128_S128
abbrev offs10 : Memref sig .scVector .vmem S128 .i32 := ((sI).slice (Rect.unit (s := S16x128) ![10, 0] S1x128.size inb_S16x128_S1x128_10_0) (fun _ => rfl)).squeeze S128 squeezes_S1x128_S128
abbrev offs11 : Memref sig .scVector .vmem S128 .i32 := ((sI).slice (Rect.unit (s := S16x128) ![11, 0] S1x128.size inb_S16x128_S1x128_11_0) (fun _ => rfl)).squeeze S128 squeezes_S1x128_S128
abbrev offs12 : Memref sig .scVector .vmem S128 .i32 := ((sI).slice (Rect.unit (s := S16x128) ![12, 0] S1x128.size inb_S16x128_S1x128_12_0) (fun _ => rfl)).squeeze S128 squeezes_S1x128_S128
abbrev offs13 : Memref sig .scVector .vmem S128 .i32 := ((sI).slice (Rect.unit (s := S16x128) ![13, 0] S1x128.size inb_S16x128_S1x128_13_0) (fun _ => rfl)).squeeze S128 squeezes_S1x128_S128
abbrev offs14 : Memref sig .scVector .vmem S128 .i32 := ((sI).slice (Rect.unit (s := S16x128) ![14, 0] S1x128.size inb_S16x128_S1x128_14_0) (fun _ => rfl)).squeeze S128 squeezes_S1x128_S128
abbrev offs15 : Memref sig .scVector .vmem S128 .i32 := ((sI).slice (Rect.unit (s := S16x128) ![15, 0] S1x128.size inb_S16x128_S1x128_15_0) (fun _ => rfl)).squeeze S128 squeezes_S1x128_S128
abbrev out0 (L : grid0.Coords) : Memref sig .scVector .hbm S128x128 .f32 := (oV).slice (Rect.unit (s := S65536x128) (k0_off2 L 0#32) S128x128.size (k0_off2_inb L 0)) (fun _ => rfl)
abbrev out1 (L : grid0.Coords) : Memref sig .scVector .hbm S128x128 .f32 := (oV).slice (Rect.unit (s := S65536x128) (k0_off2 L 128#32) S128x128.size (k0_off2_inb L 1)) (fun _ => rfl)
abbrev out2 (L : grid0.Coords) : Memref sig .scVector .hbm S128x128 .f32 := (oV).slice (Rect.unit (s := S65536x128) (k0_off2 L 256#32) S128x128.size (k0_off2_inb L 2)) (fun _ => rfl)
abbrev out3 (L : grid0.Coords) : Memref sig .scVector .hbm S128x128 .f32 := (oV).slice (Rect.unit (s := S65536x128) (k0_off2 L 384#32) S128x128.size (k0_off2_inb L 3)) (fun _ => rfl)
abbrev out4 (L : grid0.Coords) : Memref sig .scVector .hbm S128x128 .f32 := (oV).slice (Rect.unit (s := S65536x128) (k0_off2 L 512#32) S128x128.size (k0_off2_inb L 4)) (fun _ => rfl)
abbrev out5 (L : grid0.Coords) : Memref sig .scVector .hbm S128x128 .f32 := (oV).slice (Rect.unit (s := S65536x128) (k0_off2 L 640#32) S128x128.size (k0_off2_inb L 5)) (fun _ => rfl)
abbrev out6 (L : grid0.Coords) : Memref sig .scVector .hbm S128x128 .f32 := (oV).slice (Rect.unit (s := S65536x128) (k0_off2 L 768#32) S128x128.size (k0_off2_inb L 6)) (fun _ => rfl)
abbrev out7 (L : grid0.Coords) : Memref sig .scVector .hbm S128x128 .f32 := (oV).slice (Rect.unit (s := S65536x128) (k0_off2 L 896#32) S128x128.size (k0_off2_inb L 7)) (fun _ => rfl)
abbrev out8 (L : grid0.Coords) : Memref sig .scVector .hbm S128x128 .f32 := (oV).slice (Rect.unit (s := S65536x128) (k0_off2 L 1024#32) S128x128.size (k0_off2_inb L 8)) (fun _ => rfl)
abbrev out9 (L : grid0.Coords) : Memref sig .scVector .hbm S128x128 .f32 := (oV).slice (Rect.unit (s := S65536x128) (k0_off2 L 1152#32) S128x128.size (k0_off2_inb L 9)) (fun _ => rfl)
abbrev out10 (L : grid0.Coords) : Memref sig .scVector .hbm S128x128 .f32 := (oV).slice (Rect.unit (s := S65536x128) (k0_off2 L 1280#32) S128x128.size (k0_off2_inb L 10)) (fun _ => rfl)
abbrev out11 (L : grid0.Coords) : Memref sig .scVector .hbm S128x128 .f32 := (oV).slice (Rect.unit (s := S65536x128) (k0_off2 L 1408#32) S128x128.size (k0_off2_inb L 11)) (fun _ => rfl)
abbrev out12 (L : grid0.Coords) : Memref sig .scVector .hbm S128x128 .f32 := (oV).slice (Rect.unit (s := S65536x128) (k0_off2 L 1536#32) S128x128.size (k0_off2_inb L 12)) (fun _ => rfl)
abbrev out13 (L : grid0.Coords) : Memref sig .scVector .hbm S128x128 .f32 := (oV).slice (Rect.unit (s := S65536x128) (k0_off2 L 1664#32) S128x128.size (k0_off2_inb L 13)) (fun _ => rfl)
abbrev out14 (L : grid0.Coords) : Memref sig .scVector .hbm S128x128 .f32 := (oV).slice (Rect.unit (s := S65536x128) (k0_off2 L 1792#32) S128x128.size (k0_off2_inb L 14)) (fun _ => rfl)
abbrev out15 (L : grid0.Coords) : Memref sig .scVector .hbm S128x128 .f32 := (oV).slice (Rect.unit (s := S65536x128) (k0_off2 L 1920#32) S128x128.size (k0_off2_inb L 15)) (fun _ => rfl)

/-- The grid point of a tile: SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The reshaped index array, the embedding table and the gathered rows, as locations of device `d`. -/
abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

/-- The thread of the tile at grid point `L` on device `d`. -/
abbrev thr (d : Dev nD) (L : grid0.Coords) : Thread nD τ := V d (cV L) (jV L)

end Cert.KernelIdeal.Sc
end
-- ==== Proof.ScSplit.lean ====
/-
  The three arrays of the gather, split among the 32 tiles and joined back, as one equation.

  The tile at grid point (c, s) is worker w = 2 s + c. Of the index array [512, 128] it owns rows [16 w, 16 w + 16);
  of the result [65536, 128] it owns sixteen chunks, chunk r being rows [2048 w + 128 r, 2048 w + 128 r + 128); of the
  table it only reads, twice at once, so it holds two read shares of the whole table.
  Sets. A row R of the index array lies in exactly one tile's rows, worker R / 16, that is c = (R / 16) % 2 and
  s = R / 32; a row R of the result lies in exactly one chunk of one tile, chunk (R / 128) % 16 of the worker R / 2048.
  So the tiles' index rows are pairwise disjoint and cover the array, and so are the 512 chunks of the result.
  Shares. A share is its two halves; halving the full share once (by c), four more times (by s, the 16 leaves of
  four halvings, the highest binary digit of s choosing first) and once more (by the slot) gives 64 shares that
  compose to the full share.
-/
import proofs.«207697_g22892175687689_cont_8to1_1704_9_alg».proof.Proof.ScDefs

noncomputable section

namespace Cert.KernelIdeal.Sc

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

local notation "iV" => (Memref.whole Cert.KernelIdeal.main_v0_scv : Memref Cert.KernelIdeal.sig Kind.scVector Space.hbm Cert.KernelIdeal.S512x128 EltTy.i32)
local notation "tV" => (Memref.whole Cert.KernelIdeal.main_arg1_scv : Memref Cert.KernelIdeal.sig Kind.scVector Space.hbm Cert.KernelIdeal.S30522x128 EltTy.f32)
local notation "oV" => (Memref.whole Cert.KernelIdeal.main_v1_scv : Memref Cert.KernelIdeal.sig Kind.scVector Space.hbm Cert.KernelIdeal.S65536x128 EltTy.f32)
local notation "sI" => (Memref.whole Cert.KernelIdeal.cc0_scratch0 : Memref Cert.KernelIdeal.sig Kind.scVector Space.vmem Cert.KernelIdeal.S16x128 EltTy.i32)
local notation "sR" => (Memref.whole Cert.KernelIdeal.cc0_scratch1 : Memref Cert.KernelIdeal.sig Kind.scVector Space.vmem Cert.KernelIdeal.S2x128x128 EltTy.f32)

/-! ## A share halved k times: 2^k leaves that compose to it -/

section Shares
variable {ℓ : Loc nD τ sig} {I : Finset (Idx ℓ)} {f : Buf (Elt F) ℓ}

/-- Leaf n (n < 2^k) of the share q halved k times: the highest binary digit of n chooses the half first. -/
def leaf : (k : ℕ) → PosShare TreeShare → ℕ → PosShare TreeShare
  | 0, q, _ => q
  | k + 1, q, n => if n < 2 ^ k then leaf k q.left n else leaf k q.right (n - 2 ^ k)

/-- A points-to at a share is the points-tos at its two halves. -/
theorem pointsTo_halves (q : PosShare TreeShare) :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

/-- A points-to at a share is the points-tos at the 2^k leaves of the share halved k times. -/
theorem pointsTo_leaves (k : ℕ) : ∀ (q : PosShare TreeShare),
    (ℓ ↦[I]{q} f : sProp 𝕄) = bigSep (Finset.range (2 ^ k)) fun n => ℓ ↦[I]{leaf k q n} f := by
  induction k with
  | zero => intro q; rw [pow_zero, Finset.range_one, bigSep_singleton]; rfl
  | succ k ih =>
    intro q
    rw [pointsTo_halves q, ih q.left, ih q.right, pow_succ, Nat.mul_two, Finset.range_add_eq_union,
      bigSep_union (Finset.disjoint_range_addLeftEmbedding _ _), bigSep_map]
    refine congrArg₂ BI.sep (bigSep_congr fun n hn => ?_) (bigSep_congr fun n hn => ?_)
    · have e : leaf (k + 1) q n = leaf k q.left n := by
        show (if n < 2 ^ k then leaf k q.left n else leaf k q.right (n - 2 ^ k)) = _
        rw [if_pos (Finset.mem_range.mp hn)]
      rw [e]
    · have e : leaf (k + 1) q (2 ^ k + n) = leaf k q.right n := by
        show (if 2 ^ k + n < 2 ^ k then leaf k q.left (2 ^ k + n) else leaf k q.right (2 ^ k + n - 2 ^ k)) = _
        rw [if_neg (by omega), Nat.add_sub_cancel_left]
      show _ = (ℓ ↦[I]{leaf (k + 1) q (2 ^ k + n)} f)
      rw [e]

/-- The same over the sixteen leaves of four halvings, indexed by Fin 16. -/
theorem pointsTo_leaves16 (q : PosShare TreeShare) :
    (ℓ ↦[I]{q} f : sProp 𝕄) = bigSep Finset.univ fun i : Fin 16 => ℓ ↦[I]{leaf 4 q i.val} f := by
  rw [pointsTo_leaves 4 q]
  rw [show bigSep Finset.univ (fun i : Fin 16 => (ℓ ↦[I]{leaf 4 q i.val} f : sProp 𝕄))
      = bigSep (Finset.range 16) (fun n => ℓ ↦[I]{leaf 4 q n} f)
    by rw [← Nat.Iio_eq_range, ← Fin.map_valEmbedding_univ, bigSep_map]; rfl]
  rfl

/-- A separating conjunction over sixteen indices, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide]
  repeat rw [bigSep_insert (by decide)]
  rw [bigSep_singleton]
  rfl

end Shares

/-! ## The tiles' sets: index rows and result chunks -/

section Sets

/-- The rows of the index array tile L owns: 16 rows from row 32 s + 16 c. -/
abbrev idxRect (L : grid0.Coords) : Rect S512x128 :=
  Rect.unit (s := S512x128) (k0_off1 L) S16x128.size (k0_off1_inb L)

/-- Chunk r of the result rows tile L owns: 128 rows from row 4096 s + 2048 c + 128 r. -/
abbrev chunkRect (L : grid0.Coords) (r : Fin 16) : Rect S65536x128 :=
  Rect.unit (s := S65536x128) (k0_off2 L (BitVec.ofNat 32 (128 * r.val))) S128x128.size (k0_off2_inb L r)

theorem set_idxSl (L : grid0.Coords) : (idxSl L).view.set = (idxRect L).set := by
  show ((View.whole (main_v0_scv : Ref sig .scVector)).slice (idxRect L)).set = _
  rw [View.set_slice]; exact Finset.map_refl

/-- The whole-table slice is every index of the table. -/
theorem set_tAll : (tAll).view.set = Finset.univ := by
  show ((View.whole (main_arg1_scv : Ref sig .scVector)).slice
      (Rect.unit (s := S30522x128) ![0, 0] S30522x128.size inb_S30522x128_S30522x128_0_0)).set = _
  rw [View.set_slice, Finset.map_refl]
  refine Finset.eq_univ_iff_forall.mpr fun (j : S30522x128.Idx) => Rect.mem_set_unit.mpr ?_
  show ∀ a : Fin 2, (![0, 0] : Fin 2 → ℕ) a ≤ (j a).val ∧ (j a).val < (![0, 0] : Fin 2 → ℕ) a + (![30522, 128] : Fin 2 → ℕ) a
  rw [Fin.forall_fin_two]
  have h0 : (j 0).val < 30522 := (j 0).isLt
  have h1 : (j 1).val < 128 := (j 1).isLt
  show (0 ≤ (j 0).val ∧ (j 0).val < 0 + 30522) ∧ (0 ≤ (j 1).val ∧ (j 1).val < 0 + 128)
  omega

theorem set_out0 (L : grid0.Coords) : (out0 L).view.set = (chunkRect L 0).set := by
  show ((View.whole (main_v1_scv : Ref sig .scVector)).slice (chunkRect L 0)).set = _
  rw [View.set_slice]; exact Finset.map_refl
theorem set_out1 (L : grid0.Coords) : (out1 L).view.set = (chunkRect L 1).set := by
  show ((View.whole (main_v1_scv : Ref sig .scVector)).slice (chunkRect L 1)).set = _
  rw [View.set_slice]; exact Finset.map_refl
theorem set_out2 (L : grid0.Coords) : (out2 L).view.set = (chunkRect L 2).set := by
  show ((View.whole (main_v1_scv : Ref sig .scVector)).slice (chunkRect L 2)).set = _
  rw [View.set_slice]; exact Finset.map_refl
theorem set_out3 (L : grid0.Coords) : (out3 L).view.set = (chunkRect L 3).set := by
  show ((View.whole (main_v1_scv : Ref sig .scVector)).slice (chunkRect L 3)).set = _
  rw [View.set_slice]; exact Finset.map_refl
theorem set_out4 (L : grid0.Coords) : (out4 L).view.set = (chunkRect L 4).set := by
  show ((View.whole (main_v1_scv : Ref sig .scVector)).slice (chunkRect L 4)).set = _
  rw [View.set_slice]; exact Finset.map_refl
theorem set_out5 (L : grid0.Coords) : (out5 L).view.set = (chunkRect L 5).set := by
  show ((View.whole (main_v1_scv : Ref sig .scVector)).slice (chunkRect L 5)).set = _
  rw [View.set_slice]; exact Finset.map_refl
theorem set_out6 (L : grid0.Coords) : (out6 L).view.set = (chunkRect L 6).set := by
  show ((View.whole (main_v1_scv : Ref sig .scVector)).slice (chunkRect L 6)).set = _
  rw [View.set_slice]; exact Finset.map_refl
theorem set_out7 (L : grid0.Coords) : (out7 L).view.set = (chunkRect L 7).set := by
  show ((View.whole (main_v1_scv : Ref sig .scVector)).slice (chunkRect L 7)).set = _
  rw [View.set_slice]; exact Finset.map_refl
theorem set_out8 (L : grid0.Coords) : (out8 L).view.set = (chunkRect L 8).set := by
  show ((View.whole (main_v1_scv : Ref sig .scVector)).slice (chunkRect L 8)).set = _
  rw [View.set_slice]; exact Finset.map_refl
theorem set_out9 (L : grid0.Coords) : (out9 L).view.set = (chunkRect L 9).set := by
  show ((View.whole (main_v1_scv : Ref sig .scVector)).slice (chunkRect L 9)).set = _
  rw [View.set_slice]; exact Finset.map_refl
theorem set_out10 (L : grid0.Coords) : (out10 L).view.set = (chunkRect L 10).set := by
  show ((View.whole (main_v1_scv : Ref sig .scVector)).slice (chunkRect L 10)).set = _
  rw [View.set_slice]; exact Finset.map_refl
theorem set_out11 (L : grid0.Coords) : (out11 L).view.set = (chunkRect L 11).set := by
  show ((View.whole (main_v1_scv : Ref sig .scVector)).slice (chunkRect L 11)).set = _
  rw [View.set_slice]; exact Finset.map_refl
theorem set_out12 (L : grid0.Coords) : (out12 L).view.set = (chunkRect L 12).set := by
  show ((View.whole (main_v1_scv : Ref sig .scVector)).slice (chunkRect L 12)).set = _
  rw [View.set_slice]; exact Finset.map_refl
theorem set_out13 (L : grid0.Coords) : (out13 L).view.set = (chunkRect L 13).set := by
  show ((View.whole (main_v1_scv : Ref sig .scVector)).slice (chunkRect L 13)).set = _
  rw [View.set_slice]; exact Finset.map_refl
theorem set_out14 (L : grid0.Coords) : (out14 L).view.set = (chunkRect L 14).set := by
  show ((View.whole (main_v1_scv : Ref sig .scVector)).slice (chunkRect L 14)).set = _
  rw [View.set_slice]; exact Finset.map_refl
theorem set_out15 (L : grid0.Coords) : (out15 L).view.set = (chunkRect L 15).set := by
  show ((View.whole (main_v1_scv : Ref sig .scVector)).slice (chunkRect L 15)).set = _
  rw [View.set_slice]; exact Finset.map_refl

/-- An index lies in tile L's index rows when its row does. -/
theorem mem_idxRect (L : grid0.Coords) (j : S512x128.Idx) :
    j ∈ (idxRect L).set
      ↔ 32 * (L 1).val + 16 * (L 0).val ≤ (j 0).val ∧ (j 0).val < 32 * (L 1).val + 16 * (L 0).val + 16 := by
  rw [Rect.mem_set_unit, k0_off1_eq, Fin.forall_fin_two]
  have h1 : (j 1).val < 128 := (j 1).isLt
  show (32 * (L 1).val + 16 * (L 0).val ≤ (j 0).val ∧ (j 0).val < 32 * (L 1).val + 16 * (L 0).val + 16)
      ∧ (0 ≤ (j 1).val ∧ (j 1).val < 0 + 128) ↔ _
  omega

/-- An index lies in chunk r of tile L when its row does. -/
theorem mem_chunkRect (L : grid0.Coords) (r : Fin 16) (j : S65536x128.Idx) :
    j ∈ (chunkRect L r).set
      ↔ 4096 * (L 1).val + 2048 * (L 0).val + 128 * r.val ≤ (j 0).val
        ∧ (j 0).val < 4096 * (L 1).val + 2048 * (L 0).val + 128 * r.val + 128 := by
  rw [Rect.mem_set_unit, k0_off2_eq, Fin.forall_fin_two]
  have h1 : (j 1).val < 128 := (j 1).isLt
  show (4096 * (L 1).val + 2048 * (L 0).val + 128 * r.val ≤ (j 0).val
        ∧ (j 0).val < 4096 * (L 1).val + 2048 * (L 0).val + 128 * r.val + 128)
      ∧ (0 ≤ (j 1).val ∧ (j 1).val < 0 + 128) ↔ _
  omega

end Sets

/-! ## The three arrays split into the tiles' holdings -/

section Split

/-- The left half of a share for index 0, the right half for any other. -/
def side : ℕ → PosShare TreeShare → PosShare TreeShare
  | 0, q => q.left
  | _ + 1, q => q.right

/-- The read share of the table that tile (c, i) holds for its gathers into slot b: the full share halved once by the
    SparseCore c, four times by the subcore i, once by the slot b. The 64 shares are a partition of the full share. -/
def tShare (c : Fin (grid0.bound 0)) (i : Fin (grid0.bound 1)) (b : Fin 2) : PosShare TreeShare :=
  side b.val (leaf 4 (side c.val fullShare) i.val)

/-- What tile (c, i) holds of the index array (contents f), the table (t) and the result (o). -/
def tilePts (d : Dev nD) (c : Fin (grid0.bound 0)) (i : Fin (grid0.bound 1)) (f : Buf (Elt F) (iLoc d))
    (t : Buf (Elt F) (tLoc d)) (o : Buf (Elt F) (oLoc d)) : sProp 𝕄 :=
  iprop((iLoc d ↦[(idxSl (coordsV c i)).view.set]{fullShare} f)
    ∗ (tLoc d ↦[(tAll).view.set]{tShare c i 0} t) ∗ (tLoc d ↦[(tAll).view.set]{tShare c i 1} t)
    ∗ (oLoc d ↦[(out0 (coordsV c i)).view.set]{fullShare} o) ∗ (oLoc d ↦[(out1 (coordsV c i)).view.set]{fullShare} o) ∗ (oLoc d ↦[(out2 (coordsV c i)).view.set]{fullShare} o) ∗ (oLoc d ↦[(out3 (coordsV c i)).view.set]{fullShare} o) ∗ (oLoc d ↦[(out4 (coordsV c i)).view.set]{fullShare} o) ∗ (oLoc d ↦[(out5 (coordsV c i)).view.set]{fullShare} o) ∗ (oLoc d ↦[(out6 (coordsV c i)).view.set]{fullShare} o) ∗ (oLoc d ↦[(out7 (coordsV c i)).view.set]{fullShare} o) ∗ (oLoc d ↦[(out8 (coordsV c i)).view.set]{fullShare} o) ∗ (oLoc d ↦[(out9 (coordsV c i)).view.set]{fullShare} o) ∗ (oLoc d ↦[(out10 (coordsV c i)).view.set]{fullShare} o) ∗ (oLoc d ↦[(out11 (coordsV c i)).view.set]{fullShare} o) ∗ (oLoc d ↦[(out12 (coordsV c i)).view.set]{fullShare} o) ∗ (oLoc d ↦[(out13 (coordsV c i)).view.set]{fullShare} o) ∗ (oLoc d ↦[(out14 (coordsV c i)).view.set]{fullShare} o) ∗ (oLoc d ↦[(out15 (coordsV c i)).view.set]{fullShare} o))

/-- The two table shares of a tile. -/
def tPair (d : Dev nD) (c : Fin (grid0.bound 0)) (i : Fin (grid0.bound 1)) (t : Buf (Elt F) (tLoc d)) : sProp 𝕄 :=
  iprop((tLoc d ↦[(tAll).view.set]{tShare c i 0} t) ∗ (tLoc d ↦[(tAll).view.set]{tShare c i 1} t))

/-- The sixteen result chunks of a tile. -/
def oChunks (d : Dev nD) (c : Fin (grid0.bound 0)) (i : Fin (grid0.bound 1)) (o : Buf (Elt F) (oLoc d)) : sProp 𝕄 :=
  iprop((oLoc d ↦[(out0 (coordsV c i)).view.set]{fullShare} o) ∗ (oLoc d ↦[(out1 (coordsV c i)).view.set]{fullShare} o) ∗ (oLoc d ↦[(out2 (coordsV c i)).view.set]{fullShare} o) ∗ (oLoc d ↦[(out3 (coordsV c i)).view.set]{fullShare} o) ∗ (oLoc d ↦[(out4 (coordsV c i)).view.set]{fullShare} o) ∗ (oLoc d ↦[(out5 (coordsV c i)).view.set]{fullShare} o) ∗ (oLoc d ↦[(out6 (coordsV c i)).view.set]{fullShare} o) ∗ (oLoc d ↦[(out7 (coordsV c i)).view.set]{fullShare} o) ∗ (oLoc d ↦[(out8 (coordsV c i)).view.set]{fullShare} o) ∗ (oLoc d ↦[(out9 (coordsV c i)).view.set]{fullShare} o) ∗ (oLoc d ↦[(out10 (coordsV c i)).view.set]{fullShare} o) ∗ (oLoc d ↦[(out11 (coordsV c i)).view.set]{fullShare} o) ∗ (oLoc d ↦[(out12 (coordsV c i)).view.set]{fullShare} o) ∗ (oLoc d ↦[(out13 (coordsV c i)).view.set]{fullShare} o) ∗ (oLoc d ↦[(out14 (coordsV c i)).view.set]{fullShare} o) ∗ (oLoc d ↦[(out15 (coordsV c i)).view.set]{fullShare} o))

theorem tilePts_eq (d : Dev nD) (c : Fin (grid0.bound 0)) (i : Fin (grid0.bound 1)) (f : Buf (Elt F) (iLoc d))
    (t : Buf (Elt F) (tLoc d)) (o : Buf (Elt F) (oLoc d)) :
    tilePts d c i f t o
      = iprop((iLoc d ↦[(idxSl (coordsV c i)).view.set]{fullShare} f) ∗ tPair d c i t ∗ oChunks d c i o) := by
  unfold tilePts tPair oChunks
  exact congrArg (BI.sep _) (BI.equiv_iff.mp ⟨Idealize.SL.BI.sep_assoc', Idealize.SL.BI.sep_assoc⟩)

/-- The index array: every row belongs to exactly one tile. -/
theorem iPts_tiles (d : Dev nD) (f : Buf (Elt F) (iLoc d)) :
    (iLoc d ↦{fullShare} f : sProp 𝕄)
      = bigSep Finset.univ fun c : Fin (grid0.bound 0) => bigSep Finset.univ fun i : Fin (grid0.bound 1) =>
          iLoc d ↦[(idxSl (coordsV c i)).view.set]{fullShare} f := by
  have hdisj : ∀ p ∈ (Finset.univ : Finset (Fin (grid0.bound 0) × Fin (grid0.bound 1))), ∀ p' ∈ (Finset.univ : Finset (Fin (grid0.bound 0) × Fin (grid0.bound 1))),
      p ≠ p' → Disjoint (idxRect (coordsV p.1 p.2)).set (idxRect (coordsV p'.1 p'.2)).set := by
    intro p _ p' _ hne
    refine Finset.disjoint_left.mpr fun j h1 h2 => hne ?_
    have h1' : 32 * p.2.val + 16 * p.1.val ≤ (j 0).val ∧ (j 0).val < 32 * p.2.val + 16 * p.1.val + 16 := (mem_idxRect _ j).mp h1
    have h2' : 32 * p'.2.val + 16 * p'.1.val ≤ (j 0).val ∧ (j 0).val < 32 * p'.2.val + 16 * p'.1.val + 16 := (mem_idxRect _ j).mp h2
    have hc : p.1.val < 2 := p.1.isLt
    have hc' : p'.1.val < 2 := p'.1.isLt
    refine Prod.ext (Fin.ext ?_) (Fin.ext ?_) <;> omega
  have hcov : (Finset.univ : Finset (Fin (grid0.bound 0) × Fin (grid0.bound 1))).biUnion (fun p => (idxRect (coordsV p.1 p.2)).set) = Finset.univ := by
    refine Finset.eq_univ_iff_forall.mpr fun j => Finset.mem_biUnion.mpr ?_
    have hr : (j 0).val < 512 := (j 0).isLt
    refine ⟨((⟨(j 0).val / 16 % 2, by show _ < 2; omega⟩ : Fin (grid0.bound 0)), (⟨(j 0).val / 32, by show _ < 16; omega⟩ : Fin (grid0.bound 1))),
      Finset.mem_univ _, (mem_idxRect _ j).mpr ?_⟩
    show 32 * ((j 0).val / 32) + 16 * ((j 0).val / 16 % 2) ≤ (j 0).val
      ∧ (j 0).val < 32 * ((j 0).val / 32) + 16 * ((j 0).val / 16 % 2) + 16
    omega
  rw [← hcov, pointsTo_biUnion Finset.univ (ℓ := iLoc d) (fun p : Fin (grid0.bound 0) × Fin (grid0.bound 1) => (idxRect (coordsV p.1 p.2)).set) hdisj,
    bigSep_univ_prod]
  exact bigSep_congr fun c _ => bigSep_congr fun i _ => by rw [set_idxSl]

/-- The table: the full share is the 64 read shares. -/
theorem tPts_tiles (d : Dev nD) (t : Buf (Elt F) (tLoc d)) :
    (tLoc d ↦{fullShare} t : sProp 𝕄)
      = bigSep Finset.univ fun c : Fin (grid0.bound 0) => bigSep Finset.univ fun i : Fin (grid0.bound 1) => tPair d c i t := by
  have hi : ∀ c : Fin (grid0.bound 0),
      (bigSep Finset.univ fun i : Fin (grid0.bound 1) => tPair d c i t) = (tLoc d ↦{side c.val fullShare} t : sProp 𝕄) := by
    intro c
    rw [pointsTo_leaves16 (side c.val fullShare)]
    refine bigSep_congr fun i _ => ?_
    unfold tPair
    rw [set_tAll]
    exact (pointsTo_halves (leaf 4 (side c.val fullShare) i.val)).symm
  rw [bigSep_congr fun c _ => hi c, pointsTo_halves fullShare]
  exact (bigSep_univ_two (fun c : Fin 2 => (tLoc d ↦{side c.val fullShare} t : sProp 𝕄))).symm

/-- The result: every row belongs to exactly one chunk of one tile. -/
theorem oPts_tiles (d : Dev nD) (o : Buf (Elt F) (oLoc d)) :
    (oLoc d ↦{fullShare} o : sProp 𝕄)
      = bigSep Finset.univ fun c : Fin (grid0.bound 0) => bigSep Finset.univ fun i : Fin (grid0.bound 1) => oChunks d c i o := by
  have hdisj : ∀ p ∈ (Finset.univ : Finset (Fin (grid0.bound 0) × Fin (grid0.bound 1) × Fin 16)), ∀ p' ∈ (Finset.univ : Finset (Fin (grid0.bound 0) × Fin (grid0.bound 1) × Fin 16)),
      p ≠ p' → Disjoint (chunkRect (coordsV p.1 p.2.1) p.2.2).set (chunkRect (coordsV p'.1 p'.2.1) p'.2.2).set := by
    intro p _ p' _ hne
    refine Finset.disjoint_left.mpr fun j h1 h2 => hne ?_
    have h1' : 4096 * p.2.1.val + 2048 * p.1.val + 128 * p.2.2.val ≤ (j 0).val
        ∧ (j 0).val < 4096 * p.2.1.val + 2048 * p.1.val + 128 * p.2.2.val + 128 := (mem_chunkRect _ _ j).mp h1
    have h2' : 4096 * p'.2.1.val + 2048 * p'.1.val + 128 * p'.2.2.val ≤ (j 0).val
        ∧ (j 0).val < 4096 * p'.2.1.val + 2048 * p'.1.val + 128 * p'.2.2.val + 128 := (mem_chunkRect _ _ j).mp h2
    have hc : p.1.val < 2 := p.1.isLt
    have hc' : p'.1.val < 2 := p'.1.isLt
    have hr : p.2.2.val < 16 := p.2.2.isLt
    have hr' : p'.2.2.val < 16 := p'.2.2.isLt
    refine Prod.ext (Fin.ext ?_) (Prod.ext (Fin.ext ?_) (Fin.ext ?_)) <;> omega
  have hcov : (Finset.univ : Finset (Fin (grid0.bound 0) × Fin (grid0.bound 1) × Fin 16)).biUnion
      (fun p => (chunkRect (coordsV p.1 p.2.1) p.2.2).set) = Finset.univ := by
    refine Finset.eq_univ_iff_forall.mpr fun j => Finset.mem_biUnion.mpr ?_
    have hr : (j 0).val < 65536 := (j 0).isLt
    refine ⟨((⟨(j 0).val / 2048 % 2, by show _ < 2; omega⟩ : Fin (grid0.bound 0)),
        (⟨(j 0).val / 4096, by show _ < 16; omega⟩ : Fin (grid0.bound 1)), (⟨(j 0).val / 128 % 16, by omega⟩ : Fin 16)),
      Finset.mem_univ _, (mem_chunkRect _ _ j).mpr ?_⟩
    show 4096 * ((j 0).val / 4096) + 2048 * ((j 0).val / 2048 % 2) + 128 * ((j 0).val / 128 % 16) ≤ (j 0).val
      ∧ (j 0).val < 4096 * ((j 0).val / 4096) + 2048 * ((j 0).val / 2048 % 2) + 128 * ((j 0).val / 128 % 16) + 128
    omega
  rw [← hcov, pointsTo_biUnion Finset.univ (ℓ := oLoc d)
    (fun p : Fin (grid0.bound 0) × Fin (grid0.bound 1) × Fin 16 => (chunkRect (coordsV p.1 p.2.1) p.2.2).set) hdisj, bigSep_univ_prod]
  refine bigSep_congr fun c _ => ?_
  rw [bigSep_univ_prod]
  refine bigSep_congr fun i _ => ?_
  unfold oChunks
  rw [bigSep_fin16, set_out0, set_out1, set_out2, set_out3, set_out4, set_out5, set_out6, set_out7, set_out8, set_out9, set_out10, set_out11, set_out12, set_out13, set_out14, set_out15]

/-- The three whole arrays are the 32 tiles' holdings. -/
theorem split_call (d : Dev nD) (f : Buf (Elt F) (iLoc d)) (t : Buf (Elt F) (tLoc d)) (o : Buf (Elt F) (oLoc d)) :
    (iprop((iLoc d ↦{fullShare} f) ∗ (tLoc d ↦{fullShare} t) ∗ (oLoc d ↦{fullShare} o)) : sProp 𝕄)
      = bigSep Finset.univ fun c : Fin (grid0.bound 0) => bigSep Finset.univ fun i : Fin (grid0.bound 1) => tilePts d c i f t o := by
  have inner : ∀ c : Fin (grid0.bound 0),
      (bigSep Finset.univ fun i : Fin (grid0.bound 1) => tilePts d c i f t o)
        = iprop((bigSep Finset.univ fun i : Fin (grid0.bound 1) => iLoc d ↦[(idxSl (coordsV c i)).view.set]{fullShare} f)
            ∗ (bigSep Finset.univ fun i : Fin (grid0.bound 1) => tPair d c i t)
            ∗ (bigSep Finset.univ fun i : Fin (grid0.bound 1) => oChunks d c i o)) := by
    intro c
    rw [bigSep_congr fun i _ => tilePts_eq d c i f t o, bigSep_sep', bigSep_sep']
  rw [bigSep_congr fun c _ => inner c, bigSep_sep', bigSep_sep', ← iPts_tiles, ← tPts_tiles, ← oPts_tiles]

end Split

end Cert.KernelIdeal.Sc

end
-- ==== Proof.ScScoped.lean ====
/-
  A tile's scoped storage, opened and closed. Between regions a tile thread holds every buffer of its own whole at
  some contents and every semaphore of its own at zero. Its own buffers are the index scratch, the row scratch and
  the rest; the row scratch [2, 128, 128] is the disjoint union of its two 128-row slots (rows [0, 1) and [1, 2) of
  the leading axis), so holding it whole is holding each slot at exactly its own elements, and two slots held at
  different contents join to the whole at the contents that agree with each on its slot. Its own semaphores are the
  nineteen DMA semaphores the tile's program names and the rest.
-/
import proofs.«207697_g22892175687689_cont_8to1_1704_9_alg».proof.Proof.ScDefs

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "sI" => (Memref.whole Cert.KernelIdeal.cc0_scratch0 : Memref Cert.KernelIdeal.sig Kind.scVector Space.vmem Cert.KernelIdeal.S16x128 EltTy.i32)
local notation "sR" => (Memref.whole Cert.KernelIdeal.cc0_scratch1 : Memref Cert.KernelIdeal.sig Kind.scVector Space.vmem Cert.KernelIdeal.S2x128x128 EltTy.f32)

/-! ## The semaphores -/

/-- The nineteen DMA semaphores the tile's program names. -/
abbrev sems19 : Finset (DmaSem sig) :=
  insert cc0_scratch2.sem (insert cc0_scratch3.sem (insert cc0_scoped0.sem (insert cc0_scoped1.sem (insert cc0_scoped2.sem (insert cc0_scoped3.sem (insert cc0_scoped4.sem (insert cc0_scoped5.sem (insert cc0_scoped6.sem (insert cc0_scoped7.sem (insert cc0_scoped8.sem (insert cc0_scoped9.sem (insert cc0_scoped10.sem (insert cc0_scoped11.sem (insert cc0_scoped12.sem (insert cc0_scoped13.sem (insert cc0_scoped14.sem (insert cc0_scoped15.sem ({cc0_scoped16.sem}))))))))))))))))))

/-- A DMA semaphore as a cell of a thread. -/
def cellEmb (t : Thread nD τ) : DmaSem sig ↪ GSem nD τ sig :=
  ⟨fun k => (t, SemLoc.dma k), fun a b e => SemLoc.dma.inj (Prod.mk.inj e).2⟩

/-- Every DMA semaphore of a vector subcore is scoped. -/
theorem dma_scoped : ∀ k : DmaSem sig, (SemLoc.dma k : SemLoc sig).isScoped .scVector = true := by decide

/-- The nineteen are among the thread's own cells. -/
theorem sems19_sub (d : Dev nD) (L : grid0.Coords) : sems19.map (cellEmb (thr d L)) ⊆ ownCells (thr d L) := by
  intro g hg
  obtain ⟨k, -, rfl⟩ := Finset.mem_map.mp hg
  exact mem_ownCells.mpr ⟨rfl, dma_scoped k⟩

/-- The tile's remaining scoped semaphores at zero. -/
def restSems (d : Dev nD) (L : grid0.Coords) : sProp 𝕄 :=
  bigSep (ownCells (thr d L) \ sems19.map (cellEmb (thr d L))) fun g => semVal g 0

/-- A thread's semaphores at zero: the nineteen, each at zero, and the rest. -/
theorem sems_eq (d : Dev nD) (L : grid0.Coords) :
    (scopedSems0 (thr d L) : sProp 𝕄)
      = iprop(semVal (thr d L, SemLoc.dma cc0_scratch2.sem) 0
      ∗ semVal (thr d L, SemLoc.dma cc0_scratch3.sem) 0
      ∗ semVal (thr d L, SemLoc.dma cc0_scoped0.sem) 0
      ∗ semVal (thr d L, SemLoc.dma cc0_scoped1.sem) 0
      ∗ semVal (thr d L, SemLoc.dma cc0_scoped2.sem) 0
      ∗ semVal (thr d L, SemLoc.dma cc0_scoped3.sem) 0
      ∗ semVal (thr d L, SemLoc.dma cc0_scoped4.sem) 0
      ∗ semVal (thr d L, SemLoc.dma cc0_scoped5.sem) 0
      ∗ semVal (thr d L, SemLoc.dma cc0_scoped6.sem) 0
      ∗ semVal (thr d L, SemLoc.dma cc0_scoped7.sem) 0
      ∗ semVal (thr d L, SemLoc.dma cc0_scoped8.sem) 0
      ∗ semVal (thr d L, SemLoc.dma cc0_scoped9.sem) 0
      ∗ semVal (thr d L, SemLoc.dma cc0_scoped10.sem) 0
      ∗ semVal (thr d L, SemLoc.dma cc0_scoped11.sem) 0
      ∗ semVal (thr d L, SemLoc.dma cc0_scoped12.sem) 0
      ∗ semVal (thr d L, SemLoc.dma cc0_scoped13.sem) 0
      ∗ semVal (thr d L, SemLoc.dma cc0_scoped14.sem) 0
      ∗ semVal (thr d L, SemLoc.dma cc0_scoped15.sem) 0
      ∗ semVal (thr d L, SemLoc.dma cc0_scoped16.sem) 0
      ∗ restSems d L) := by
  rw [SparseCore.Cfg.scopedSems0_V]
  unfold SparseCore.Cfg.ownSems0 restSems
  rw [SparseCore.bigSep_sdiff_split' (sems19_sub d L), BI.bigSep_map]
  have e : (bigSep sems19 fun k => (semVal (cellEmb (thr d L) k) 0 : sProp 𝕄))
      = iprop(semVal (cellEmb (thr d L) cc0_scratch2.sem) 0
      ∗ semVal (cellEmb (thr d L) cc0_scratch3.sem) 0
      ∗ semVal (cellEmb (thr d L) cc0_scoped0.sem) 0
      ∗ semVal (cellEmb (thr d L) cc0_scoped1.sem) 0
      ∗ semVal (cellEmb (thr d L) cc0_scoped2.sem) 0
      ∗ semVal (cellEmb (thr d L) cc0_scoped3.sem) 0
      ∗ semVal (cellEmb (thr d L) cc0_scoped4.sem) 0
      ∗ semVal (cellEmb (thr d L) cc0_scoped5.sem) 0
      ∗ semVal (cellEmb (thr d L) cc0_scoped6.sem) 0
      ∗ semVal (cellEmb (thr d L) cc0_scoped7.sem) 0
      ∗ semVal (cellEmb (thr d L) cc0_scoped8.sem) 0
      ∗ semVal (cellEmb (thr d L) cc0_scoped9.sem) 0
      ∗ semVal (cellEmb (thr d L) cc0_scoped10.sem) 0
      ∗ semVal (cellEmb (thr d L) cc0_scoped11.sem) 0
      ∗ semVal (cellEmb (thr d L) cc0_scoped12.sem) 0
      ∗ semVal (cellEmb (thr d L) cc0_scoped13.sem) 0
      ∗ semVal (cellEmb (thr d L) cc0_scoped14.sem) 0
      ∗ semVal (cellEmb (thr d L) cc0_scoped15.sem) 0
      ∗ semVal (cellEmb (thr d L) cc0_scoped16.sem) 0) := by
    rw [SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', BI.bigSep_singleton]
    all_goals decide
  rw [e]
  have hassoc : ∀ P Q R : sProp 𝕄, iprop((P ∗ Q) ∗ R) = iprop(P ∗ Q ∗ R) :=
    fun P Q R => BI.equiv_iff.mp ⟨BI.sep_assoc, BI.sep_assoc'⟩
  simp only [hassoc]
  rfl

/-! ## The buffers -/

/-- The tile's own buffers other than the two scratch arrays, each whole at some contents. -/
def restBufs (d : Dev nD) (L : grid0.Coords) : sProp 𝕄 :=
  bigSep (((ownRefs (τ := τ) (.scVector (cV L) (jV L))).erase ((Proc.scVector (cV L) (jV L)).devRef cc0_scratch0)).erase
      ((Proc.scVector (cV L) (jV L)).devRef cc0_scratch1))
    fun b => iprop(∃ f, ((d, b) : Loc nD τ sig) ↦{fullShare} f)

/-- A thread's buffers whole at some contents: the index scratch, the row scratch, and the rest. -/
theorem bufs_eq (hF : (K (F := F)).Facts) (d : Dev nD) (L : grid0.Coords) :
    (scopedBufs (thr d L) : sProp 𝕄)
      = iprop((∃ f, (thr d L).loc cc0_scratch0 ↦{fullShare} f) ∗ (∃ f, (thr d L).loc cc0_scratch1 ↦{fullShare} f)
          ∗ restBufs d L) := by
  rw [(K (F := F)).scopedBufs_V hF]
  unfold SparseCore.Cfg.ownBufs restBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e)
      (show (cc0_scratch1 : Ref sig .scVector) ≠ cc0_scratch0 by decide),
    SparseCore.Cfg.mem_ownRefs_of_owner (p := Proc.scVector (cV L) (jV L))
      (b := (Proc.scVector (cV L) (jV L)).devRef cc0_scratch1) rfl⟩)]

/-! ## The two slots of the row scratch -/

/-- Slot 0 is rows [0, 1) of the leading axis, -/
theorem set_slot0 : (slot0).view.set = (Rect.unit (s := S2x128x128) ![0, 0, 0] S1x128x128.size inb_S2x128x128_S1x128x128_0_0_0).set := by
  show (((sR).view.slice (Rect.unit (s := S2x128x128) ![0, 0, 0] S1x128x128.size inb_S2x128x128_S1x128x128_0_0_0)).reshape S128x128 squeezes_S1x128x128_S128x128.numel_eq).set = _
  rw [View.set_reshape]
  exact View.set_slice_whole _ _
/-- slot 1 rows [1, 2). -/
theorem set_slot1 : (slot1).view.set = (Rect.unit (s := S2x128x128) ![1, 0, 0] S1x128x128.size inb_S2x128x128_S1x128x128_1_0_0).set := by
  show (((sR).view.slice (Rect.unit (s := S2x128x128) ![1, 0, 0] S1x128x128.size inb_S2x128x128_S1x128x128_1_0_0)).reshape S128x128 squeezes_S1x128x128_S128x128.numel_eq).set = _
  rw [View.set_reshape]
  exact View.set_slice_whole _ _

/-- The two are disjoint -/
theorem slots_disjoint : Disjoint (Rect.unit (s := S2x128x128) ![0, 0, 0] S1x128x128.size inb_S2x128x128_S1x128x128_0_0_0).set (Rect.unit (s := S2x128x128) ![1, 0, 0] S1x128x128.size inb_S2x128x128_S1x128x128_1_0_0).set :=
  Rect.unit_disjoint 0 (Or.inl (by decide))

/-- and cover the scratch: the leading coordinate is 0 or 1. -/
theorem slots_cover : (Rect.unit (s := S2x128x128) ![0, 0, 0] S1x128x128.size inb_S2x128x128_S1x128x128_0_0_0).set ∪ (Rect.unit (s := S2x128x128) ![1, 0, 0] S1x128x128.size inb_S2x128x128_S1x128x128_1_0_0).set = Finset.univ := by
  ext i
  simp only [Finset.mem_union, Rect.mem_set_unit, Finset.mem_univ, iff_true]
  have h0 : (i 0).val < 2 := (i 0).isLt
  have h1 : (i 1).val < 128 := (i 1).isLt
  have h2 : (i 2).val < 128 := (i 2).isLt
  by_cases hc : (i 0).val = 0
  · refine Or.inl fun a => ?_
    match a with
    | ⟨0, _⟩ => exact ⟨Nat.zero_le _, by show (i 0).val < 0 + 1; omega⟩
    | ⟨1, _⟩ => exact ⟨Nat.zero_le _, by show (i 1).val < 0 + 128; omega⟩
    | ⟨2, _⟩ => exact ⟨Nat.zero_le _, by show (i 2).val < 0 + 128; omega⟩
  · refine Or.inr fun a => ?_
    match a with
    | ⟨0, _⟩ => exact ⟨by show 1 ≤ (i 0).val; omega, by show (i 0).val < 1 + 1; omega⟩
    | ⟨1, _⟩ => exact ⟨Nat.zero_le _, by show (i 1).val < 0 + 128; omega⟩
    | ⟨2, _⟩ => exact ⟨Nat.zero_le _, by show (i 2).val < 0 + 128; omega⟩

/-- The row scratch whole at some contents is its two slots, each at exactly its own elements, at those contents. -/
theorem rows_open (d : Dev nD) (L : grid0.Coords) :
    (iprop(∃ f, (thr d L).loc cc0_scratch1 ↦{fullShare} f) : sProp 𝕄)
      ⊢ iprop(∃ fsR, ((slot0).view.loc (thr d L) ↦[(slot0).view.set]{fullShare} fsR)
          ∗ ((slot1).view.loc (thr d L) ↦[(slot1).view.set]{fullShare} fsR)) := by
  rw [set_slot0, set_slot1]
  iintro ⟨%f, H⟩
  iexists f
  have hu : ((thr d L).loc cc0_scratch1 ↦[(Rect.unit (s := S2x128x128) ![0, 0, 0] S1x128x128.size inb_S2x128x128_S1x128x128_0_0_0).set ∪ (Rect.unit (s := S2x128x128) ![1, 0, 0] S1x128x128.size inb_S2x128x128_S1x128x128_1_0_0).set]{fullShare} f : sProp 𝕄)
      ⊣⊢ iprop(((thr d L).loc cc0_scratch1 ↦[(Rect.unit (s := S2x128x128) ![0, 0, 0] S1x128x128.size inb_S2x128x128_S1x128x128_0_0_0).set]{fullShare} f)
        ∗ (thr d L).loc cc0_scratch1 ↦[(Rect.unit (s := S2x128x128) ![1, 0, 0] S1x128x128.size inb_S2x128x128_S1x128x128_1_0_0).set]{fullShare} f) := pointsTo_union slots_disjoint
  rw [slots_cover] at hu
  iapply hu.1
  iexact H

/-- The two slots held at their own contents join to the row scratch whole, at the contents that agree with each on
    its slot. -/
theorem rows_close (d : Dev nD) (L : grid0.Coords) :
    (iprop((∃ f0, (slot0).view.loc (thr d L) ↦[(slot0).view.set]{fullShare} f0)
        ∗ (∃ f1, (slot1).view.loc (thr d L) ↦[(slot1).view.set]{fullShare} f1)) : sProp 𝕄)
      ⊢ iprop(∃ f, (thr d L).loc cc0_scratch1 ↦{fullShare} f) := by
  rw [set_slot0, set_slot1]
  iintro ⟨⟨%f0, H0⟩, ⟨%f1, H1⟩⟩
  have hj : (iprop(((thr d L).loc cc0_scratch1 ↦[(Rect.unit (s := S2x128x128) ![0, 0, 0] S1x128x128.size inb_S2x128x128_S1x128x128_0_0_0).set]{fullShare} f0)
        ∗ (thr d L).loc cc0_scratch1 ↦[(Rect.unit (s := S2x128x128) ![1, 0, 0] S1x128x128.size inb_S2x128x128_S1x128x128_1_0_0).set]{fullShare} f1) : sProp 𝕄)
      ⊢ (thr d L).loc cc0_scratch1 ↦[(Rect.unit (s := S2x128x128) ![0, 0, 0] S1x128x128.size inb_S2x128x128_S1x128x128_0_0_0).set ∪ (Rect.unit (s := S2x128x128) ![1, 0, 0] S1x128x128.size inb_S2x128x128_S1x128x128_1_0_0).set]{fullShare} ((Rect.unit (s := S2x128x128) ![1, 0, 0] S1x128x128.size inb_S2x128x128_S1x128x128_1_0_0).set.piecewise f1 f0) :=
    pointsTo_join slots_disjoint
  rw [slots_cover] at hj
  iexists ((Rect.unit (s := S2x128x128) ![1, 0, 0] S1x128x128.size inb_S2x128x128_S1x128x128_1_0_0).set.piecewise f1 f0)
  iapply hj
  isplitl [H0]
  · iexact H0
  · iexact H1

/-! ## Opening and closing -/

/-- A tile's scoped storage opened: the index scratch whole, the row scratch as its two slots at common contents, the
    other buffers, the nineteen semaphores at zero, the other semaphores. -/
theorem scoped_open (hF : (K (F := F)).Facts) (d : Dev nD) (L : grid0.Coords) :
    (iprop(scopedBufs (thr d L) ∗ scopedSems0 (thr d L)) : sProp 𝕄) ⊢ iprop(
      (∃ fsI, (sI).view.loc (thr d L) ↦{fullShare} fsI)
      ∗ (∃ fsR, ((slot0).view.loc (thr d L) ↦[(slot0).view.set]{fullShare} fsR)
          ∗ ((slot1).view.loc (thr d L) ↦[(slot1).view.set]{fullShare} fsR))
      ∗ restBufs d L
      ∗ semVal (thr d L, SemLoc.dma cc0_scratch2.sem) 0
      ∗ semVal (thr d L, SemLoc.dma cc0_scratch3.sem) 0
      ∗ semVal (thr d L, SemLoc.dma cc0_scoped0.sem) 0
      ∗ semVal (thr d L, SemLoc.dma cc0_scoped1.sem) 0
      ∗ semVal (thr d L, SemLoc.dma cc0_scoped2.sem) 0
      ∗ semVal (thr d L, SemLoc.dma cc0_scoped3.sem) 0
      ∗ semVal (thr d L, SemLoc.dma cc0_scoped4.sem) 0
      ∗ semVal (thr d L, SemLoc.dma cc0_scoped5.sem) 0
      ∗ semVal (thr d L, SemLoc.dma cc0_scoped6.sem) 0
      ∗ semVal (thr d L, SemLoc.dma cc0_scoped7.sem) 0
      ∗ semVal (thr d L, SemLoc.dma cc0_scoped8.sem) 0
      ∗ semVal (thr d L, SemLoc.dma cc0_scoped9.sem) 0
      ∗ semVal (thr d L, SemLoc.dma cc0_scoped10.sem) 0
      ∗ semVal (thr d L, SemLoc.dma cc0_scoped11.sem) 0
      ∗ semVal (thr d L, SemLoc.dma cc0_scoped12.sem) 0
      ∗ semVal (thr d L, SemLoc.dma cc0_scoped13.sem) 0
      ∗ semVal (thr d L, SemLoc.dma cc0_scoped14.sem) 0
      ∗ semVal (thr d L, SemLoc.dma cc0_scoped15.sem) 0
      ∗ semVal (thr d L, SemLoc.dma cc0_scoped16.sem) 0
      ∗ restSems d L) := by
  rw [bufs_eq hF, sems_eq]
  iintro ⟨⟨HI, HR, HB⟩, HS⟩
  isplitl [HI]
  · iexact HI
  isplitl [HR]
  · iapply (rows_open d L)
    iexact HR
  isplitl [HB]
  · iexact HB
  iexact HS

/-- And closed again, the two slots at whatever contents each holds. -/
theorem scoped_close (hF : (K (F := F)).Facts) (d : Dev nD) (L : grid0.Coords) :
    (iprop((∃ fsI, (sI).view.loc (thr d L) ↦{fullShare} fsI)
      ∗ (∃ f0, (slot0).view.loc (thr d L) ↦[(slot0).view.set]{fullShare} f0)
      ∗ (∃ f1, (slot1).view.loc (thr d L) ↦[(slot1).view.set]{fullShare} f1)
      ∗ restBufs d L
      ∗ semVal (thr d L, SemLoc.dma cc0_scratch2.sem) 0
      ∗ semVal (thr d L, SemLoc.dma cc0_scratch3.sem) 0
      ∗ semVal (thr d L, SemLoc.dma cc0_scoped0.sem) 0
      ∗ semVal (thr d L, SemLoc.dma cc0_scoped1.sem) 0
      ∗ semVal (thr d L, SemLoc.dma cc0_scoped2.sem) 0
      ∗ semVal (thr d L, SemLoc.dma cc0_scoped3.sem) 0
      ∗ semVal (thr d L, SemLoc.dma cc0_scoped4.sem) 0
      ∗ semVal (thr d L, SemLoc.dma cc0_scoped5.sem) 0
      ∗ semVal (thr d L, SemLoc.dma cc0_scoped6.sem) 0
      ∗ semVal (thr d L, SemLoc.dma cc0_scoped7.sem) 0
      ∗ semVal (thr d L, SemLoc.dma cc0_scoped8.sem) 0
      ∗ semVal (thr d L, SemLoc.dma cc0_scoped9.sem) 0
      ∗ semVal (thr d L, SemLoc.dma cc0_scoped10.sem) 0
      ∗ semVal (thr d L, SemLoc.dma cc0_scoped11.sem) 0
      ∗ semVal (thr d L, SemLoc.dma cc0_scoped12.sem) 0
      ∗ semVal (thr d L, SemLoc.dma cc0_scoped13.sem) 0
      ∗ semVal (thr d L, SemLoc.dma cc0_scoped14.sem) 0
      ∗ semVal (thr d L, SemLoc.dma cc0_scoped15.sem) 0
      ∗ semVal (thr d L, SemLoc.dma cc0_scoped16.sem) 0
      ∗ restSems d L) : sProp 𝕄) ⊢ iprop(scopedBufs (thr d L) ∗ scopedSems0 (thr d L)) := by
  rw [bufs_eq hF, sems_eq]
  iintro ⟨HI, H0, H1, HB, HS⟩
  isplitr [HS]
  · isplitl [HI]
    · iexact HI
    isplitr [HB]
    · iapply (rows_close d L)
      isplitl [H0]
      · iexact H0
      · iexact H1
    · iexact HB
  · iexact HS

end Cert.KernelIdeal.Sc

end
-- ==== Proof.Spec.lean ====
/-
  The function both programs compute, index by index, over the extended reals.

  One token's row first. For a row `xr` of 128 numbers, a 128 x 480 matrix `w`, and three vectors of 480 numbers
  (`bias`, `gam`, `bet`):
    h(k)  = (sum over e of xr(e) * w(e,k)) + bias(k)          (the projection to 480 channels)
    mu    = (sum over k of h(k)) / 480                        (the mean over the channels)
    d(k)  = h(k) - mu
    var   = (sum over k of d(k)^2) / 480                      (the variance over the channels)
  and the layer normalisation of h over its 480 channels, written in two ways that agree wherever var + eps is a
  positive real:
    lnK(k) = d(k) * rsqrt(var + eps) * gam(k) + bet(k)        (a product with the reciprocal square root)
    lnR(k) = d(k) / sqrt(var + eps) * gam(k) + bet(k)         (a quotient by the square root)
  The whole result: for a batch row `b` and a position `s`, the row is
    x(b,s,e) = word_emb[ids[b,s], e] + pos_emb[s, e]
  and the result at (b, s, k) is the layer normalisation of that row at channel k.
  The two float literals, 480 and eps, are kept as the words the programs print: the same word on both sides is
  never evaluated here.
-/
import Idealize.ShloMosaic.PureOps.Ideal
import Idealize.ShloMosaic.Lib.ValueIdx

noncomputable section

namespace Cert.Spec

open Idealize.ShloMosaic Idealize.ShloMosaic.ValueIdx
open scoped BigOperators

/-- The table row an index word names. Under the precondition every word is below 30522 and the remainder is the
    word's own value; the remainder only makes the function total. -/
def rowOf (w : BitVec 32) : Fin 30522 := ⟨w.toNat % 30522, Nat.mod_lt _ (by norm_num)⟩

theorem rowOf_val_of_lt {w : BitVec 32} (h : w.toNat < 30522) : (rowOf w).val = w.toNat := Nat.mod_eq_of_lt h

/-- The divisor of both means: the word of 480.0. -/
def c480 : EReal := Ideal.ofBits .f32 0x43F00000#32
/-- The variance's guard: the word of the single-precision number nearest 1e-9. -/
def ceps : EReal := Ideal.ofBits .f32 0x3089705F#32

/-! ## One token's row -/

section Row
variable (xr : Fin 128 → EReal) (w : Fin 128 → Fin 480 → EReal) (bias gam bet : Fin 480 → EReal)

/-- The projection of the row to channel `k`, plus the bias. -/
def hRow (k : Fin 480) : EReal := (∑ e : Fin 128, xr e * w e k) + bias k

/-- The mean of the 480 channels. -/
def muRow : EReal := Ideal.div (∑ k : Fin 480, hRow xr w bias k) c480

/-- A channel's deviation from the mean. -/
def dRow (k : Fin 480) : EReal := hRow xr w bias k - muRow xr w bias

/-- The variance of the 480 channels. -/
def varRow : EReal := Ideal.div (∑ k : Fin 480, dRow xr w bias k * dRow xr w bias k) c480

/-- The normalised channel, as a product with the reciprocal square root. -/
def lnK (k : Fin 480) : EReal :=
  dRow xr w bias k * Ideal.rsqrt (varRow xr w bias + ceps) * gam k + bet k

/-- The normalised channel, as a quotient by the square root. -/
def lnR (k : Fin 480) : EReal :=
  Ideal.div (dRow xr w bias k) (Ideal.sqrt (varRow xr w bias + ceps)) * gam k + bet k

end Row

/-! ## The whole arrays -/

section Arrays
variable (ids : (⟨2, ![128, 512]⟩ : Shape).Idx → BitVec 32)
  (we : (⟨2, ![30522, 128]⟩ : Shape).Idx → EReal) (pe : (⟨2, ![519, 128]⟩ : Shape).Idx → EReal)
  (w : (⟨2, ![128, 480]⟩ : Shape).Idx → EReal) (bias gam bet : (⟨1, ![480]⟩ : Shape).Idx → EReal)

/-- The embedded token: the word's table row plus the position's row. -/
def x (b : Fin 128) (s : Fin 512) : Fin 128 → EReal := fun e =>
  we (ix2 (rowOf (ids (ix2 b s))) e) + pe (ix2 (⟨s.val, by omega⟩ : Fin 519) e)

/-- The whole result array, in the product form. -/
def GK : (⟨3, ![128, 512, 480]⟩ : Shape).Idx → EReal := fun j =>
  lnK (x ids we pe (j 0) (j 1)) (fun e k => w (ix2 e k)) (fun k => bias (ix1 k)) (fun k => gam (ix1 k)) (fun k => bet (ix1 k)) (j 2)

/-- The whole result array, in the quotient form. -/
def GR : (⟨3, ![128, 512, 480]⟩ : Shape).Idx → EReal := fun j =>
  lnR (x ids we pe (j 0) (j 1)) (fun e k => w (ix2 e k)) (fun k => bias (ix1 k)) (fun k => gam (ix1 k)) (fun k => bet (ix1 k)) (j 2)

end Arrays

end Cert.Spec

end
-- ==== Proof.KernelValue.lean ====
/-
  The kernel program's result as one pure term of its seven argument arrays, over the extended reals, and the proof
  that this term is the specification's product form.

  The program reshapes the [128,512] index words to [512,128], gathers one table row per word (65536 rows, in
  row-major order of the words), cuts the first 512 position rows, transposes the projection matrix to [480,128],
  makes columns [480,1] of the bias, the scale and the shift, computes the layer normalisation with the channel axis
  before the position axis ([128,480,512]), and swaps those two axes at the end.

  Read at (b, s, k), the final transpose reads the computed array at (b, k, s). That entry is the layer normalisation,
  at channel k, of the row  gathered[512*b + s, :] + positions[s, :].  Gathered row 512*b + s is the table row named by
  word (R, r) of the reshaped index array with R = (512*b + s) / 128 and r = (512*b + s) % 128; a reshape keeps
  row-major positions, and 128*R + r = 512*b + s, so that word is word (b, s) of the index array. The cut from offset 0
  reads position row s; the transposed matrix at (k, e) is the matrix at (e, k); a column at (k, 0) is the vector
  at k. These are the specification's own arguments.
-/
import proofs.«207697_g22892175687689_cont_8to1_1704_9_alg».proof.KernelIdeal
import proofs.«207697_g22892175687689_cont_8to1_1704_9_alg».proof.Proof.Spec
import Idealize.ShloMosaic.Lib.ValueIdx
import Idealize.ShloMosaic.Lib.Pipeline.Value
import Idealize.ShloMosaic.Lib.ValueLayout

noncomputable section

namespace Cert.KernelIdeal.KVal

open Cert.KernelIdeal Idealize.ShloMosaic Idealize.ShloMosaic.ValueIdx
open Cert.KernelIdeal.Facts₀ Cert.KernelIdeal.Facts

variable [Cert.KernelIdeal.Facts]

/-- The gathered rows, generic in the float instance (rows are moved, never computed with): row t is the table's row
    named by word t, in row-major order, of the [512,128] index array. -/
def gath {F : FTy → Type} (v0 : IVec S512x128 32) (tab : S30522x128.Idx → Elt F .f32) : S65536x128.Idx → Elt F .f32 :=
  fun t => tab (ix2
    (Cert.Spec.rowOf (v0 (ix2
      (⟨(t 0).val / 128, by have h : (t 0).val < 65536 := (t 0).isLt; omega⟩ : Fin 512)
      (⟨(t 0).val % 128, by omega⟩ : Fin 128))))
    (⟨(t 1).val, (t 1).isLt⟩ : Fin 128))

/-- The layer-normalisation call's result from its six operand arrays: batch row j 0, channel j 1, position j 2. -/
def tcOut (v1 : FVec Ideal S65536x128 .f32) (v2 : FVec Ideal S512x128 .f32) (v3 : FVec Ideal S480x128 .f32)
    (v4 v5 v6 : FVec Ideal S480x1 .f32) : FVec Ideal S128x480x512 .f32 :=
  fun j => Cert.Spec.lnK
    (fun e => v1 (ix2 (⟨512 * (j 0).val + (j 2).val, by
        have h0 : (j 0).val < 128 := (j 0).isLt
        have h2 : (j 2).val < 512 := (j 2).isLt
        omega⟩ : Fin 65536) e) + v2 (ix2 (⟨(j 2).val, (j 2).isLt⟩ : Fin 512) e))
    (fun e k' => v3 (ix2 k' e)) (fun k' => v4 (ix2 k' 0)) (fun k' => v5 (ix2 k' 0)) (fun k' => v6 (ix2 k' 0))
    (⟨(j 1).val, (j 1).isLt⟩ : Fin 480)

/-- The program's result as one pure term of its seven arguments, the host operations spelt as the program prints them. -/
def kernOut (a0 : IVec S128x512 32) (a1 : FVec Ideal S30522x128 .f32) (a2 : FVec Ideal S519x128 .f32)
    (a3 : FVec Ideal S128x480 .f32) (a4 a5 a6 : FVec Ideal S480 .f32) : FVec Ideal S128x512x480 .f32 :=
  transpose S128x512x480 [0, 2, 1]
    (tcOut (gath (F := Ideal) (shapeCast S512x128 a0 shapeCasts_S128x512_S512x128) a1)
      (extractStridedSlice S512x128 ![0, 0] a2 slices_S519x128_S512x128_0_0)
      (transpose S480x128 [1, 0] a3 transposes_S128x480_S480x128_1_0)
      (shapeCast S480x1 a4 shapeCasts_S480_S480x1) (shapeCast S480x1 a5 shapeCasts_S480_S480x1)
      (shapeCast S480x1 a6 shapeCasts_S480_S480x1))
    transposes_S128x480x512_S128x512x480_0_2_1

/-! ## Each layout operation read at explicit coordinates -/

/-- The [128,512] words reshaped to [512,128]: word (R, r) is word (b, s) when 128*R + r = 512*b + s. -/
theorem reshape_ids_apply (a0 : IVec S128x512 32) (R : Fin 512) (r : Fin 128) (b : Fin 128) (s : Fin 512)
    (h : 128 * R.val + r.val = 512 * b.val + s.val) :
    shapeCast S512x128 a0 shapeCasts_S128x512_S512x128 (ix2 R r) = a0 (ix2 b s) :=
  shapeCast_apply a0 shapeCasts_S128x512_S512x128 (ix2 R r) (ix2 b s) (by
    rw [Shape.rowMajor_val_two, Shape.rowMajor_val_two]
    show b.val * 512 + s.val = R.val * 128 + r.val
    omega)

/-- A vector of 480 numbers reshaped to a column: the column at (k, 0) is the vector at k. -/
theorem reshape_col_apply {α : Type} (v : S480.Idx → α) (k : Fin 480) :
    shapeCast S480x1 v shapeCasts_S480_S480x1 (ix2 k (0 : Fin 1)) = v (ix1 k) :=
  shapeCast_apply v shapeCasts_S480_S480x1 (ix2 k (0 : Fin 1)) (ix1 k) (by
    rw [Shape.rowMajor_val_one, Shape.rowMajor_val_two]
    show k.val = k.val * 1 + 0
    omega)

/-- The first 512 position rows: row s of the cut is row s of the table. -/
theorem slice_pos_apply {α : Type} (a2 : S519x128.Idx → α) (s : Fin 512) (e : Fin 128) :
    extractStridedSlice S512x128 ![0, 0] a2 slices_S519x128_S512x128_0_0 (ix2 s e)
      = a2 (ix2 (⟨s.val, by omega⟩ : Fin 519) e) :=
  slice2_axis0_apply 0 a2 slices_S519x128_S512x128_0_0 s e _ (Nat.zero_add _).symm

/-- The projection matrix transposed: entry (k, e) is the matrix at (e, k). -/
theorem transpose_w_apply {α : Type} (a3 : S128x480.Idx → α) (k : Fin 480) (e : Fin 128) :
    transpose S480x128 [1, 0] a3 transposes_S128x480_S480x128_1_0 (ix2 k e) = a3 (ix2 e k) :=
  transpose_ix2_apply a3 transposes_S128x480_S480x128_1_0 k e

/-- A gathered row read at (t, e) with t = 512*b + s is the table row of word (b, s) at e. -/
theorem gath_apply {F : FTy → Type} (a0 : IVec S128x512 32) (tab : S30522x128.Idx → Elt F .f32)
    (b : Fin 128) (s : Fin 512) (e : Fin 128) (t : Fin 65536) (ht : t.val = 512 * b.val + s.val) :
    gath (F := F) (shapeCast S512x128 a0 shapeCasts_S128x512_S512x128) tab (ix2 t e)
      = tab (ix2 (Cert.Spec.rowOf (a0 (ix2 b s))) e) := by
  unfold gath
  have hw : shapeCast S512x128 a0 shapeCasts_S128x512_S512x128
      (ix2 (⟨t.val / 128, by have := t.isLt; omega⟩ : Fin 512) (⟨t.val % 128, by omega⟩ : Fin 128)) = a0 (ix2 b s) :=
    reshape_ids_apply a0 _ _ b s (by show 128 * (t.val / 128) + t.val % 128 = _; omega)
  exact congrArg (fun w => tab (ix2 (Cert.Spec.rowOf w) e)) hw

/-! ## The assembly -/

/-- The product form depends on its arguments only through their values. -/
theorem lnK_congr {xr xr' : Fin 128 → EReal} {w w' : Fin 128 → Fin 480 → EReal} {bias bias' gam gam' bet bet' : Fin 480 → EReal}
    {k k' : Fin 480} (h1 : xr = xr') (h2 : w = w') (h3 : bias = bias') (h4 : gam = gam') (h5 : bet = bet') (h6 : k = k') :
    Cert.Spec.lnK xr w bias gam bet k = Cert.Spec.lnK xr' w' bias' gam' bet' k' := by
  subst h1 h2 h3 h4 h5 h6; rfl

/-- The program's result is the specification's product form. -/
theorem kernOut_eq_GK (a0 : IVec S128x512 32) (a1 : FVec Ideal S30522x128 .f32) (a2 : FVec Ideal S519x128 .f32)
    (a3 : FVec Ideal S128x480 .f32) (a4 a5 a6 : FVec Ideal S480 .f32) :
    kernOut a0 a1 a2 a3 a4 a5 a6 = Cert.Spec.GK a0 a1 a2 a3 a4 a5 a6 := by
  funext j
  obtain ⟨b, s, k, rfl⟩ : ∃ (b : Fin 128) (s : Fin 512) (k : Fin 480), j = ix3 b s k := ⟨j 0, j 1, j 2, eq_ix3 j⟩
  unfold kernOut
  refine (transpose_ix3_021_apply _ transposes_S128x480x512_S128x512x480_0_2_1 b s k).trans ?_
  unfold tcOut Cert.Spec.GK
  refine lnK_congr (funext fun e => ?_) (funext fun e => funext fun k' => ?_) (funext fun k' => ?_)
    (funext fun k' => ?_) (funext fun k' => ?_) rfl
  · show gath (F := Ideal) (shapeCast S512x128 a0 shapeCasts_S128x512_S512x128) a1
        (ix2 (⟨512 * b.val + s.val, _⟩ : Fin 65536) e)
        + extractStridedSlice S512x128 ![0, 0] a2 slices_S519x128_S512x128_0_0 (ix2 (⟨s.val, _⟩ : Fin 512) e)
      = a1 (ix2 (Cert.Spec.rowOf (a0 (ix2 b s))) e) + a2 (ix2 (⟨s.val, _⟩ : Fin 519) e)
    exact congrArg₂ (fun p q : EReal => p + q)
      (gath_apply (F := Ideal) a0 a1 b s e (⟨512 * b.val + s.val, by have := b.isLt; have := s.isLt; omega⟩ : Fin 65536) rfl)
      (slice_pos_apply a2 (⟨s.val, s.isLt⟩ : Fin 512) e)
  · exact transpose_w_apply a3 k' e
  · exact reshape_col_apply a4 k'
  · exact reshape_col_apply a5 k'
  · exact reshape_col_apply a6 k'

end Cert.KernelIdeal.KVal

end
-- ==== Proof.ScValue.lean ====
/-
  The value of the SparseCore gather's tile body: what the tile at grid point L leaves in its 16 result chunks.

  The tile copies its 16 rows of the reshaped index array [512, 128] — rows 32 L₁ + 16 L₀ + j, j = 0 .. 15 — over its
  whole index scratch. For each j it gathers, into one of two slots, the 128 table rows named by the words of scratch
  row j, and copies the slot out to rows [4096 L₁ + 2048 L₀ + 128 j, + 128) of the result array [65536, 128].

  So element (r, c) of chunk j is the table at (word, c), where word is scratch row j's word r, that is the index
  array's word at (32 L₁ + 16 L₀ + j, r). The gathered array's row t = 4096 L₁ + 2048 L₀ + 128 j + r is by definition
  the table row named by the index array's word at (t / 128, t % 128), and t / 128 = 32 L₁ + 16 L₀ + j, t % 128 = r
  because r < 128. Every word is below 30522 by the precondition, so the row the remainder names is the word itself.

  The proof reads each layer at an index: a piece covering a whole shape, written last through a view, is what the
  view reads back (the result chunk from the slot, the slot from the gather); a rectangle of a whole buffer reads
  the buffer at the rectangle's placement (the table, the tile's index rows, an offset row of the scratch, whose
  128 words are counted by a rank-one shape); a copy over a whole buffer leaves what was copied.
-/
import proofs.«207697_g22892175687689_cont_8to1_1704_9_alg».proof.Proof.ScDefs
import proofs.«207697_g22892175687689_cont_8to1_1704_9_alg».proof.Proof.KernelValue

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S512x128 EltTy.i32)
local notation "tV" => (Memref.whole Cert.KernelIdeal.main_arg1_scv : Memref Cert.KernelIdeal.sig Kind.scVector Space.hbm Cert.KernelIdeal.S30522x128 EltTy.f32)
local notation "oV" => (Memref.whole Cert.KernelIdeal.main_v1_scv : Memref Cert.KernelIdeal.sig Kind.scVector Space.hbm Cert.KernelIdeal.S65536x128 EltTy.f32)
local notation "sI" => (Memref.whole Cert.KernelIdeal.cc0_scratch0 : Memref Cert.KernelIdeal.sig Kind.scVector Space.vmem Cert.KernelIdeal.S16x128 EltTy.i32)
local notation "sR" => (Memref.whole Cert.KernelIdeal.cc0_scratch1 : Memref Cert.KernelIdeal.sig Kind.scVector Space.vmem Cert.KernelIdeal.S2x128x128 EltTy.f32)

/-! ## Chunk j's slice and offset row, with j a variable -/

/-- Offset row `j` of the index scratch lies inside it. -/
theorem offsJ_inb (j : Fin 16) : ∀ a, (![j.val, 0] : Fin 2 → Nat) a + S1x128.size a ≤ S16x128.size a := by
  intro a
  match a with
  | ⟨0, _⟩ => show j.val + 1 ≤ 16; omega
  | ⟨1, _⟩ => show 0 + 128 ≤ 128; omega

/-- The tile's result chunk `j`: rows `[base + 128 j, base + 128 j + 128)` of the result array. -/
abbrev outJ (L : grid0.Coords) (j : Fin 16) : Memref sig .scVector .hbm S128x128 .f32 :=
  (oV).slice (Rect.unit (s := S65536x128) (k0_off2 L (BitVec.ofNat 32 (128 * j.val))) S128x128.size (k0_off2_inb L j)) (fun _ => rfl)

/-- Row `j` of the index scratch, as a list of 128 words. -/
abbrev offsJ (j : Fin 16) : Memref sig .scVector .vmem S128 .i32 :=
  ((sI).slice (Rect.unit (s := S16x128) ![j.val, 0] S1x128.size (offsJ_inb j)) (fun _ => rfl)).squeeze S128 squeezes_S1x128_S128

/-! ## At a literal `j` they are the program's own slices -/
theorem outJ_0 (L : grid0.Coords) : outJ L 0 = out0 L := rfl
theorem outJ_1 (L : grid0.Coords) : outJ L 1 = out1 L := rfl
theorem outJ_2 (L : grid0.Coords) : outJ L 2 = out2 L := rfl
theorem outJ_3 (L : grid0.Coords) : outJ L 3 = out3 L := rfl
theorem outJ_4 (L : grid0.Coords) : outJ L 4 = out4 L := rfl
theorem outJ_5 (L : grid0.Coords) : outJ L 5 = out5 L := rfl
theorem outJ_6 (L : grid0.Coords) : outJ L 6 = out6 L := rfl
theorem outJ_7 (L : grid0.Coords) : outJ L 7 = out7 L := rfl
theorem outJ_8 (L : grid0.Coords) : outJ L 8 = out8 L := rfl
theorem outJ_9 (L : grid0.Coords) : outJ L 9 = out9 L := rfl
theorem outJ_10 (L : grid0.Coords) : outJ L 10 = out10 L := rfl
theorem outJ_11 (L : grid0.Coords) : outJ L 11 = out11 L := rfl
theorem outJ_12 (L : grid0.Coords) : outJ L 12 = out12 L := rfl
theorem outJ_13 (L : grid0.Coords) : outJ L 13 = out13 L := rfl
theorem outJ_14 (L : grid0.Coords) : outJ L 14 = out14 L := rfl
theorem outJ_15 (L : grid0.Coords) : outJ L 15 = out15 L := rfl
theorem offsJ_0 : offsJ 0 = offs0 := rfl
theorem offsJ_1 : offsJ 1 = offs1 := rfl
theorem offsJ_2 : offsJ 2 = offs2 := rfl
theorem offsJ_3 : offsJ 3 = offs3 := rfl
theorem offsJ_4 : offsJ 4 = offs4 := rfl
theorem offsJ_5 : offsJ 5 = offs5 := rfl
theorem offsJ_6 : offsJ 6 = offs6 := rfl
theorem offsJ_7 : offsJ 7 = offs7 := rfl
theorem offsJ_8 : offsJ 8 = offs8 := rfl
theorem offsJ_9 : offsJ 9 = offs9 := rfl
theorem offsJ_10 : offsJ 10 = offs10 := rfl
theorem offsJ_11 : offsJ 11 = offs11 := rfl
theorem offsJ_12 : offsJ 12 = offs12 := rfl
theorem offsJ_13 : offsJ 13 = offs13 := rfl
theorem offsJ_14 : offsJ 14 = offs14 := rfl
theorem offsJ_15 : offsJ 15 = offs15 := rfl

/-! ## Reading through a view of a whole buffer -/

section General
variable {sig : RefSig} {κ : Kind} {sp : Space} {s : Shape} {e : EltTy} {Val : EltTy → Type}

/-- A piece covering the whole shape, written last through a view, is what the view then reads. -/
theorem read_writes_whole (v : View sig κ sp s e) (f : v.ty.Contents Val) (w : (Rect.whole s).shape.Idx → Val e)
    (L : List (View.Piece Val s e)) (z : (Rect.whole s).shape.Idx) :
    v.read Val (v.writes Val f (⟨Rect.whole s, w⟩ :: L)) z = w z := by
  have h := View.read_writes_cons_emb v f (Rect.whole s) w L z
  rwa [Rect.emb_whole_apply] at h

/-- A rectangle of a whole buffer reads the buffer's contents at the rectangle's placement. -/
theorem read_slice_whole (b : Ref sig κ) (R : Rect b.ty.shape) (f : b.ty.Contents Val) (u : R.shape.Idx) :
    ((View.whole b).slice R).read Val f u = f (R.emb u) := rfl

/-- So does such a rectangle counted by another shape, at the matched index. -/
theorem read_reshape_slice_whole (b : Ref sig κ) (R : Rect b.ty.shape) (s' : Shape) (h : s'.numel = R.shape.numel)
    (f : b.ty.Contents Val) (x : s'.Idx) :
    (((View.whole b).slice R).reshape s' h).read Val f x = f (R.emb (Shape.reshapeEquiv h x)) := rfl

end General

/-! ## The program's slices read at an index -/

/-- Offset row `j` of the index scratch reads, at word `x`, the scratch at `(j, x)`. -/
theorem read_offsJ (j : Fin 16) (g : BufTy.Contents (Elt F) (offsJ j).view.ty) (x : S128.Idx) :
    (offsJ j).view.read (Elt F) g x = g (ix2 j (⟨(x 0).val, (x 0).isLt⟩ : Fin 128)) := by
  refine (read_reshape_slice_whole (Val := Elt F) cc0_scratch0 (Rect.unit (s := S16x128) ![j.val, 0] S1x128.size (offsJ_inb j))
    S128 squeezes_S1x128_S128.numel_eq g x).trans ?_
  refine congrArg g ?_
  have hu : Shape.reshapeEquiv squeezes_S1x128_S128.numel_eq x
      = (ix2 (0 : Fin 1) (⟨(x 0).val, (x 0).isLt⟩ : Fin 128) : S1x128.Idx) :=
    Shape.reshapeEquiv_eq_of_rowMajor _ (by
      rw [Shape.rowMajor_val_two, Shape.rowMajor_val_one]
      show 0 * 128 + (x 0).val = (x 0).val
      omega)
  refine (congrArg (Rect.unit (s := S16x128) ![j.val, 0] S1x128.size (offsJ_inb j)).emb hu).trans ?_
  funext a
  apply Fin.ext
  match a with
  | ⟨0, _⟩ => show j.val + 1 * 0 = j.val; omega
  | ⟨1, _⟩ => show 0 + 1 * (x 0).val = (x 0).val; omega

/-- The tile's 16 index rows read, at `(r, c)`, the index array at row `32 L₁ + 16 L₀ + r`, column `c`. -/
theorem read_idxSl (L : grid0.Coords) (fi : BufTy.Contents (Elt F) (idxSl L).view.ty) (u : S16x128.Idx) (p : S512x128.Idx)
    (h0 : (p 0).val = 32 * (L 1).val + 16 * (L 0).val + (u 0).val) (h1 : (p 1).val = (u 1).val) :
    (idxSl L).view.read (Elt F) fi u = fi p := by
  refine (read_slice_whole (Val := Elt F) main_v0_scv (Rect.unit (s := S512x128) (k0_off1 L) S16x128.size (k0_off1_inb L)) fi u).trans ?_
  refine congrArg fi ?_
  funext a
  apply Fin.ext
  match a with
  | ⟨0, _⟩ =>
    show k0_off1 L 0 + 1 * (u 0).val = (p 0).val
    rw [k0_off1_eq, h0]; show 32 * (L 1).val + 16 * (L 0).val + 1 * (u 0).val = _; omega
  | ⟨1, _⟩ =>
    show k0_off1 L 1 + 1 * (u 1).val = (p 1).val
    rw [k0_off1_eq, h1]; show 0 + 1 * (u 1).val = _; omega

/-- The gathers' source is the whole table. -/
theorem read_tAll (ft : BufTy.Contents (Elt F) tAll.view.ty) (w : S30522x128.Idx) :
    tAll.view.read (Elt F) ft w = ft w := by
  refine (read_slice_whole (Val := Elt F) main_arg1_scv (Rect.unit (s := S30522x128) ![0, 0] S30522x128.size inb_S30522x128_S30522x128_0_0) ft w).trans ?_
  refine congrArg ft ?_
  funext a
  apply Fin.ext
  match a with
  | ⟨0, _⟩ => show 0 + 1 * (w 0).val = (w 0).val; omega
  | ⟨1, _⟩ => show 0 + 1 * (w 1).val = (w 1).val; omega

/-- Chunk `j`'s element `(r, c)` is the result array's row `4096 L₁ + 2048 L₀ + 128 j + r`, column `c`. -/
theorem emb_outJ (L : grid0.Coords) (j : Fin 16) (z : S128x128.Idx) :
    ((outJ L j).view.emb z (0 : Fin 2)).val = 4096 * (L 1).val + 2048 * (L 0).val + 128 * j.val + (z 0).val
      ∧ ((outJ L j).view.emb z (1 : Fin 2)).val = (z 1).val := by
  constructor
  · show k0_off2 L (BitVec.ofNat 32 (128 * j.val)) 0 + 1 * (z 0).val = _
    rw [k0_off2_eq]; show 4096 * (L 1).val + 2048 * (L 0).val + 128 * j.val + 1 * (z 0).val = _; omega
  · show k0_off2 L (BitVec.ofNat 32 (128 * j.val)) 1 + 1 * (z 1).val = _
    rw [k0_off2_eq]; show 0 + 1 * (z 1).val = _; omega

/-! ## The words the gathers read -/

/-- The index of a one-axis shape at a row-major position has that position as its coordinate. -/
theorem rowMajor_symm_S128_val (q : Fin S128.numel) : ((S128.rowMajor.symm q) 0).val = q.val := by
  have h := Shape.rowMajor_val_one (d := ![128]) (S128.rowMajor.symm q)
  rw [Equiv.apply_symm_apply] at h
  exact h.symm

/-- The row an offset list names for entry `k` is the list's word at row-major position `k`. -/
theorem rows_val {si : Shape} {o z : ℕ} (idx : si.Idx → Elt F .i32) (hn : si.numel = o) (h : ∀ x, (idx x).toNat < z) (k : Fin o) :
    (SparseCore.rows idx hn h k).val = (idx (si.rowMajor.symm (k.cast hn.symm))).toNat := rfl

/-- Word `x` of offset row `j`, after the tile's 16 index rows were copied over the whole index scratch (whatever it
    held), is the index array's word at row `32 L₁ + 16 L₀ + j`, column `x`. -/
theorem offsWord (L : grid0.Coords) (j : Fin 16) (fi : BufTy.Contents (Elt F) (idxSl L).view.ty)
    (fsI : BufTy.Contents (Elt F) (sI).view.ty) (x : S128.Idx) (p : S512x128.Idx)
    (h0 : (p 0).val = 32 * (L 1).val + 16 * (L 0).val + j.val) (h1 : (p 1).val = (x 0).val) :
    (offsJ j).view.read (Elt F)
        (View.write (Elt F) (sI).view fsI (ReadAs.same.apply (View.read (Elt F) (idxSl L).view fi)) Finset.univ) x
      = fi p := by
  have hw : View.write (Elt F) (sI).view fsI (ReadAs.same.apply (View.read (Elt F) (idxSl L).view fi)) Finset.univ
      = View.read (Elt F) (idxSl L).view fi :=
    View.write_whole_univ (Val := Elt F) cc0_scratch0 fsI _
  refine (congrArg (fun g => (offsJ j).view.read (Elt F) g x) hw).trans ?_
  refine (read_offsJ j _ x).trans ?_
  exact read_idxSl L fi _ p h0 h1

/-- Every index word the tile's gathers read names a table row, whatever the index scratch held before the copy. -/
theorem hinJ (d : Dev nD) (L : grid0.Coords) (j : Fin 16) (fi : Buf (Elt F) ((iV).view.loc (thr d L)))
    (hpre : ∀ y, (fi y).toNat < 30522) :
    ∀ (fsI : Buf (Elt F) ((sI).view.loc (thr d L))) (x : S128.Idx),
      ((offsJ j).view.read (Elt F) (View.write (Elt F) (sI).view fsI (ReadAs.same.apply (View.read (Elt F) (idxSl L).view fi)) Finset.univ) x).toNat
        < S30522x128.size gathers_S30522x128_S128x128.axis := by
  intro fsI x
  have hL1 : (L 1).val < 16 := (L 1).isLt
  have hL0 : (L 0).val < 2 := (L 0).isLt
  have hj : j.val < 16 := j.isLt
  have hx : (x 0).val < 128 := (x 0).isLt
  have e := offsWord (F := F) L j fi fsI x
    (ix2 (⟨32 * (L 1).val + 16 * (L 0).val + j.val, by omega⟩ : Fin 512) (⟨(x 0).val, hx⟩ : Fin 128)) rfl rfl
  rw [e]
  exact hpre _

/-! ## The value of a chunk -/

/-- THE VALUE. On chunk `j`'s own elements, what the run leaves there is the gathered array: the chunk was written
    whole from a slot, the slot last written whole by the gather of the table rows named by offset row `j`, and the
    chunk's row `r` is the gathered array's row `128 (32 L₁ + 16 L₀ + j) + r`, whose word is word `r` of that row. -/
theorem chunk_eq (d : Dev nD) (L : grid0.Coords) (j : Fin 16) (slot : Memref sig .scVector .vmem S128x128 .f32)
    (hslot : slot = slot0 ∨ slot = slot1)
    (fi : Buf (Elt F) ((iV).view.loc (thr d L))) (ft : Buf (Elt F) ((tV).view.loc (thr d L)))
    (fo : Buf (Elt F) ((oV).view.loc (thr d L))) (fsI : Buf (Elt F) ((sI).view.loc (thr d L)))
    (fsR : BufTy.Contents (Elt F) slot.view.ty) (older : List (View.Piece (Elt F) S128x128 .f32))
    (hpre : ∀ y, (fi y).toNat < 30522)
    (hn : S128.numel = S128x128.size gathers_S30522x128_S128x128.axis')
    (hin : ∀ x, ((offsJ j).view.read (Elt F) (View.write (Elt F) (sI).view fsI (ReadAs.same.apply (View.read (Elt F) (idxSl L).view fi)) Finset.univ) x).toNat
        < S30522x128.size gathers_S30522x128_S128x128.axis) :
    ∀ y ∈ (outJ L j).view.set,
      (outJ L j).view.writes (Elt F) fo [⟨Rect.whole S128x128, ReadAs.same.apply (View.read (Elt F) slot.view
        (slot.view.writes (Elt F) fsR (⟨Rect.whole S128x128, SparseCore.gatherPayload gathers_S30522x128_S128x128
          (View.read (Elt F) tAll.view ft)
          (SparseCore.rows (View.read (Elt F) (offsJ j).view (View.write (Elt F) (sI).view fsI
            (ReadAs.same.apply (View.read (Elt F) (idxSl L).view fi)) Finset.univ)) hn hin)⟩ :: older)))⟩] y
      = Cert.KernelIdeal.KVal.gath (F := F) fi ft y := by
  intro y hy
  obtain ⟨z, -, rfl⟩ := Finset.mem_map.mp hy
  have hL1 : (L 1).val < 16 := (L 1).isLt
  have hL0 : (L 0).val < 2 := (L 0).isLt
  have hj : j.val < 16 := j.isLt
  have hz0 : (z 0).val < 128 := (z 0).isLt
  have hz1 : (z 1).val < 128 := (z 1).isLt
  obtain ⟨he0, he1⟩ := emb_outJ L j z
  show (outJ L j).view.read (Elt F) ((outJ L j).view.writes (Elt F) fo [_]) z = _
  refine (read_writes_whole (outJ L j).view fo _ [] z).trans ?_
  refine (read_writes_whole slot.view fsR _ older z).trans ?_
  show tAll.view.read (Elt F) ft (gathers_S30522x128_S128x128.idx _ z) = _
  refine (read_tAll ft _).trans ?_
  unfold Cert.KernelIdeal.KVal.gath
  refine congrArg ft ?_
  funext a
  apply Fin.ext
  match a with
  | ⟨0, _⟩ =>
    refine (congrArg Fin.val (Shape.Gathers.idx_axis gathers_S30522x128_S128x128 _ z)).trans ?_
    refine Eq.trans ?_ (Cert.Spec.rowOf_val_of_lt (hpre _)).symm
    refine (rows_val _ hn hin _).trans ?_
    refine congrArg BitVec.toNat ?_
    refine offsWord L j fi fsI _ _ ?_ ?_
    · show ((outJ L j).view.emb z 0).val / 128 = 32 * (L 1).val + 16 * (L 0).val + j.val
      rw [he0]; omega
    · show ((outJ L j).view.emb z 0).val % 128 = ((S128.rowMajor.symm _) 0).val
      rw [rowMajor_symm_S128_val, he0]
      show _ = (z 0).val
      omega
  | ⟨1, _⟩ =>
    refine (Shape.Gathers.idx_of_ne gathers_S30522x128_S128x128 _ z ⟨1, by decide⟩ (by decide)).trans ?_
    exact he1.symm

/-- The same as an equation between what the tile holds of the chunk and the gathered array held there. -/
theorem chunk_pts (d : Dev nD) (L : grid0.Coords) (j : Fin 16) (slot : Memref sig .scVector .vmem S128x128 .f32)
    (hslot : slot = slot0 ∨ slot = slot1)
    (fi : Buf (Elt F) ((iV).view.loc (thr d L))) (ft : Buf (Elt F) ((tV).view.loc (thr d L)))
    (fo : Buf (Elt F) ((oV).view.loc (thr d L))) (fsI : Buf (Elt F) ((sI).view.loc (thr d L)))
    (fsR : BufTy.Contents (Elt F) slot.view.ty) (older : List (View.Piece (Elt F) S128x128 .f32))
    (hpre : ∀ y, (fi y).toNat < 30522)
    (hn : S128.numel = S128x128.size gathers_S30522x128_S128x128.axis')
    (hin : ∀ x, ((offsJ j).view.read (Elt F) (View.write (Elt F) (sI).view fsI (ReadAs.same.apply (View.read (Elt F) (idxSl L).view fi)) Finset.univ) x).toNat
        < S30522x128.size gathers_S30522x128_S128x128.axis) :
    ((outJ L j).view.loc (thr d L) ↦[(outJ L j).view.set]{fullShare}
        (outJ L j).view.writes (Elt F) fo [⟨Rect.whole S128x128, ReadAs.same.apply (View.read (Elt F) slot.view
        (slot.view.writes (Elt F) fsR (⟨Rect.whole S128x128, SparseCore.gatherPayload gathers_S30522x128_S128x128
          (View.read (Elt F) tAll.view ft)
          (SparseCore.rows (View.read (Elt F) (offsJ j).view (View.write (Elt F) (sI).view fsI
            (ReadAs.same.apply (View.read (Elt F) (idxSl L).view fi)) Finset.univ)) hn hin)⟩ :: older)))⟩] : sProp 𝕄)
      = (outJ L j).view.loc (thr d L) ↦[(outJ L j).view.set]{fullShare} Cert.KernelIdeal.KVal.gath (F := F) fi ft :=
  pointsTo_congr (chunk_eq d L j slot hslot fi ft fo fsI fsR older hpre hn hin)

end Cert.KernelIdeal.Sc

end
-- ==== Proof.ScTile.lean ====
/-
  One tile's run of the gather body.

  The tile holds: its 16 rows of the index array, two read shares of the embedding table, its 16 chunks of 128 rows
  of the result array, its index scratch, its two 128-row slots and its nineteen transfer semaphores at zero. The
  body copies the 16 index rows into the scratch; then, chunk by chunk, gathers the 128 table rows named by one
  scratch row into a slot (the next gather issued into the other slot before this one is waited for) and copies the
  slot out to the chunk. Each semaphore has at most one transfer outstanding, no buffer is touched while a transfer
  into or out of it is pending, and every index word names a table row, so the run goes through; at its end every
  chunk holds the gathered array's rows: row t of the gathered array is the table's row named by word t of the
  index array.
-/
import proofs.«207697_g22892175687689_cont_8to1_1704_9_alg».proof.Proof.ScDefs
import proofs.«207697_g22892175687689_cont_8to1_1704_9_alg».proof.Proof.ScValue
import proofs.«207697_g22892175687689_cont_8to1_1704_9_alg».proof.Proof.KernelValue

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S512x128 EltTy.i32)
local notation "tV" => (Memref.whole Cert.KernelIdeal.main_arg1_scv : Memref Cert.KernelIdeal.sig Kind.scVector Space.hbm Cert.KernelIdeal.S30522x128 EltTy.f32)
local notation "oV" => (Memref.whole Cert.KernelIdeal.main_v1_scv : Memref Cert.KernelIdeal.sig Kind.scVector Space.hbm Cert.KernelIdeal.S65536x128 EltTy.f32)
local notation "sI" => (Memref.whole Cert.KernelIdeal.cc0_scratch0 : Memref Cert.KernelIdeal.sig Kind.scVector Space.vmem Cert.KernelIdeal.S16x128 EltTy.i32)
local notation "sR" => (Memref.whole Cert.KernelIdeal.cc0_scratch1 : Memref Cert.KernelIdeal.sig Kind.scVector Space.vmem Cert.KernelIdeal.S2x128x128 EltTy.f32)

variable [FloatOps F] (d : Dev nD) (L : grid0.Coords)

set_option maxHeartbeats 4000000 in
/-- The body over the tile's holdings spelt out: the arrays' pieces, the scratches, the semaphores, what the tile owes. -/
theorem tile_run (O : CellTallies nD τ sig (HIx 1)) (W : Waits sig (HIx 1))
    (qi qa qb : PosShare TreeShare)
    (fi : Buf (Elt F) ((iV).view.loc (thr d L))) (ft : Buf (Elt F) ((tV).view.loc (thr d L))) (fo : Buf (Elt F) ((oV).view.loc (thr d L)))
    (fsI : Buf (Elt F) ((sI).view.loc (thr d L))) (fsR : Buf (Elt F) ((sR).view.loc (thr d L)))
    (hpre : ∀ y, (fi y).toNat < 30522) :
    (iprop(Transfers.MayWaits (thr d L) (none : HIx 1) O
        ∗ ((idxSl L).view.loc (thr d L) ↦[(idxSl L).view.set]{qi} fi)
        ∗ ((tAll).view.loc (thr d L) ↦[(tAll).view.set]{qa} ft) ∗ ((tAll).view.loc (thr d L) ↦[(tAll).view.set]{qb} ft)
        ∗ ((out0 L).view.loc (thr d L) ↦[(out0 L).view.set]{fullShare} fo)
        ∗ ((out1 L).view.loc (thr d L) ↦[(out1 L).view.set]{fullShare} fo)
        ∗ ((out2 L).view.loc (thr d L) ↦[(out2 L).view.set]{fullShare} fo)
        ∗ ((out3 L).view.loc (thr d L) ↦[(out3 L).view.set]{fullShare} fo)
        ∗ ((out4 L).view.loc (thr d L) ↦[(out4 L).view.set]{fullShare} fo)
        ∗ ((out5 L).view.loc (thr d L) ↦[(out5 L).view.set]{fullShare} fo)
        ∗ ((out6 L).view.loc (thr d L) ↦[(out6 L).view.set]{fullShare} fo)
        ∗ ((out7 L).view.loc (thr d L) ↦[(out7 L).view.set]{fullShare} fo)
        ∗ ((out8 L).view.loc (thr d L) ↦[(out8 L).view.set]{fullShare} fo)
        ∗ ((out9 L).view.loc (thr d L) ↦[(out9 L).view.set]{fullShare} fo)
        ∗ ((out10 L).view.loc (thr d L) ↦[(out10 L).view.set]{fullShare} fo)
        ∗ ((out11 L).view.loc (thr d L) ↦[(out11 L).view.set]{fullShare} fo)
        ∗ ((out12 L).view.loc (thr d L) ↦[(out12 L).view.set]{fullShare} fo)
        ∗ ((out13 L).view.loc (thr d L) ↦[(out13 L).view.set]{fullShare} fo)
        ∗ ((out14 L).view.loc (thr d L) ↦[(out14 L).view.set]{fullShare} fo)
        ∗ ((out15 L).view.loc (thr d L) ↦[(out15 L).view.set]{fullShare} fo)
        ∗ ((sI).view.loc (thr d L) ↦{fullShare} fsI)
        ∗ ((slot0).view.loc (thr d L) ↦[(slot0).view.set]{fullShare} fsR) ∗ ((slot1).view.loc (thr d L) ↦[(slot1).view.set]{fullShare} fsR)
        ∗ semVal (thr d L, SemLoc.dma cc0_scratch2.sem) 0
        ∗ semVal (thr d L, SemLoc.dma cc0_scratch3.sem) 0
        ∗ semVal (thr d L, SemLoc.dma cc0_scoped0.sem) 0
        ∗ semVal (thr d L, SemLoc.dma cc0_scoped1.sem) 0
        ∗ semVal (thr d L, SemLoc.dma cc0_scoped2.sem) 0
        ∗ semVal (thr d L, SemLoc.dma cc0_scoped3.sem) 0
        ∗ semVal (thr d L, SemLoc.dma cc0_scoped4.sem) 0
        ∗ semVal (thr d L, SemLoc.dma cc0_scoped5.sem) 0
        ∗ semVal (thr d L, SemLoc.dma cc0_scoped6.sem) 0
        ∗ semVal (thr d L, SemLoc.dma cc0_scoped7.sem) 0
        ∗ semVal (thr d L, SemLoc.dma cc0_scoped8.sem) 0
        ∗ semVal (thr d L, SemLoc.dma cc0_scoped9.sem) 0
        ∗ semVal (thr d L, SemLoc.dma cc0_scoped10.sem) 0
        ∗ semVal (thr d L, SemLoc.dma cc0_scoped11.sem) 0
        ∗ semVal (thr d L, SemLoc.dma cc0_scoped12.sem) 0
        ∗ semVal (thr d L, SemLoc.dma cc0_scoped13.sem) 0
        ∗ semVal (thr d L, SemLoc.dma cc0_scoped14.sem) 0
        ∗ semVal (thr d L, SemLoc.dma cc0_scoped15.sem) 0
        ∗ semVal (thr d L, SemLoc.dma cc0_scoped16.sem) 0
        ∗ owes (thr d L) O W) : sProp 𝕄)
      ⊢ wp frame (wpE (defs₀ (F := F)) 𝒱₀ (thr d L) none) Set.univ
          (cc0__sc_gather_body L iV (Memref.isWhole_whole _) tV (Memref.isWhole_whole _) oV (Memref.isWhole_whole _)
            sI (Memref.isWhole_whole _) sR (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(((idxSl L).view.loc (thr d L) ↦[(idxSl L).view.set]{qi} fi)
        ∗ ((tAll).view.loc (thr d L) ↦[(tAll).view.set]{qa} ft) ∗ ((tAll).view.loc (thr d L) ↦[(tAll).view.set]{qb} ft)
        ∗ ((out0 L).view.loc (thr d L) ↦[(out0 L).view.set]{fullShare} (Cert.KernelIdeal.KVal.gath (F := F) fi ft))
        ∗ ((out1 L).view.loc (thr d L) ↦[(out1 L).view.set]{fullShare} (Cert.KernelIdeal.KVal.gath (F := F) fi ft))
        ∗ ((out2 L).view.loc (thr d L) ↦[(out2 L).view.set]{fullShare} (Cert.KernelIdeal.KVal.gath (F := F) fi ft))
        ∗ ((out3 L).view.loc (thr d L) ↦[(out3 L).view.set]{fullShare} (Cert.KernelIdeal.KVal.gath (F := F) fi ft))
        ∗ ((out4 L).view.loc (thr d L) ↦[(out4 L).view.set]{fullShare} (Cert.KernelIdeal.KVal.gath (F := F) fi ft))
        ∗ ((out5 L).view.loc (thr d L) ↦[(out5 L).view.set]{fullShare} (Cert.KernelIdeal.KVal.gath (F := F) fi ft))
        ∗ ((out6 L).view.loc (thr d L) ↦[(out6 L).view.set]{fullShare} (Cert.KernelIdeal.KVal.gath (F := F) fi ft))
        ∗ ((out7 L).view.loc (thr d L) ↦[(out7 L).view.set]{fullShare} (Cert.KernelIdeal.KVal.gath (F := F) fi ft))
        ∗ ((out8 L).view.loc (thr d L) ↦[(out8 L).view.set]{fullShare} (Cert.KernelIdeal.KVal.gath (F := F) fi ft))
        ∗ ((out9 L).view.loc (thr d L) ↦[(out9 L).view.set]{fullShare} (Cert.KernelIdeal.KVal.gath (F := F) fi ft))
        ∗ ((out10 L).view.loc (thr d L) ↦[(out10 L).view.set]{fullShare} (Cert.KernelIdeal.KVal.gath (F := F) fi ft))
        ∗ ((out11 L).view.loc (thr d L) ↦[(out11 L).view.set]{fullShare} (Cert.KernelIdeal.KVal.gath (F := F) fi ft))
        ∗ ((out12 L).view.loc (thr d L) ↦[(out12 L).view.set]{fullShare} (Cert.KernelIdeal.KVal.gath (F := F) fi ft))
        ∗ ((out13 L).view.loc (thr d L) ↦[(out13 L).view.set]{fullShare} (Cert.KernelIdeal.KVal.gath (F := F) fi ft))
        ∗ ((out14 L).view.loc (thr d L) ↦[(out14 L).view.set]{fullShare} (Cert.KernelIdeal.KVal.gath (F := F) fi ft))
        ∗ ((out15 L).view.loc (thr d L) ↦[(out15 L).view.set]{fullShare} (Cert.KernelIdeal.KVal.gath (F := F) fi ft))
        ∗ (∃ g, (sI).view.loc (thr d L) ↦{fullShare} g)
        ∗ (∃ f0, (slot0).view.loc (thr d L) ↦[(slot0).view.set]{fullShare} f0) ∗ (∃ f1, (slot1).view.loc (thr d L) ↦[(slot1).view.set]{fullShare} f1)
        ∗ semVal (thr d L, SemLoc.dma cc0_scratch2.sem) 0
        ∗ semVal (thr d L, SemLoc.dma cc0_scratch3.sem) 0
        ∗ semVal (thr d L, SemLoc.dma cc0_scoped0.sem) 0
        ∗ semVal (thr d L, SemLoc.dma cc0_scoped1.sem) 0
        ∗ semVal (thr d L, SemLoc.dma cc0_scoped2.sem) 0
        ∗ semVal (thr d L, SemLoc.dma cc0_scoped3.sem) 0
        ∗ semVal (thr d L, SemLoc.dma cc0_scoped4.sem) 0
        ∗ semVal (thr d L, SemLoc.dma cc0_scoped5.sem) 0
        ∗ semVal (thr d L, SemLoc.dma cc0_scoped6.sem) 0
        ∗ semVal (thr d L, SemLoc.dma cc0_scoped7.sem) 0
        ∗ semVal (thr d L, SemLoc.dma cc0_scoped8.sem) 0
        ∗ semVal (thr d L, SemLoc.dma cc0_scoped9.sem) 0
        ∗ semVal (thr d L, SemLoc.dma cc0_scoped10.sem) 0
        ∗ semVal (thr d L, SemLoc.dma cc0_scoped11.sem) 0
        ∗ semVal (thr d L, SemLoc.dma cc0_scoped12.sem) 0
        ∗ semVal (thr d L, SemLoc.dma cc0_scoped13.sem) 0
        ∗ semVal (thr d L, SemLoc.dma cc0_scoped14.sem) 0
        ∗ semVal (thr d L, SemLoc.dma cc0_scoped15.sem) 0
        ∗ semVal (thr d L, SemLoc.dma cc0_scoped16.sem) 0
        ∗ ∃ W', ⌜∀ p ∈ W', p ∈ W ∨ p.2 = none⌝ ∗ owes (thr d L) O W') := by
  -- every word of the sixteen offset rows names a table row, whatever the index scratch held before the copy
  have hin0 : ∀ (g : Buf (Elt F) ((sI).view.loc (thr d L))) x, ((offs0).view.read (Elt F) (View.write (Elt F) (sI).view g (ReadAs.same.apply (View.read (Elt F) (idxSl L).view fi)) Finset.univ) x).toNat < S30522x128.size gathers_S30522x128_S128x128.axis := hinJ d L 0 fi hpre
  have hin1 : ∀ (g : Buf (Elt F) ((sI).view.loc (thr d L))) x, ((offs1).view.read (Elt F) (View.write (Elt F) (sI).view g (ReadAs.same.apply (View.read (Elt F) (idxSl L).view fi)) Finset.univ) x).toNat < S30522x128.size gathers_S30522x128_S128x128.axis := hinJ d L 1 fi hpre
  have hin2 : ∀ (g : Buf (Elt F) ((sI).view.loc (thr d L))) x, ((offs2).view.read (Elt F) (View.write (Elt F) (sI).view g (ReadAs.same.apply (View.read (Elt F) (idxSl L).view fi)) Finset.univ) x).toNat < S30522x128.size gathers_S30522x128_S128x128.axis := hinJ d L 2 fi hpre
  have hin3 : ∀ (g : Buf (Elt F) ((sI).view.loc (thr d L))) x, ((offs3).view.read (Elt F) (View.write (Elt F) (sI).view g (ReadAs.same.apply (View.read (Elt F) (idxSl L).view fi)) Finset.univ) x).toNat < S30522x128.size gathers_S30522x128_S128x128.axis := hinJ d L 3 fi hpre
  have hin4 : ∀ (g : Buf (Elt F) ((sI).view.loc (thr d L))) x, ((offs4).view.read (Elt F) (View.write (Elt F) (sI).view g (ReadAs.same.apply (View.read (Elt F) (idxSl L).view fi)) Finset.univ) x).toNat < S30522x128.size gathers_S30522x128_S128x128.axis := hinJ d L 4 fi hpre
  have hin5 : ∀ (g : Buf (Elt F) ((sI).view.loc (thr d L))) x, ((offs5).view.read (Elt F) (View.write (Elt F) (sI).view g (ReadAs.same.apply (View.read (Elt F) (idxSl L).view fi)) Finset.univ) x).toNat < S30522x128.size gathers_S30522x128_S128x128.axis := hinJ d L 5 fi hpre
  have hin6 : ∀ (g : Buf (Elt F) ((sI).view.loc (thr d L))) x, ((offs6).view.read (Elt F) (View.write (Elt F) (sI).view g (ReadAs.same.apply (View.read (Elt F) (idxSl L).view fi)) Finset.univ) x).toNat < S30522x128.size gathers_S30522x128_S128x128.axis := hinJ d L 6 fi hpre
  have hin7 : ∀ (g : Buf (Elt F) ((sI).view.loc (thr d L))) x, ((offs7).view.read (Elt F) (View.write (Elt F) (sI).view g (ReadAs.same.apply (View.read (Elt F) (idxSl L).view fi)) Finset.univ) x).toNat < S30522x128.size gathers_S30522x128_S128x128.axis := hinJ d L 7 fi hpre
  have hin8 : ∀ (g : Buf (Elt F) ((sI).view.loc (thr d L))) x, ((offs8).view.read (Elt F) (View.write (Elt F) (sI).view g (ReadAs.same.apply (View.read (Elt F) (idxSl L).view fi)) Finset.univ) x).toNat < S30522x128.size gathers_S30522x128_S128x128.axis := hinJ d L 8 fi hpre
  have hin9 : ∀ (g : Buf (Elt F) ((sI).view.loc (thr d L))) x, ((offs9).view.read (Elt F) (View.write (Elt F) (sI).view g (ReadAs.same.apply (View.read (Elt F) (idxSl L).view fi)) Finset.univ) x).toNat < S30522x128.size gathers_S30522x128_S128x128.axis := hinJ d L 9 fi hpre
  have hin10 : ∀ (g : Buf (Elt F) ((sI).view.loc (thr d L))) x, ((offs10).view.read (Elt F) (View.write (Elt F) (sI).view g (ReadAs.same.apply (View.read (Elt F) (idxSl L).view fi)) Finset.univ) x).toNat < S30522x128.size gathers_S30522x128_S128x128.axis := hinJ d L 10 fi hpre
  have hin11 : ∀ (g : Buf (Elt F) ((sI).view.loc (thr d L))) x, ((offs11).view.read (Elt F) (View.write (Elt F) (sI).view g (ReadAs.same.apply (View.read (Elt F) (idxSl L).view fi)) Finset.univ) x).toNat < S30522x128.size gathers_S30522x128_S128x128.axis := hinJ d L 11 fi hpre
  have hin12 : ∀ (g : Buf (Elt F) ((sI).view.loc (thr d L))) x, ((offs12).view.read (Elt F) (View.write (Elt F) (sI).view g (ReadAs.same.apply (View.read (Elt F) (idxSl L).view fi)) Finset.univ) x).toNat < S30522x128.size gathers_S30522x128_S128x128.axis := hinJ d L 12 fi hpre
  have hin13 : ∀ (g : Buf (Elt F) ((sI).view.loc (thr d L))) x, ((offs13).view.read (Elt F) (View.write (Elt F) (sI).view g (ReadAs.same.apply (View.read (Elt F) (idxSl L).view fi)) Finset.univ) x).toNat < S30522x128.size gathers_S30522x128_S128x128.axis := hinJ d L 13 fi hpre
  have hin14 : ∀ (g : Buf (Elt F) ((sI).view.loc (thr d L))) x, ((offs14).view.read (Elt F) (View.write (Elt F) (sI).view g (ReadAs.same.apply (View.read (Elt F) (idxSl L).view fi)) Finset.univ) x).toNat < S30522x128.size gathers_S30522x128_S128x128.axis := hinJ d L 14 fi hpre
  have hin15 : ∀ (g : Buf (Elt F) ((sI).view.loc (thr d L))) x, ((offs15).view.read (Elt F) (View.write (Elt F) (sI).view g (ReadAs.same.apply (View.read (Elt F) (idxSl L).view fi)) Finset.univ) x).toNat < S30522x128.size gathers_S30522x128_S128x128.axis := hinJ d L 15 fi hpre
  iintro ⟨#Hmw, Hi, Hta, Htb, Ho0, Ho1, Ho2, Ho3, Ho4, Ho5, Ho6, Ho7, Ho8, Ho9, Ho10, Ho11, Ho12, Ho13, Ho14, Ho15, HsI, Hsl0, Hsl1, Hm0, Hm1, Hm2, Hm3, Hm4, Hm5, Hm6, Hm7, Hm8, Hm9, Hm10, Hm11, Hm12, Hm13, Hm14, Hm15, Hm16, Hm17, Hm18, HO⟩
  sl_exec_parts
  sl_step
  isplitl [Hi]; · iexact Hi
  isplitl [Hta]; · iexact Hta
  isplitl [Htb]; · iexact Htb
  -- each chunk holds the gathered array's rows
  isplitl [Ho0]
  · iapply (Entails.of_eq (chunk_pts d L 0 slot0 (Or.inl rfl) fi ft fo fsI fsR _ hpre rfl (hin0 fsI)))
    iexact Ho0
  isplitl [Ho1]
  · iapply (Entails.of_eq (chunk_pts d L 1 slot1 (Or.inr rfl) fi ft fo fsI fsR _ hpre rfl (hin1 fsI)))
    iexact Ho1
  isplitl [Ho2]
  · iapply (Entails.of_eq (chunk_pts d L 2 slot0 (Or.inl rfl) fi ft fo fsI fsR _ hpre rfl (hin2 fsI)))
    iexact Ho2
  isplitl [Ho3]
  · iapply (Entails.of_eq (chunk_pts d L 3 slot1 (Or.inr rfl) fi ft fo fsI fsR _ hpre rfl (hin3 fsI)))
    iexact Ho3
  isplitl [Ho4]
  · iapply (Entails.of_eq (chunk_pts d L 4 slot0 (Or.inl rfl) fi ft fo fsI fsR _ hpre rfl (hin4 fsI)))
    iexact Ho4
  isplitl [Ho5]
  · iapply (Entails.of_eq (chunk_pts d L 5 slot1 (Or.inr rfl) fi ft fo fsI fsR _ hpre rfl (hin5 fsI)))
    iexact Ho5
  isplitl [Ho6]
  · iapply (Entails.of_eq (chunk_pts d L 6 slot0 (Or.inl rfl) fi ft fo fsI fsR _ hpre rfl (hin6 fsI)))
    iexact Ho6
  isplitl [Ho7]
  · iapply (Entails.of_eq (chunk_pts d L 7 slot1 (Or.inr rfl) fi ft fo fsI fsR _ hpre rfl (hin7 fsI)))
    iexact Ho7
  isplitl [Ho8]
  · iapply (Entails.of_eq (chunk_pts d L 8 slot0 (Or.inl rfl) fi ft fo fsI fsR _ hpre rfl (hin8 fsI)))
    iexact Ho8
  isplitl [Ho9]
  · iapply (Entails.of_eq (chunk_pts d L 9 slot1 (Or.inr rfl) fi ft fo fsI fsR _ hpre rfl (hin9 fsI)))
    iexact Ho9
  isplitl [Ho10]
  · iapply (Entails.of_eq (chunk_pts d L 10 slot0 (Or.inl rfl) fi ft fo fsI fsR _ hpre rfl (hin10 fsI)))
    iexact Ho10
  isplitl [Ho11]
  · iapply (Entails.of_eq (chunk_pts d L 11 slot1 (Or.inr rfl) fi ft fo fsI fsR _ hpre rfl (hin11 fsI)))
    iexact Ho11
  isplitl [Ho12]
  · iapply (Entails.of_eq (chunk_pts d L 12 slot0 (Or.inl rfl) fi ft fo fsI fsR _ hpre rfl (hin12 fsI)))
    iexact Ho12
  isplitl [Ho13]
  · iapply (Entails.of_eq (chunk_pts d L 13 slot1 (Or.inr rfl) fi ft fo fsI fsR _ hpre rfl (hin13 fsI)))
    iexact Ho13
  isplitl [Ho14]
  · iapply (Entails.of_eq (chunk_pts d L 14 slot0 (Or.inl rfl) fi ft fo fsI fsR _ hpre rfl (hin14 fsI)))
    iexact Ho14
  isplitl [Ho15]
  · iapply (Entails.of_eq (chunk_pts d L 15 slot1 (Or.inr rfl) fi ft fo fsI fsR _ hpre rfl (hin15 fsI)))
    iexact Ho15
  isplitl [HsI]; · iexists _; iexact HsI
  isplitl [Hsl0]; · iexists _; iexact Hsl0
  isplitl [Hsl1]; · iexists _; iexact Hsl1
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  iexists _; isplitr
  pick_goal 2
  · iexact HO
  · ipureintro
    repeat' (first | exact fun p hp => Or.inl hp | (rw [Finset.forall_mem_insert]; refine ⟨Or.inr rfl, ?_⟩))

end Cert.KernelIdeal.Sc
end
-- ==== Proof.ScLaunch.lean ====
/-
  The SparseCore call as the launch theorem sees it: what the call hands each SparseCore and each tile and takes back,
  and that each tile's task, from its share, runs to its share with the result chunks at the gathered array.

  The call takes the reshaped index array, the embedding table and the result array whole. Tile (c, s) is handed its
  16 rows of the index array, two read shares of the table and its sixteen 128-row chunks of the result; a SparseCore
  is handed its sixteen tiles' shares. The call hands back the same with every chunk at the gathered array: row t is
  the table's row named by word t of the index array. Every index word names a table row (the precondition), so no
  gather is abandoned.
-/
import proofs.«207697_g22892175687689_cont_8to1_1704_9_alg».proof.Proof.ScDefs
import proofs.«207697_g22892175687689_cont_8to1_1704_9_alg».proof.Proof.ScSplit
import proofs.«207697_g22892175687689_cont_8to1_1704_9_alg».proof.Proof.ScScoped
import proofs.«207697_g22892175687689_cont_8to1_1704_9_alg».proof.Proof.ScTile
import proofs.«207697_g22892175687689_cont_8to1_1704_9_alg».proof.Proof.KernelValue

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S512x128 EltTy.i32)
local notation "tV" => (Memref.whole Cert.KernelIdeal.main_arg1_scv : Memref Cert.KernelIdeal.sig Kind.scVector Space.hbm Cert.KernelIdeal.S30522x128 EltTy.f32)
local notation "oV" => (Memref.whole Cert.KernelIdeal.main_v1_scv : Memref Cert.KernelIdeal.sig Kind.scVector Space.hbm Cert.KernelIdeal.S65536x128 EltTy.f32)
local notation "sI" => (Memref.whole Cert.KernelIdeal.cc0_scratch0 : Memref Cert.KernelIdeal.sig Kind.scVector Space.vmem Cert.KernelIdeal.S16x128 EltTy.i32)
local notation "sR" => (Memref.whole Cert.KernelIdeal.cc0_scratch1 : Memref Cert.KernelIdeal.sig Kind.scVector Space.vmem Cert.KernelIdeal.S2x128x128 EltTy.f32)

variable (m : (ℓ : Loc nD τ sig) → Buf (Elt F) ℓ) (ρ : Dev nD → PrngReg)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem bound_zero : grid0.bound 0 = 2 := rfl
theorem bound_one : grid0.bound 1 = 16 := rfl

variable [FloatOps F]

/-- The index array as the call finds it: the argument [128, 512] reshaped to [512, 128]. -/
def fiOf (d : Dev nD) : Buf (Elt F) (iLoc d) := shapeCast S512x128 (m ((SparseCore.T d).loc main_arg0)) shapeCasts_S128x512_S512x128

/-- The gathered rows: row t is the table's row named by word t of the index array. -/
def Gd (d : Dev nD) : Buf (Elt F) (oLoc d) := Cert.KernelIdeal.KVal.gath (F := F) (fiOf m d) (m (tLoc d))

/-- What the proof asks of the launch memory: every index word names a table row. -/
def PreOK : Prop := ∀ (d : Dev nD) y, (fiOf m d y).toNat < 30522

/-- The one call's payloads: a tile's share of the three arrays going, the same with the chunks gathered coming back;
    a SparseCore's is its sixteen tiles'. No kernel's proof consumes anything of the launch's. -/
def P : (K (F := F)).Pay (nD := nD) (Val := Elt F) (Name := ℕ) (U := UU) where
  st := fun q d c => match q with
    | 0 => bigSep Finset.univ fun i : Fin (grid0.bound 1) => tilePts d (Fin.cast (nCore_zero.trans bound_zero.symm) c) i (fiOf m d) (m (tLoc d)) (m (oLoc d))
  dn := fun q d c => match q with
    | 0 => bigSep Finset.univ fun i : Fin (grid0.bound 1) => tilePts d (Fin.cast (nCore_zero.trans bound_zero.symm) c) i (fiOf m d) (m (tLoc d)) (Gd m d)
  go := fun q d c i => match q with
    | 0 => tilePts d (Fin.cast (nCore_zero.trans bound_zero.symm) c) (Fin.cast (nSub_zero.trans bound_one.symm) i) (fiOf m d) (m (tLoc d)) (m (oLoc d))
  td := fun q d c i => match q with
    | 0 => tilePts d (Fin.cast (nCore_zero.trans bound_zero.symm) c) (Fin.cast (nSub_zero.trans bound_one.symm) i) (fiOf m d) (m (tLoc d)) (Gd m d)
  x := fun _ _ => iprop(emp)

instance tilePts_storable (d : Dev nD) (c : Fin (grid0.bound 0)) (i : Fin (grid0.bound 1)) (f : Buf (Elt F) (iLoc d)) (t : Buf (Elt F) (tLoc d))
    (o : Buf (Elt F) (oLoc d)) : BI.Storable (upEmb : UEmb _ 𝕄) (tilePts d c i f t o) := by
  unfold tilePts; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## A tile's task -/

section Tile

variable (d : Dev nD)

theorem defs₀_vector (c : Fin τ.nSC) (s : Fin τ.nSub) :
    defs₀ (F := F) (.scVector c s) 0 ()
      = SparseCore.onTile hcore0 hsub0 (fun c s => cc0__sc_gather_body (coordsV c s) iV (Memref.isWhole_whole _) tV (Memref.isWhole_whole _) oV (Memref.isWhole_whole _)
            sI (Memref.isWhole_whole _) sR (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 2000000 in
/-- The tile at (c, i): from its share of the arrays and its scoped storage, the body runs to its share with the chunks
    gathered and its scoped storage back. -/
theorem tile_body (hF : (K (F := F)).Facts) (hpre : PreOK m) (c : Fin (grid0.bound 0)) (i : Fin (grid0.bound 1))
    (O : CellTallies nD τ sig (HIx 1)) (W : Waits sig (HIx 1)) (hO : ∀ g, O g none = 0) :
    (iprop(levAts (K (F := F)).L (K (F := F)).lev ∗ emp ∗ tilePts d c i (fiOf m d) (m (tLoc d)) (m (oLoc d))
        ∗ scopedBufs (thr d (coordsV c i)) ∗ scopedSems0 (thr d (coordsV c i)) ∗ owes (thr d (coordsV c i)) O W) : sProp 𝕄)
      ⊢ wp frame (wpE (defs₀ (F := F)) 𝒱₀ (thr d (coordsV c i)) none) Set.univ
          (cc0__sc_gather_body (coordsV c i) iV (Memref.isWhole_whole _) tV (Memref.isWhole_whole _) oV (Memref.isWhole_whole _)
            sI (Memref.isWhole_whole _) sR (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(tilePts d c i (fiOf m d) (m (tLoc d)) (Gd m d) ∗ scopedBufs (thr d (coordsV c i)) ∗ scopedSems0 (thr d (coordsV c i))
            ∗ ∃ W', ⌜∀ p ∈ W', p ∈ W ∨ p.2 = none⌝ ∗ owes (thr d (coordsV c i)) O W') := by
  unfold tilePts
  iintro ⟨#Hlv, -, ⟨Hi, Hta, Htb, Ho0, Ho1, Ho2, Ho3, Ho4, Ho5, Ho6, Ho7, Ho8, Ho9, Ho10, Ho11, Ho12, Ho13, Ho14, Ho15⟩, Hsb, Hss, HO⟩
  ihave Hsc := (scoped_open (F := F) hF d (coordsV c i)) $$ [Hsb Hss]
  · isplitl [Hsb] <;> iassumption
  icases Hsc with ⟨⟨%fsI, HsI⟩, ⟨%fsR, Hsl0, Hsl1⟩, Hrb, Hm0, Hm1, Hm2, Hm3, Hm4, Hm5, Hm6, Hm7, Hm8, Hm9, Hm10, Hm11, Hm12, Hm13, Hm14, Hm15, Hm16, Hm17, Hm18, Hrs⟩
  ihave Hmw := ((K (F := F)).mayWaits_none (thr := thr d (coordsV c i)) hO) $$ Hlv
  iapply (wp_wand_r frame (wpE (defs₀ (F := F)) 𝒱₀ (thr d (coordsV c i)) none) Set.univ)
  isplitl [Hmw Hi Hta Htb Ho0 Ho1 Ho2 Ho3 Ho4 Ho5 Ho6 Ho7 Ho8 Ho9 Ho10 Ho11 Ho12 Ho13 Ho14 Ho15 HsI Hsl0 Hsl1 Hm0 Hm1 Hm2 Hm3 Hm4 Hm5 Hm6 Hm7 Hm8 Hm9 Hm10 Hm11 Hm12 Hm13 Hm14 Hm15 Hm16 Hm17 Hm18 HO]
  · iapply (tile_run d (coordsV c i) O W fullShare (tShare c i 0) (tShare c i 1) (fiOf m d) (m (tLoc d)) (m (oLoc d)) fsI fsR (hpre d))
    isplitl [Hmw]; · iexact Hmw
    isplitl [Hi]; · iexact Hi
    isplitl [Hta]; · iexact Hta
    isplitl [Htb]; · iexact Htb
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [HsI]; · iexact HsI
    isplitl [Hsl0]; · iexact Hsl0
    isplitl [Hsl1]; · iexact Hsl1
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    iexact HO
  iintro %_ ⟨Hi, Hta, Htb, Ho0, Ho1, Ho2, Ho3, Ho4, Ho5, Ho6, Ho7, Ho8, Ho9, Ho10, Ho11, Ho12, Ho13, Ho14, Ho15, HsI, Hsl0, Hsl1, Hm0, Hm1, Hm2, Hm3, Hm4, Hm5, Hm6, Hm7, Hm8, Hm9, Hm10, Hm11, Hm12, Hm13, Hm14, Hm15, Hm16, Hm17, Hm18, HW⟩
  isplitl [Hi Hta Htb Ho0 Ho1 Ho2 Ho3 Ho4 Ho5 Ho6 Ho7 Ho8 Ho9 Ho10 Ho11 Ho12 Ho13 Ho14 Ho15]
  · isplitl [Hi]; · iexact Hi
    isplitl [Hta]; · iexact Hta
    isplitl [Htb]; · iexact Htb
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  ihave Hcl := (scoped_close (F := F) hF d (coordsV c i)) $$ [HsI Hsl0 Hsl1 Hrb Hm0 Hm1 Hm2 Hm3 Hm4 Hm5 Hm6 Hm7 Hm8 Hm9 Hm10 Hm11 Hm12 Hm13 Hm14 Hm15 Hm16 Hm17 Hm18 Hrs]
  · isplitl [HsI]; · iexact HsI
    isplitl [Hsl0]; · iexact Hsl0
    isplitl [Hsl1]; · iexact Hsl1
    isplitl [Hrb]; · iexact Hrb
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    iexact Hrs
  icases Hcl with ⟨Hsb, Hss⟩
  isplitl [Hsb]; · iexact Hsb
  isplitl [Hss]; · iexact Hss
  iexact HW

/-- The launch theorem's obligation for the vector-subcore call. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d hF hpre ⟨_, hc.1⟩ ⟨_, hc.2⟩ O W hO).trans (wp_mono frame _ _ fun _ => obl_post)

end Tile

/-! ## A SparseCore's operands are its tiles' -/

omit [FloatOps F] in
theorem bigSep_tasks (Φ : Fin (grid0.bound 1) → sProp 𝕄) :
    (bigSep Finset.univ fun i : Fin ((K (F := F)).nSub 0) => Φ (Fin.cast (nSub_zero.trans bound_one.symm) i)) = bigSep Finset.univ Φ :=
  bigSep_congr fun _ _ => congrArg Φ (Fin.ext rfl)

theorem vecSplit : (K (F := F)).VecSplit' (P m) 0 := by
  intro d c
  show (bigSep Finset.univ fun i : Fin (grid0.bound 1) => tilePts d (Fin.cast (nCore_zero.trans bound_zero.symm) c) i (fiOf m d) (m (tLoc d)) (m (oLoc d)))
    ⊢ |={Set.univ}=> iprop(
      (bigSep Finset.univ fun i : Fin ((K (F := F)).nSub 0) =>
        tilePts d (Fin.cast (nCore_zero.trans bound_zero.symm) c) (Fin.cast (nSub_zero.trans bound_one.symm) i) (fiOf m d) (m (tLoc d)) (m (oLoc d)))
      ∗ ((bigSep Finset.univ fun i : Fin ((K (F := F)).nSub 0) =>
          tilePts d (Fin.cast (nCore_zero.trans bound_zero.symm) c) (Fin.cast (nSub_zero.trans bound_one.symm) i) (fiOf m d) (m (tLoc d)) (Gd m d))
          -∗ bigSep Finset.univ fun i : Fin (grid0.bound 1) => tilePts d (Fin.cast (nCore_zero.trans bound_zero.symm) c) i (fiOf m d) (m (tLoc d)) (Gd m d)))
  rw [bigSep_tasks (F := F) (fun i => tilePts d (Fin.cast (nCore_zero.trans bound_zero.symm) c) i (fiOf m d) (m (tLoc d)) (m (oLoc d))),
    bigSep_tasks (F := F) (fun i => tilePts d (Fin.cast (nCore_zero.trans bound_zero.symm) c) i (fiOf m d) (m (tLoc d)) (Gd m d))]
  iintro H; imodintro
  isplitl [H]; · iexact H
  iintro H; iexact H

end Cert.KernelIdeal.Sc
end
-- ==== Proof.TcHeld.lean ====
/-
  The TensorCore's arrays as one held set. @main's sixteen tensor values — the seven arguments and the nine results of
  its operations — are the TensorCore's unscoped buffers. The launch deals them as one family; here that family is
  the set `SU` held at a valuation, and the set is split three ways: at the three arrays the SparseCore call takes,
  at the seven arrays the TensorCore region takes, and at each host operation's operand and result. Last, what a
  state that holds the set reads at the result and the seven arguments.
-/
import proofs.«207697_g22892175687689_cont_8to1_1704_9_alg».proof.Proof.ScDefs
import Idealize.ShloMosaic.Lib.StableHlo.Run

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr)

variable {F : FTy → Type}

local notation "𝕄" => MT nD τ sig (HIx 1) (Elt F) ℕ UU ℕ

/-- The TensorCore's unscoped arrays, as device references. -/
def SU : Finset (DevRef τ sig) :=
  (Finset.univ.filter fun b : Ref sig .tc => ¬ b.isScoped).map ⟨Proc.devRef .tc, Proc.devRef_injective _⟩

/-- A TensorCore reference as a device reference. -/
abbrev r (x : Ref sig .tc) : DevRef τ sig := Proc.devRef .tc x

/-- The launch's family of unscoped arrays at the launch memory is the set held at the launch memory. -/
theorem unscoped_held (m : (ℓ : Loc nD τ sig) → Buf (Elt F) ℓ) (d : Dev nD) :
    (unscopedBufs d (fun b => m ((SparseCore.T d).loc b)) : sProp 𝕄) = held (T d) SU (fun b => m (d, b)) := by
  unfold unscopedBufs held SU
  rw [BI.bigSep_map]
  rfl

/-- An unscoped TensorCore reference is in the set. -/
theorem mem_SU (x : Ref sig .tc) (hx : x.isScoped = false) : r x ∈ SU :=
  Finset.mem_map.mpr ⟨x, Finset.mem_filter.mpr ⟨Finset.mem_univ _, by rw [hx]; exact Bool.false_ne_true⟩, rfl⟩

/-- Two unscoped references' pair is inside the set. -/
theorem pair_sub {x y : Ref sig .tc} (hx : x.isScoped = false) (hy : y.isScoped = false) :
    ({r x, r y} : Finset (DevRef τ sig)) ⊆ SU := by
  intro b hb
  rcases Finset.mem_insert.mp hb with rfl | hb
  · exact mem_SU _ hx
  · rw [Finset.mem_singleton.mp hb]; exact mem_SU _ hy

theorem sep_assoc_eq (P Q R : sProp 𝕄) : iprop((P ∗ Q) ∗ R) = iprop(P ∗ Q ∗ R) :=
  BI.equiv_iff.mp ⟨BI.sep_assoc, BI.sep_assoc'⟩

/-! ## The three arrays of the SparseCore call -/

theorem sc3_sub : ({r main_v0, r main_arg1, r main_v1} : Finset (DevRef τ sig)) ⊆ SU := by
  intro b hb
  simp only [Finset.mem_insert, Finset.mem_singleton] at hb
  rcases hb with rfl | rfl | rfl
  · exact mem_SU _ rfl
  · exact mem_SU _ rfl
  · exact mem_SU _ rfl

/-- The three arrays the SparseCore call takes: the reshaped indices, the table, the gathered rows; and the rest. -/
theorem held_sc (d : Dev nD) (V : Valuation τ sig (Elt F)) :
    (held (T d) SU V : sProp 𝕄)
      = iprop((iLoc d ↦{fullShare} V (r main_v0)) ∗ (tLoc d ↦{fullShare} V (r main_arg1)) ∗ (oLoc d ↦{fullShare} V (r main_v1))
          ∗ held (T d) (SU \ {r main_v0, r main_arg1, r main_v1}) V) := by
  rw [held_sub_split (T d) sc3_sub V]
  conv_lhs => arg 1; unfold held
  rw [SparseCore.bigSep_insert' (by decide), SparseCore.bigSep_insert' (by decide), BI.bigSep_singleton]
  simp only [sep_assoc_eq]

/-! ## The seven arrays of the TensorCore region -/

theorem region7_sub : ({r main_v1, r main_v2, r main_v3, r main_v4, r main_v5, r main_v6, r main_v7} : Finset (DevRef τ sig)) ⊆ SU := by
  intro b hb
  simp only [Finset.mem_insert, Finset.mem_singleton] at hb
  rcases hb with rfl | rfl | rfl | rfl | rfl | rfl | rfl
  all_goals exact mem_SU _ rfl

/-- The seven arrays of the TensorCore region, in order, and the rest. -/
theorem held_region (d : Dev nD) (V : Valuation τ sig (Elt F)) :
    (held (T d) SU V : sProp 𝕄)
      = iprop((((d.tc : Thread nD τ).loc main_v1) ↦{fullShare} V (r main_v1))
          ∗ (((d.tc : Thread nD τ).loc main_v2) ↦{fullShare} V (r main_v2))
          ∗ (((d.tc : Thread nD τ).loc main_v3) ↦{fullShare} V (r main_v3))
          ∗ (((d.tc : Thread nD τ).loc main_v4) ↦{fullShare} V (r main_v4))
          ∗ (((d.tc : Thread nD τ).loc main_v5) ↦{fullShare} V (r main_v5))
          ∗ (((d.tc : Thread nD τ).loc main_v6) ↦{fullShare} V (r main_v6))
          ∗ (((d.tc : Thread nD τ).loc main_v7) ↦{fullShare} V (r main_v7))
          ∗ held (T d) (SU \ {r main_v1, r main_v2, r main_v3, r main_v4, r main_v5, r main_v6, r main_v7}) V) := by
  rw [held_sub_split (T d) region7_sub V]
  conv_lhs => arg 1; unfold held
  rw [SparseCore.bigSep_insert' (by decide), SparseCore.bigSep_insert' (by decide), SparseCore.bigSep_insert' (by decide), SparseCore.bigSep_insert' (by decide), SparseCore.bigSep_insert' (by decide), SparseCore.bigSep_insert' (by decide), BI.bigSep_singleton]
  simp only [sep_assoc_eq]

/-! ## @main's seven host operations -/

section Ops
variable [FloatOps F]

abbrev op0 : HloOp τ sig (Elt F) := StableHlo.reshape main_arg0 main_v0 rfl shapeCasts_S128x512_S512x128
abbrev op2 : HloOp τ sig (Elt F) := StableHlo.unary main_arg2 main_v2 ((extractStridedSlice S512x128 ![0, 0] · slices_S519x128_S512x128_0_0) : (⟨S519x128, .f32⟩ : BufTy).Contents (Elt F) → (⟨S512x128, .f32⟩ : BufTy).Contents (Elt F))
abbrev op3 : HloOp τ sig (Elt F) := StableHlo.unary main_arg3 main_v3 ((transpose S480x128 [1, 0] · transposes_S128x480_S480x128_1_0) : (⟨S128x480, .f32⟩ : BufTy).Contents (Elt F) → (⟨S480x128, .f32⟩ : BufTy).Contents (Elt F))
abbrev op4 : HloOp τ sig (Elt F) := StableHlo.reshape main_arg4 main_v4 rfl shapeCasts_S480_S480x1
abbrev op5 : HloOp τ sig (Elt F) := StableHlo.reshape main_arg5 main_v5 rfl shapeCasts_S480_S480x1
abbrev op6 : HloOp τ sig (Elt F) := StableHlo.reshape main_arg6 main_v6 rfl shapeCasts_S480_S480x1
abbrev op8 : HloOp τ sig (Elt F) := StableHlo.unary main_v7 main_v8 ((transpose S128x512x480 [0, 2, 1] · transposes_S128x480x512_S128x512x480_0_2_1) : (⟨S128x480x512, .f32⟩ : BufTy).Contents (Elt F) → (⟨S128x512x480, .f32⟩ : BufTy).Contents (Elt F))

/-- Each touches its operand and its result, both in the set. -/
theorem op0_sub : (op0 (F := F)).bufs ⊆ SU := pair_sub rfl rfl
theorem op2_sub : (op2 (F := F)).bufs ⊆ SU := pair_sub rfl rfl
theorem op3_sub : (op3 (F := F)).bufs ⊆ SU := pair_sub rfl rfl
theorem op4_sub : (op4 (F := F)).bufs ⊆ SU := pair_sub rfl rfl
theorem op5_sub : (op5 (F := F)).bufs ⊆ SU := pair_sub rfl rfl
theorem op6_sub : (op6 (F := F)).bufs ⊆ SU := pair_sub rfl rfl
theorem op8_sub : (op8 (F := F)).bufs ⊆ SU := pair_sub rfl rfl

/-- Each determines its result. -/
theorem op0_fresh : (op0 (F := F)).fresh = ∅ := rfl
theorem op2_fresh : (op2 (F := F)).fresh = ∅ := rfl
theorem op3_fresh : (op3 (F := F)).fresh = ∅ := rfl
theorem op4_fresh : (op4 (F := F)).fresh = ∅ := rfl
theorem op5_fresh : (op5 (F := F)).fresh = ∅ := rfl
theorem op6_fresh : (op6 (F := F)).fresh = ∅ := rfl
theorem op8_fresh : (op8 (F := F)).fresh = ∅ := rfl

end Ops

/-! ## The final read-off -/

/-- A state that holds the set at `V` reads `V` at the result and at the seven arguments. -/
theorem hfin8 (d : Dev nD) (V : Valuation τ sig (Elt F)) (s' : Phys nD τ sig (Elt F)) :
    (iprop(held (T d) SU V ∗ SI s') : sProp 𝕄)
      ⊢ ⌜s'.mem.mem ((d.tc : Thread nD τ).loc main_v8) = V (r main_v8)
        ∧ s'.mem.mem ((d.tc : Thread nD τ).loc main_arg0) = V (r main_arg0)
        ∧ s'.mem.mem ((d.tc : Thread nD τ).loc main_arg1) = V (r main_arg1)
        ∧ s'.mem.mem ((d.tc : Thread nD τ).loc main_arg2) = V (r main_arg2)
        ∧ s'.mem.mem ((d.tc : Thread nD τ).loc main_arg3) = V (r main_arg3)
        ∧ s'.mem.mem ((d.tc : Thread nD τ).loc main_arg4) = V (r main_arg4)
        ∧ s'.mem.mem ((d.tc : Thread nD τ).loc main_arg5) = V (r main_arg5)
        ∧ s'.mem.mem ((d.tc : Thread nD τ).loc main_arg6) = V (r main_arg6)⌝ := by
  unfold held
  iintro ⟨H, HSI⟩
  ihave %h := (SI_pointsTo_bufs_agree (qs := fun _ => fullShare) SU) $$ [HSI H]
  · isplitl [HSI]
    · iexact HSI
    iexact H
  ipureintro
  exact ⟨h _ (mem_SU main_v8 rfl), h _ (mem_SU main_arg0 rfl), h _ (mem_SU main_arg1 rfl), h _ (mem_SU main_arg2 rfl), h _ (mem_SU main_arg3 rfl), h _ (mem_SU main_arg4 rfl), h _ (mem_SU main_arg5 rfl), h _ (mem_SU main_arg6 rfl)⟩

end Cert.KernelIdeal.Sc

end
-- ==== Proof.TcRegionBody.lean ====
/-
  The TensorCore call's kernel body: what one run of the body at a grid point leaves in the seven windows' staging
  buffers, as a function of the six input blocks, and the proof data of the call's pipeline over it.

  The body loads the weight block, the position block, three columns (bias, scale, shift) and four consecutive
  512-row pieces of the gathered block; for each piece it stores one 480 x 512 slab of the output block. The output
  block after the body is therefore the overlay of four stores whose rectangles tile it; the inputs are left as found.
-/
import proofs.«207697_g22892175687689_cont_8to1_1704_9_alg».proof.Proof.Gen.KernelIdeal.Launch
import proofs.«207697_g22892175687689_cont_8to1_1704_9_alg».proof.Proof.Gen.KernelIdeal.Points
import proofs.«207697_g22892175687689_cont_8to1_1704_9_alg».proof.Proof.Gen.KernelIdeal.Skeleton
import Idealize.ShloMosaic.Lib.SparseCore.Launch
import Idealize.ShloMosaic.Lib.Pipeline.FrameBody
import Idealize.ShloMosaic.Lib.Tactic

set_option maxRecDepth 16384

noncomputable section

namespace Cert.KernelIdeal.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.SparseCore (T)
open Idealize.ShloMosaic.SparseCore.Cfg (HIx)

variable {F : FTy → Type} [FloatOps F] {U : Type} [URA U]

local notation "𝕄" => MT nD τ sig (HIx 1) (Elt F) ℕ U ℕ

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift

/-! ## The arrays the region moves -/

variable (V : (c : Dev nD) → (b : Ref sig .tc) → Buf (Elt F) ((c.tc : Thread nD τ).loc b))
  (O : Dev nD → CellTallies nD τ sig (HIx 1)) (bnd : ℕ)

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rO0 : Rect S4x480x512 := Rect.unit (s := S4x480x512) ![0, 0, 0] S1x480x512.size inb_S4x480x512_S1x480x512_0_0_0
abbrev rO1 : Rect S4x480x512 := Rect.unit (s := S4x480x512) ![1, 0, 0] S1x480x512.size inb_S4x480x512_S1x480x512_1_0_0
abbrev rO2 : Rect S4x480x512 := Rect.unit (s := S4x480x512) ![2, 0, 0] S1x480x512.size inb_S4x480x512_S1x480x512_2_0_0
abbrev rO3 : Rect S4x480x512 := Rect.unit (s := S4x480x512) ![3, 0, 0] S1x480x512.size inb_S4x480x512_S1x480x512_3_0_0
abbrev rX0 : Rect S2048x128 := Rect.unit (s := S2048x128) ![0, 0] S512x128.size inb_S2048x128_S512x128_0_0
abbrev rX1 : Rect S2048x128 := Rect.unit (s := S2048x128) ![512, 0] S512x128.size inb_S2048x128_S512x128_512_0
abbrev rX2 : Rect S2048x128 := Rect.unit (s := S2048x128) ![1024, 0] S512x128.size inb_S2048x128_S512x128_1024_0
abbrev rX3 : Rect S2048x128 := Rect.unit (s := S2048x128) ![1536, 0] S512x128.size inb_S2048x128_S512x128_1536_0
abbrev rP : Rect S512x128 := Rect.unit (s := S512x128) ![0, 0] S512x128.size inb_S512x128_S512x128_0_0
abbrev rW : Rect S480x128 := Rect.unit (s := S480x128) ![0, 0] S480x128.size inb_S480x128_S480x128_0_0
abbrev rC : Rect S480x1 := Rect.unit (s := S480x1) ![0, 0] S480x1.size inb_S480x1_S480x1_0_0

/-- What the body leaves in the output window's buffer, from the six input blocks: its four stores as pieces, last first. -/
def outBlk [∀ e, Nonempty (Elt F e)] (x0 : Vec F S2048x128 .f32) (x1 : Vec F S512x128 .f32) (x2 : Vec F S480x128 .f32) (x3 x4 x5 : Vec F S480x1 .f32) :
    Vec F S4x480x512 .f32 :=
  View.canon [⟨rO3, k1_pay1 (k1_pay2 (View.ld x2 rW)) (k1_pay7 (View.ld x0 rX3)) (View.ld x1 rP) (View.ld x3 rC) (View.ld x4 rC) (View.ld x5 rC)⟩,
    ⟨rO2, k1_pay6 (k1_pay2 (View.ld x2 rW)) (View.ld x0 rX2) (View.ld x1 rP) (View.ld x3 rC) (View.ld x4 rC) (View.ld x5 rC)⟩,
    ⟨rO1, k1_pay5 (k1_pay2 (View.ld x2 rW)) (View.ld x0 rX1) (View.ld x1 rP) (View.ld x3 rC) (View.ld x4 rC) (View.ld x5 rC)⟩,
    ⟨rO0, k1_pay4 (k1_pay3 (View.ld x2 rW) (View.ld x0 rX0) (View.ld x1 rP) (View.ld x3 rC) (View.ld x4 rC) (View.ld x5 rC))⟩]

theorem coverO (p0 p1 p2 p3 : Vec F S1x480x512 .f32) (y : S4x480x512.Idx) :
    ∃ pc ∈ ([⟨rO3, p3⟩, ⟨rO2, p2⟩, ⟨rO1, p1⟩, ⟨rO0, p0⟩] : List (View.Piece (Elt F) S4x480x512 .f32)), y ∈ pc.1.set :=
  View.cover_of_tiled [⟨rO3, p3⟩, ⟨rO2, p2⟩, ⟨rO1, p1⟩, ⟨rO0, p0⟩] S1x480x512.size (by rfl) y

/-! ## The body's triple -/

set_option maxHeartbeats 4000000 in
/-- The kernel body on whole staging memrefs, the six inputs' at read contents and the output's at anything, runs to the
    continuation holding the inputs' as they were and the output's at outBlk of the inputs'. -/
theorem sound_kernel (c : Dev nD) (E : Set ℕ) (i : grid1.Coords)
    (arg1 : Memref sig .tc .vmem S2048x128 .f32) (harg1 : arg1.IsWhole) (arg2 : Memref sig .tc .vmem S512x128 .f32) (harg2 : arg2.IsWhole)
    (arg3 : Memref sig .tc .vmem S480x128 .f32) (harg3 : arg3.IsWhole) (arg4 : Memref sig .tc .vmem S480x1 .f32) (harg4 : arg4.IsWhole)
    (arg5 : Memref sig .tc .vmem S480x1 .f32) (harg5 : arg5.IsWhole) (arg6 : Memref sig .tc .vmem S480x1 .f32) (harg6 : arg6.IsWhole)
    (arg7 : Memref sig .tc .vmem S4x480x512 .f32) (harg7 : arg7.IsWhole)
    (x0 : Vec F S2048x128 .f32) (x1 : Vec F S512x128 .f32) (x2 : Vec F S480x128 .f32) (x3 x4 x5 : Vec F S480x1 .f32) (Kp : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ Kp ⟨⟩))
      ⊢ wp frame (wpE (defs₀ (F := F)) Variants.none c none) E (cc1__tc_body i arg1 harg1 arg2 harg2 arg3 harg3 arg4 harg4 arg5 harg5 arg6 harg6 arg7 harg7) Kp := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverO _ _ _ _)

/-! ## The pipeline's proof data -/

/-- The proof data of the one pipeline on core c: the arrays as the region finds them; after the body at point t each
    input's buffer at its block and the output's at outBlk of the input blocks; the invariant the scoped rest; what
    the core owes constant; its recorded pairs within the given level bound. -/
def dat (c : Dev nD) : Dat τ (Elt F) (HIx 1) ℕ U ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outBlk (iblk V c 0 t) (iblk V c 1 t) (iblk V c 2 t) (iblk V c 3 t) (iblk V c 4 t) (iblk V c 5 t)
  Φ _ := Pipeline.scopedRest spec1 c
  q _ := fullShare
  owed _ := O c
  recorded _ := {p | (K (F := F)).lev ((T c), p.1) p.2 ≤ bnd}

abbrev dats (_ : Fin 1) (c : Dev nD) : Dat τ (Elt F) (HIx 1) ℕ U ℕ cfg1 c := dat (U := U) V O bnd c

theorem A_eq (c : Dev nD) (w : Fin cfg1.W) : (dat (U := U) V O bnd c).A w = V c (Pipeline.arrRef spec1 w) := by
  dsimp only [dat]

theorem after_0 (c : Dev nD) (t : Fin cfg1.N) : (dat (U := U) V O bnd c).after 0 t = iblk V c 0 t := by dsimp only [dat]
theorem after_1 (c : Dev nD) (t : Fin cfg1.N) : (dat (U := U) V O bnd c).after 1 t = iblk V c 1 t := by dsimp only [dat]
theorem after_2 (c : Dev nD) (t : Fin cfg1.N) : (dat (U := U) V O bnd c).after 2 t = iblk V c 2 t := by dsimp only [dat]
theorem after_3 (c : Dev nD) (t : Fin cfg1.N) : (dat (U := U) V O bnd c).after 3 t = iblk V c 3 t := by dsimp only [dat]
theorem after_4 (c : Dev nD) (t : Fin cfg1.N) : (dat (U := U) V O bnd c).after 4 t = iblk V c 4 t := by dsimp only [dat]
theorem after_5 (c : Dev nD) (t : Fin cfg1.N) : (dat (U := U) V O bnd c).after 5 t = iblk V c 5 t := by dsimp only [dat]
theorem after_6 (c : Dev nD) (t : Fin cfg1.N) : (dat (U := U) V O bnd c).after 6 t
    = outBlk (iblk V c 0 t) (iblk V c 1 t) (iblk V c 2 t) (iblk V c 3 t) (iblk V c 4 t) (iblk V c 5 t) := by dsimp only [dat]

/-- An input window's current staging buffer holds its block at every point, fetched there or not. -/
theorem before_0 (c : Dev nD) (t : Fin cfg1.N) (d) : (dat (U := U) V O bnd c).before 0 t d = iblk V c 0 t :=
  ((dat (U := U) V O bnd c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat (U := U) V O bnd c).before 1 t d = iblk V c 1 t :=
  ((dat (U := U) V O bnd c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat (U := U) V O bnd c).before 2 t d = iblk V c 2 t :=
  ((dat (U := U) V O bnd c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat (U := U) V O bnd c).before 3 t d = iblk V c 3 t :=
  ((dat (U := U) V O bnd c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat (U := U) V O bnd c).before 4 t d = iblk V c 4 t :=
  ((dat (U := U) V O bnd c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat (U := U) V O bnd c).before 5 t d = iblk V c 5 t :=
  ((dat (U := U) V O bnd c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation, at a generic point -/

def bodyPre (c : Dev nD) (t : Fin cfg1.N) : sProp 𝕄 :=
  iprop((dat (U := U) V O bnd c).Φ t.castSucc ∗ (dat (U := U) V O bnd c).owesAt none t.castSucc
    ∗ (∃ d, owns (c : Thread nD τ) (st1_0 t) fullShare ((dat (U := U) V O bnd c).before 0 t d))
    ∗ (∃ d, owns (c : Thread nD τ) (st1_1 t) fullShare ((dat (U := U) V O bnd c).before 1 t d))
    ∗ (∃ d, owns (c : Thread nD τ) (st1_2 t) fullShare ((dat (U := U) V O bnd c).before 2 t d))
    ∗ (∃ d, owns (c : Thread nD τ) (st1_3 t) fullShare ((dat (U := U) V O bnd c).before 3 t d))
    ∗ (∃ d, owns (c : Thread nD τ) (st1_4 t) fullShare ((dat (U := U) V O bnd c).before 4 t d))
    ∗ (∃ d, owns (c : Thread nD τ) (st1_5 t) fullShare ((dat (U := U) V O bnd c).before 5 t d))
    ∗ (∃ d, owns (c : Thread nD τ) (st1_6 t) fullShare ((dat (U := U) V O bnd c).before 6 t d)))

def bodyPost (c : Dev nD) (t : Fin cfg1.N) : sProp 𝕄 :=
  iprop((dat (U := U) V O bnd c).Φ t.succ ∗ (dat (U := U) V O bnd c).owesAt none t.succ
    ∗ owns (c : Thread nD τ) (st1_0 t) fullShare ((dat (U := U) V O bnd c).after 0 t)
    ∗ owns (c : Thread nD τ) (st1_1 t) fullShare ((dat (U := U) V O bnd c).after 1 t)
    ∗ owns (c : Thread nD τ) (st1_2 t) fullShare ((dat (U := U) V O bnd c).after 2 t)
    ∗ owns (c : Thread nD τ) (st1_3 t) fullShare ((dat (U := U) V O bnd c).after 3 t)
    ∗ owns (c : Thread nD τ) (st1_4 t) fullShare ((dat (U := U) V O bnd c).after 4 t)
    ∗ owns (c : Thread nD τ) (st1_5 t) fullShare ((dat (U := U) V O bnd c).after 5 t)
    ∗ owns (c : Thread nD τ) (st1_6 t) fullShare ((dat (U := U) V O bnd c).after 6 t))

theorem sound_body (c : Dev nD) (t : Fin cfg1.N) :
    bodyPre (U := U) V O bnd c t ⊢ wp frame (wpE (defs₀ (F := F)) Variants.none c none) Set.univ (bodyAt1 t) (fun _ => bodyPost (U := U) V O bnd c t) := by
  unfold bodyPre bodyPost bodyAt1
  simp only [before_0, before_1, before_2, before_3, before_4, before_5]
  rw [show (dat (U := U) V O bnd c).Φ t.succ = (dat (U := U) V O bnd c).Φ t.castSucc from rfl,
    show (dat (U := U) V O bnd c).owesAt none t.succ = (dat (U := U) V O bnd c).owesAt none t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid1.coords t) _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (U := U) V O bnd c) (defs₀ (F := F)) Variants.none none Set.univ := fun t => by
  rw [bigSep_W1, bigSep_W1]
  exact sound_body V O bnd c t

end Cert.KernelIdeal.TcRegion

end
-- ==== Proof.TcRegion.lean ====
/-
  The TensorCore call as one step of the main program: from the seven arrays it moves held whole (six inputs, one
  output), what the core owes and the staging cells' launch state, the call runs to the same arrays with the inputs
  unchanged and the output at what the thirty-two write-backs of the body's blocks leave. The staging cells' waits sit
  at the lowest level, below everything the core owes, so the pipeline's waits are always allowed.
-/
import proofs.«207697_g22892175687689_cont_8to1_1704_9_alg».proof.Proof.TcRegionBody
import Idealize.ShloMosaic.Lib.SparseCore.Launch
import Idealize.ShloMosaic.Lib.Pipeline.FrameBody
import Idealize.ShloMosaic.Lib.Tactic

set_option maxRecDepth 16384

noncomputable section

namespace Cert.KernelIdeal.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.SparseCore (T)
open Idealize.ShloMosaic.SparseCore.Cfg (HIx)

variable {F : FTy → Type} [FloatOps F] {U : Type} [URA U]

local notation "𝕄" => MT nD τ sig (HIx 1) (Elt F) ℕ U ℕ

variable (V : (c : Dev nD) → (b : Ref sig .tc) → Buf (Elt F) ((c.tc : Thread nD τ).loc b))
  (O : Dev nD → CellTallies nD τ sig (HIx 1)) (bnd : ℕ)

/-! ## The region -/

variable (EP : Emb (URounds (GSem nD τ sig) Unit) (MT nD τ sig (HIx 1) (Elt F) ℕ U ℕ))

/-- The one admissible contents of no prefetched table. -/
abbrev adm : (p : Fin 1) → (pcfgs (F := F) p).Adm := fun p => (cfgs p).toPCfg_adm

/-- What the TensorCore owes, its recorded pairs at levels at most the bound. -/
def owesB (c : Dev nD) : sProp 𝕄 := iprop(∃ W, ⌜(K (F := F)).WBelow (T c) W bnd⌝ ∗ owes (T c) (O c) W)

/-- The output array after every write-back. -/
def outV7 (c : Dev nD) : Buf (Elt F) ((c.tc : Thread nD τ).loc main_v7) := (dat (U := U) V O bnd c).arrAt 6 cfg1.N

/-- The seven arrays the region moves, whole, at contents G. -/
def arrsAt (c : Dev nD) (G : (w : Fin cfg1.W) → Buf (Elt F) ((c.tc : Thread nD τ).loc (Pipeline.arrRef spec1 w))) : sProp 𝕄 :=
  iprop((((c.tc : Thread nD τ).loc main_v1) ↦{fullShare} G 0) ∗ (((c.tc : Thread nD τ).loc main_v2) ↦{fullShare} G 1)
    ∗ (((c.tc : Thread nD τ).loc main_v3) ↦{fullShare} G 2) ∗ (((c.tc : Thread nD τ).loc main_v4) ↦{fullShare} G 3)
    ∗ (((c.tc : Thread nD τ).loc main_v5) ↦{fullShare} G 4) ∗ (((c.tc : Thread nD τ).loc main_v6) ↦{fullShare} G 5)
    ∗ (((c.tc : Thread nD τ).loc main_v7) ↦{fullShare} G 6))

/-- The seven arrays as the region finds them, -/
def arrsIn (c : Dev nD) : sProp 𝕄 :=
  iprop((((c.tc : Thread nD τ).loc main_v1) ↦{fullShare} V c main_v1) ∗ (((c.tc : Thread nD τ).loc main_v2) ↦{fullShare} V c main_v2)
    ∗ (((c.tc : Thread nD τ).loc main_v3) ↦{fullShare} V c main_v3) ∗ (((c.tc : Thread nD τ).loc main_v4) ↦{fullShare} V c main_v4)
    ∗ (((c.tc : Thread nD τ).loc main_v5) ↦{fullShare} V c main_v5) ∗ (((c.tc : Thread nD τ).loc main_v6) ↦{fullShare} V c main_v6)
    ∗ (((c.tc : Thread nD τ).loc main_v7) ↦{fullShare} V c main_v7))

/-- and as it leaves them: the inputs unchanged, the output at what the write-backs left. -/
def arrsOut (c : Dev nD) : sProp 𝕄 :=
  iprop((((c.tc : Thread nD τ).loc main_v1) ↦{fullShare} V c main_v1) ∗ (((c.tc : Thread nD τ).loc main_v2) ↦{fullShare} V c main_v2)
    ∗ (((c.tc : Thread nD τ).loc main_v3) ↦{fullShare} V c main_v3) ∗ (((c.tc : Thread nD τ).loc main_v4) ↦{fullShare} V c main_v4)
    ∗ (((c.tc : Thread nD τ).loc main_v5) ↦{fullShare} V c main_v5) ∗ (((c.tc : Thread nD τ).loc main_v6) ↦{fullShare} V c main_v6)
    ∗ (((c.tc : Thread nD τ).loc main_v7) ↦{fullShare} outV7 (U := U) V O bnd c))

theorem share_full (c : Dev nD) (w : Fin cfg1.W) : (dat (U := U) V O bnd c).share w = fullShare :=
  (dat (U := U) V O bnd c).share_full (fun _ => rfl) w

theorem arrays_eq7 (c : Dev nD) (G : (w : Fin cfg1.W) → Buf (Elt F) ((c.tc : Thread nD τ).loc (Pipeline.arrRef spec1 w))) :
    (dat (U := U) V O bnd c).arrays G = arrsAt (U := U) c G := by
  rw [Pipeline.arrays_eq cfgs (dats (U := U) V O bnd) 0 c arr_whole1 (share_full (U := U) V O bnd c) G, bigSep_W1]
  rfl

theorem arrAt_in0 (c : Dev nD) (n : ℕ) : (dat (U := U) V O bnd c).arrAt 0 n = V c main_v1 := ((dat (U := U) V O bnd c).arrAt_in 0 rfl n).trans (A_eq V O bnd c 0)
theorem arrAt_in1 (c : Dev nD) (n : ℕ) : (dat (U := U) V O bnd c).arrAt 1 n = V c main_v2 := ((dat (U := U) V O bnd c).arrAt_in 1 rfl n).trans (A_eq V O bnd c 1)
theorem arrAt_in2 (c : Dev nD) (n : ℕ) : (dat (U := U) V O bnd c).arrAt 2 n = V c main_v3 := ((dat (U := U) V O bnd c).arrAt_in 2 rfl n).trans (A_eq V O bnd c 2)
theorem arrAt_in3 (c : Dev nD) (n : ℕ) : (dat (U := U) V O bnd c).arrAt 3 n = V c main_v4 := ((dat (U := U) V O bnd c).arrAt_in 3 rfl n).trans (A_eq V O bnd c 3)
theorem arrAt_in4 (c : Dev nD) (n : ℕ) : (dat (U := U) V O bnd c).arrAt 4 n = V c main_v5 := ((dat (U := U) V O bnd c).arrAt_in 4 rfl n).trans (A_eq V O bnd c 4)
theorem arrAt_in5 (c : Dev nD) (n : ℕ) : (dat (U := U) V O bnd c).arrAt 5 n = V c main_v6 := ((dat (U := U) V O bnd c).arrAt_in 5 rfl n).trans (A_eq V O bnd c 5)

theorem arrsAt_in (c : Dev nD) : arrsAt (U := U) c ((dat (U := U) V O bnd c).arrAt · 0) = arrsIn (U := U) V c := by
  unfold arrsAt arrsIn
  beta_reduce
  rw [arrAt_in0, arrAt_in1, arrAt_in2, arrAt_in3, arrAt_in4, arrAt_in5]
  rfl

theorem arrsAt_out (c : Dev nD) : arrsAt (U := U) c ((dat (U := U) V O bnd c).arrAt · cfg1.N) = arrsOut (U := U) V O bnd c := by
  unfold arrsAt arrsOut outV7
  beta_reduce
  rw [arrAt_in0, arrAt_in1, arrAt_in2, arrAt_in3, arrAt_in4, arrAt_in5]

theorem hin_ (c : Dev nD) : iprop((iprop(emp) : sProp 𝕄) ∗ Pipeline.prefHeld (pcfgs (F := F) 0).pre c (fun _ => fullShare) (adm (F := F) 0).1 ∗ Pipeline.scopedRest (Pipeline.pin (pcfgs (F := F)) adm 0).spec c) ⊢ (dats (U := U) V O bnd 0 c).Φ 0 := by
  dsimp only [dats, dat]
  iintro ⟨-, -, H⟩; iexact H

theorem hout_ (c : Dev nD) : (dats (U := U) V O bnd 0 c).Φ (Fin.last (Pipeline.pin (pcfgs (F := F)) adm 0).N) ⊢ iprop((iprop(emp) : sProp 𝕄) ∗ Pipeline.ownSems0 (fun k : PEmpty => k.elim) c ∗ Pipeline.scopedRest (Pipeline.pin (pcfgs (F := F)) adm 0).spec c) := by
  dsimp only [dats, dat]
  rw [Pipeline.ownSems0_none]
  iintro H
  isplitr; · iempintro
  isplitr; · iempintro
  iexact H

theorem prefHeld_none (c : Dev nD) :
    (Pipeline.prefHeld (pcfgs (F := F) 0).pre c (fun _ => fullShare) (adm (F := F) 0).1 : sProp 𝕄) = iprop(emp) := by
  unfold Pipeline.prefHeld
  exact bigSep_empty

/-- The region's record: its windows' and staging semaphores' facts, the proof data, and how the region is entered and left. -/
def seg (lv : GSem nD τ sig → HIx 1 → ℕ) (hlv : (K (F := F)).Refines lv) (hO : ∀ c g, O c g none = 0) :
    Pipeline.RegionSeg (pcfgs (F := F)) adm (dats (U := U) V O bnd) none defs₀ 𝒱₀ (K (F := F)).L lv 0 where
  win := winFacts1.to₀
  block_pos := block_pos1
  stage_whole := stage_whole1
  K := PEmpty
  osem := fun k => k.elim
  ho := Pipeline.OwnSemFacts.none _
  hbody := fun c => (body_obligation (U := U) V O bnd c).loose
  hwaits := fun c => Pipeline.cellsWaits_intro cfgs (dats (U := U) V O bnd) none 0 c fun w s t =>
    (K (F := F)).mayWait_none _ (hO c) lv hlv
  pre := fun c => iprop(owesB (U := U) O bnd c ∗ arrsIn (U := U) V c)
  post := fun c => iprop(owesB (U := U) O bnd c ∗ arrsOut (U := U) V O bnd c)
  X := fun _ => iprop(emp)
  Y := fun _ => iprop(emp)
  Z := fun _ => iprop(emp)
  hentry := fun c => by
    rw [prefHeld_none]
    refine .trans ?_ (fupd_mono (sep_mono (Entails.of_eq ((arrays_eq7 (U := U) V O bnd c _).trans (arrsAt_in (U := U) V O bnd c)).symm) .rfl))
    unfold owesB
    iintro ⟨⟨⟨%W, %hW, Ho⟩, Ha⟩, -, -⟩
    imodintro
    isplitl [Ha]; · iexact Ha
    isplitr; · iempintro
    isplitl [Ho]
    · iexists W; isplitr
      · ipureintro; exact fun p hp => Or.inl (hW p (Finset.mem_coe.mp hp))
      iexact Ho
    isplitr <;> iempintro
  hin := fun c => hin_ (U := U) V O bnd c
  hout := fun c => hout_ (U := U) V O bnd c
  hexit := fun c => by
    refine .trans (sep_mono (Entails.of_eq ((arrays_eq7 (U := U) V O bnd c _).trans (arrsAt_out (U := U) V O bnd c))) .rfl) ?_
    unfold owesB
    iintro ⟨Ha, ⟨%W, %hW, Ho⟩, -, -⟩
    imodintro
    isplitl [Ho]
    · iexists W; isplitr
      · ipureintro
        intro p hp
        rcases hW (Finset.mem_coe.mpr hp) with h | ⟨w, s, rfl⟩
        · exact h
        · exact Nat.zero_le _
      iexact Ho
    iexact Ha

set_option maxHeartbeats 1000000 in
set_option backward.isDefEq.respectTransparency.types false in
theorem region_wp [EP.LandsIn (upEmb : UEmb _ 𝕄)] (lv : GSem nD τ sig → HIx 1 → ℕ) (hlv : (K (F := F)).Refines lv)
    (hO : ∀ c g, O c g none = 0) (d : Dev nD) (Φ : PUnit → sProp 𝕄) :
    iprop(levAts (K (F := F)).L lv ∗ boundary (T d) ∗ owesB (U := U) O bnd d ∗ arrsIn (U := U) V d
        ∗ Pipeline.cellsGhost cfgs EP 0 d ∗ Pipeline.toksInit cfgs EP 0 d
        ∗ (iprop(boundary (T d) ∗ owesB (U := U) O bnd d ∗ arrsOut (U := U) V O bnd d) -∗ Φ ⟨⟩))
      ⊢ wp frame (wpE ((K (F := F)).defs (D (F := F))) 𝒱 (T d) none) Set.univ
          (Prog.lift (.customCall (SparseCore.inner (Pipeline.entry 0)) ())) Φ := by
  classical
  have hR := Pipeline.RegionSeg.wp (pcfgs (F := F)) adm (dats (U := U) V O bnd) none cellOf_inj EP defs₀ 𝒱₀ (K (F := F)).L lv
    (seg (U := U) V O bnd lv hlv hO) d none (fun _ h => nomatch h) (fun _ => .ret ⟨⟩) Φ
  have hL := (K (F := F)).wp_liftProg (Name := ℕ) (U := U) (D (F := F)) 𝒱 (T d) Set.univ none (Prog.lift (.customCall (Pipeline.entry 0) ())) Φ
  refine .trans ?_ hL
  refine .trans ?_ hR
  dsimp only [seg]
  iintro ⟨Hl, Hb, Ho, Ha, Hg, Ht, Hk⟩
  isplitl [Hk]
  · iintro ⟨Hb, Ho, Ha⟩
    rw [wp_ret]; imodintro
    iapply Hk
    isplitl [Hb]; · iexact Hb
    isplitl [Ho] <;> iassumption
  isplitl [Hb]; · iexact Hb
  isplitl [Ho Ha]
  · isplitl [Ho] <;> iassumption
  isplitl [Hl]; · iexact Hl
  isplitl [Hg] <;> iassumption

end Cert.KernelIdeal.TcRegion

end
-- ==== Proof.ScVals.lean ====
/-
  The sixteen arrays' contents along the main program, step by step.

  V0 is the launch memory; V1 after the index argument's reshape to [512, 128]; V2 after the gather (the result rows at
  the gathered array); V3 after the position table's slice, the projection matrix's transpose and the three channel
  vectors' reshapes into columns; V4 after the TensorCore call (its output at what the block write-backs leave); V5
  after the final transpose. Each step rewrites one array from the others and leaves the rest.
-/
import proofs.«207697_g22892175687689_cont_8to1_1704_9_alg».proof.Proof.ScLaunch
import proofs.«207697_g22892175687689_cont_8to1_1704_9_alg».proof.Proof.TcHeld
import proofs.«207697_g22892175687689_cont_8to1_1704_9_alg».proof.Proof.TcRegion

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S512x128 EltTy.i32)
local notation "tV" => (Memref.whole Cert.KernelIdeal.main_arg1_scv : Memref Cert.KernelIdeal.sig Kind.scVector Space.hbm Cert.KernelIdeal.S30522x128 EltTy.f32)
local notation "oV" => (Memref.whole Cert.KernelIdeal.main_v1_scv : Memref Cert.KernelIdeal.sig Kind.scVector Space.hbm Cert.KernelIdeal.S65536x128 EltTy.f32)
local notation "sI" => (Memref.whole Cert.KernelIdeal.cc0_scratch0 : Memref Cert.KernelIdeal.sig Kind.scVector Space.vmem Cert.KernelIdeal.S16x128 EltTy.i32)
local notation "sR" => (Memref.whole Cert.KernelIdeal.cc0_scratch1 : Memref Cert.KernelIdeal.sig Kind.scVector Space.vmem Cert.KernelIdeal.S2x128x128 EltTy.f32)

variable (m : (ℓ : Loc nD τ sig) → Buf (Elt F) ℓ)

variable [FloatOps F] [∀ e, Nonempty (Elt F e)]

/-- At the launch. -/
abbrev V0 (d : Dev nD) : Valuation τ sig (Elt F) := fun b => m (d, b)
/-- After the index argument's reshape. -/
abbrev V1 (d : Dev nD) : Valuation τ sig (Elt F) := (op0 (F := F)).result (V0 m d)
/-- After the gather: the result rows at the gathered array. -/
abbrev V2 (d : Dev nD) : Valuation τ sig (Elt F) := Function.update (V1 m d) (r main_v1) (Gd m d)
/-- After the slice, the transpose and the three reshapes. -/
abbrev V3 (d : Dev nD) : Valuation τ sig (Elt F) :=
  (op6 (F := F)).result ((op5 (F := F)).result ((op4 (F := F)).result ((op3 (F := F)).result ((op2 (F := F)).result (V2 m d)))))
/-- The same as a family over the devices' references. -/
abbrev Vreg (d : Dev nD) (b : Ref sig .tc) : Buf (Elt F) ((d.tc : Thread nD τ).loc b) := V3 m d (r b)
/-- What the TensorCore owes before call 1 (nothing: there is one call). -/
abbrev Otc1 : Dev nD → CellTallies nD τ sig (HIx 1) := fun c => (K (F := F)).Otc c 1
/-- The TensorCore call's output array. -/
abbrev tcOutV (d : Dev nD) : Buf (Elt F) ((d.tc : Thread nD τ).loc main_v7) :=
  Cert.KernelIdeal.TcRegion.outV7 (U := UU) (Vreg m) (Otc1 (F := F)) (8 * 1) d
/-- After the TensorCore call. -/
abbrev V4 (d : Dev nD) : Valuation τ sig (Elt F) := Function.update (V3 m d) (r main_v7) (tcOutV m d)
/-- After the final transpose. -/
abbrev V5 (d : Dev nD) : Valuation τ sig (Elt F) := (op8 (F := F)).result (V4 m d)

end Cert.KernelIdeal.Sc
end
-- ==== Proof.ScValsFacts.lean ====
/-
  What the sixteen arrays hold at each step of the main program, read at single arrays. Each host operation rewrites
  its result array from its operand and leaves every other array; the gather rewrites the gathered array; the
  TensorCore call rewrites its output. So the reshaped indices, the table and the gathered array are what the steps
  say they are, the arrays outside a step are carried over, and the seven arguments, which no step writes, hold their
  launch contents to the end.
-/
import proofs.«207697_g22892175687689_cont_8to1_1704_9_alg».proof.Proof.ScVals

set_option maxRecDepth 16384

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.StableHlo (unary_result reshape_result unary_result_ne reshape_result_ne)

variable {F : FTy → Type}

local notation "𝕄" => MT nD τ sig (HIx 1) (Elt F) ℕ UU ℕ

section Ops
variable [FloatOps F] (W : Valuation τ sig (Elt F))

/-! ## Each host operation's result, and what it leaves alone -/

theorem op0_res : (op0 (F := F)).result W (r main_v0) = shapeCast S512x128 (W (r main_arg0)) shapeCasts_S128x512_S512x128 := by
  rw [reshape_result]; rfl
theorem op0_ne (x : Ref sig .tc) (h : x ≠ main_v0) : (op0 (F := F)).result W (r x) = W (r x) := reshape_result_ne _ _ _ _ _ _ W h
theorem op2_res : (op2 (F := F)).result W (r main_v2) = extractStridedSlice S512x128 ![0, 0] (W (r main_arg2)) slices_S519x128_S512x128_0_0 := by
  rw [unary_result]
theorem op2_ne (x : Ref sig .tc) (h : x ≠ main_v2) : (op2 (F := F)).result W (r x) = W (r x) := unary_result_ne _ _ _ _ _ W h
theorem op3_res : (op3 (F := F)).result W (r main_v3) = transpose S480x128 [1, 0] (W (r main_arg3)) transposes_S128x480_S480x128_1_0 := by
  rw [unary_result]
theorem op3_ne (x : Ref sig .tc) (h : x ≠ main_v3) : (op3 (F := F)).result W (r x) = W (r x) := unary_result_ne _ _ _ _ _ W h
theorem op4_res : (op4 (F := F)).result W (r main_v4) = shapeCast S480x1 (W (r main_arg4)) shapeCasts_S480_S480x1 := by
  rw [reshape_result]; rfl
theorem op4_ne (x : Ref sig .tc) (h : x ≠ main_v4) : (op4 (F := F)).result W (r x) = W (r x) := reshape_result_ne _ _ _ _ _ _ W h
theorem op5_res : (op5 (F := F)).result W (r main_v5) = shapeCast S480x1 (W (r main_arg5)) shapeCasts_S480_S480x1 := by
  rw [reshape_result]; rfl
theorem op5_ne (x : Ref sig .tc) (h : x ≠ main_v5) : (op5 (F := F)).result W (r x) = W (r x) := reshape_result_ne _ _ _ _ _ _ W h
theorem op6_res : (op6 (F := F)).result W (r main_v6) = shapeCast S480x1 (W (r main_arg6)) shapeCasts_S480_S480x1 := by
  rw [reshape_result]; rfl
theorem op6_ne (x : Ref sig .tc) (h : x ≠ main_v6) : (op6 (F := F)).result W (r x) = W (r x) := reshape_result_ne _ _ _ _ _ _ W h
theorem op8_res : (op8 (F := F)).result W (r main_v8)
    = transpose S128x512x480 [0, 2, 1] (W (r main_v7)) transposes_S128x480x512_S128x512x480_0_2_1 := by
  rw [unary_result]
theorem op8_ne (x : Ref sig .tc) (h : x ≠ main_v8) : (op8 (F := F)).result W (r x) = W (r x) := unary_result_ne _ _ _ _ _ W h

end Ops

variable (m : (ℓ : Loc nD τ sig) → Buf (Elt F) ℓ)

variable [FloatOps F] [∀ e, Nonempty (Elt F e)]

/-! ## After the reshape and after the gather -/

theorem V1_v0 (d : Dev nD) : V1 m d (r main_v0) = fiOf m d :=
  (op0_res (V0 m d)).trans rfl
theorem V1_arg1 (d : Dev nD) : V1 m d (r main_arg1) = m (tLoc d) :=
  (op0_ne (V0 m d) main_arg1 (by decide)).trans rfl
theorem V1_v1 (d : Dev nD) : V1 m d (r main_v1) = m (oLoc d) :=
  (op0_ne (V0 m d) main_v1 (by decide)).trans rfl

theorem V2_v0 (d : Dev nD) : V2 m d (r main_v0) = fiOf m d := by
  unfold V2; rw [Function.update_of_ne (by decide)]; exact V1_v0 m d
theorem V2_arg1 (d : Dev nD) : V2 m d (r main_arg1) = m (tLoc d) := by
  unfold V2; rw [Function.update_of_ne (by decide)]; exact V1_arg1 m d
theorem V2_v1 (d : Dev nD) : V2 m d (r main_v1) = Gd m d := by
  unfold V2; exact Function.update_self _ _ _
theorem V2_rest (d : Dev nD) : ∀ b ∈ SU \ {r main_v0, r main_arg1, r main_v1}, V2 m d b = V1 m d b := by
  intro b hb
  have hne : b ≠ r main_v1 := by
    intro h; subst h
    exact (Finset.mem_sdiff.mp hb).2 (by simp)
  unfold V2; exact Function.update_of_ne hne _ _

/-! ## After the TensorCore call -/

theorem V4_v7 (d : Dev nD) : V4 m d (r main_v7) = tcOutV m d := by
  unfold V4; exact Function.update_self _ _ _
theorem V4_keep (d : Dev nD) (b : DevRef τ sig) (h : b ≠ r main_v7) : V4 m d b = V3 m d b := by
  unfold V4; exact Function.update_of_ne h _ _

/-! ## No step writes an argument -/

/-- An array that is no operation's result and not the gathered array holds its launch contents at the end of the
    host operations before the call. -/
theorem V3_of_ne (d : Dev nD) (x : Ref sig .tc) (h0 : x ≠ main_v0) (h1 : r x ≠ r main_v1) (h2 : x ≠ main_v2) (h3 : x ≠ main_v3)
    (h4 : x ≠ main_v4) (h5 : x ≠ main_v5) (h6 : x ≠ main_v6) : V3 m d (r x) = m (d, r x) := by
  unfold V3
  rw [op6_ne _ _ h6, op5_ne _ _ h5, op4_ne _ _ h4, op3_ne _ _ h3, op2_ne _ _ h2]
  unfold V2
  rw [Function.update_of_ne h1]
  exact (op0_ne (V0 m d) x h0).trans rfl

theorem V5_of_ne (d : Dev nD) (x : Ref sig .tc) (h0 : x ≠ main_v0) (h1 : r x ≠ r main_v1) (h2 : x ≠ main_v2) (h3 : x ≠ main_v3)
    (h4 : x ≠ main_v4) (h5 : x ≠ main_v5) (h6 : x ≠ main_v6) (h7 : r x ≠ r main_v7) (h8 : x ≠ main_v8) : V5 m d (r x) = m (d, r x) := by
  unfold V5
  rw [op8_ne _ _ h8, V4_keep m d _ h7]
  exact V3_of_ne m d x h0 h1 h2 h3 h4 h5 h6

theorem V5_arg0 (d : Dev nD) : V5 m d (r main_arg0) = m ((d.tc : Thread nD τ).loc main_arg0) :=
  V5_of_ne m d main_arg0 (by decide) (by decide) (by decide) (by decide) (by decide) (by decide) (by decide) (by decide) (by decide)
theorem V5_arg1 (d : Dev nD) : V5 m d (r main_arg1) = m ((d.tc : Thread nD τ).loc main_arg1) :=
  V5_of_ne m d main_arg1 (by decide) (by decide) (by decide) (by decide) (by decide) (by decide) (by decide) (by decide) (by decide)
theorem V5_arg2 (d : Dev nD) : V5 m d (r main_arg2) = m ((d.tc : Thread nD τ).loc main_arg2) :=
  V5_of_ne m d main_arg2 (by decide) (by decide) (by decide) (by decide) (by decide) (by decide) (by decide) (by decide) (by decide)
theorem V5_arg3 (d : Dev nD) : V5 m d (r main_arg3) = m ((d.tc : Thread nD τ).loc main_arg3) :=
  V5_of_ne m d main_arg3 (by decide) (by decide) (by decide) (by decide) (by decide) (by decide) (by decide) (by decide) (by decide)
theorem V5_arg4 (d : Dev nD) : V5 m d (r main_arg4) = m ((d.tc : Thread nD τ).loc main_arg4) :=
  V5_of_ne m d main_arg4 (by decide) (by decide) (by decide) (by decide) (by decide) (by decide) (by decide) (by decide) (by decide)
theorem V5_arg5 (d : Dev nD) : V5 m d (r main_arg5) = m ((d.tc : Thread nD τ).loc main_arg5) :=
  V5_of_ne m d main_arg5 (by decide) (by decide) (by decide) (by decide) (by decide) (by decide) (by decide) (by decide) (by decide)
theorem V5_arg6 (d : Dev nD) : V5 m d (r main_arg6) = m ((d.tc : Thread nD τ).loc main_arg6) :=
  V5_of_ne m d main_arg6 (by decide) (by decide) (by decide) (by decide) (by decide) (by decide) (by decide) (by decide) (by decide)

end Cert.KernelIdeal.Sc

end
-- ==== Proof.ScMain.lean ====
/-
  The main program on the TensorCore, and the whole program's run.

  The main program reshapes the index argument, calls the SparseCore gather, slices the position table, transposes
  the projection matrix, reshapes the three channel vectors into columns, calls the TensorCore kernel and transposes
  its result. Its proof follows the sixteen arrays' contents through these steps: the gather needs the reshaped
  indices, the table and the result rows and returns the result rows gathered; the TensorCore call needs its seven
  arrays and returns the output at what its thirty-two block write-backs leave; every host operation rewrites one
  array from the others. The seven arguments are never written, so they end unchanged, and the result is the final
  transpose of the TensorCore call's output.
-/
import proofs.«207697_g22892175687689_cont_8to1_1704_9_alg».proof.Proof.ScLaunch
import proofs.«207697_g22892175687689_cont_8to1_1704_9_alg».proof.Proof.ScVals
import proofs.«207697_g22892175687689_cont_8to1_1704_9_alg».proof.Proof.ScValsFacts
import proofs.«207697_g22892175687689_cont_8to1_1704_9_alg».proof.Proof.TcHeld
import proofs.«207697_g22892175687689_cont_8to1_1704_9_alg».proof.Proof.TcRegion
import proofs.«207697_g22892175687689_cont_8to1_1704_9_alg».proof.Proof.Gen.KernelIdeal.Launch
import Idealize.ShloMosaic.Lib.Pipeline.Sound

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S512x128 EltTy.i32)
local notation "tV" => (Memref.whole Cert.KernelIdeal.main_arg1_scv : Memref Cert.KernelIdeal.sig Kind.scVector Space.hbm Cert.KernelIdeal.S30522x128 EltTy.f32)
local notation "oV" => (Memref.whole Cert.KernelIdeal.main_v1_scv : Memref Cert.KernelIdeal.sig Kind.scVector Space.hbm Cert.KernelIdeal.S65536x128 EltTy.f32)
local notation "sI" => (Memref.whole Cert.KernelIdeal.cc0_scratch0 : Memref Cert.KernelIdeal.sig Kind.scVector Space.vmem Cert.KernelIdeal.S16x128 EltTy.i32)
local notation "sR" => (Memref.whole Cert.KernelIdeal.cc0_scratch1 : Memref Cert.KernelIdeal.sig Kind.scVector Space.vmem Cert.KernelIdeal.S2x128x128 EltTy.f32)

variable (m : (ℓ : Loc nD τ sig) → Buf (Elt F) ℓ) (ρ : Dev nD → PrngReg)

/-! ## The launch element -/

/-- The launch element: the handshakes' rounds, the TensorCore pipeline's staging cells' rounds, no counter. -/
def u₀ : UU := (initOf (K (F := F)).hsCells (K (F := F)).hsToks, (initOf (Pipeline.cells cfgs cellOf_inj) (Pipeline.launchToks cfgs cellOf_inj), 1))

theorem ownU_split (a : UH) (b : UP) : (ownU ((a, (b, (1 : Counters))) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} (s : Finset I) : (bigSep s fun _ => iprop(emp)) = (iprop(emp) : sProp 𝕄) := bigSep_emp_const s

/-- What the main program's proof starts from beside the launch's deal: the pipeline's cells' ghost state and duty tokens. -/
def G (d : Dev nD) : sProp 𝕄 := iprop(Pipeline.cellsGhost cfgs EP 0 d ∗ Pipeline.toksInit cfgs EP 0 d)

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost cfgs EP cellOf_inj) $$ HP with ⟨Hg, Ht⟩
  imodintro
  isplitl [HH]; · iexact HH
  isplitl [Hg Ht]
  · unfold G
    rw [bigSep_sep']
    have e1 : (bigSep Finset.univ fun c : Dev nD => bigSep Finset.univ fun p : Fin 1 => (Pipeline.cellsGhost cfgs (EP (F := F)) p c : sProp 𝕄))
        = bigSep Finset.univ fun c : Dev nD => (Pipeline.cellsGhost cfgs (EP (F := F)) 0 c : sProp 𝕄) :=
      bigSep_congr fun c _ => bigSep_univ_of_subsingleton (0 : Fin 1)
    have e2 : (bigSep Finset.univ fun c : Dev nD => bigSep Finset.univ fun p : Fin 1 => (Pipeline.toksInit cfgs (EP (F := F)) p c : sProp 𝕄))
        = bigSep Finset.univ fun c : Dev nD => (Pipeline.toksInit cfgs (EP (F := F)) 0 c : sProp 𝕄) :=
      bigSep_congr fun c _ => bigSep_univ_of_subsingleton (0 : Fin 1)
    isplitl [Hg]
    · ihave Hg' := (Entails.of_eq e1) $$ Hg
      iexact Hg'
    · ihave Ht' := (Entails.of_eq e2) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

variable [∀ e, Nonempty (Elt F e)]

/-! ## The SparseCore call's operands, whole -/

omit [∀ e, Nonempty (Elt F e)] in
theorem bigSep_cores (Φ : Fin (grid0.bound 0) → sProp 𝕄) :
    (bigSep Finset.univ fun c : Fin ((K (F := F)).nCore 0) => Φ (Fin.cast (nCore_zero.trans bound_zero.symm) c)) = bigSep Finset.univ Φ :=
  bigSep_congr fun _ _ => congrArg Φ (Fin.ext rfl)

omit [∀ e, Nonempty (Elt F e)] in
/-- What the call takes for the two SparseCores is the three arrays whole, -/
theorem st0_eq (d : Dev nD) : (bigSep Finset.univ fun c : Fin ((K (F := F)).nCore 0) => (P m).st 0 d c)
    = iprop((iLoc d ↦{fullShare} fiOf m d) ∗ (tLoc d ↦{fullShare} m (tLoc d)) ∗ (oLoc d ↦{fullShare} m (oLoc d))) := by
  show (bigSep Finset.univ fun c : Fin ((K (F := F)).nCore 0) => bigSep Finset.univ fun i : Fin (grid0.bound 1) =>
    tilePts d (Fin.cast (nCore_zero.trans bound_zero.symm) c) i (fiOf m d) (m (tLoc d)) (m (oLoc d))) = _
  rw [bigSep_cores (F := F) (fun c => bigSep Finset.univ fun i : Fin (grid0.bound 1) => tilePts d c i (fiOf m d) (m (tLoc d)) (m (oLoc d))), ← split_call]

omit [∀ e, Nonempty (Elt F e)] in
/-- and what it hands back the same with the result rows gathered. -/
theorem dn0_eq (d : Dev nD) : (bigSep Finset.univ fun c : Fin ((K (F := F)).nCore 0) => (P m).dn 0 d c)
    = iprop((iLoc d ↦{fullShare} fiOf m d) ∗ (tLoc d ↦{fullShare} m (tLoc d)) ∗ (oLoc d ↦{fullShare} Gd m d)) := by
  show (bigSep Finset.univ fun c : Fin ((K (F := F)).nCore 0) => bigSep Finset.univ fun i : Fin (grid0.bound 1) =>
    tilePts d (Fin.cast (nCore_zero.trans bound_zero.symm) c) i (fiOf m d) (m (tLoc d)) (Gd m d)) = _
  rw [bigSep_cores (F := F) (fun c => bigSep Finset.univ fun i : Fin (grid0.bound 1) => tilePts d c i (fiOf m d) (m (tLoc d)) (Gd m d)), ← split_call]

/-! ## The main program -/

/-- What the main program leaves: the sixteen arrays at their final contents. -/
abbrev FIN (d : Dev nD) : sProp 𝕄 := held (T d) SU (V5 m d)

theorem hO1 : ∀ (c : Dev nD) g, Otc1 (F := F) c g none = 0 := fun c g => by
  unfold Otc1; rw [(K (F := F)).Otc_end c le_rfl]; rfl

set_option maxHeartbeats 2000000 in
set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg⟩
  -- the index argument's reshape
  iapply (wp_hlo_within 𝒱 (SparseCore.T d) none Set.univ (op := op0 (F := F)) (S := SU) op0_sub (V := V0 m d)) $$ [Hb Hheld]
  · isplitl [Hb]; · iexact Hb
    iexact Hheld
  iintro ⟨Hb, Hheld⟩
  rw [wp_ret]; imodintro
  -- the gather: the reshaped indices, the table and the result rows go to the SparseCores and come back
  ihave H3 := (Entails.of_eq (held_sc (F := F) d (V1 m d))) $$ Hheld
  icases H3 with ⟨Hi, Htab, Ho, Hrest⟩
  iapply ((K (F := F)).wp_run (D (F := F)) 𝒱 (EH := EH) (P := P m) κ d 0) $$ [Hst Hi Htab Ho Hb Hrest Hg]
  isplitr; · iexact Hctx
  isplitl [Hst]; · iexact Hst
  isplitl [Hi Htab Ho]
  · rw [st0_eq]
    isplitl [Hi]; · rw [← V1_v0 m d]; iexact Hi
    isplitl [Htab]; · rw [← V1_arg1 m d]; iexact Htab
    rw [← V1_v1 m d]; iexact Ho
  iintro ⟨Hst, Hdn⟩
  ihave Hdn' := (Entails.of_eq (dn0_eq m d)) $$ Hdn
  icases Hdn' with ⟨Hi, Htab, Ho⟩
  ihave Hheld := (Entails.of_eq (held_sc (F := F) d (V2 m d)).symm) $$ [Hi Htab Ho Hrest]
  · rw [V2_v0, V2_arg1, V2_v1, StableHlo.held_congr (SparseCore.T d) (V2_rest m d)]
    isplitl [Hi]; · iexact Hi
    isplitl [Htab]; · iexact Htab
    isplitl [Ho]; · iexact Ho
    iexact Hrest
  -- the position table's slice, the projection matrix's transpose, the three channel vectors' reshapes
  iapply (wp_hlo_within 𝒱 (SparseCore.T d) none Set.univ (op := op2 (F := F)) (S := SU) op2_sub (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := SU) op3_sub (V := (op2 (F := F)).result (V2 m d))) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := SU) op4_sub (V := (op3 (F := F)).result ((op2 (F := F)).result (V2 m d)))) $$ [Hb Hheld]
  · isplitl [Hb]; · iexact Hb
    iexact Hheld
  iintro ⟨Hb, Hheld⟩
  rw [wp_ret]; imodintro
  iapply (wp_hlo_within 𝒱 (SparseCore.T d) none Set.univ (op := op5 (F := F)) (S := SU) op5_sub (V := (op4 (F := F)).result ((op3 (F := F)).result ((op2 (F := F)).result (V2 m d))))) $$ [Hb Hheld]
  · isplitl [Hb]; · iexact Hb
    iexact Hheld
  iintro ⟨Hb, Hheld⟩
  rw [wp_ret]; imodintro
  iapply (wp_hlo_within 𝒱 (SparseCore.T d) none Set.univ (op := op6 (F := F)) (S := SU) op6_sub (V := (op5 (F := F)).result ((op4 (F := F)).result ((op3 (F := F)).result ((op2 (F := F)).result (V2 m d)))))) $$ [Hb Hheld]
  · isplitl [Hb]; · iexact Hb
    iexact Hheld
  iintro ⟨Hb, Hheld⟩
  rw [wp_ret]; imodintro
  -- the TensorCore call: its seven arrays, what the core owes, the staging cells' launch state
  ihave H7 := (Entails.of_eq (held_region (F := F) d (V3 m d))) $$ Hheld
  icases H7 with ⟨A1, A2, A3, A4, A5, A6, A7, Hrest⟩
  unfold SparseCore.Cfg.tcSt
  icases Hst with ⟨Howes, Htail⟩
  unfold G
  icases Hg with ⟨Hcg, Hti⟩
  ihave Hlv := ((K (F := F)).ctx_levAts κ) $$ Hctx
  iapply (Cert.KernelIdeal.TcRegion.region_wp (U := UU) (Vreg m) (Otc1 (F := F)) (8 * 1) EP (K (F := F)).lev (by sl_refines_lev) (hO1 (F := F)) d _) $$ [Hlv Hb Howes A1 A2 A3 A4 A5 A6 A7 Hcg Hti Hrest Htail]
  isplitl [Hlv]; · iexact Hlv
  isplitl [Hb]; · iexact Hb
  isplitl [Howes]; · unfold Cert.KernelIdeal.TcRegion.owesB; iexact Howes
  isplitl [A1 A2 A3 A4 A5 A6 A7]
  · unfold Cert.KernelIdeal.TcRegion.arrsIn
    isplitl [A1]; · iexact A1
    isplitl [A2]; · iexact A2
    isplitl [A3]; · iexact A3
    isplitl [A4]; · iexact A4
    isplitl [A5]; · iexact A5
    isplitl [A6]; · iexact A6
    iexact A7
  isplitl [Hcg]; · iexact Hcg
  isplitl [Hti]; · iexact Hti
  iintro ⟨Hb, Howes, Harr⟩
  unfold Cert.KernelIdeal.TcRegion.arrsOut
  icases Harr with ⟨A1, A2, A3, A4, A5, A6, A7⟩
  ihave Hheld := (Entails.of_eq (held_region (F := F) d (V4 m d)).symm) $$ [A1 A2 A3 A4 A5 A6 A7 Hrest]
  · rw [V4_keep m d (r main_v1) (by decide), V4_keep m d (r main_v2) (by decide), V4_keep m d (r main_v3) (by decide), V4_keep m d (r main_v4) (by decide),
      V4_keep m d (r main_v5) (by decide), V4_keep m d (r main_v6) (by decide), V4_v7,
      StableHlo.held_congr (SparseCore.T d) (fun b hb => V4_keep m d b (fun e => by subst e; simp at hb))]
    isplitl [A1]; · iexact A1
    isplitl [A2]; · iexact A2
    isplitl [A3]; · iexact A3
    isplitl [A4]; · iexact A4
    isplitl [A5]; · iexact A5
    isplitl [A6]; · iexact A6
    isplitl [A7]; · iexact A7
    iexact Hrest
  -- the final transpose
  iapply (wp_hlo_within 𝒱 (SparseCore.T d) none Set.univ (op := op8 (F := F)) (S := SU) op8_sub (V := V4 m d)) $$ [Hb Hheld]
  · isplitl [Hb]; · iexact Hb
    iexact Hheld
  iintro ⟨Hb, Hheld⟩
  rw [wp_ret]; imodintro
  imodintro
  isplitl [Howes Htail]
  · isplitl [Howes]; · unfold Cert.KernelIdeal.TcRegion.owesB; iexact Howes
    iexact Htail
  iexact Hheld

/-! ## The whole program's run -/

/-- What the final state holds on device `d`: the result array, and the seven arguments as launched. -/
def fq (d : Dev nD) (s' : Phys nD τ sig (Elt F)) : Prop :=
  s'.mem.mem ((d.tc : Thread nD τ).loc main_v8) = V5 m d (r main_v8)
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)
    ∧ s'.mem.mem ((d.tc : Thread nD τ).loc main_arg6) = m ((d.tc : Thread nD τ).loc main_arg6)

theorem hfin (d : Dev nD) (s' : Phys nD τ sig (Elt F)) : iprop(FIN m d ∗ SI s') ⊢ (⌜fq m d s'⌝ : sProp 𝕄) := by
  refine (hfin8 (F := F) d (V5 m d) s').trans ?_
  iintro %h
  ipureintro
  obtain ⟨h8, h0, h1, h2, h3, h4, h5, h6⟩ := h
  exact ⟨h8, h0.trans (V5_arg0 m d), h1.trans (V5_arg1 m d), h2.trans (V5_arg2 m d), h3.trans (V5_arg3 m d), h4.trans (V5_arg4 m d),
    h5.trans (V5_arg5 m d), h6.trans (V5_arg6 m d)⟩

/-- The run's post: on every device the result array at the final transpose of the TensorCore call's output, the
    arguments unchanged. -/
def QC : PUnit × MemSt nD τ sig (Elt F) → Prop := fun st => ∀ c : Dev nD,
  st.2.mem ((c.tc : Thread nD τ).loc main_v8) = V5 m c (r main_v8)
    ∧ st.2.mem ((c.tc : Thread nD τ).loc main_arg0) = m ((c.tc : Thread nD τ).loc main_arg0)
    ∧ st.2.mem ((c.tc : Thread nD τ).loc main_arg1) = m ((c.tc : Thread nD τ).loc main_arg1)
    ∧ st.2.mem ((c.tc : Thread nD τ).loc main_arg2) = m ((c.tc : Thread nD τ).loc main_arg2)
    ∧ st.2.mem ((c.tc : Thread nD τ).loc main_arg3) = m ((c.tc : Thread nD τ).loc main_arg3)
    ∧ st.2.mem ((c.tc : Thread nD τ).loc main_arg4) = m ((c.tc : Thread nD τ).loc main_arg4)
    ∧ st.2.mem ((c.tc : Thread nD τ).loc main_arg5) = m ((c.tc : Thread nD τ).loc main_arg5)
    ∧ st.2.mem ((c.tc : Thread nD τ).loc main_arg6) = m ((c.tc : Thread nD τ).loc main_arg6)

/-- Every weakly fair execution of the device's threads (the TensorCore's main program, the two sequencers, the
    thirty-two tiles) terminates, nothing faulting, with the result and the arguments as `QC` says. -/
theorem run_main (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.KernelIdeal.Sc
end
-- ==== Proof.KScDefs.lean ====
/-
  The SparseCore gather's setting, shared by the modules that prove its frame.

  The kernel runs on 2 SparseCores x 16 vector subcores. The tile at grid point L = (c, s) is worker w = 2 s + c: it
  copies rows [16 w, 16 w + 16) of the reshaped index array [512, 128] into its index scratch, and for j = 0 .. 15
  gathers the 128 table rows named by scratch row j into one of two 128-row slots and copies the slot out to rows
  [2048 w + 128 j, 2048 w + 128 j + 128) of the result [65536, 128]. The memrefs below are the program's own slices:
  the tile's 16 index rows, the whole table as the gathers' source, the two slots, the 16 offset rows of the index
  scratch and the tile's 16 result chunks.
-/
import proofs.«207697_g22892175687689_cont_8to1_1704_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207697_g22892175687689_cont_8to1_1704_9_alg».proof.Proof.Gen.Kernel
import proofs.«207697_g22892175687689_cont_8to1_1704_9_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the launch handshakes' rounds, the TensorCore pipeline's cells' rounds, the local transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)
instance EP_landsIn : (EP : Emb UP 𝕄).LandsIn (upEmb : UEmb _ 𝕄) := by unfold EP; infer_instance

local notation "iV" => (Memref.whole Cert.Kernel.main_v0_scv : Memref Cert.Kernel.sig Kind.scVector Space.hbm Cert.Kernel.S512x128 EltTy.i32)
local notation "tV" => (Memref.whole Cert.Kernel.main_arg1_scv : Memref Cert.Kernel.sig Kind.scVector Space.hbm Cert.Kernel.S30522x128 EltTy.f32)
local notation "oV" => (Memref.whole Cert.Kernel.main_v1_scv : Memref Cert.Kernel.sig Kind.scVector Space.hbm Cert.Kernel.S65536x128 EltTy.f32)
local notation "sI" => (Memref.whole Cert.Kernel.cc0_scratch0 : Memref Cert.Kernel.sig Kind.scVector Space.vmem Cert.Kernel.S16x128 EltTy.i32)
local notation "sR" => (Memref.whole Cert.Kernel.cc0_scratch1 : Memref Cert.Kernel.sig Kind.scVector Space.vmem Cert.Kernel.S2x128x128 EltTy.f32)

abbrev cV (L : grid0.Coords) : Fin τ.nSC := (L 0).castLE hcore0
abbrev jV (L : grid0.Coords) : Fin τ.nSub := (L 1).castLE hsub0

abbrev idxSl (L : grid0.Coords) : Memref sig .scVector .hbm S16x128 .i32 := (iV).slice (Rect.unit (s := S512x128) (k0_off1 L) S16x128.size (k0_off1_inb L)) (fun _ => rfl)
abbrev tAll : Memref sig .scVector .hbm S30522x128 .f32 := (tV).slice (Rect.unit (s := S30522x128) ![0, 0] S30522x128.size inb_S30522x128_S30522x128_0_0) (fun _ => rfl)
abbrev slot0 : Memref sig .scVector .vmem S128x128 .f32 := ((sR).slice (Rect.unit (s := S2x128x128) ![0, 0, 0] S1x128x128.size inb_S2x128x128_S1x128x128_0_0_0) (fun _ => rfl)).squeeze S128x128 squeezes_S1x128x128_S128x128
abbrev slot1 : Memref sig .scVector .vmem S128x128 .f32 := ((sR).slice (Rect.unit (s := S2x128x128) ![1, 0, 0] S1x128x128.size inb_S2x128x128_S1x128x128_1_0_0) (fun _ => rfl)).squeeze S128x128 squeezes_S1x128x128_S128x128
abbrev offs0 : Memref sig .scVector .vmem S128 .i32 := ((sI).slice (Rect.unit (s := S16x128) ![0, 0] S1x128.size inb_S16x128_S1x128_0_0) (fun _ => rfl)).squeeze S128 squeezes_S1x128_S128
abbrev offs1 : Memref sig .scVector .vmem S128 .i32 := ((sI).slice (Rect.unit (s := S16x128) ![1, 0] S1x128.size inb_S16x128_S1x128_1_0) (fun _ => rfl)).squeeze S128 squeezes_S1x128_S128
abbrev offs2 : Memref sig .scVector .vmem S128 .i32 := ((sI).slice (Rect.unit (s := S16x128) ![2, 0] S1x128.size inb_S16x128_S1x128_2_0) (fun _ => rfl)).squeeze S128 squeezes_S1x128_S128
abbrev offs3 : Memref sig .scVector .vmem S128 .i32 := ((sI).slice (Rect.unit (s := S16x128) ![3, 0] S1x128.size inb_S16x128_S1x128_3_0) (fun _ => rfl)).squeeze S128 squeezes_S1x128_S128
abbrev offs4 : Memref sig .scVector .vmem S128 .i32 := ((sI).slice (Rect.unit (s := S16x128) ![4, 0] S1x128.size inb_S16x128_S1x128_4_0) (fun _ => rfl)).squeeze S128 squeezes_S1x128_S128
abbrev offs5 : Memref sig .scVector .vmem S128 .i32 := ((sI).slice (Rect.unit (s := S16x128) ![5, 0] S1x128.size inb_S16x128_S1x128_5_0) (fun _ => rfl)).squeeze S128 squeezes_S1x128_S128
abbrev offs6 : Memref sig .scVector .vmem S128 .i32 := ((sI).slice (Rect.unit (s := S16x128) ![6, 0] S1x128.size inb_S16x128_S1x128_6_0) (fun _ => rfl)).squeeze S128 squeezes_S1x128_S128
abbrev offs7 : Memref sig .scVector .vmem S128 .i32 := ((sI).slice (Rect.unit (s := S16x128) ![7, 0] S1x128.size inb_S16x128_S1x128_7_0) (fun _ => rfl)).squeeze S128 squeezes_S1x128_S128
abbrev offs8 : Memref sig .scVector .vmem S128 .i32 := ((sI).slice (Rect.unit (s := S16x128) ![8, 0] S1x128.size inb_S16x128_S1x128_8_0) (fun _ => rfl)).squeeze S128 squeezes_S1x128_S128
abbrev offs9 : Memref sig .scVector .vmem S128 .i32 := ((sI).slice (Rect.unit (s := S16x128) ![9, 0] S1x128.size inb_S16x128_S1x128_9_0) (fun _ => rfl)).squeeze S128 squeezes_S1x128_S128
abbrev offs10 : Memref sig .scVector .vmem S128 .i32 := ((sI).slice (Rect.unit (s := S16x128) ![10, 0] S1x128.size inb_S16x128_S1x128_10_0) (fun _ => rfl)).squeeze S128 squeezes_S1x128_S128
abbrev offs11 : Memref sig .scVector .vmem S128 .i32 := ((sI).slice (Rect.unit (s := S16x128) ![11, 0] S1x128.size inb_S16x128_S1x128_11_0) (fun _ => rfl)).squeeze S128 squeezes_S1x128_S128
abbrev offs12 : Memref sig .scVector .vmem S128 .i32 := ((sI).slice (Rect.unit (s := S16x128) ![12, 0] S1x128.size inb_S16x128_S1x128_12_0) (fun _ => rfl)).squeeze S128 squeezes_S1x128_S128
abbrev offs13 : Memref sig .scVector .vmem S128 .i32 := ((sI).slice (Rect.unit (s := S16x128) ![13, 0] S1x128.size inb_S16x128_S1x128_13_0) (fun _ => rfl)).squeeze S128 squeezes_S1x128_S128
abbrev offs14 : Memref sig .scVector .vmem S128 .i32 := ((sI).slice (Rect.unit (s := S16x128) ![14, 0] S1x128.size inb_S16x128_S1x128_14_0) (fun _ => rfl)).squeeze S128 squeezes_S1x128_S128
abbrev offs15 : Memref sig .scVector .vmem S128 .i32 := ((sI).slice (Rect.unit (s := S16x128) ![15, 0] S1x128.size inb_S16x128_S1x128_15_0) (fun _ => rfl)).squeeze S128 squeezes_S1x128_S128
abbrev out0 (L : grid0.Coords) : Memref sig .scVector .hbm S128x128 .f32 := (oV).slice (Rect.unit (s := S65536x128) (k0_off2 L 0#32) S128x128.size (k0_off2_inb L 0)) (fun _ => rfl)
abbrev out1 (L : grid0.Coords) : Memref sig .scVector .hbm S128x128 .f32 := (oV).slice (Rect.unit (s := S65536x128) (k0_off2 L 128#32) S128x128.size (k0_off2_inb L 1)) (fun _ => rfl)
abbrev out2 (L : grid0.Coords) : Memref sig .scVector .hbm S128x128 .f32 := (oV).slice (Rect.unit (s := S65536x128) (k0_off2 L 256#32) S128x128.size (k0_off2_inb L 2)) (fun _ => rfl)
abbrev out3 (L : grid0.Coords) : Memref sig .scVector .hbm S128x128 .f32 := (oV).slice (Rect.unit (s := S65536x128) (k0_off2 L 384#32) S128x128.size (k0_off2_inb L 3)) (fun _ => rfl)
abbrev out4 (L : grid0.Coords) : Memref sig .scVector .hbm S128x128 .f32 := (oV).slice (Rect.unit (s := S65536x128) (k0_off2 L 512#32) S128x128.size (k0_off2_inb L 4)) (fun _ => rfl)
abbrev out5 (L : grid0.Coords) : Memref sig .scVector .hbm S128x128 .f32 := (oV).slice (Rect.unit (s := S65536x128) (k0_off2 L 640#32) S128x128.size (k0_off2_inb L 5)) (fun _ => rfl)
abbrev out6 (L : grid0.Coords) : Memref sig .scVector .hbm S128x128 .f32 := (oV).slice (Rect.unit (s := S65536x128) (k0_off2 L 768#32) S128x128.size (k0_off2_inb L 6)) (fun _ => rfl)
abbrev out7 (L : grid0.Coords) : Memref sig .scVector .hbm S128x128 .f32 := (oV).slice (Rect.unit (s := S65536x128) (k0_off2 L 896#32) S128x128.size (k0_off2_inb L 7)) (fun _ => rfl)
abbrev out8 (L : grid0.Coords) : Memref sig .scVector .hbm S128x128 .f32 := (oV).slice (Rect.unit (s := S65536x128) (k0_off2 L 1024#32) S128x128.size (k0_off2_inb L 8)) (fun _ => rfl)
abbrev out9 (L : grid0.Coords) : Memref sig .scVector .hbm S128x128 .f32 := (oV).slice (Rect.unit (s := S65536x128) (k0_off2 L 1152#32) S128x128.size (k0_off2_inb L 9)) (fun _ => rfl)
abbrev out10 (L : grid0.Coords) : Memref sig .scVector .hbm S128x128 .f32 := (oV).slice (Rect.unit (s := S65536x128) (k0_off2 L 1280#32) S128x128.size (k0_off2_inb L 10)) (fun _ => rfl)
abbrev out11 (L : grid0.Coords) : Memref sig .scVector .hbm S128x128 .f32 := (oV).slice (Rect.unit (s := S65536x128) (k0_off2 L 1408#32) S128x128.size (k0_off2_inb L 11)) (fun _ => rfl)
abbrev out12 (L : grid0.Coords) : Memref sig .scVector .hbm S128x128 .f32 := (oV).slice (Rect.unit (s := S65536x128) (k0_off2 L 1536#32) S128x128.size (k0_off2_inb L 12)) (fun _ => rfl)
abbrev out13 (L : grid0.Coords) : Memref sig .scVector .hbm S128x128 .f32 := (oV).slice (Rect.unit (s := S65536x128) (k0_off2 L 1664#32) S128x128.size (k0_off2_inb L 13)) (fun _ => rfl)
abbrev out14 (L : grid0.Coords) : Memref sig .scVector .hbm S128x128 .f32 := (oV).slice (Rect.unit (s := S65536x128) (k0_off2 L 1792#32) S128x128.size (k0_off2_inb L 14)) (fun _ => rfl)
abbrev out15 (L : grid0.Coords) : Memref sig .scVector .hbm S128x128 .f32 := (oV).slice (Rect.unit (s := S65536x128) (k0_off2 L 1920#32) S128x128.size (k0_off2_inb L 15)) (fun _ => rfl)

/-- The grid point of a tile: SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The reshaped index array, the embedding table and the gathered rows, as locations of device `d`. -/
abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

/-- The thread of the tile at grid point `L` on device `d`. -/
abbrev thr (d : Dev nD) (L : grid0.Coords) : Thread nD τ := V d (cV L) (jV L)

end Cert.Kernel.Sc
end
-- ==== Proof.KScSplit.lean ====
/-
  The three arrays of the gather, split among the 32 tiles and joined back, as one equation.

  The tile at grid point (c, s) is worker w = 2 s + c. Of the index array [512, 128] it owns rows [16 w, 16 w + 16);
  of the result [65536, 128] it owns sixteen chunks, chunk r being rows [2048 w + 128 r, 2048 w + 128 r + 128); of the
  table it only reads, twice at once, so it holds two read shares of the whole table.
  Sets. A row R of the index array lies in exactly one tile's rows, worker R / 16, that is c = (R / 16) % 2 and
  s = R / 32; a row R of the result lies in exactly one chunk of one tile, chunk (R / 128) % 16 of the worker R / 2048.
  So the tiles' index rows are pairwise disjoint and cover the array, and so are the 512 chunks of the result.
  Shares. A share is its two halves; halving the full share once (by c), four more times (by s, the 16 leaves of
  four halvings, the highest binary digit of s choosing first) and once more (by the slot) gives 64 shares that
  compose to the full share.
-/
import proofs.«207697_g22892175687689_cont_8to1_1704_9_alg».proof.Proof.KScDefs

noncomputable section

namespace Cert.Kernel.Sc

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

local notation "iV" => (Memref.whole Cert.Kernel.main_v0_scv : Memref Cert.Kernel.sig Kind.scVector Space.hbm Cert.Kernel.S512x128 EltTy.i32)
local notation "tV" => (Memref.whole Cert.Kernel.main_arg1_scv : Memref Cert.Kernel.sig Kind.scVector Space.hbm Cert.Kernel.S30522x128 EltTy.f32)
local notation "oV" => (Memref.whole Cert.Kernel.main_v1_scv : Memref Cert.Kernel.sig Kind.scVector Space.hbm Cert.Kernel.S65536x128 EltTy.f32)
local notation "sI" => (Memref.whole Cert.Kernel.cc0_scratch0 : Memref Cert.Kernel.sig Kind.scVector Space.vmem Cert.Kernel.S16x128 EltTy.i32)
local notation "sR" => (Memref.whole Cert.Kernel.cc0_scratch1 : Memref Cert.Kernel.sig Kind.scVector Space.vmem Cert.Kernel.S2x128x128 EltTy.f32)

/-! ## A share halved k times: 2^k leaves that compose to it -/

section Shares
variable {ℓ : Loc nD τ sig} {I : Finset (Idx ℓ)} {f : Buf (Elt F) ℓ}

/-- Leaf n (n < 2^k) of the share q halved k times: the highest binary digit of n chooses the half first. -/
def leaf : (k : ℕ) → PosShare TreeShare → ℕ → PosShare TreeShare
  | 0, q, _ => q
  | k + 1, q, n => if n < 2 ^ k then leaf k q.left n else leaf k q.right (n - 2 ^ k)

/-- A points-to at a share is the points-tos at its two halves. -/
theorem pointsTo_halves (q : PosShare TreeShare) :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

/-- A points-to at a share is the points-tos at the 2^k leaves of the share halved k times. -/
theorem pointsTo_leaves (k : ℕ) : ∀ (q : PosShare TreeShare),
    (ℓ ↦[I]{q} f : sProp 𝕄) = bigSep (Finset.range (2 ^ k)) fun n => ℓ ↦[I]{leaf k q n} f := by
  induction k with
  | zero => intro q; rw [pow_zero, Finset.range_one, bigSep_singleton]; rfl
  | succ k ih =>
    intro q
    rw [pointsTo_halves q, ih q.left, ih q.right, pow_succ, Nat.mul_two, Finset.range_add_eq_union,
      bigSep_union (Finset.disjoint_range_addLeftEmbedding _ _), bigSep_map]
    refine congrArg₂ BI.sep (bigSep_congr fun n hn => ?_) (bigSep_congr fun n hn => ?_)
    · have e : leaf (k + 1) q n = leaf k q.left n := by
        show (if n < 2 ^ k then leaf k q.left n else leaf k q.right (n - 2 ^ k)) = _
        rw [if_pos (Finset.mem_range.mp hn)]
      rw [e]
    · have e : leaf (k + 1) q (2 ^ k + n) = leaf k q.right n := by
        show (if 2 ^ k + n < 2 ^ k then leaf k q.left (2 ^ k + n) else leaf k q.right (2 ^ k + n - 2 ^ k)) = _
        rw [if_neg (by omega), Nat.add_sub_cancel_left]
      show _ = (ℓ ↦[I]{leaf (k + 1) q (2 ^ k + n)} f)
      rw [e]

/-- The same over the sixteen leaves of four halvings, indexed by Fin 16. -/
theorem pointsTo_leaves16 (q : PosShare TreeShare) :
    (ℓ ↦[I]{q} f : sProp 𝕄) = bigSep Finset.univ fun i : Fin 16 => ℓ ↦[I]{leaf 4 q i.val} f := by
  rw [pointsTo_leaves 4 q]
  rw [show bigSep Finset.univ (fun i : Fin 16 => (ℓ ↦[I]{leaf 4 q i.val} f : sProp 𝕄))
      = bigSep (Finset.range 16) (fun n => ℓ ↦[I]{leaf 4 q n} f)
    by rw [← Nat.Iio_eq_range, ← Fin.map_valEmbedding_univ, bigSep_map]; rfl]
  rfl

/-- A separating conjunction over sixteen indices, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide]
  repeat rw [bigSep_insert (by decide)]
  rw [bigSep_singleton]
  rfl

end Shares

/-! ## The tiles' sets: index rows and result chunks -/

section Sets

/-- The rows of the index array tile L owns: 16 rows from row 32 s + 16 c. -/
abbrev idxRect (L : grid0.Coords) : Rect S512x128 :=
  Rect.unit (s := S512x128) (k0_off1 L) S16x128.size (k0_off1_inb L)

/-- Chunk r of the result rows tile L owns: 128 rows from row 4096 s + 2048 c + 128 r. -/
abbrev chunkRect (L : grid0.Coords) (r : Fin 16) : Rect S65536x128 :=
  Rect.unit (s := S65536x128) (k0_off2 L (BitVec.ofNat 32 (128 * r.val))) S128x128.size (k0_off2_inb L r)

theorem set_idxSl (L : grid0.Coords) : (idxSl L).view.set = (idxRect L).set := by
  show ((View.whole (main_v0_scv : Ref sig .scVector)).slice (idxRect L)).set = _
  rw [View.set_slice]; exact Finset.map_refl

/-- The whole-table slice is every index of the table. -/
theorem set_tAll : (tAll).view.set = Finset.univ := by
  show ((View.whole (main_arg1_scv : Ref sig .scVector)).slice
      (Rect.unit (s := S30522x128) ![0, 0] S30522x128.size inb_S30522x128_S30522x128_0_0)).set = _
  rw [View.set_slice, Finset.map_refl]
  refine Finset.eq_univ_iff_forall.mpr fun (j : S30522x128.Idx) => Rect.mem_set_unit.mpr ?_
  show ∀ a : Fin 2, (![0, 0] : Fin 2 → ℕ) a ≤ (j a).val ∧ (j a).val < (![0, 0] : Fin 2 → ℕ) a + (![30522, 128] : Fin 2 → ℕ) a
  rw [Fin.forall_fin_two]
  have h0 : (j 0).val < 30522 := (j 0).isLt
  have h1 : (j 1).val < 128 := (j 1).isLt
  show (0 ≤ (j 0).val ∧ (j 0).val < 0 + 30522) ∧ (0 ≤ (j 1).val ∧ (j 1).val < 0 + 128)
  omega

theorem set_out0 (L : grid0.Coords) : (out0 L).view.set = (chunkRect L 0).set := by
  show ((View.whole (main_v1_scv : Ref sig .scVector)).slice (chunkRect L 0)).set = _
  rw [View.set_slice]; exact Finset.map_refl
theorem set_out1 (L : grid0.Coords) : (out1 L).view.set = (chunkRect L 1).set := by
  show ((View.whole (main_v1_scv : Ref sig .scVector)).slice (chunkRect L 1)).set = _
  rw [View.set_slice]; exact Finset.map_refl
theorem set_out2 (L : grid0.Coords) : (out2 L).view.set = (chunkRect L 2).set := by
  show ((View.whole (main_v1_scv : Ref sig .scVector)).slice (chunkRect L 2)).set = _
  rw [View.set_slice]; exact Finset.map_refl
theorem set_out3 (L : grid0.Coords) : (out3 L).view.set = (chunkRect L 3).set := by
  show ((View.whole (main_v1_scv : Ref sig .scVector)).slice (chunkRect L 3)).set = _
  rw [View.set_slice]; exact Finset.map_refl
theorem set_out4 (L : grid0.Coords) : (out4 L).view.set = (chunkRect L 4).set := by
  show ((View.whole (main_v1_scv : Ref sig .scVector)).slice (chunkRect L 4)).set = _
  rw [View.set_slice]; exact Finset.map_refl
theorem set_out5 (L : grid0.Coords) : (out5 L).view.set = (chunkRect L 5).set := by
  show ((View.whole (main_v1_scv : Ref sig .scVector)).slice (chunkRect L 5)).set = _
  rw [View.set_slice]; exact Finset.map_refl
theorem set_out6 (L : grid0.Coords) : (out6 L).view.set = (chunkRect L 6).set := by
  show ((View.whole (main_v1_scv : Ref sig .scVector)).slice (chunkRect L 6)).set = _
  rw [View.set_slice]; exact Finset.map_refl
theorem set_out7 (L : grid0.Coords) : (out7 L).view.set = (chunkRect L 7).set := by
  show ((View.whole (main_v1_scv : Ref sig .scVector)).slice (chunkRect L 7)).set = _
  rw [View.set_slice]; exact Finset.map_refl
theorem set_out8 (L : grid0.Coords) : (out8 L).view.set = (chunkRect L 8).set := by
  show ((View.whole (main_v1_scv : Ref sig .scVector)).slice (chunkRect L 8)).set = _
  rw [View.set_slice]; exact Finset.map_refl
theorem set_out9 (L : grid0.Coords) : (out9 L).view.set = (chunkRect L 9).set := by
  show ((View.whole (main_v1_scv : Ref sig .scVector)).slice (chunkRect L 9)).set = _
  rw [View.set_slice]; exact Finset.map_refl
theorem set_out10 (L : grid0.Coords) : (out10 L).view.set = (chunkRect L 10).set := by
  show ((View.whole (main_v1_scv : Ref sig .scVector)).slice (chunkRect L 10)).set = _
  rw [View.set_slice]; exact Finset.map_refl
theorem set_out11 (L : grid0.Coords) : (out11 L).view.set = (chunkRect L 11).set := by
  show ((View.whole (main_v1_scv : Ref sig .scVector)).slice (chunkRect L 11)).set = _
  rw [View.set_slice]; exact Finset.map_refl
theorem set_out12 (L : grid0.Coords) : (out12 L).view.set = (chunkRect L 12).set := by
  show ((View.whole (main_v1_scv : Ref sig .scVector)).slice (chunkRect L 12)).set = _
  rw [View.set_slice]; exact Finset.map_refl
theorem set_out13 (L : grid0.Coords) : (out13 L).view.set = (chunkRect L 13).set := by
  show ((View.whole (main_v1_scv : Ref sig .scVector)).slice (chunkRect L 13)).set = _
  rw [View.set_slice]; exact Finset.map_refl
theorem set_out14 (L : grid0.Coords) : (out14 L).view.set = (chunkRect L 14).set := by
  show ((View.whole (main_v1_scv : Ref sig .scVector)).slice (chunkRect L 14)).set = _
  rw [View.set_slice]; exact Finset.map_refl
theorem set_out15 (L : grid0.Coords) : (out15 L).view.set = (chunkRect L 15).set := by
  show ((View.whole (main_v1_scv : Ref sig .scVector)).slice (chunkRect L 15)).set = _
  rw [View.set_slice]; exact Finset.map_refl

/-- An index lies in tile L's index rows when its row does. -/
theorem mem_idxRect (L : grid0.Coords) (j : S512x128.Idx) :
    j ∈ (idxRect L).set
      ↔ 32 * (L 1).val + 16 * (L 0).val ≤ (j 0).val ∧ (j 0).val < 32 * (L 1).val + 16 * (L 0).val + 16 := by
  rw [Rect.mem_set_unit, k0_off1_eq, Fin.forall_fin_two]
  have h1 : (j 1).val < 128 := (j 1).isLt
  show (32 * (L 1).val + 16 * (L 0).val ≤ (j 0).val ∧ (j 0).val < 32 * (L 1).val + 16 * (L 0).val + 16)
      ∧ (0 ≤ (j 1).val ∧ (j 1).val < 0 + 128) ↔ _
  omega

/-- An index lies in chunk r of tile L when its row does. -/
theorem mem_chunkRect (L : grid0.Coords) (r : Fin 16) (j : S65536x128.Idx) :
    j ∈ (chunkRect L r).set
      ↔ 4096 * (L 1).val + 2048 * (L 0).val + 128 * r.val ≤ (j 0).val
        ∧ (j 0).val < 4096 * (L 1).val + 2048 * (L 0).val + 128 * r.val + 128 := by
  rw [Rect.mem_set_unit, k0_off2_eq, Fin.forall_fin_two]
  have h1 : (j 1).val < 128 := (j 1).isLt
  show (4096 * (L 1).val + 2048 * (L 0).val + 128 * r.val ≤ (j 0).val
        ∧ (j 0).val < 4096 * (L 1).val + 2048 * (L 0).val + 128 * r.val + 128)
      ∧ (0 ≤ (j 1).val ∧ (j 1).val < 0 + 128) ↔ _
  omega

end Sets

/-! ## The three arrays split into the tiles' holdings -/

section Split

/-- The left half of a share for index 0, the right half for any other. -/
def side : ℕ → PosShare TreeShare → PosShare TreeShare
  | 0, q => q.left
  | _ + 1, q => q.right

/-- The read share of the table that tile (c, i) holds for its gathers into slot b: the full share halved once by the
    SparseCore c, four times by the subcore i, once by the slot b. The 64 shares are a partition of the full share. -/
def tShare (c : Fin (grid0.bound 0)) (i : Fin (grid0.bound 1)) (b : Fin 2) : PosShare TreeShare :=
  side b.val (leaf 4 (side c.val fullShare) i.val)

/-- What tile (c, i) holds of the index array (contents f), the table (t) and the result (o). -/
def tilePts (d : Dev nD) (c : Fin (grid0.bound 0)) (i : Fin (grid0.bound 1)) (f : Buf (Elt F) (iLoc d))
    (t : Buf (Elt F) (tLoc d)) (o : Buf (Elt F) (oLoc d)) : sProp 𝕄 :=
  iprop((iLoc d ↦[(idxSl (coordsV c i)).view.set]{fullShare} f)
    ∗ (tLoc d ↦[(tAll).view.set]{tShare c i 0} t) ∗ (tLoc d ↦[(tAll).view.set]{tShare c i 1} t)
    ∗ (oLoc d ↦[(out0 (coordsV c i)).view.set]{fullShare} o) ∗ (oLoc d ↦[(out1 (coordsV c i)).view.set]{fullShare} o) ∗ (oLoc d ↦[(out2 (coordsV c i)).view.set]{fullShare} o) ∗ (oLoc d ↦[(out3 (coordsV c i)).view.set]{fullShare} o) ∗ (oLoc d ↦[(out4 (coordsV c i)).view.set]{fullShare} o) ∗ (oLoc d ↦[(out5 (coordsV c i)).view.set]{fullShare} o) ∗ (oLoc d ↦[(out6 (coordsV c i)).view.set]{fullShare} o) ∗ (oLoc d ↦[(out7 (coordsV c i)).view.set]{fullShare} o) ∗ (oLoc d ↦[(out8 (coordsV c i)).view.set]{fullShare} o) ∗ (oLoc d ↦[(out9 (coordsV c i)).view.set]{fullShare} o) ∗ (oLoc d ↦[(out10 (coordsV c i)).view.set]{fullShare} o) ∗ (oLoc d ↦[(out11 (coordsV c i)).view.set]{fullShare} o) ∗ (oLoc d ↦[(out12 (coordsV c i)).view.set]{fullShare} o) ∗ (oLoc d ↦[(out13 (coordsV c i)).view.set]{fullShare} o) ∗ (oLoc d ↦[(out14 (coordsV c i)).view.set]{fullShare} o) ∗ (oLoc d ↦[(out15 (coordsV c i)).view.set]{fullShare} o))

/-- The two table shares of a tile. -/
def tPair (d : Dev nD) (c : Fin (grid0.bound 0)) (i : Fin (grid0.bound 1)) (t : Buf (Elt F) (tLoc d)) : sProp 𝕄 :=
  iprop((tLoc d ↦[(tAll).view.set]{tShare c i 0} t) ∗ (tLoc d ↦[(tAll).view.set]{tShare c i 1} t))

/-- The sixteen result chunks of a tile. -/
def oChunks (d : Dev nD) (c : Fin (grid0.bound 0)) (i : Fin (grid0.bound 1)) (o : Buf (Elt F) (oLoc d)) : sProp 𝕄 :=
  iprop((oLoc d ↦[(out0 (coordsV c i)).view.set]{fullShare} o) ∗ (oLoc d ↦[(out1 (coordsV c i)).view.set]{fullShare} o) ∗ (oLoc d ↦[(out2 (coordsV c i)).view.set]{fullShare} o) ∗ (oLoc d ↦[(out3 (coordsV c i)).view.set]{fullShare} o) ∗ (oLoc d ↦[(out4 (coordsV c i)).view.set]{fullShare} o) ∗ (oLoc d ↦[(out5 (coordsV c i)).view.set]{fullShare} o) ∗ (oLoc d ↦[(out6 (coordsV c i)).view.set]{fullShare} o) ∗ (oLoc d ↦[(out7 (coordsV c i)).view.set]{fullShare} o) ∗ (oLoc d ↦[(out8 (coordsV c i)).view.set]{fullShare} o) ∗ (oLoc d ↦[(out9 (coordsV c i)).view.set]{fullShare} o) ∗ (oLoc d ↦[(out10 (coordsV c i)).view.set]{fullShare} o) ∗ (oLoc d ↦[(out11 (coordsV c i)).view.set]{fullShare} o) ∗ (oLoc d ↦[(out12 (coordsV c i)).view.set]{fullShare} o) ∗ (oLoc d ↦[(out13 (coordsV c i)).view.set]{fullShare} o) ∗ (oLoc d ↦[(out14 (coordsV c i)).view.set]{fullShare} o) ∗ (oLoc d ↦[(out15 (coordsV c i)).view.set]{fullShare} o))

theorem tilePts_eq (d : Dev nD) (c : Fin (grid0.bound 0)) (i : Fin (grid0.bound 1)) (f : Buf (Elt F) (iLoc d))
    (t : Buf (Elt F) (tLoc d)) (o : Buf (Elt F) (oLoc d)) :
    tilePts d c i f t o
      = iprop((iLoc d ↦[(idxSl (coordsV c i)).view.set]{fullShare} f) ∗ tPair d c i t ∗ oChunks d c i o) := by
  unfold tilePts tPair oChunks
  exact congrArg (BI.sep _) (BI.equiv_iff.mp ⟨Idealize.SL.BI.sep_assoc', Idealize.SL.BI.sep_assoc⟩)

/-- The index array: every row belongs to exactly one tile. -/
theorem iPts_tiles (d : Dev nD) (f : Buf (Elt F) (iLoc d)) :
    (iLoc d ↦{fullShare} f : sProp 𝕄)
      = bigSep Finset.univ fun c : Fin (grid0.bound 0) => bigSep Finset.univ fun i : Fin (grid0.bound 1) =>
          iLoc d ↦[(idxSl (coordsV c i)).view.set]{fullShare} f := by
  have hdisj : ∀ p ∈ (Finset.univ : Finset (Fin (grid0.bound 0) × Fin (grid0.bound 1))), ∀ p' ∈ (Finset.univ : Finset (Fin (grid0.bound 0) × Fin (grid0.bound 1))),
      p ≠ p' → Disjoint (idxRect (coordsV p.1 p.2)).set (idxRect (coordsV p'.1 p'.2)).set := by
    intro p _ p' _ hne
    refine Finset.disjoint_left.mpr fun j h1 h2 => hne ?_
    have h1' : 32 * p.2.val + 16 * p.1.val ≤ (j 0).val ∧ (j 0).val < 32 * p.2.val + 16 * p.1.val + 16 := (mem_idxRect _ j).mp h1
    have h2' : 32 * p'.2.val + 16 * p'.1.val ≤ (j 0).val ∧ (j 0).val < 32 * p'.2.val + 16 * p'.1.val + 16 := (mem_idxRect _ j).mp h2
    have hc : p.1.val < 2 := p.1.isLt
    have hc' : p'.1.val < 2 := p'.1.isLt
    refine Prod.ext (Fin.ext ?_) (Fin.ext ?_) <;> omega
  have hcov : (Finset.univ : Finset (Fin (grid0.bound 0) × Fin (grid0.bound 1))).biUnion (fun p => (idxRect (coordsV p.1 p.2)).set) = Finset.univ := by
    refine Finset.eq_univ_iff_forall.mpr fun j => Finset.mem_biUnion.mpr ?_
    have hr : (j 0).val < 512 := (j 0).isLt
    refine ⟨((⟨(j 0).val / 16 % 2, by show _ < 2; omega⟩ : Fin (grid0.bound 0)), (⟨(j 0).val / 32, by show _ < 16; omega⟩ : Fin (grid0.bound 1))),
      Finset.mem_univ _, (mem_idxRect _ j).mpr ?_⟩
    show 32 * ((j 0).val / 32) + 16 * ((j 0).val / 16 % 2) ≤ (j 0).val
      ∧ (j 0).val < 32 * ((j 0).val / 32) + 16 * ((j 0).val / 16 % 2) + 16
    omega
  rw [← hcov, pointsTo_biUnion Finset.univ (ℓ := iLoc d) (fun p : Fin (grid0.bound 0) × Fin (grid0.bound 1) => (idxRect (coordsV p.1 p.2)).set) hdisj,
    bigSep_univ_prod]
  exact bigSep_congr fun c _ => bigSep_congr fun i _ => by rw [set_idxSl]

/-- The table: the full share is the 64 read shares. -/
theorem tPts_tiles (d : Dev nD) (t : Buf (Elt F) (tLoc d)) :
    (tLoc d ↦{fullShare} t : sProp 𝕄)
      = bigSep Finset.univ fun c : Fin (grid0.bound 0) => bigSep Finset.univ fun i : Fin (grid0.bound 1) => tPair d c i t := by
  have hi : ∀ c : Fin (grid0.bound 0),
      (bigSep Finset.univ fun i : Fin (grid0.bound 1) => tPair d c i t) = (tLoc d ↦{side c.val fullShare} t : sProp 𝕄) := by
    intro c
    rw [pointsTo_leaves16 (side c.val fullShare)]
    refine bigSep_congr fun i _ => ?_
    unfold tPair
    rw [set_tAll]
    exact (pointsTo_halves (leaf 4 (side c.val fullShare) i.val)).symm
  rw [bigSep_congr fun c _ => hi c, pointsTo_halves fullShare]
  exact (bigSep_univ_two (fun c : Fin 2 => (tLoc d ↦{side c.val fullShare} t : sProp 𝕄))).symm

/-- The result: every row belongs to exactly one chunk of one tile. -/
theorem oPts_tiles (d : Dev nD) (o : Buf (Elt F) (oLoc d)) :
    (oLoc d ↦{fullShare} o : sProp 𝕄)
      = bigSep Finset.univ fun c : Fin (grid0.bound 0) => bigSep Finset.univ fun i : Fin (grid0.bound 1) => oChunks d c i o := by
  have hdisj : ∀ p ∈ (Finset.univ : Finset (Fin (grid0.bound 0) × Fin (grid0.bound 1) × Fin 16)), ∀ p' ∈ (Finset.univ : Finset (Fin (grid0.bound 0) × Fin (grid0.bound 1) × Fin 16)),
      p ≠ p' → Disjoint (chunkRect (coordsV p.1 p.2.1) p.2.2).set (chunkRect (coordsV p'.1 p'.2.1) p'.2.2).set := by
    intro p _ p' _ hne
    refine Finset.disjoint_left.mpr fun j h1 h2 => hne ?_
    have h1' : 4096 * p.2.1.val + 2048 * p.1.val + 128 * p.2.2.val ≤ (j 0).val
        ∧ (j 0).val < 4096 * p.2.1.val + 2048 * p.1.val + 128 * p.2.2.val + 128 := (mem_chunkRect _ _ j).mp h1
    have h2' : 4096 * p'.2.1.val + 2048 * p'.1.val + 128 * p'.2.2.val ≤ (j 0).val
        ∧ (j 0).val < 4096 * p'.2.1.val + 2048 * p'.1.val + 128 * p'.2.2.val + 128 := (mem_chunkRect _ _ j).mp h2
    have hc : p.1.val < 2 := p.1.isLt
    have hc' : p'.1.val < 2 := p'.1.isLt
    have hr : p.2.2.val < 16 := p.2.2.isLt
    have hr' : p'.2.2.val < 16 := p'.2.2.isLt
    refine Prod.ext (Fin.ext ?_) (Prod.ext (Fin.ext ?_) (Fin.ext ?_)) <;> omega
  have hcov : (Finset.univ : Finset (Fin (grid0.bound 0) × Fin (grid0.bound 1) × Fin 16)).biUnion
      (fun p => (chunkRect (coordsV p.1 p.2.1) p.2.2).set) = Finset.univ := by
    refine Finset.eq_univ_iff_forall.mpr fun j => Finset.mem_biUnion.mpr ?_
    have hr : (j 0).val < 65536 := (j 0).isLt
    refine ⟨((⟨(j 0).val / 2048 % 2, by show _ < 2; omega⟩ : Fin (grid0.bound 0)),
        (⟨(j 0).val / 4096, by show _ < 16; omega⟩ : Fin (grid0.bound 1)), (⟨(j 0).val / 128 % 16, by omega⟩ : Fin 16)),
      Finset.mem_univ _, (mem_chunkRect _ _ j).mpr ?_⟩
    show 4096 * ((j 0).val / 4096) + 2048 * ((j 0).val / 2048 % 2) + 128 * ((j 0).val / 128 % 16) ≤ (j 0).val
      ∧ (j 0).val < 4096 * ((j 0).val / 4096) + 2048 * ((j 0).val / 2048 % 2) + 128 * ((j 0).val / 128 % 16) + 128
    omega
  rw [← hcov, pointsTo_biUnion Finset.univ (ℓ := oLoc d)
    (fun p : Fin (grid0.bound 0) × Fin (grid0.bound 1) × Fin 16 => (chunkRect (coordsV p.1 p.2.1) p.2.2).set) hdisj, bigSep_univ_prod]
  refine bigSep_congr fun c _ => ?_
  rw [bigSep_univ_prod]
  refine bigSep_congr fun i _ => ?_
  unfold oChunks
  rw [bigSep_fin16, set_out0, set_out1, set_out2, set_out3, set_out4, set_out5, set_out6, set_out7, set_out8, set_out9, set_out10, set_out11, set_out12, set_out13, set_out14, set_out15]

/-- The three whole arrays are the 32 tiles' holdings. -/
theorem split_call (d : Dev nD) (f : Buf (Elt F) (iLoc d)) (t : Buf (Elt F) (tLoc d)) (o : Buf (Elt F) (oLoc d)) :
    (iprop((iLoc d ↦{fullShare} f) ∗ (tLoc d ↦{fullShare} t) ∗ (oLoc d ↦{fullShare} o)) : sProp 𝕄)
      = bigSep Finset.univ fun c : Fin (grid0.bound 0) => bigSep Finset.univ fun i : Fin (grid0.bound 1) => tilePts d c i f t o := by
  have inner : ∀ c : Fin (grid0.bound 0),
      (bigSep Finset.univ fun i : Fin (grid0.bound 1) => tilePts d c i f t o)
        = iprop((bigSep Finset.univ fun i : Fin (grid0.bound 1) => iLoc d ↦[(idxSl (coordsV c i)).view.set]{fullShare} f)
            ∗ (bigSep Finset.univ fun i : Fin (grid0.bound 1) => tPair d c i t)
            ∗ (bigSep Finset.univ fun i : Fin (grid0.bound 1) => oChunks d c i o)) := by
    intro c
    rw [bigSep_congr fun i _ => tilePts_eq d c i f t o, bigSep_sep', bigSep_sep']
  rw [bigSep_congr fun c _ => inner c, bigSep_sep', bigSep_sep', ← iPts_tiles, ← tPts_tiles, ← oPts_tiles]

end Split

end Cert.Kernel.Sc

end
-- ==== Proof.KScScoped.lean ====
/-
  A tile's scoped storage, opened and closed. Between regions a tile thread holds every buffer of its own whole at
  some contents and every semaphore of its own at zero. Its own buffers are the index scratch, the row scratch and
  the rest; the row scratch [2, 128, 128] is the disjoint union of its two 128-row slots (rows [0, 1) and [1, 2) of
  the leading axis), so holding it whole is holding each slot at exactly its own elements, and two slots held at
  different contents join to the whole at the contents that agree with each on its slot. Its own semaphores are the
  nineteen DMA semaphores the tile's program names and the rest.
-/
import proofs.«207697_g22892175687689_cont_8to1_1704_9_alg».proof.Proof.KScDefs

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "sI" => (Memref.whole Cert.Kernel.cc0_scratch0 : Memref Cert.Kernel.sig Kind.scVector Space.vmem Cert.Kernel.S16x128 EltTy.i32)
local notation "sR" => (Memref.whole Cert.Kernel.cc0_scratch1 : Memref Cert.Kernel.sig Kind.scVector Space.vmem Cert.Kernel.S2x128x128 EltTy.f32)

/-! ## The semaphores -/

/-- The nineteen DMA semaphores the tile's program names. -/
abbrev sems19 : Finset (DmaSem sig) :=
  insert cc0_scratch2.sem (insert cc0_scratch3.sem (insert cc0_scoped0.sem (insert cc0_scoped1.sem (insert cc0_scoped2.sem (insert cc0_scoped3.sem (insert cc0_scoped4.sem (insert cc0_scoped5.sem (insert cc0_scoped6.sem (insert cc0_scoped7.sem (insert cc0_scoped8.sem (insert cc0_scoped9.sem (insert cc0_scoped10.sem (insert cc0_scoped11.sem (insert cc0_scoped12.sem (insert cc0_scoped13.sem (insert cc0_scoped14.sem (insert cc0_scoped15.sem ({cc0_scoped16.sem}))))))))))))))))))

/-- A DMA semaphore as a cell of a thread. -/
def cellEmb (t : Thread nD τ) : DmaSem sig ↪ GSem nD τ sig :=
  ⟨fun k => (t, SemLoc.dma k), fun a b e => SemLoc.dma.inj (Prod.mk.inj e).2⟩

/-- Every DMA semaphore of a vector subcore is scoped. -/
theorem dma_scoped : ∀ k : DmaSem sig, (SemLoc.dma k : SemLoc sig).isScoped .scVector = true := by decide

/-- The nineteen are among the thread's own cells. -/
theorem sems19_sub (d : Dev nD) (L : grid0.Coords) : sems19.map (cellEmb (thr d L)) ⊆ ownCells (thr d L) := by
  intro g hg
  obtain ⟨k, -, rfl⟩ := Finset.mem_map.mp hg
  exact mem_ownCells.mpr ⟨rfl, dma_scoped k⟩

/-- The tile's remaining scoped semaphores at zero. -/
def restSems (d : Dev nD) (L : grid0.Coords) : sProp 𝕄 :=
  bigSep (ownCells (thr d L) \ sems19.map (cellEmb (thr d L))) fun g => semVal g 0

/-- A thread's semaphores at zero: the nineteen, each at zero, and the rest. -/
theorem sems_eq (d : Dev nD) (L : grid0.Coords) :
    (scopedSems0 (thr d L) : sProp 𝕄)
      = iprop(semVal (thr d L, SemLoc.dma cc0_scratch2.sem) 0
      ∗ semVal (thr d L, SemLoc.dma cc0_scratch3.sem) 0
      ∗ semVal (thr d L, SemLoc.dma cc0_scoped0.sem) 0
      ∗ semVal (thr d L, SemLoc.dma cc0_scoped1.sem) 0
      ∗ semVal (thr d L, SemLoc.dma cc0_scoped2.sem) 0
      ∗ semVal (thr d L, SemLoc.dma cc0_scoped3.sem) 0
      ∗ semVal (thr d L, SemLoc.dma cc0_scoped4.sem) 0
      ∗ semVal (thr d L, SemLoc.dma cc0_scoped5.sem) 0
      ∗ semVal (thr d L, SemLoc.dma cc0_scoped6.sem) 0
      ∗ semVal (thr d L, SemLoc.dma cc0_scoped7.sem) 0
      ∗ semVal (thr d L, SemLoc.dma cc0_scoped8.sem) 0
      ∗ semVal (thr d L, SemLoc.dma cc0_scoped9.sem) 0
      ∗ semVal (thr d L, SemLoc.dma cc0_scoped10.sem) 0
      ∗ semVal (thr d L, SemLoc.dma cc0_scoped11.sem) 0
      ∗ semVal (thr d L, SemLoc.dma cc0_scoped12.sem) 0
      ∗ semVal (thr d L, SemLoc.dma cc0_scoped13.sem) 0
      ∗ semVal (thr d L, SemLoc.dma cc0_scoped14.sem) 0
      ∗ semVal (thr d L, SemLoc.dma cc0_scoped15.sem) 0
      ∗ semVal (thr d L, SemLoc.dma cc0_scoped16.sem) 0
      ∗ restSems d L) := by
  rw [SparseCore.Cfg.scopedSems0_V]
  unfold SparseCore.Cfg.ownSems0 restSems
  rw [SparseCore.bigSep_sdiff_split' (sems19_sub d L), BI.bigSep_map]
  have e : (bigSep sems19 fun k => (semVal (cellEmb (thr d L) k) 0 : sProp 𝕄))
      = iprop(semVal (cellEmb (thr d L) cc0_scratch2.sem) 0
      ∗ semVal (cellEmb (thr d L) cc0_scratch3.sem) 0
      ∗ semVal (cellEmb (thr d L) cc0_scoped0.sem) 0
      ∗ semVal (cellEmb (thr d L) cc0_scoped1.sem) 0
      ∗ semVal (cellEmb (thr d L) cc0_scoped2.sem) 0
      ∗ semVal (cellEmb (thr d L) cc0_scoped3.sem) 0
      ∗ semVal (cellEmb (thr d L) cc0_scoped4.sem) 0
      ∗ semVal (cellEmb (thr d L) cc0_scoped5.sem) 0
      ∗ semVal (cellEmb (thr d L) cc0_scoped6.sem) 0
      ∗ semVal (cellEmb (thr d L) cc0_scoped7.sem) 0
      ∗ semVal (cellEmb (thr d L) cc0_scoped8.sem) 0
      ∗ semVal (cellEmb (thr d L) cc0_scoped9.sem) 0
      ∗ semVal (cellEmb (thr d L) cc0_scoped10.sem) 0
      ∗ semVal (cellEmb (thr d L) cc0_scoped11.sem) 0
      ∗ semVal (cellEmb (thr d L) cc0_scoped12.sem) 0
      ∗ semVal (cellEmb (thr d L) cc0_scoped13.sem) 0
      ∗ semVal (cellEmb (thr d L) cc0_scoped14.sem) 0
      ∗ semVal (cellEmb (thr d L) cc0_scoped15.sem) 0
      ∗ semVal (cellEmb (thr d L) cc0_scoped16.sem) 0) := by
    rw [SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', SparseCore.bigSep_insert', BI.bigSep_singleton]
    all_goals decide
  rw [e]
  have hassoc : ∀ P Q R : sProp 𝕄, iprop((P ∗ Q) ∗ R) = iprop(P ∗ Q ∗ R) :=
    fun P Q R => BI.equiv_iff.mp ⟨BI.sep_assoc, BI.sep_assoc'⟩
  simp only [hassoc]
  rfl

/-! ## The buffers -/

/-- The tile's own buffers other than the two scratch arrays, each whole at some contents. -/
def restBufs (d : Dev nD) (L : grid0.Coords) : sProp 𝕄 :=
  bigSep (((ownRefs (τ := τ) (.scVector (cV L) (jV L))).erase ((Proc.scVector (cV L) (jV L)).devRef cc0_scratch0)).erase
      ((Proc.scVector (cV L) (jV L)).devRef cc0_scratch1))
    fun b => iprop(∃ f, ((d, b) : Loc nD τ sig) ↦{fullShare} f)

/-- A thread's buffers whole at some contents: the index scratch, the row scratch, and the rest. -/
theorem bufs_eq (hF : (K (F := F)).Facts) (d : Dev nD) (L : grid0.Coords) :
    (scopedBufs (thr d L) : sProp 𝕄)
      = iprop((∃ f, (thr d L).loc cc0_scratch0 ↦{fullShare} f) ∗ (∃ f, (thr d L).loc cc0_scratch1 ↦{fullShare} f)
          ∗ restBufs d L) := by
  rw [(K (F := F)).scopedBufs_V hF]
  unfold SparseCore.Cfg.ownBufs restBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e)
      (show (cc0_scratch1 : Ref sig .scVector) ≠ cc0_scratch0 by decide),
    SparseCore.Cfg.mem_ownRefs_of_owner (p := Proc.scVector (cV L) (jV L))
      (b := (Proc.scVector (cV L) (jV L)).devRef cc0_scratch1) rfl⟩)]

/-! ## The two slots of the row scratch -/

/-- Slot 0 is rows [0, 1) of the leading axis, -/
theorem set_slot0 : (slot0).view.set = (Rect.unit (s := S2x128x128) ![0, 0, 0] S1x128x128.size inb_S2x128x128_S1x128x128_0_0_0).set := by
  show (((sR).view.slice (Rect.unit (s := S2x128x128) ![0, 0, 0] S1x128x128.size inb_S2x128x128_S1x128x128_0_0_0)).reshape S128x128 squeezes_S1x128x128_S128x128.numel_eq).set = _
  rw [View.set_reshape]
  exact View.set_slice_whole _ _
/-- slot 1 rows [1, 2). -/
theorem set_slot1 : (slot1).view.set = (Rect.unit (s := S2x128x128) ![1, 0, 0] S1x128x128.size inb_S2x128x128_S1x128x128_1_0_0).set := by
  show (((sR).view.slice (Rect.unit (s := S2x128x128) ![1, 0, 0] S1x128x128.size inb_S2x128x128_S1x128x128_1_0_0)).reshape S128x128 squeezes_S1x128x128_S128x128.numel_eq).set = _
  rw [View.set_reshape]
  exact View.set_slice_whole _ _

/-- The two are disjoint -/
theorem slots_disjoint : Disjoint (Rect.unit (s := S2x128x128) ![0, 0, 0] S1x128x128.size inb_S2x128x128_S1x128x128_0_0_0).set (Rect.unit (s := S2x128x128) ![1, 0, 0] S1x128x128.size inb_S2x128x128_S1x128x128_1_0_0).set :=
  Rect.unit_disjoint 0 (Or.inl (by decide))

/-- and cover the scratch: the leading coordinate is 0 or 1. -/
theorem slots_cover : (Rect.unit (s := S2x128x128) ![0, 0, 0] S1x128x128.size inb_S2x128x128_S1x128x128_0_0_0).set ∪ (Rect.unit (s := S2x128x128) ![1, 0, 0] S1x128x128.size inb_S2x128x128_S1x128x128_1_0_0).set = Finset.univ := by
  ext i
  simp only [Finset.mem_union, Rect.mem_set_unit, Finset.mem_univ, iff_true]
  have h0 : (i 0).val < 2 := (i 0).isLt
  have h1 : (i 1).val < 128 := (i 1).isLt
  have h2 : (i 2).val < 128 := (i 2).isLt
  by_cases hc : (i 0).val = 0
  · refine Or.inl fun a => ?_
    match a with
    | ⟨0, _⟩ => exact ⟨Nat.zero_le _, by show (i 0).val < 0 + 1; omega⟩
    | ⟨1, _⟩ => exact ⟨Nat.zero_le _, by show (i 1).val < 0 + 128; omega⟩
    | ⟨2, _⟩ => exact ⟨Nat.zero_le _, by show (i 2).val < 0 + 128; omega⟩
  · refine Or.inr fun a => ?_
    match a with
    | ⟨0, _⟩ => exact ⟨by show 1 ≤ (i 0).val; omega, by show (i 0).val < 1 + 1; omega⟩
    | ⟨1, _⟩ => exact ⟨Nat.zero_le _, by show (i 1).val < 0 + 128; omega⟩
    | ⟨2, _⟩ => exact ⟨Nat.zero_le _, by show (i 2).val < 0 + 128; omega⟩

/-- The row scratch whole at some contents is its two slots, each at exactly its own elements, at those contents. -/
theorem rows_open (d : Dev nD) (L : grid0.Coords) :
    (iprop(∃ f, (thr d L).loc cc0_scratch1 ↦{fullShare} f) : sProp 𝕄)
      ⊢ iprop(∃ fsR, ((slot0).view.loc (thr d L) ↦[(slot0).view.set]{fullShare} fsR)
          ∗ ((slot1).view.loc (thr d L) ↦[(slot1).view.set]{fullShare} fsR)) := by
  rw [set_slot0, set_slot1]
  iintro ⟨%f, H⟩
  iexists f
  have hu : ((thr d L).loc cc0_scratch1 ↦[(Rect.unit (s := S2x128x128) ![0, 0, 0] S1x128x128.size inb_S2x128x128_S1x128x128_0_0_0).set ∪ (Rect.unit (s := S2x128x128) ![1, 0, 0] S1x128x128.size inb_S2x128x128_S1x128x128_1_0_0).set]{fullShare} f : sProp 𝕄)
      ⊣⊢ iprop(((thr d L).loc cc0_scratch1 ↦[(Rect.unit (s := S2x128x128) ![0, 0, 0] S1x128x128.size inb_S2x128x128_S1x128x128_0_0_0).set]{fullShare} f)
        ∗ (thr d L).loc cc0_scratch1 ↦[(Rect.unit (s := S2x128x128) ![1, 0, 0] S1x128x128.size inb_S2x128x128_S1x128x128_1_0_0).set]{fullShare} f) := pointsTo_union slots_disjoint
  rw [slots_cover] at hu
  iapply hu.1
  iexact H

/-- The two slots held at their own contents join to the row scratch whole, at the contents that agree with each on
    its slot. -/
theorem rows_close (d : Dev nD) (L : grid0.Coords) :
    (iprop((∃ f0, (slot0).view.loc (thr d L) ↦[(slot0).view.set]{fullShare} f0)
        ∗ (∃ f1, (slot1).view.loc (thr d L) ↦[(slot1).view.set]{fullShare} f1)) : sProp 𝕄)
      ⊢ iprop(∃ f, (thr d L).loc cc0_scratch1 ↦{fullShare} f) := by
  rw [set_slot0, set_slot1]
  iintro ⟨⟨%f0, H0⟩, ⟨%f1, H1⟩⟩
  have hj : (iprop(((thr d L).loc cc0_scratch1 ↦[(Rect.unit (s := S2x128x128) ![0, 0, 0] S1x128x128.size inb_S2x128x128_S1x128x128_0_0_0).set]{fullShare} f0)
        ∗ (thr d L).loc cc0_scratch1 ↦[(Rect.unit (s := S2x128x128) ![1, 0, 0] S1x128x128.size inb_S2x128x128_S1x128x128_1_0_0).set]{fullShare} f1) : sProp 𝕄)
      ⊢ (thr d L).loc cc0_scratch1 ↦[(Rect.unit (s := S2x128x128) ![0, 0, 0] S1x128x128.size inb_S2x128x128_S1x128x128_0_0_0).set ∪ (Rect.unit (s := S2x128x128) ![1, 0, 0] S1x128x128.size inb_S2x128x128_S1x128x128_1_0_0).set]{fullShare} ((Rect.unit (s := S2x128x128) ![1, 0, 0] S1x128x128.size inb_S2x128x128_S1x128x128_1_0_0).set.piecewise f1 f0) :=
    pointsTo_join slots_disjoint
  rw [slots_cover] at hj
  iexists ((Rect.unit (s := S2x128x128) ![1, 0, 0] S1x128x128.size inb_S2x128x128_S1x128x128_1_0_0).set.piecewise f1 f0)
  iapply hj
  isplitl [H0]
  · iexact H0
  · iexact H1

/-! ## Opening and closing -/

/-- A tile's scoped storage opened: the index scratch whole, the row scratch as its two slots at common contents, the
    other buffers, the nineteen semaphores at zero, the other semaphores. -/
theorem scoped_open (hF : (K (F := F)).Facts) (d : Dev nD) (L : grid0.Coords) :
    (iprop(scopedBufs (thr d L) ∗ scopedSems0 (thr d L)) : sProp 𝕄) ⊢ iprop(
      (∃ fsI, (sI).view.loc (thr d L) ↦{fullShare} fsI)
      ∗ (∃ fsR, ((slot0).view.loc (thr d L) ↦[(slot0).view.set]{fullShare} fsR)
          ∗ ((slot1).view.loc (thr d L) ↦[(slot1).view.set]{fullShare} fsR))
      ∗ restBufs d L
      ∗ semVal (thr d L, SemLoc.dma cc0_scratch2.sem) 0
      ∗ semVal (thr d L, SemLoc.dma cc0_scratch3.sem) 0
      ∗ semVal (thr d L, SemLoc.dma cc0_scoped0.sem) 0
      ∗ semVal (thr d L, SemLoc.dma cc0_scoped1.sem) 0
      ∗ semVal (thr d L, SemLoc.dma cc0_scoped2.sem) 0
      ∗ semVal (thr d L, SemLoc.dma cc0_scoped3.sem) 0
      ∗ semVal (thr d L, SemLoc.dma cc0_scoped4.sem) 0
      ∗ semVal (thr d L, SemLoc.dma cc0_scoped5.sem) 0
      ∗ semVal (thr d L, SemLoc.dma cc0_scoped6.sem) 0
      ∗ semVal (thr d L, SemLoc.dma cc0_scoped7.sem) 0
      ∗ semVal (thr d L, SemLoc.dma cc0_scoped8.sem) 0
      ∗ semVal (thr d L, SemLoc.dma cc0_scoped9.sem) 0
      ∗ semVal (thr d L, SemLoc.dma cc0_scoped10.sem) 0
      ∗ semVal (thr d L, SemLoc.dma cc0_scoped11.sem) 0
      ∗ semVal (thr d L, SemLoc.dma cc0_scoped12.sem) 0
      ∗ semVal (thr d L, SemLoc.dma cc0_scoped13.sem) 0
      ∗ semVal (thr d L, SemLoc.dma cc0_scoped14.sem) 0
      ∗ semVal (thr d L, SemLoc.dma cc0_scoped15.sem) 0
      ∗ semVal (thr d L, SemLoc.dma cc0_scoped16.sem) 0
      ∗ restSems d L) := by
  rw [bufs_eq hF, sems_eq]
  iintro ⟨⟨HI, HR, HB⟩, HS⟩
  isplitl [HI]
  · iexact HI
  isplitl [HR]
  · iapply (rows_open d L)
    iexact HR
  isplitl [HB]
  · iexact HB
  iexact HS

/-- And closed again, the two slots at whatever contents each holds. -/
theorem scoped_close (hF : (K (F := F)).Facts) (d : Dev nD) (L : grid0.Coords) :
    (iprop((∃ fsI, (sI).view.loc (thr d L) ↦{fullShare} fsI)
      ∗ (∃ f0, (slot0).view.loc (thr d L) ↦[(slot0).view.set]{fullShare} f0)
      ∗ (∃ f1, (slot1).view.loc (thr d L) ↦[(slot1).view.set]{fullShare} f1)
      ∗ restBufs d L
      ∗ semVal (thr d L, SemLoc.dma cc0_scratch2.sem) 0
      ∗ semVal (thr d L, SemLoc.dma cc0_scratch3.sem) 0
      ∗ semVal (thr d L, SemLoc.dma cc0_scoped0.sem) 0
      ∗ semVal (thr d L, SemLoc.dma cc0_scoped1.sem) 0
      ∗ semVal (thr d L, SemLoc.dma cc0_scoped2.sem) 0
      ∗ semVal (thr d L, SemLoc.dma cc0_scoped3.sem) 0
      ∗ semVal (thr d L, SemLoc.dma cc0_scoped4.sem) 0
      ∗ semVal (thr d L, SemLoc.dma cc0_scoped5.sem) 0
      ∗ semVal (thr d L, SemLoc.dma cc0_scoped6.sem) 0
      ∗ semVal (thr d L, SemLoc.dma cc0_scoped7.sem) 0
      ∗ semVal (thr d L, SemLoc.dma cc0_scoped8.sem) 0
      ∗ semVal (thr d L, SemLoc.dma cc0_scoped9.sem) 0
      ∗ semVal (thr d L, SemLoc.dma cc0_scoped10.sem) 0
      ∗ semVal (thr d L, SemLoc.dma cc0_scoped11.sem) 0
      ∗ semVal (thr d L, SemLoc.dma cc0_scoped12.sem) 0
      ∗ semVal (thr d L, SemLoc.dma cc0_scoped13.sem) 0
      ∗ semVal (thr d L, SemLoc.dma cc0_scoped14.sem) 0
      ∗ semVal (thr d L, SemLoc.dma cc0_scoped15.sem) 0
      ∗ semVal (thr d L, SemLoc.dma cc0_scoped16.sem) 0
      ∗ restSems d L) : sProp 𝕄) ⊢ iprop(scopedBufs (thr d L) ∗ scopedSems0 (thr d L)) := by
  rw [bufs_eq hF, sems_eq]
  iintro ⟨HI, H0, H1, HB, HS⟩
  isplitr [HS]
  · isplitl [HI]
    · iexact HI
    isplitr [HB]
    · iapply (rows_close d L)
      isplitl [H0]
      · iexact H0
      · iexact H1
    · iexact HB
  · iexact HS

end Cert.Kernel.Sc

end
-- ==== Proof.KScValue.lean ====
/-
  The value of the SparseCore gather's tile body: what the tile at grid point L leaves in its 16 result chunks.

  The tile copies its 16 rows of the reshaped index array [512, 128] — rows 32 L₁ + 16 L₀ + j, j = 0 .. 15 — over its
  whole index scratch. For each j it gathers, into one of two slots, the 128 table rows named by the words of scratch
  row j, and copies the slot out to rows [4096 L₁ + 2048 L₀ + 128 j, + 128) of the result array [65536, 128].

  So element (r, c) of chunk j is the table at (word, c), where word is scratch row j's word r, that is the index
  array's word at (32 L₁ + 16 L₀ + j, r). The gathered array's row t = 4096 L₁ + 2048 L₀ + 128 j + r is by definition
  the table row named by the index array's word at (t / 128, t % 128), and t / 128 = 32 L₁ + 16 L₀ + j, t % 128 = r
  because r < 128. Every word is below 30522 by the precondition, so the row the remainder names is the word itself.

  The proof reads each layer at an index: a piece covering a whole shape, written last through a view, is what the
  view reads back (the result chunk from the slot, the slot from the gather); a rectangle of a whole buffer reads
  the buffer at the rectangle's placement (the table, the tile's index rows, an offset row of the scratch, whose
  128 words are counted by a rank-one shape); a copy over a whole buffer leaves what was copied.
-/
import proofs.«207697_g22892175687689_cont_8to1_1704_9_alg».proof.Proof.KScDefs
import proofs.«207697_g22892175687689_cont_8to1_1704_9_alg».proof.Proof.KernelValue

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

local notation "iV" => (Memref.whole Cert.Kernel.main_v0_scv : Memref Cert.Kernel.sig Kind.scVector Space.hbm Cert.Kernel.S512x128 EltTy.i32)
local notation "tV" => (Memref.whole Cert.Kernel.main_arg1_scv : Memref Cert.Kernel.sig Kind.scVector Space.hbm Cert.Kernel.S30522x128 EltTy.f32)
local notation "oV" => (Memref.whole Cert.Kernel.main_v1_scv : Memref Cert.Kernel.sig Kind.scVector Space.hbm Cert.Kernel.S65536x128 EltTy.f32)
local notation "sI" => (Memref.whole Cert.Kernel.cc0_scratch0 : Memref Cert.Kernel.sig Kind.scVector Space.vmem Cert.Kernel.S16x128 EltTy.i32)
local notation "sR" => (Memref.whole Cert.Kernel.cc0_scratch1 : Memref Cert.Kernel.sig Kind.scVector Space.vmem Cert.Kernel.S2x128x128 EltTy.f32)

/-! ## Chunk j's slice and offset row, with j a variable -/

/-- Offset row `j` of the index scratch lies inside it. -/
theorem offsJ_inb (j : Fin 16) : ∀ a, (![j.val, 0] : Fin 2 → Nat) a + S1x128.size a ≤ S16x128.size a := by
  intro a
  match a with
  | ⟨0, _⟩ => show j.val + 1 ≤ 16; omega
  | ⟨1, _⟩ => show 0 + 128 ≤ 128; omega

/-- The tile's result chunk `j`: rows `[base + 128 j, base + 128 j + 128)` of the result array. -/
abbrev outJ (L : grid0.Coords) (j : Fin 16) : Memref sig .scVector .hbm S128x128 .f32 :=
  (oV).slice (Rect.unit (s := S65536x128) (k0_off2 L (BitVec.ofNat 32 (128 * j.val))) S128x128.size (k0_off2_inb L j)) (fun _ => rfl)

/-- Row `j` of the index scratch, as a list of 128 words. -/
abbrev offsJ (j : Fin 16) : Memref sig .scVector .vmem S128 .i32 :=
  ((sI).slice (Rect.unit (s := S16x128) ![j.val, 0] S1x128.size (offsJ_inb j)) (fun _ => rfl)).squeeze S128 squeezes_S1x128_S128

/-! ## At a literal `j` they are the program's own slices -/
theorem outJ_0 (L : grid0.Coords) : outJ L 0 = out0 L := rfl
theorem outJ_1 (L : grid0.Coords) : outJ L 1 = out1 L := rfl
theorem outJ_2 (L : grid0.Coords) : outJ L 2 = out2 L := rfl
theorem outJ_3 (L : grid0.Coords) : outJ L 3 = out3 L := rfl
theorem outJ_4 (L : grid0.Coords) : outJ L 4 = out4 L := rfl
theorem outJ_5 (L : grid0.Coords) : outJ L 5 = out5 L := rfl
theorem outJ_6 (L : grid0.Coords) : outJ L 6 = out6 L := rfl
theorem outJ_7 (L : grid0.Coords) : outJ L 7 = out7 L := rfl
theorem outJ_8 (L : grid0.Coords) : outJ L 8 = out8 L := rfl
theorem outJ_9 (L : grid0.Coords) : outJ L 9 = out9 L := rfl
theorem outJ_10 (L : grid0.Coords) : outJ L 10 = out10 L := rfl
theorem outJ_11 (L : grid0.Coords) : outJ L 11 = out11 L := rfl
theorem outJ_12 (L : grid0.Coords) : outJ L 12 = out12 L := rfl
theorem outJ_13 (L : grid0.Coords) : outJ L 13 = out13 L := rfl
theorem outJ_14 (L : grid0.Coords) : outJ L 14 = out14 L := rfl
theorem outJ_15 (L : grid0.Coords) : outJ L 15 = out15 L := rfl
theorem offsJ_0 : offsJ 0 = offs0 := rfl
theorem offsJ_1 : offsJ 1 = offs1 := rfl
theorem offsJ_2 : offsJ 2 = offs2 := rfl
theorem offsJ_3 : offsJ 3 = offs3 := rfl
theorem offsJ_4 : offsJ 4 = offs4 := rfl
theorem offsJ_5 : offsJ 5 = offs5 := rfl
theorem offsJ_6 : offsJ 6 = offs6 := rfl
theorem offsJ_7 : offsJ 7 = offs7 := rfl
theorem offsJ_8 : offsJ 8 = offs8 := rfl
theorem offsJ_9 : offsJ 9 = offs9 := rfl
theorem offsJ_10 : offsJ 10 = offs10 := rfl
theorem offsJ_11 : offsJ 11 = offs11 := rfl
theorem offsJ_12 : offsJ 12 = offs12 := rfl
theorem offsJ_13 : offsJ 13 = offs13 := rfl
theorem offsJ_14 : offsJ 14 = offs14 := rfl
theorem offsJ_15 : offsJ 15 = offs15 := rfl

/-! ## Reading through a view of a whole buffer -/

section General
variable {sig : RefSig} {κ : Kind} {sp : Space} {s : Shape} {e : EltTy} {Val : EltTy → Type}

/-- A piece covering the whole shape, written last through a view, is what the view then reads. -/
theorem read_writes_whole (v : View sig κ sp s e) (f : v.ty.Contents Val) (w : (Rect.whole s).shape.Idx → Val e)
    (L : List (View.Piece Val s e)) (z : (Rect.whole s).shape.Idx) :
    v.read Val (v.writes Val f (⟨Rect.whole s, w⟩ :: L)) z = w z := by
  have h := View.read_writes_cons_emb v f (Rect.whole s) w L z
  rwa [Rect.emb_whole_apply] at h

/-- A rectangle of a whole buffer reads the buffer's contents at the rectangle's placement. -/
theorem read_slice_whole (b : Ref sig κ) (R : Rect b.ty.shape) (f : b.ty.Contents Val) (u : R.shape.Idx) :
    ((View.whole b).slice R).read Val f u = f (R.emb u) := rfl

/-- So does such a rectangle counted by another shape, at the matched index. -/
theorem read_reshape_slice_whole (b : Ref sig κ) (R : Rect b.ty.shape) (s' : Shape) (h : s'.numel = R.shape.numel)
    (f : b.ty.Contents Val) (x : s'.Idx) :
    (((View.whole b).slice R).reshape s' h).read Val f x = f (R.emb (Shape.reshapeEquiv h x)) := rfl

end General

/-! ## The program's slices read at an index -/

/-- Offset row `j` of the index scratch reads, at word `x`, the scratch at `(j, x)`. -/
theorem read_offsJ (j : Fin 16) (g : BufTy.Contents (Elt F) (offsJ j).view.ty) (x : S128.Idx) :
    (offsJ j).view.read (Elt F) g x = g (ix2 j (⟨(x 0).val, (x 0).isLt⟩ : Fin 128)) := by
  refine (read_reshape_slice_whole (Val := Elt F) cc0_scratch0 (Rect.unit (s := S16x128) ![j.val, 0] S1x128.size (offsJ_inb j))
    S128 squeezes_S1x128_S128.numel_eq g x).trans ?_
  refine congrArg g ?_
  have hu : Shape.reshapeEquiv squeezes_S1x128_S128.numel_eq x
      = (ix2 (0 : Fin 1) (⟨(x 0).val, (x 0).isLt⟩ : Fin 128) : S1x128.Idx) :=
    Shape.reshapeEquiv_eq_of_rowMajor _ (by
      rw [Shape.rowMajor_val_two, Shape.rowMajor_val_one]
      show 0 * 128 + (x 0).val = (x 0).val
      omega)
  refine (congrArg (Rect.unit (s := S16x128) ![j.val, 0] S1x128.size (offsJ_inb j)).emb hu).trans ?_
  funext a
  apply Fin.ext
  match a with
  | ⟨0, _⟩ => show j.val + 1 * 0 = j.val; omega
  | ⟨1, _⟩ => show 0 + 1 * (x 0).val = (x 0).val; omega

/-- The tile's 16 index rows read, at `(r, c)`, the index array at row `32 L₁ + 16 L₀ + r`, column `c`. -/
theorem read_idxSl (L : grid0.Coords) (fi : BufTy.Contents (Elt F) (idxSl L).view.ty) (u : S16x128.Idx) (p : S512x128.Idx)
    (h0 : (p 0).val = 32 * (L 1).val + 16 * (L 0).val + (u 0).val) (h1 : (p 1).val = (u 1).val) :
    (idxSl L).view.read (Elt F) fi u = fi p := by
  refine (read_slice_whole (Val := Elt F) main_v0_scv (Rect.unit (s := S512x128) (k0_off1 L) S16x128.size (k0_off1_inb L)) fi u).trans ?_
  refine congrArg fi ?_
  funext a
  apply Fin.ext
  match a with
  | ⟨0, _⟩ =>
    show k0_off1 L 0 + 1 * (u 0).val = (p 0).val
    rw [k0_off1_eq, h0]; show 32 * (L 1).val + 16 * (L 0).val + 1 * (u 0).val = _; omega
  | ⟨1, _⟩ =>
    show k0_off1 L 1 + 1 * (u 1).val = (p 1).val
    rw [k0_off1_eq, h1]; show 0 + 1 * (u 1).val = _; omega

/-- The gathers' source is the whole table. -/
theorem read_tAll (ft : BufTy.Contents (Elt F) tAll.view.ty) (w : S30522x128.Idx) :
    tAll.view.read (Elt F) ft w = ft w := by
  refine (read_slice_whole (Val := Elt F) main_arg1_scv (Rect.unit (s := S30522x128) ![0, 0] S30522x128.size inb_S30522x128_S30522x128_0_0) ft w).trans ?_
  refine congrArg ft ?_
  funext a
  apply Fin.ext
  match a with
  | ⟨0, _⟩ => show 0 + 1 * (w 0).val = (w 0).val; omega
  | ⟨1, _⟩ => show 0 + 1 * (w 1).val = (w 1).val; omega

/-- Chunk `j`'s element `(r, c)` is the result array's row `4096 L₁ + 2048 L₀ + 128 j + r`, column `c`. -/
theorem emb_outJ (L : grid0.Coords) (j : Fin 16) (z : S128x128.Idx) :
    ((outJ L j).view.emb z (0 : Fin 2)).val = 4096 * (L 1).val + 2048 * (L 0).val + 128 * j.val + (z 0).val
      ∧ ((outJ L j).view.emb z (1 : Fin 2)).val = (z 1).val := by
  constructor
  · show k0_off2 L (BitVec.ofNat 32 (128 * j.val)) 0 + 1 * (z 0).val = _
    rw [k0_off2_eq]; show 4096 * (L 1).val + 2048 * (L 0).val + 128 * j.val + 1 * (z 0).val = _; omega
  · show k0_off2 L (BitVec.ofNat 32 (128 * j.val)) 1 + 1 * (z 1).val = _
    rw [k0_off2_eq]; show 0 + 1 * (z 1).val = _; omega

/-! ## The words the gathers read -/

/-- The index of a one-axis shape at a row-major position has that position as its coordinate. -/
theorem rowMajor_symm_S128_val (q : Fin S128.numel) : ((S128.rowMajor.symm q) 0).val = q.val := by
  have h := Shape.rowMajor_val_one (d := ![128]) (S128.rowMajor.symm q)
  rw [Equiv.apply_symm_apply] at h
  exact h.symm

/-- The row an offset list names for entry `k` is the list's word at row-major position `k`. -/
theorem rows_val {si : Shape} {o z : ℕ} (idx : si.Idx → Elt F .i32) (hn : si.numel = o) (h : ∀ x, (idx x).toNat < z) (k : Fin o) :
    (SparseCore.rows idx hn h k).val = (idx (si.rowMajor.symm (k.cast hn.symm))).toNat := rfl

/-- Word `x` of offset row `j`, after the tile's 16 index rows were copied over the whole index scratch (whatever it
    held), is the index array's word at row `32 L₁ + 16 L₀ + j`, column `x`. -/
theorem offsWord (L : grid0.Coords) (j : Fin 16) (fi : BufTy.Contents (Elt F) (idxSl L).view.ty)
    (fsI : BufTy.Contents (Elt F) (sI).view.ty) (x : S128.Idx) (p : S512x128.Idx)
    (h0 : (p 0).val = 32 * (L 1).val + 16 * (L 0).val + j.val) (h1 : (p 1).val = (x 0).val) :
    (offsJ j).view.read (Elt F)
        (View.write (Elt F) (sI).view fsI (ReadAs.same.apply (View.read (Elt F) (idxSl L).view fi)) Finset.univ) x
      = fi p := by
  have hw : View.write (Elt F) (sI).view fsI (ReadAs.same.apply (View.read (Elt F) (idxSl L).view fi)) Finset.univ
      = View.read (Elt F) (idxSl L).view fi :=
    View.write_whole_univ (Val := Elt F) cc0_scratch0 fsI _
  refine (congrArg (fun g => (offsJ j).view.read (Elt F) g x) hw).trans ?_
  refine (read_offsJ j _ x).trans ?_
  exact read_idxSl L fi _ p h0 h1

/-- Every index word the tile's gathers read names a table row, whatever the index scratch held before the copy. -/
theorem hinJ (d : Dev nD) (L : grid0.Coords) (j : Fin 16) (fi : Buf (Elt F) ((iV).view.loc (thr d L)))
    (hpre : ∀ y, (fi y).toNat < 30522) :
    ∀ (fsI : Buf (Elt F) ((sI).view.loc (thr d L))) (x : S128.Idx),
      ((offsJ j).view.read (Elt F) (View.write (Elt F) (sI).view fsI (ReadAs.same.apply (View.read (Elt F) (idxSl L).view fi)) Finset.univ) x).toNat
        < S30522x128.size gathers_S30522x128_S128x128.axis := by
  intro fsI x
  have hL1 : (L 1).val < 16 := (L 1).isLt
  have hL0 : (L 0).val < 2 := (L 0).isLt
  have hj : j.val < 16 := j.isLt
  have hx : (x 0).val < 128 := (x 0).isLt
  have e := offsWord (F := F) L j fi fsI x
    (ix2 (⟨32 * (L 1).val + 16 * (L 0).val + j.val, by omega⟩ : Fin 512) (⟨(x 0).val, hx⟩ : Fin 128)) rfl rfl
  rw [e]
  exact hpre _

/-! ## The value of a chunk -/

/-- THE VALUE. On chunk `j`'s own elements, what the run leaves there is the gathered array: the chunk was written
    whole from a slot, the slot last written whole by the gather of the table rows named by offset row `j`, and the
    chunk's row `r` is the gathered array's row `128 (32 L₁ + 16 L₀ + j) + r`, whose word is word `r` of that row. -/
theorem chunk_eq (d : Dev nD) (L : grid0.Coords) (j : Fin 16) (slot : Memref sig .scVector .vmem S128x128 .f32)
    (hslot : slot = slot0 ∨ slot = slot1)
    (fi : Buf (Elt F) ((iV).view.loc (thr d L))) (ft : Buf (Elt F) ((tV).view.loc (thr d L)))
    (fo : Buf (Elt F) ((oV).view.loc (thr d L))) (fsI : Buf (Elt F) ((sI).view.loc (thr d L)))
    (fsR : BufTy.Contents (Elt F) slot.view.ty) (older : List (View.Piece (Elt F) S128x128 .f32))
    (hpre : ∀ y, (fi y).toNat < 30522)
    (hn : S128.numel = S128x128.size gathers_S30522x128_S128x128.axis')
    (hin : ∀ x, ((offsJ j).view.read (Elt F) (View.write (Elt F) (sI).view fsI (ReadAs.same.apply (View.read (Elt F) (idxSl L).view fi)) Finset.univ) x).toNat
        < S30522x128.size gathers_S30522x128_S128x128.axis) :
    ∀ y ∈ (outJ L j).view.set,
      (outJ L j).view.writes (Elt F) fo [⟨Rect.whole S128x128, ReadAs.same.apply (View.read (Elt F) slot.view
        (slot.view.writes (Elt F) fsR (⟨Rect.whole S128x128, SparseCore.gatherPayload gathers_S30522x128_S128x128
          (View.read (Elt F) tAll.view ft)
          (SparseCore.rows (View.read (Elt F) (offsJ j).view (View.write (Elt F) (sI).view fsI
            (ReadAs.same.apply (View.read (Elt F) (idxSl L).view fi)) Finset.univ)) hn hin)⟩ :: older)))⟩] y
      = Cert.KernelIdeal.KVal.gath (F := F) fi ft y := by
  intro y hy
  obtain ⟨z, -, rfl⟩ := Finset.mem_map.mp hy
  have hL1 : (L 1).val < 16 := (L 1).isLt
  have hL0 : (L 0).val < 2 := (L 0).isLt
  have hj : j.val < 16 := j.isLt
  have hz0 : (z 0).val < 128 := (z 0).isLt
  have hz1 : (z 1).val < 128 := (z 1).isLt
  obtain ⟨he0, he1⟩ := emb_outJ L j z
  show (outJ L j).view.read (Elt F) ((outJ L j).view.writes (Elt F) fo [_]) z = _
  refine (read_writes_whole (outJ L j).view fo _ [] z).trans ?_
  refine (read_writes_whole slot.view fsR _ older z).trans ?_
  show tAll.view.read (Elt F) ft (gathers_S30522x128_S128x128.idx _ z) = _
  refine (read_tAll ft _).trans ?_
  unfold Cert.KernelIdeal.KVal.gath
  refine congrArg ft ?_
  funext a
  apply Fin.ext
  match a with
  | ⟨0, _⟩ =>
    refine (congrArg Fin.val (Shape.Gathers.idx_axis gathers_S30522x128_S128x128 _ z)).trans ?_
    refine Eq.trans ?_ (Cert.Spec.rowOf_val_of_lt (hpre _)).symm
    refine (rows_val _ hn hin _).trans ?_
    refine congrArg BitVec.toNat ?_
    refine offsWord L j fi fsI _ _ ?_ ?_
    · show ((outJ L j).view.emb z 0).val / 128 = 32 * (L 1).val + 16 * (L 0).val + j.val
      rw [he0]; omega
    · show ((outJ L j).view.emb z 0).val % 128 = ((S128.rowMajor.symm _) 0).val
      rw [rowMajor_symm_S128_val, he0]
      show _ = (z 0).val
      omega
  | ⟨1, _⟩ =>
    refine (Shape.Gathers.idx_of_ne gathers_S30522x128_S128x128 _ z ⟨1, by decide⟩ (by decide)).trans ?_
    exact he1.symm

/-- The same as an equation between what the tile holds of the chunk and the gathered array held there. -/
theorem chunk_pts (d : Dev nD) (L : grid0.Coords) (j : Fin 16) (slot : Memref sig .scVector .vmem S128x128 .f32)
    (hslot : slot = slot0 ∨ slot = slot1)
    (fi : Buf (Elt F) ((iV).view.loc (thr d L))) (ft : Buf (Elt F) ((tV).view.loc (thr d L)))
    (fo : Buf (Elt F) ((oV).view.loc (thr d L))) (fsI : Buf (Elt F) ((sI).view.loc (thr d L)))
    (fsR : BufTy.Contents (Elt F) slot.view.ty) (older : List (View.Piece (Elt F) S128x128 .f32))
    (hpre : ∀ y, (fi y).toNat < 30522)
    (hn : S128.numel = S128x128.size gathers_S30522x128_S128x128.axis')
    (hin : ∀ x, ((offsJ j).view.read (Elt F) (View.write (Elt F) (sI).view fsI (ReadAs.same.apply (View.read (Elt F) (idxSl L).view fi)) Finset.univ) x).toNat
        < S30522x128.size gathers_S30522x128_S128x128.axis) :
    ((outJ L j).view.loc (thr d L) ↦[(outJ L j).view.set]{fullShare}
        (outJ L j).view.writes (Elt F) fo [⟨Rect.whole S128x128, ReadAs.same.apply (View.read (Elt F) slot.view
        (slot.view.writes (Elt F) fsR (⟨Rect.whole S128x128, SparseCore.gatherPayload gathers_S30522x128_S128x128
          (View.read (Elt F) tAll.view ft)
          (SparseCore.rows (View.read (Elt F) (offsJ j).view (View.write (Elt F) (sI).view fsI
            (ReadAs.same.apply (View.read (Elt F) (idxSl L).view fi)) Finset.univ)) hn hin)⟩ :: older)))⟩] : sProp 𝕄)
      = (outJ L j).view.loc (thr d L) ↦[(outJ L j).view.set]{fullShare} Cert.KernelIdeal.KVal.gath (F := F) fi ft :=
  pointsTo_congr (chunk_eq d L j slot hslot fi ft fo fsI fsR older hpre hn hin)

end Cert.Kernel.Sc

end
-- ==== Proof.KScTile.lean ====
/-
  One tile's run of the gather body.

  The tile holds: its 16 rows of the index array, two read shares of the embedding table, its 16 chunks of 128 rows
  of the result array, its index scratch, its two 128-row slots and its nineteen transfer semaphores at zero. The
  body copies the 16 index rows into the scratch; then, chunk by chunk, gathers the 128 table rows named by one
  scratch row into a slot (the next gather issued into the other slot before this one is waited for) and copies the
  slot out to the chunk. Each semaphore has at most one transfer outstanding, no buffer is touched while a transfer
  into or out of it is pending, and every index word names a table row, so the run goes through; at its end every
  chunk holds the gathered array's rows: row t of the gathered array is the table's row named by word t of the
  index array.
-/
import proofs.«207697_g22892175687689_cont_8to1_1704_9_alg».proof.Proof.KScDefs
import proofs.«207697_g22892175687689_cont_8to1_1704_9_alg».proof.Proof.KScValue
import proofs.«207697_g22892175687689_cont_8to1_1704_9_alg».proof.Proof.KernelValue

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S512x128 EltTy.i32)
local notation "tV" => (Memref.whole Cert.Kernel.main_arg1_scv : Memref Cert.Kernel.sig Kind.scVector Space.hbm Cert.Kernel.S30522x128 EltTy.f32)
local notation "oV" => (Memref.whole Cert.Kernel.main_v1_scv : Memref Cert.Kernel.sig Kind.scVector Space.hbm Cert.Kernel.S65536x128 EltTy.f32)
local notation "sI" => (Memref.whole Cert.Kernel.cc0_scratch0 : Memref Cert.Kernel.sig Kind.scVector Space.vmem Cert.Kernel.S16x128 EltTy.i32)
local notation "sR" => (Memref.whole Cert.Kernel.cc0_scratch1 : Memref Cert.Kernel.sig Kind.scVector Space.vmem Cert.Kernel.S2x128x128 EltTy.f32)

variable [FloatOps F] (d : Dev nD) (L : grid0.Coords)

set_option maxHeartbeats 4000000 in
/-- The body over the tile's holdings spelt out: the arrays' pieces, the scratches, the semaphores, what the tile owes. -/
theorem tile_run (O : CellTallies nD τ sig (HIx 1)) (W : Waits sig (HIx 1))
    (qi qa qb : PosShare TreeShare)
    (fi : Buf (Elt F) ((iV).view.loc (thr d L))) (ft : Buf (Elt F) ((tV).view.loc (thr d L))) (fo : Buf (Elt F) ((oV).view.loc (thr d L)))
    (fsI : Buf (Elt F) ((sI).view.loc (thr d L))) (fsR : Buf (Elt F) ((sR).view.loc (thr d L)))
    (hpre : ∀ y, (fi y).toNat < 30522) :
    (iprop(Transfers.MayWaits (thr d L) (none : HIx 1) O
        ∗ ((idxSl L).view.loc (thr d L) ↦[(idxSl L).view.set]{qi} fi)
        ∗ ((tAll).view.loc (thr d L) ↦[(tAll).view.set]{qa} ft) ∗ ((tAll).view.loc (thr d L) ↦[(tAll).view.set]{qb} ft)
        ∗ ((out0 L).view.loc (thr d L) ↦[(out0 L).view.set]{fullShare} fo)
        ∗ ((out1 L).view.loc (thr d L) ↦[(out1 L).view.set]{fullShare} fo)
        ∗ ((out2 L).view.loc (thr d L) ↦[(out2 L).view.set]{fullShare} fo)
        ∗ ((out3 L).view.loc (thr d L) ↦[(out3 L).view.set]{fullShare} fo)
        ∗ ((out4 L).view.loc (thr d L) ↦[(out4 L).view.set]{fullShare} fo)
        ∗ ((out5 L).view.loc (thr d L) ↦[(out5 L).view.set]{fullShare} fo)
        ∗ ((out6 L).view.loc (thr d L) ↦[(out6 L).view.set]{fullShare} fo)
        ∗ ((out7 L).view.loc (thr d L) ↦[(out7 L).view.set]{fullShare} fo)
        ∗ ((out8 L).view.loc (thr d L) ↦[(out8 L).view.set]{fullShare} fo)
        ∗ ((out9 L).view.loc (thr d L) ↦[(out9 L).view.set]{fullShare} fo)
        ∗ ((out10 L).view.loc (thr d L) ↦[(out10 L).view.set]{fullShare} fo)
        ∗ ((out11 L).view.loc (thr d L) ↦[(out11 L).view.set]{fullShare} fo)
        ∗ ((out12 L).view.loc (thr d L) ↦[(out12 L).view.set]{fullShare} fo)
        ∗ ((out13 L).view.loc (thr d L) ↦[(out13 L).view.set]{fullShare} fo)
        ∗ ((out14 L).view.loc (thr d L) ↦[(out14 L).view.set]{fullShare} fo)
        ∗ ((out15 L).view.loc (thr d L) ↦[(out15 L).view.set]{fullShare} fo)
        ∗ ((sI).view.loc (thr d L) ↦{fullShare} fsI)
        ∗ ((slot0).view.loc (thr d L) ↦[(slot0).view.set]{fullShare} fsR) ∗ ((slot1).view.loc (thr d L) ↦[(slot1).view.set]{fullShare} fsR)
        ∗ semVal (thr d L, SemLoc.dma cc0_scratch2.sem) 0
        ∗ semVal (thr d L, SemLoc.dma cc0_scratch3.sem) 0
        ∗ semVal (thr d L, SemLoc.dma cc0_scoped0.sem) 0
        ∗ semVal (thr d L, SemLoc.dma cc0_scoped1.sem) 0
        ∗ semVal (thr d L, SemLoc.dma cc0_scoped2.sem) 0
        ∗ semVal (thr d L, SemLoc.dma cc0_scoped3.sem) 0
        ∗ semVal (thr d L, SemLoc.dma cc0_scoped4.sem) 0
        ∗ semVal (thr d L, SemLoc.dma cc0_scoped5.sem) 0
        ∗ semVal (thr d L, SemLoc.dma cc0_scoped6.sem) 0
        ∗ semVal (thr d L, SemLoc.dma cc0_scoped7.sem) 0
        ∗ semVal (thr d L, SemLoc.dma cc0_scoped8.sem) 0
        ∗ semVal (thr d L, SemLoc.dma cc0_scoped9.sem) 0
        ∗ semVal (thr d L, SemLoc.dma cc0_scoped10.sem) 0
        ∗ semVal (thr d L, SemLoc.dma cc0_scoped11.sem) 0
        ∗ semVal (thr d L, SemLoc.dma cc0_scoped12.sem) 0
        ∗ semVal (thr d L, SemLoc.dma cc0_scoped13.sem) 0
        ∗ semVal (thr d L, SemLoc.dma cc0_scoped14.sem) 0
        ∗ semVal (thr d L, SemLoc.dma cc0_scoped15.sem) 0
        ∗ semVal (thr d L, SemLoc.dma cc0_scoped16.sem) 0
        ∗ owes (thr d L) O W) : sProp 𝕄)
      ⊢ wp frame (wpE (defs₀ (F := F)) 𝒱₀ (thr d L) none) Set.univ
          (cc0__sc_gather_body L iV (Memref.isWhole_whole _) tV (Memref.isWhole_whole _) oV (Memref.isWhole_whole _)
            sI (Memref.isWhole_whole _) sR (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(((idxSl L).view.loc (thr d L) ↦[(idxSl L).view.set]{qi} fi)
        ∗ ((tAll).view.loc (thr d L) ↦[(tAll).view.set]{qa} ft) ∗ ((tAll).view.loc (thr d L) ↦[(tAll).view.set]{qb} ft)
        ∗ ((out0 L).view.loc (thr d L) ↦[(out0 L).view.set]{fullShare} (Cert.KernelIdeal.KVal.gath (F := F) fi ft))
        ∗ ((out1 L).view.loc (thr d L) ↦[(out1 L).view.set]{fullShare} (Cert.KernelIdeal.KVal.gath (F := F) fi ft))
        ∗ ((out2 L).view.loc (thr d L) ↦[(out2 L).view.set]{fullShare} (Cert.KernelIdeal.KVal.gath (F := F) fi ft))
        ∗ ((out3 L).view.loc (thr d L) ↦[(out3 L).view.set]{fullShare} (Cert.KernelIdeal.KVal.gath (F := F) fi ft))
        ∗ ((out4 L).view.loc (thr d L) ↦[(out4 L).view.set]{fullShare} (Cert.KernelIdeal.KVal.gath (F := F) fi ft))
        ∗ ((out5 L).view.loc (thr d L) ↦[(out5 L).view.set]{fullShare} (Cert.KernelIdeal.KVal.gath (F := F) fi ft))
        ∗ ((out6 L).view.loc (thr d L) ↦[(out6 L).view.set]{fullShare} (Cert.KernelIdeal.KVal.gath (F := F) fi ft))
        ∗ ((out7 L).view.loc (thr d L) ↦[(out7 L).view.set]{fullShare} (Cert.KernelIdeal.KVal.gath (F := F) fi ft))
        ∗ ((out8 L).view.loc (thr d L) ↦[(out8 L).view.set]{fullShare} (Cert.KernelIdeal.KVal.gath (F := F) fi ft))
        ∗ ((out9 L).view.loc (thr d L) ↦[(out9 L).view.set]{fullShare} (Cert.KernelIdeal.KVal.gath (F := F) fi ft))
        ∗ ((out10 L).view.loc (thr d L) ↦[(out10 L).view.set]{fullShare} (Cert.KernelIdeal.KVal.gath (F := F) fi ft))
        ∗ ((out11 L).view.loc (thr d L) ↦[(out11 L).view.set]{fullShare} (Cert.KernelIdeal.KVal.gath (F := F) fi ft))
        ∗ ((out12 L).view.loc (thr d L) ↦[(out12 L).view.set]{fullShare} (Cert.KernelIdeal.KVal.gath (F := F) fi ft))
        ∗ ((out13 L).view.loc (thr d L) ↦[(out13 L).view.set]{fullShare} (Cert.KernelIdeal.KVal.gath (F := F) fi ft))
        ∗ ((out14 L).view.loc (thr d L) ↦[(out14 L).view.set]{fullShare} (Cert.KernelIdeal.KVal.gath (F := F) fi ft))
        ∗ ((out15 L).view.loc (thr d L) ↦[(out15 L).view.set]{fullShare} (Cert.KernelIdeal.KVal.gath (F := F) fi ft))
        ∗ (∃ g, (sI).view.loc (thr d L) ↦{fullShare} g)
        ∗ (∃ f0, (slot0).view.loc (thr d L) ↦[(slot0).view.set]{fullShare} f0) ∗ (∃ f1, (slot1).view.loc (thr d L) ↦[(slot1).view.set]{fullShare} f1)
        ∗ semVal (thr d L, SemLoc.dma cc0_scratch2.sem) 0
        ∗ semVal (thr d L, SemLoc.dma cc0_scratch3.sem) 0
        ∗ semVal (thr d L, SemLoc.dma cc0_scoped0.sem) 0
        ∗ semVal (thr d L, SemLoc.dma cc0_scoped1.sem) 0
        ∗ semVal (thr d L, SemLoc.dma cc0_scoped2.sem) 0
        ∗ semVal (thr d L, SemLoc.dma cc0_scoped3.sem) 0
        ∗ semVal (thr d L, SemLoc.dma cc0_scoped4.sem) 0
        ∗ semVal (thr d L, SemLoc.dma cc0_scoped5.sem) 0
        ∗ semVal (thr d L, SemLoc.dma cc0_scoped6.sem) 0
        ∗ semVal (thr d L, SemLoc.dma cc0_scoped7.sem) 0
        ∗ semVal (thr d L, SemLoc.dma cc0_scoped8.sem) 0
        ∗ semVal (thr d L, SemLoc.dma cc0_scoped9.sem) 0
        ∗ semVal (thr d L, SemLoc.dma cc0_scoped10.sem) 0
        ∗ semVal (thr d L, SemLoc.dma cc0_scoped11.sem) 0
        ∗ semVal (thr d L, SemLoc.dma cc0_scoped12.sem) 0
        ∗ semVal (thr d L, SemLoc.dma cc0_scoped13.sem) 0
        ∗ semVal (thr d L, SemLoc.dma cc0_scoped14.sem) 0
        ∗ semVal (thr d L, SemLoc.dma cc0_scoped15.sem) 0
        ∗ semVal (thr d L, SemLoc.dma cc0_scoped16.sem) 0
        ∗ ∃ W', ⌜∀ p ∈ W', p ∈ W ∨ p.2 = none⌝ ∗ owes (thr d L) O W') := by
  -- every word of the sixteen offset rows names a table row, whatever the index scratch held before the copy
  have hin0 : ∀ (g : Buf (Elt F) ((sI).view.loc (thr d L))) x, ((offs0).view.read (Elt F) (View.write (Elt F) (sI).view g (ReadAs.same.apply (View.read (Elt F) (idxSl L).view fi)) Finset.univ) x).toNat < S30522x128.size gathers_S30522x128_S128x128.axis := hinJ d L 0 fi hpre
  have hin1 : ∀ (g : Buf (Elt F) ((sI).view.loc (thr d L))) x, ((offs1).view.read (Elt F) (View.write (Elt F) (sI).view g (ReadAs.same.apply (View.read (Elt F) (idxSl L).view fi)) Finset.univ) x).toNat < S30522x128.size gathers_S30522x128_S128x128.axis := hinJ d L 1 fi hpre
  have hin2 : ∀ (g : Buf (Elt F) ((sI).view.loc (thr d L))) x, ((offs2).view.read (Elt F) (View.write (Elt F) (sI).view g (ReadAs.same.apply (View.read (Elt F) (idxSl L).view fi)) Finset.univ) x).toNat < S30522x128.size gathers_S30522x128_S128x128.axis := hinJ d L 2 fi hpre
  have hin3 : ∀ (g : Buf (Elt F) ((sI).view.loc (thr d L))) x, ((offs3).view.read (Elt F) (View.write (Elt F) (sI).view g (ReadAs.same.apply (View.read (Elt F) (idxSl L).view fi)) Finset.univ) x).toNat < S30522x128.size gathers_S30522x128_S128x128.axis := hinJ d L 3 fi hpre
  have hin4 : ∀ (g : Buf (Elt F) ((sI).view.loc (thr d L))) x, ((offs4).view.read (Elt F) (View.write (Elt F) (sI).view g (ReadAs.same.apply (View.read (Elt F) (idxSl L).view fi)) Finset.univ) x).toNat < S30522x128.size gathers_S30522x128_S128x128.axis := hinJ d L 4 fi hpre
  have hin5 : ∀ (g : Buf (Elt F) ((sI).view.loc (thr d L))) x, ((offs5).view.read (Elt F) (View.write (Elt F) (sI).view g (ReadAs.same.apply (View.read (Elt F) (idxSl L).view fi)) Finset.univ) x).toNat < S30522x128.size gathers_S30522x128_S128x128.axis := hinJ d L 5 fi hpre
  have hin6 : ∀ (g : Buf (Elt F) ((sI).view.loc (thr d L))) x, ((offs6).view.read (Elt F) (View.write (Elt F) (sI).view g (ReadAs.same.apply (View.read (Elt F) (idxSl L).view fi)) Finset.univ) x).toNat < S30522x128.size gathers_S30522x128_S128x128.axis := hinJ d L 6 fi hpre
  have hin7 : ∀ (g : Buf (Elt F) ((sI).view.loc (thr d L))) x, ((offs7).view.read (Elt F) (View.write (Elt F) (sI).view g (ReadAs.same.apply (View.read (Elt F) (idxSl L).view fi)) Finset.univ) x).toNat < S30522x128.size gathers_S30522x128_S128x128.axis := hinJ d L 7 fi hpre
  have hin8 : ∀ (g : Buf (Elt F) ((sI).view.loc (thr d L))) x, ((offs8).view.read (Elt F) (View.write (Elt F) (sI).view g (ReadAs.same.apply (View.read (Elt F) (idxSl L).view fi)) Finset.univ) x).toNat < S30522x128.size gathers_S30522x128_S128x128.axis := hinJ d L 8 fi hpre
  have hin9 : ∀ (g : Buf (Elt F) ((sI).view.loc (thr d L))) x, ((offs9).view.read (Elt F) (View.write (Elt F) (sI).view g (ReadAs.same.apply (View.read (Elt F) (idxSl L).view fi)) Finset.univ) x).toNat < S30522x128.size gathers_S30522x128_S128x128.axis := hinJ d L 9 fi hpre
  have hin10 : ∀ (g : Buf (Elt F) ((sI).view.loc (thr d L))) x, ((offs10).view.read (Elt F) (View.write (Elt F) (sI).view g (ReadAs.same.apply (View.read (Elt F) (idxSl L).view fi)) Finset.univ) x).toNat < S30522x128.size gathers_S30522x128_S128x128.axis := hinJ d L 10 fi hpre
  have hin11 : ∀ (g : Buf (Elt F) ((sI).view.loc (thr d L))) x, ((offs11).view.read (Elt F) (View.write (Elt F) (sI).view g (ReadAs.same.apply (View.read (Elt F) (idxSl L).view fi)) Finset.univ) x).toNat < S30522x128.size gathers_S30522x128_S128x128.axis := hinJ d L 11 fi hpre
  have hin12 : ∀ (g : Buf (Elt F) ((sI).view.loc (thr d L))) x, ((offs12).view.read (Elt F) (View.write (Elt F) (sI).view g (ReadAs.same.apply (View.read (Elt F) (idxSl L).view fi)) Finset.univ) x).toNat < S30522x128.size gathers_S30522x128_S128x128.axis := hinJ d L 12 fi hpre
  have hin13 : ∀ (g : Buf (Elt F) ((sI).view.loc (thr d L))) x, ((offs13).view.read (Elt F) (View.write (Elt F) (sI).view g (ReadAs.same.apply (View.read (Elt F) (idxSl L).view fi)) Finset.univ) x).toNat < S30522x128.size gathers_S30522x128_S128x128.axis := hinJ d L 13 fi hpre
  have hin14 : ∀ (g : Buf (Elt F) ((sI).view.loc (thr d L))) x, ((offs14).view.read (Elt F) (View.write (Elt F) (sI).view g (ReadAs.same.apply (View.read (Elt F) (idxSl L).view fi)) Finset.univ) x).toNat < S30522x128.size gathers_S30522x128_S128x128.axis := hinJ d L 14 fi hpre
  have hin15 : ∀ (g : Buf (Elt F) ((sI).view.loc (thr d L))) x, ((offs15).view.read (Elt F) (View.write (Elt F) (sI).view g (ReadAs.same.apply (View.read (Elt F) (idxSl L).view fi)) Finset.univ) x).toNat < S30522x128.size gathers_S30522x128_S128x128.axis := hinJ d L 15 fi hpre
  iintro ⟨#Hmw, Hi, Hta, Htb, Ho0, Ho1, Ho2, Ho3, Ho4, Ho5, Ho6, Ho7, Ho8, Ho9, Ho10, Ho11, Ho12, Ho13, Ho14, Ho15, HsI, Hsl0, Hsl1, Hm0, Hm1, Hm2, Hm3, Hm4, Hm5, Hm6, Hm7, Hm8, Hm9, Hm10, Hm11, Hm12, Hm13, Hm14, Hm15, Hm16, Hm17, Hm18, HO⟩
  sl_exec_parts
  sl_step
  isplitl [Hi]; · iexact Hi
  isplitl [Hta]; · iexact Hta
  isplitl [Htb]; · iexact Htb
  -- each chunk holds the gathered array's rows
  isplitl [Ho0]
  · iapply (Entails.of_eq (chunk_pts d L 0 slot0 (Or.inl rfl) fi ft fo fsI fsR _ hpre rfl (hin0 fsI)))
    iexact Ho0
  isplitl [Ho1]
  · iapply (Entails.of_eq (chunk_pts d L 1 slot1 (Or.inr rfl) fi ft fo fsI fsR _ hpre rfl (hin1 fsI)))
    iexact Ho1
  isplitl [Ho2]
  · iapply (Entails.of_eq (chunk_pts d L 2 slot0 (Or.inl rfl) fi ft fo fsI fsR _ hpre rfl (hin2 fsI)))
    iexact Ho2
  isplitl [Ho3]
  · iapply (Entails.of_eq (chunk_pts d L 3 slot1 (Or.inr rfl) fi ft fo fsI fsR _ hpre rfl (hin3 fsI)))
    iexact Ho3
  isplitl [Ho4]
  · iapply (Entails.of_eq (chunk_pts d L 4 slot0 (Or.inl rfl) fi ft fo fsI fsR _ hpre rfl (hin4 fsI)))
    iexact Ho4
  isplitl [Ho5]
  · iapply (Entails.of_eq (chunk_pts d L 5 slot1 (Or.inr rfl) fi ft fo fsI fsR _ hpre rfl (hin5 fsI)))
    iexact Ho5
  isplitl [Ho6]
  · iapply (Entails.of_eq (chunk_pts d L 6 slot0 (Or.inl rfl) fi ft fo fsI fsR _ hpre rfl (hin6 fsI)))
    iexact Ho6
  isplitl [Ho7]
  · iapply (Entails.of_eq (chunk_pts d L 7 slot1 (Or.inr rfl) fi ft fo fsI fsR _ hpre rfl (hin7 fsI)))
    iexact Ho7
  isplitl [Ho8]
  · iapply (Entails.of_eq (chunk_pts d L 8 slot0 (Or.inl rfl) fi ft fo fsI fsR _ hpre rfl (hin8 fsI)))
    iexact Ho8
  isplitl [Ho9]
  · iapply (Entails.of_eq (chunk_pts d L 9 slot1 (Or.inr rfl) fi ft fo fsI fsR _ hpre rfl (hin9 fsI)))
    iexact Ho9
  isplitl [Ho10]
  · iapply (Entails.of_eq (chunk_pts d L 10 slot0 (Or.inl rfl) fi ft fo fsI fsR _ hpre rfl (hin10 fsI)))
    iexact Ho10
  isplitl [Ho11]
  · iapply (Entails.of_eq (chunk_pts d L 11 slot1 (Or.inr rfl) fi ft fo fsI fsR _ hpre rfl (hin11 fsI)))
    iexact Ho11
  isplitl [Ho12]
  · iapply (Entails.of_eq (chunk_pts d L 12 slot0 (Or.inl rfl) fi ft fo fsI fsR _ hpre rfl (hin12 fsI)))
    iexact Ho12
  isplitl [Ho13]
  · iapply (Entails.of_eq (chunk_pts d L 13 slot1 (Or.inr rfl) fi ft fo fsI fsR _ hpre rfl (hin13 fsI)))
    iexact Ho13
  isplitl [Ho14]
  · iapply (Entails.of_eq (chunk_pts d L 14 slot0 (Or.inl rfl) fi ft fo fsI fsR _ hpre rfl (hin14 fsI)))
    iexact Ho14
  isplitl [Ho15]
  · iapply (Entails.of_eq (chunk_pts d L 15 slot1 (Or.inr rfl) fi ft fo fsI fsR _ hpre rfl (hin15 fsI)))
    iexact Ho15
  isplitl [HsI]; · iexists _; iexact HsI
  isplitl [Hsl0]; · iexists _; iexact Hsl0
  isplitl [Hsl1]; · iexists _; iexact Hsl1
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  iexists _; isplitr
  pick_goal 2
  · iexact HO
  · ipureintro
    repeat' (first | exact fun p hp => Or.inl hp | (rw [Finset.forall_mem_insert]; refine ⟨Or.inr rfl, ?_⟩))

end Cert.Kernel.Sc
end
-- ==== Proof.KScLaunch.lean ====
/-
  The SparseCore call as the launch theorem sees it: what the call hands each SparseCore and each tile and takes back,
  and that each tile's task, from its share, runs to its share with the result chunks at the gathered array.

  The call takes the reshaped index array, the embedding table and the result array whole. Tile (c, s) is handed its
  16 rows of the index array, two read shares of the table and its sixteen 128-row chunks of the result; a SparseCore
  is handed its sixteen tiles' shares. The call hands back the same with every chunk at the gathered array: row t is
  the table's row named by word t of the index array. Every index word names a table row (the precondition), so no
  gather is abandoned.
-/
import proofs.«207697_g22892175687689_cont_8to1_1704_9_alg».proof.Proof.KScDefs
import proofs.«207697_g22892175687689_cont_8to1_1704_9_alg».proof.Proof.KScSplit
import proofs.«207697_g22892175687689_cont_8to1_1704_9_alg».proof.Proof.KScScoped
import proofs.«207697_g22892175687689_cont_8to1_1704_9_alg».proof.Proof.KScTile
import proofs.«207697_g22892175687689_cont_8to1_1704_9_alg».proof.Proof.KernelValue

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S512x128 EltTy.i32)
local notation "tV" => (Memref.whole Cert.Kernel.main_arg1_scv : Memref Cert.Kernel.sig Kind.scVector Space.hbm Cert.Kernel.S30522x128 EltTy.f32)
local notation "oV" => (Memref.whole Cert.Kernel.main_v1_scv : Memref Cert.Kernel.sig Kind.scVector Space.hbm Cert.Kernel.S65536x128 EltTy.f32)
local notation "sI" => (Memref.whole Cert.Kernel.cc0_scratch0 : Memref Cert.Kernel.sig Kind.scVector Space.vmem Cert.Kernel.S16x128 EltTy.i32)
local notation "sR" => (Memref.whole Cert.Kernel.cc0_scratch1 : Memref Cert.Kernel.sig Kind.scVector Space.vmem Cert.Kernel.S2x128x128 EltTy.f32)

variable (m : (ℓ : Loc nD τ sig) → Buf (Elt F) ℓ) (ρ : Dev nD → PrngReg)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem bound_zero : grid0.bound 0 = 2 := rfl
theorem bound_one : grid0.bound 1 = 16 := rfl

variable [FloatOps F]

/-- The index array as the call finds it: the argument [128, 512] reshaped to [512, 128]. -/
def fiOf (d : Dev nD) : Buf (Elt F) (iLoc d) := shapeCast S512x128 (m ((SparseCore.T d).loc main_arg0)) shapeCasts_S128x512_S512x128

/-- The gathered rows: row t is the table's row named by word t of the index array. -/
def Gd (d : Dev nD) : Buf (Elt F) (oLoc d) := Cert.KernelIdeal.KVal.gath (F := F) (fiOf m d) (m (tLoc d))

/-- What the proof asks of the launch memory: every index word names a table row. -/
def PreOK : Prop := ∀ (d : Dev nD) y, (fiOf m d y).toNat < 30522

/-- The one call's payloads: a tile's share of the three arrays going, the same with the chunks gathered coming back;
    a SparseCore's is its sixteen tiles'. No kernel's proof consumes anything of the launch's. -/
def P : (K (F := F)).Pay (nD := nD) (Val := Elt F) (Name := ℕ) (U := UU) where
  st := fun q d c => match q with
    | 0 => bigSep Finset.univ fun i : Fin (grid0.bound 1) => tilePts d (Fin.cast (nCore_zero.trans bound_zero.symm) c) i (fiOf m d) (m (tLoc d)) (m (oLoc d))
  dn := fun q d c => match q with
    | 0 => bigSep Finset.univ fun i : Fin (grid0.bound 1) => tilePts d (Fin.cast (nCore_zero.trans bound_zero.symm) c) i (fiOf m d) (m (tLoc d)) (Gd m d)
  go := fun q d c i => match q with
    | 0 => tilePts d (Fin.cast (nCore_zero.trans bound_zero.symm) c) (Fin.cast (nSub_zero.trans bound_one.symm) i) (fiOf m d) (m (tLoc d)) (m (oLoc d))
  td := fun q d c i => match q with
    | 0 => tilePts d (Fin.cast (nCore_zero.trans bound_zero.symm) c) (Fin.cast (nSub_zero.trans bound_one.symm) i) (fiOf m d) (m (tLoc d)) (Gd m d)
  x := fun _ _ => iprop(emp)

instance tilePts_storable (d : Dev nD) (c : Fin (grid0.bound 0)) (i : Fin (grid0.bound 1)) (f : Buf (Elt F) (iLoc d)) (t : Buf (Elt F) (tLoc d))
    (o : Buf (Elt F) (oLoc d)) : BI.Storable (upEmb : UEmb _ 𝕄) (tilePts d c i f t o) := by
  unfold tilePts; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## A tile's task -/

section Tile

variable (d : Dev nD)

theorem defs₀_vector (c : Fin τ.nSC) (s : Fin τ.nSub) :
    defs₀ (F := F) (.scVector c s) 0 ()
      = SparseCore.onTile hcore0 hsub0 (fun c s => cc0__sc_gather_body (coordsV c s) iV (Memref.isWhole_whole _) tV (Memref.isWhole_whole _) oV (Memref.isWhole_whole _)
            sI (Memref.isWhole_whole _) sR (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 2000000 in
/-- The tile at (c, i): from its share of the arrays and its scoped storage, the body runs to its share with the chunks
    gathered and its scoped storage back. -/
theorem tile_body (hF : (K (F := F)).Facts) (hpre : PreOK m) (c : Fin (grid0.bound 0)) (i : Fin (grid0.bound 1))
    (O : CellTallies nD τ sig (HIx 1)) (W : Waits sig (HIx 1)) (hO : ∀ g, O g none = 0) :
    (iprop(levAts (K (F := F)).L (K (F := F)).lev ∗ emp ∗ tilePts d c i (fiOf m d) (m (tLoc d)) (m (oLoc d))
        ∗ scopedBufs (thr d (coordsV c i)) ∗ scopedSems0 (thr d (coordsV c i)) ∗ owes (thr d (coordsV c i)) O W) : sProp 𝕄)
      ⊢ wp frame (wpE (defs₀ (F := F)) 𝒱₀ (thr d (coordsV c i)) none) Set.univ
          (cc0__sc_gather_body (coordsV c i) iV (Memref.isWhole_whole _) tV (Memref.isWhole_whole _) oV (Memref.isWhole_whole _)
            sI (Memref.isWhole_whole _) sR (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(tilePts d c i (fiOf m d) (m (tLoc d)) (Gd m d) ∗ scopedBufs (thr d (coordsV c i)) ∗ scopedSems0 (thr d (coordsV c i))
            ∗ ∃ W', ⌜∀ p ∈ W', p ∈ W ∨ p.2 = none⌝ ∗ owes (thr d (coordsV c i)) O W') := by
  unfold tilePts
  iintro ⟨#Hlv, -, ⟨Hi, Hta, Htb, Ho0, Ho1, Ho2, Ho3, Ho4, Ho5, Ho6, Ho7, Ho8, Ho9, Ho10, Ho11, Ho12, Ho13, Ho14, Ho15⟩, Hsb, Hss, HO⟩
  ihave Hsc := (scoped_open (F := F) hF d (coordsV c i)) $$ [Hsb Hss]
  · isplitl [Hsb] <;> iassumption
  icases Hsc with ⟨⟨%fsI, HsI⟩, ⟨%fsR, Hsl0, Hsl1⟩, Hrb, Hm0, Hm1, Hm2, Hm3, Hm4, Hm5, Hm6, Hm7, Hm8, Hm9, Hm10, Hm11, Hm12, Hm13, Hm14, Hm15, Hm16, Hm17, Hm18, Hrs⟩
  ihave Hmw := ((K (F := F)).mayWaits_none (thr := thr d (coordsV c i)) hO) $$ Hlv
  iapply (wp_wand_r frame (wpE (defs₀ (F := F)) 𝒱₀ (thr d (coordsV c i)) none) Set.univ)
  isplitl [Hmw Hi Hta Htb Ho0 Ho1 Ho2 Ho3 Ho4 Ho5 Ho6 Ho7 Ho8 Ho9 Ho10 Ho11 Ho12 Ho13 Ho14 Ho15 HsI Hsl0 Hsl1 Hm0 Hm1 Hm2 Hm3 Hm4 Hm5 Hm6 Hm7 Hm8 Hm9 Hm10 Hm11 Hm12 Hm13 Hm14 Hm15 Hm16 Hm17 Hm18 HO]
  · iapply (tile_run d (coordsV c i) O W fullShare (tShare c i 0) (tShare c i 1) (fiOf m d) (m (tLoc d)) (m (oLoc d)) fsI fsR (hpre d))
    isplitl [Hmw]; · iexact Hmw
    isplitl [Hi]; · iexact Hi
    isplitl [Hta]; · iexact Hta
    isplitl [Htb]; · iexact Htb
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [HsI]; · iexact HsI
    isplitl [Hsl0]; · iexact Hsl0
    isplitl [Hsl1]; · iexact Hsl1
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    iexact HO
  iintro %_ ⟨Hi, Hta, Htb, Ho0, Ho1, Ho2, Ho3, Ho4, Ho5, Ho6, Ho7, Ho8, Ho9, Ho10, Ho11, Ho12, Ho13, Ho14, Ho15, HsI, Hsl0, Hsl1, Hm0, Hm1, Hm2, Hm3, Hm4, Hm5, Hm6, Hm7, Hm8, Hm9, Hm10, Hm11, Hm12, Hm13, Hm14, Hm15, Hm16, Hm17, Hm18, HW⟩
  isplitl [Hi Hta Htb Ho0 Ho1 Ho2 Ho3 Ho4 Ho5 Ho6 Ho7 Ho8 Ho9 Ho10 Ho11 Ho12 Ho13 Ho14 Ho15]
  · isplitl [Hi]; · iexact Hi
    isplitl [Hta]; · iexact Hta
    isplitl [Htb]; · iexact Htb
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  ihave Hcl := (scoped_close (F := F) hF d (coordsV c i)) $$ [HsI Hsl0 Hsl1 Hrb Hm0 Hm1 Hm2 Hm3 Hm4 Hm5 Hm6 Hm7 Hm8 Hm9 Hm10 Hm11 Hm12 Hm13 Hm14 Hm15 Hm16 Hm17 Hm18 Hrs]
  · isplitl [HsI]; · iexact HsI
    isplitl [Hsl0]; · iexact Hsl0
    isplitl [Hsl1]; · iexact Hsl1
    isplitl [Hrb]; · iexact Hrb
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    iexact Hrs
  icases Hcl with ⟨Hsb, Hss⟩
  isplitl [Hsb]; · iexact Hsb
  isplitl [Hss]; · iexact Hss
  iexact HW

/-- The launch theorem's obligation for the vector-subcore call. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d hF hpre ⟨_, hc.1⟩ ⟨_, hc.2⟩ O W hO).trans (wp_mono frame _ _ fun _ => obl_post)

end Tile

/-! ## A SparseCore's operands are its tiles' -/

omit [FloatOps F] in
theorem bigSep_tasks (Φ : Fin (grid0.bound 1) → sProp 𝕄) :
    (bigSep Finset.univ fun i : Fin ((K (F := F)).nSub 0) => Φ (Fin.cast (nSub_zero.trans bound_one.symm) i)) = bigSep Finset.univ Φ :=
  bigSep_congr fun _ _ => congrArg Φ (Fin.ext rfl)

theorem vecSplit : (K (F := F)).VecSplit' (P m) 0 := by
  intro d c
  show (bigSep Finset.univ fun i : Fin (grid0.bound 1) => tilePts d (Fin.cast (nCore_zero.trans bound_zero.symm) c) i (fiOf m d) (m (tLoc d)) (m (oLoc d)))
    ⊢ |={Set.univ}=> iprop(
      (bigSep Finset.univ fun i : Fin ((K (F := F)).nSub 0) =>
        tilePts d (Fin.cast (nCore_zero.trans bound_zero.symm) c) (Fin.cast (nSub_zero.trans bound_one.symm) i) (fiOf m d) (m (tLoc d)) (m (oLoc d)))
      ∗ ((bigSep Finset.univ fun i : Fin ((K (F := F)).nSub 0) =>
          tilePts d (Fin.cast (nCore_zero.trans bound_zero.symm) c) (Fin.cast (nSub_zero.trans bound_one.symm) i) (fiOf m d) (m (tLoc d)) (Gd m d))
          -∗ bigSep Finset.univ fun i : Fin (grid0.bound 1) => tilePts d (Fin.cast (nCore_zero.trans bound_zero.symm) c) i (fiOf m d) (m (tLoc d)) (Gd m d)))
  rw [bigSep_tasks (F := F) (fun i => tilePts d (Fin.cast (nCore_zero.trans bound_zero.symm) c) i (fiOf m d) (m (tLoc d)) (m (oLoc d))),
    bigSep_tasks (F := F) (fun i => tilePts d (Fin.cast (nCore_zero.trans bound_zero.symm) c) i (fiOf m d) (m (tLoc d)) (Gd m d))]
  iintro H; imodintro
  isplitl [H]; · iexact H
  iintro H; iexact H

end Cert.Kernel.Sc
end
-- ==== Proof.KTcHeld.lean ====
/-
  The TensorCore's arrays as one held set. @main's sixteen tensor values — the seven arguments and the nine results of
  its operations — are the TensorCore's unscoped buffers. The launch deals them as one family; here that family is
  the set `SU` held at a valuation, and the set is split three ways: at the three arrays the SparseCore call takes,
  at the seven arrays the TensorCore region takes, and at each host operation's operand and result. Last, what a
  state that holds the set reads at the result and the seven arguments.
-/
import proofs.«207697_g22892175687689_cont_8to1_1704_9_alg».proof.Proof.KScDefs
import Idealize.ShloMosaic.Lib.StableHlo.Run

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr)

variable {F : FTy → Type}

local notation "𝕄" => MT nD τ sig (HIx 1) (Elt F) ℕ UU ℕ

/-- The TensorCore's unscoped arrays, as device references. -/
def SU : Finset (DevRef τ sig) :=
  (Finset.univ.filter fun b : Ref sig .tc => ¬ b.isScoped).map ⟨Proc.devRef .tc, Proc.devRef_injective _⟩

/-- A TensorCore reference as a device reference. -/
abbrev r (x : Ref sig .tc) : DevRef τ sig := Proc.devRef .tc x

/-- The launch's family of unscoped arrays at the launch memory is the set held at the launch memory. -/
theorem unscoped_held (m : (ℓ : Loc nD τ sig) → Buf (Elt F) ℓ) (d : Dev nD) :
    (unscopedBufs d (fun b => m ((SparseCore.T d).loc b)) : sProp 𝕄) = held (T d) SU (fun b => m (d, b)) := by
  unfold unscopedBufs held SU
  rw [BI.bigSep_map]
  rfl

/-- An unscoped TensorCore reference is in the set. -/
theorem mem_SU (x : Ref sig .tc) (hx : x.isScoped = false) : r x ∈ SU :=
  Finset.mem_map.mpr ⟨x, Finset.mem_filter.mpr ⟨Finset.mem_univ _, by rw [hx]; exact Bool.false_ne_true⟩, rfl⟩

/-- Two unscoped references' pair is inside the set. -/
theorem pair_sub {x y : Ref sig .tc} (hx : x.isScoped = false) (hy : y.isScoped = false) :
    ({r x, r y} : Finset (DevRef τ sig)) ⊆ SU := by
  intro b hb
  rcases Finset.mem_insert.mp hb with rfl | hb
  · exact mem_SU _ hx
  · rw [Finset.mem_singleton.mp hb]; exact mem_SU _ hy

theorem sep_assoc_eq (P Q R : sProp 𝕄) : iprop((P ∗ Q) ∗ R) = iprop(P ∗ Q ∗ R) :=
  BI.equiv_iff.mp ⟨BI.sep_assoc, BI.sep_assoc'⟩

/-! ## The three arrays of the SparseCore call -/

theorem sc3_sub : ({r main_v0, r main_arg1, r main_v1} : Finset (DevRef τ sig)) ⊆ SU := by
  intro b hb
  simp only [Finset.mem_insert, Finset.mem_singleton] at hb
  rcases hb with rfl | rfl | rfl
  · exact mem_SU _ rfl
  · exact mem_SU _ rfl
  · exact mem_SU _ rfl

/-- The three arrays the SparseCore call takes: the reshaped indices, the table, the gathered rows; and the rest. -/
theorem held_sc (d : Dev nD) (V : Valuation τ sig (Elt F)) :
    (held (T d) SU V : sProp 𝕄)
      = iprop((iLoc d ↦{fullShare} V (r main_v0)) ∗ (tLoc d ↦{fullShare} V (r main_arg1)) ∗ (oLoc d ↦{fullShare} V (r main_v1))
          ∗ held (T d) (SU \ {r main_v0, r main_arg1, r main_v1}) V) := by
  rw [held_sub_split (T d) sc3_sub V]
  conv_lhs => arg 1; unfold held
  rw [SparseCore.bigSep_insert' (by decide), SparseCore.bigSep_insert' (by decide), BI.bigSep_singleton]
  simp only [sep_assoc_eq]

/-! ## The seven arrays of the TensorCore region -/

theorem region7_sub : ({r main_v1, r main_v2, r main_v3, r main_v4, r main_v5, r main_v6, r main_v7} : Finset (DevRef τ sig)) ⊆ SU := by
  intro b hb
  simp only [Finset.mem_insert, Finset.mem_singleton] at hb
  rcases hb with rfl | rfl | rfl | rfl | rfl | rfl | rfl
  all_goals exact mem_SU _ rfl

/-- The seven arrays of the TensorCore region, in order, and the rest. -/
theorem held_region (d : Dev nD) (V : Valuation τ sig (Elt F)) :
    (held (T d) SU V : sProp 𝕄)
      = iprop((((d.tc : Thread nD τ).loc main_v1) ↦{fullShare} V (r main_v1))
          ∗ (((d.tc : Thread nD τ).loc main_v2) ↦{fullShare} V (r main_v2))
          ∗ (((d.tc : Thread nD τ).loc main_v3) ↦{fullShare} V (r main_v3))
          ∗ (((d.tc : Thread nD τ).loc main_v4) ↦{fullShare} V (r main_v4))
          ∗ (((d.tc : Thread nD τ).loc main_v5) ↦{fullShare} V (r main_v5))
          ∗ (((d.tc : Thread nD τ).loc main_v6) ↦{fullShare} V (r main_v6))
          ∗ (((d.tc : Thread nD τ).loc main_v7) ↦{fullShare} V (r main_v7))
          ∗ held (T d) (SU \ {r main_v1, r main_v2, r main_v3, r main_v4, r main_v5, r main_v6, r main_v7}) V) := by
  rw [held_sub_split (T d) region7_sub V]
  conv_lhs => arg 1; unfold held
  rw [SparseCore.bigSep_insert' (by decide), SparseCore.bigSep_insert' (by decide), SparseCore.bigSep_insert' (by decide), SparseCore.bigSep_insert' (by decide), SparseCore.bigSep_insert' (by decide), SparseCore.bigSep_insert' (by decide), BI.bigSep_singleton]
  simp only [sep_assoc_eq]

/-! ## @main's seven host operations -/

section Ops
variable [FloatOps F]

abbrev op0 : HloOp τ sig (Elt F) := StableHlo.reshape main_arg0 main_v0 rfl shapeCasts_S128x512_S512x128
abbrev op2 : HloOp τ sig (Elt F) := StableHlo.unary main_arg2 main_v2 ((extractStridedSlice S512x128 ![0, 0] · slices_S519x128_S512x128_0_0) : (⟨S519x128, .f32⟩ : BufTy).Contents (Elt F) → (⟨S512x128, .f32⟩ : BufTy).Contents (Elt F))
abbrev op3 : HloOp τ sig (Elt F) := StableHlo.unary main_arg3 main_v3 ((transpose S480x128 [1, 0] · transposes_S128x480_S480x128_1_0) : (⟨S128x480, .f32⟩ : BufTy).Contents (Elt F) → (⟨S480x128, .f32⟩ : BufTy).Contents (Elt F))
abbrev op4 : HloOp τ sig (Elt F) := StableHlo.reshape main_arg4 main_v4 rfl shapeCasts_S480_S480x1
abbrev op5 : HloOp τ sig (Elt F) := StableHlo.reshape main_arg5 main_v5 rfl shapeCasts_S480_S480x1
abbrev op6 : HloOp τ sig (Elt F) := StableHlo.reshape main_arg6 main_v6 rfl shapeCasts_S480_S480x1
abbrev op8 : HloOp τ sig (Elt F) := StableHlo.unary main_v7 main_v8 ((transpose S128x512x480 [0, 2, 1] · transposes_S128x480x512_S128x512x480_0_2_1) : (⟨S128x480x512, .f32⟩ : BufTy).Contents (Elt F) → (⟨S128x512x480, .f32⟩ : BufTy).Contents (Elt F))

/-- Each touches its operand and its result, both in the set. -/
theorem op0_sub : (op0 (F := F)).bufs ⊆ SU := pair_sub rfl rfl
theorem op2_sub : (op2 (F := F)).bufs ⊆ SU := pair_sub rfl rfl
theorem op3_sub : (op3 (F := F)).bufs ⊆ SU := pair_sub rfl rfl
theorem op4_sub : (op4 (F := F)).bufs ⊆ SU := pair_sub rfl rfl
theorem op5_sub : (op5 (F := F)).bufs ⊆ SU := pair_sub rfl rfl
theorem op6_sub : (op6 (F := F)).bufs ⊆ SU := pair_sub rfl rfl
theorem op8_sub : (op8 (F := F)).bufs ⊆ SU := pair_sub rfl rfl

/-- Each determines its result. -/
theorem op0_fresh : (op0 (F := F)).fresh = ∅ := rfl
theorem op2_fresh : (op2 (F := F)).fresh = ∅ := rfl
theorem op3_fresh : (op3 (F := F)).fresh = ∅ := rfl
theorem op4_fresh : (op4 (F := F)).fresh = ∅ := rfl
theorem op5_fresh : (op5 (F := F)).fresh = ∅ := rfl
theorem op6_fresh : (op6 (F := F)).fresh = ∅ := rfl
theorem op8_fresh : (op8 (F := F)).fresh = ∅ := rfl

end Ops

/-! ## The final read-off -/

/-- A state that holds the set at `V` reads `V` at the result and at the seven arguments. -/
theorem hfin8 (d : Dev nD) (V : Valuation τ sig (Elt F)) (s' : Phys nD τ sig (Elt F)) :
    (iprop(held (T d) SU V ∗ SI s') : sProp 𝕄)
      ⊢ ⌜s'.mem.mem ((d.tc : Thread nD τ).loc main_v8) = V (r main_v8)
        ∧ s'.mem.mem ((d.tc : Thread nD τ).loc main_arg0) = V (r main_arg0)
        ∧ s'.mem.mem ((d.tc : Thread nD τ).loc main_arg1) = V (r main_arg1)
        ∧ s'.mem.mem ((d.tc : Thread nD τ).loc main_arg2) = V (r main_arg2)
        ∧ s'.mem.mem ((d.tc : Thread nD τ).loc main_arg3) = V (r main_arg3)
        ∧ s'.mem.mem ((d.tc : Thread nD τ).loc main_arg4) = V (r main_arg4)
        ∧ s'.mem.mem ((d.tc : Thread nD τ).loc main_arg5) = V (r main_arg5)
        ∧ s'.mem.mem ((d.tc : Thread nD τ).loc main_arg6) = V (r main_arg6)⌝ := by
  unfold held
  iintro ⟨H, HSI⟩
  ihave %h := (SI_pointsTo_bufs_agree (qs := fun _ => fullShare) SU) $$ [HSI H]
  · isplitl [HSI]
    · iexact HSI
    iexact H
  ipureintro
  exact ⟨h _ (mem_SU main_v8 rfl), h _ (mem_SU main_arg0 rfl), h _ (mem_SU main_arg1 rfl), h _ (mem_SU main_arg2 rfl), h _ (mem_SU main_arg3 rfl), h _ (mem_SU main_arg4 rfl), h _ (mem_SU main_arg5 rfl), h _ (mem_SU main_arg6 rfl)⟩

end Cert.Kernel.Sc

end
-- ==== Proof.KTcRegionBody.lean ====
/-
  The TensorCore call's kernel body: what one run of the body at a grid point leaves in the seven windows' staging
  buffers, as a function of the six input blocks, and the proof data of the call's pipeline over it.

  The body loads the weight block, the position block, three columns (bias, scale, shift) and four consecutive
  512-row pieces of the gathered block; for each piece it stores one 480 x 512 slab of the output block. The output
  block after the body is therefore the overlay of four stores whose rectangles tile it; the inputs are left as found.
-/
import proofs.«207697_g22892175687689_cont_8to1_1704_9_alg».proof.Proof.Gen.Kernel.Launch
import proofs.«207697_g22892175687689_cont_8to1_1704_9_alg».proof.Proof.Gen.Kernel.Points
import proofs.«207697_g22892175687689_cont_8to1_1704_9_alg».proof.Proof.Gen.Kernel.Skeleton
import Idealize.ShloMosaic.Lib.SparseCore.Launch
import Idealize.ShloMosaic.Lib.Pipeline.FrameBody
import Idealize.ShloMosaic.Lib.Tactic

set_option maxRecDepth 16384

noncomputable section

namespace Cert.Kernel.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.SparseCore (T)
open Idealize.ShloMosaic.SparseCore.Cfg (HIx)

variable {F : FTy → Type} [FloatOps F] {U : Type} [URA U]

local notation "𝕄" => MT nD τ sig (HIx 1) (Elt F) ℕ U ℕ

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift

/-! ## The arrays the region moves -/

variable (V : (c : Dev nD) → (b : Ref sig .tc) → Buf (Elt F) ((c.tc : Thread nD τ).loc b))
  (O : Dev nD → CellTallies nD τ sig (HIx 1)) (bnd : ℕ)

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rO0 : Rect S4x480x512 := Rect.unit (s := S4x480x512) ![0, 0, 0] S1x480x512.size inb_S4x480x512_S1x480x512_0_0_0
abbrev rO1 : Rect S4x480x512 := Rect.unit (s := S4x480x512) ![1, 0, 0] S1x480x512.size inb_S4x480x512_S1x480x512_1_0_0
abbrev rO2 : Rect S4x480x512 := Rect.unit (s := S4x480x512) ![2, 0, 0] S1x480x512.size inb_S4x480x512_S1x480x512_2_0_0
abbrev rO3 : Rect S4x480x512 := Rect.unit (s := S4x480x512) ![3, 0, 0] S1x480x512.size inb_S4x480x512_S1x480x512_3_0_0
abbrev rX0 : Rect S2048x128 := Rect.unit (s := S2048x128) ![0, 0] S512x128.size inb_S2048x128_S512x128_0_0
abbrev rX1 : Rect S2048x128 := Rect.unit (s := S2048x128) ![512, 0] S512x128.size inb_S2048x128_S512x128_512_0
abbrev rX2 : Rect S2048x128 := Rect.unit (s := S2048x128) ![1024, 0] S512x128.size inb_S2048x128_S512x128_1024_0
abbrev rX3 : Rect S2048x128 := Rect.unit (s := S2048x128) ![1536, 0] S512x128.size inb_S2048x128_S512x128_1536_0
abbrev rP : Rect S512x128 := Rect.unit (s := S512x128) ![0, 0] S512x128.size inb_S512x128_S512x128_0_0
abbrev rW : Rect S480x128 := Rect.unit (s := S480x128) ![0, 0] S480x128.size inb_S480x128_S480x128_0_0
abbrev rC : Rect S480x1 := Rect.unit (s := S480x1) ![0, 0] S480x1.size inb_S480x1_S480x1_0_0

/-- What the body leaves in the output window's buffer, from the six input blocks: its four stores as pieces, last first. -/
def outBlk [∀ e, Nonempty (Elt F e)] (x0 : Vec F S2048x128 .f32) (x1 : Vec F S512x128 .f32) (x2 : Vec F S480x128 .f32) (x3 x4 x5 : Vec F S480x1 .f32) :
    Vec F S4x480x512 .f32 :=
  View.canon [⟨rO3, k1_pay1 (k1_pay2 (View.ld x2 rW)) (k1_pay7 (View.ld x0 rX3)) (View.ld x1 rP) (View.ld x3 rC) (View.ld x4 rC) (View.ld x5 rC)⟩,
    ⟨rO2, k1_pay6 (k1_pay2 (View.ld x2 rW)) (View.ld x0 rX2) (View.ld x1 rP) (View.ld x3 rC) (View.ld x4 rC) (View.ld x5 rC)⟩,
    ⟨rO1, k1_pay5 (k1_pay2 (View.ld x2 rW)) (View.ld x0 rX1) (View.ld x1 rP) (View.ld x3 rC) (View.ld x4 rC) (View.ld x5 rC)⟩,
    ⟨rO0, k1_pay4 (k1_pay3 (View.ld x2 rW) (View.ld x0 rX0) (View.ld x1 rP) (View.ld x3 rC) (View.ld x4 rC) (View.ld x5 rC))⟩]

theorem coverO (p0 p1 p2 p3 : Vec F S1x480x512 .f32) (y : S4x480x512.Idx) :
    ∃ pc ∈ ([⟨rO3, p3⟩, ⟨rO2, p2⟩, ⟨rO1, p1⟩, ⟨rO0, p0⟩] : List (View.Piece (Elt F) S4x480x512 .f32)), y ∈ pc.1.set :=
  View.cover_of_tiled [⟨rO3, p3⟩, ⟨rO2, p2⟩, ⟨rO1, p1⟩, ⟨rO0, p0⟩] S1x480x512.size (by rfl) y

/-! ## The body's triple -/

set_option maxHeartbeats 4000000 in
/-- The kernel body on whole staging memrefs, the six inputs' at read contents and the output's at anything, runs to the
    continuation holding the inputs' as they were and the output's at outBlk of the inputs'. -/
theorem sound_kernel (c : Dev nD) (E : Set ℕ) (i : grid1.Coords)
    (arg1 : Memref sig .tc .vmem S2048x128 .f32) (harg1 : arg1.IsWhole) (arg2 : Memref sig .tc .vmem S512x128 .f32) (harg2 : arg2.IsWhole)
    (arg3 : Memref sig .tc .vmem S480x128 .f32) (harg3 : arg3.IsWhole) (arg4 : Memref sig .tc .vmem S480x1 .f32) (harg4 : arg4.IsWhole)
    (arg5 : Memref sig .tc .vmem S480x1 .f32) (harg5 : arg5.IsWhole) (arg6 : Memref sig .tc .vmem S480x1 .f32) (harg6 : arg6.IsWhole)
    (arg7 : Memref sig .tc .vmem S4x480x512 .f32) (harg7 : arg7.IsWhole)
    (x0 : Vec F S2048x128 .f32) (x1 : Vec F S512x128 .f32) (x2 : Vec F S480x128 .f32) (x3 x4 x5 : Vec F S480x1 .f32) (Kp : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ Kp ⟨⟩))
      ⊢ wp frame (wpE (defs₀ (F := F)) Variants.none c none) E (cc1__tc_body i arg1 harg1 arg2 harg2 arg3 harg3 arg4 harg4 arg5 harg5 arg6 harg6 arg7 harg7) Kp := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverO _ _ _ _)

/-! ## The pipeline's proof data -/

/-- The proof data of the one pipeline on core c: the arrays as the region finds them; after the body at point t each
    input's buffer at its block and the output's at outBlk of the input blocks; the invariant the scoped rest; what
    the core owes constant; its recorded pairs within the given level bound. -/
def dat (c : Dev nD) : Dat τ (Elt F) (HIx 1) ℕ U ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outBlk (iblk V c 0 t) (iblk V c 1 t) (iblk V c 2 t) (iblk V c 3 t) (iblk V c 4 t) (iblk V c 5 t)
  Φ _ := Pipeline.scopedRest spec1 c
  q _ := fullShare
  owed _ := O c
  recorded _ := {p | (K (F := F)).lev ((T c), p.1) p.2 ≤ bnd}

abbrev dats (_ : Fin 1) (c : Dev nD) : Dat τ (Elt F) (HIx 1) ℕ U ℕ cfg1 c := dat (U := U) V O bnd c

theorem A_eq (c : Dev nD) (w : Fin cfg1.W) : (dat (U := U) V O bnd c).A w = V c (Pipeline.arrRef spec1 w) := by
  dsimp only [dat]

theorem after_0 (c : Dev nD) (t : Fin cfg1.N) : (dat (U := U) V O bnd c).after 0 t = iblk V c 0 t := by dsimp only [dat]
theorem after_1 (c : Dev nD) (t : Fin cfg1.N) : (dat (U := U) V O bnd c).after 1 t = iblk V c 1 t := by dsimp only [dat]
theorem after_2 (c : Dev nD) (t : Fin cfg1.N) : (dat (U := U) V O bnd c).after 2 t = iblk V c 2 t := by dsimp only [dat]
theorem after_3 (c : Dev nD) (t : Fin cfg1.N) : (dat (U := U) V O bnd c).after 3 t = iblk V c 3 t := by dsimp only [dat]
theorem after_4 (c : Dev nD) (t : Fin cfg1.N) : (dat (U := U) V O bnd c).after 4 t = iblk V c 4 t := by dsimp only [dat]
theorem after_5 (c : Dev nD) (t : Fin cfg1.N) : (dat (U := U) V O bnd c).after 5 t = iblk V c 5 t := by dsimp only [dat]
theorem after_6 (c : Dev nD) (t : Fin cfg1.N) : (dat (U := U) V O bnd c).after 6 t
    = outBlk (iblk V c 0 t) (iblk V c 1 t) (iblk V c 2 t) (iblk V c 3 t) (iblk V c 4 t) (iblk V c 5 t) := by dsimp only [dat]

/-- An input window's current staging buffer holds its block at every point, fetched there or not. -/
theorem before_0 (c : Dev nD) (t : Fin cfg1.N) (d) : (dat (U := U) V O bnd c).before 0 t d = iblk V c 0 t :=
  ((dat (U := U) V O bnd c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat (U := U) V O bnd c).before 1 t d = iblk V c 1 t :=
  ((dat (U := U) V O bnd c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat (U := U) V O bnd c).before 2 t d = iblk V c 2 t :=
  ((dat (U := U) V O bnd c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat (U := U) V O bnd c).before 3 t d = iblk V c 3 t :=
  ((dat (U := U) V O bnd c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat (U := U) V O bnd c).before 4 t d = iblk V c 4 t :=
  ((dat (U := U) V O bnd c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat (U := U) V O bnd c).before 5 t d = iblk V c 5 t :=
  ((dat (U := U) V O bnd c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation, at a generic point -/

def bodyPre (c : Dev nD) (t : Fin cfg1.N) : sProp 𝕄 :=
  iprop((dat (U := U) V O bnd c).Φ t.castSucc ∗ (dat (U := U) V O bnd c).owesAt none t.castSucc
    ∗ (∃ d, owns (c : Thread nD τ) (st1_0 t) fullShare ((dat (U := U) V O bnd c).before 0 t d))
    ∗ (∃ d, owns (c : Thread nD τ) (st1_1 t) fullShare ((dat (U := U) V O bnd c).before 1 t d))
    ∗ (∃ d, owns (c : Thread nD τ) (st1_2 t) fullShare ((dat (U := U) V O bnd c).before 2 t d))
    ∗ (∃ d, owns (c : Thread nD τ) (st1_3 t) fullShare ((dat (U := U) V O bnd c).before 3 t d))
    ∗ (∃ d, owns (c : Thread nD τ) (st1_4 t) fullShare ((dat (U := U) V O bnd c).before 4 t d))
    ∗ (∃ d, owns (c : Thread nD τ) (st1_5 t) fullShare ((dat (U := U) V O bnd c).before 5 t d))
    ∗ (∃ d, owns (c : Thread nD τ) (st1_6 t) fullShare ((dat (U := U) V O bnd c).before 6 t d)))

def bodyPost (c : Dev nD) (t : Fin cfg1.N) : sProp 𝕄 :=
  iprop((dat (U := U) V O bnd c).Φ t.succ ∗ (dat (U := U) V O bnd c).owesAt none t.succ
    ∗ owns (c : Thread nD τ) (st1_0 t) fullShare ((dat (U := U) V O bnd c).after 0 t)
    ∗ owns (c : Thread nD τ) (st1_1 t) fullShare ((dat (U := U) V O bnd c).after 1 t)
    ∗ owns (c : Thread nD τ) (st1_2 t) fullShare ((dat (U := U) V O bnd c).after 2 t)
    ∗ owns (c : Thread nD τ) (st1_3 t) fullShare ((dat (U := U) V O bnd c).after 3 t)
    ∗ owns (c : Thread nD τ) (st1_4 t) fullShare ((dat (U := U) V O bnd c).after 4 t)
    ∗ owns (c : Thread nD τ) (st1_5 t) fullShare ((dat (U := U) V O bnd c).after 5 t)
    ∗ owns (c : Thread nD τ) (st1_6 t) fullShare ((dat (U := U) V O bnd c).after 6 t))

theorem sound_body (c : Dev nD) (t : Fin cfg1.N) :
    bodyPre (U := U) V O bnd c t ⊢ wp frame (wpE (defs₀ (F := F)) Variants.none c none) Set.univ (bodyAt1 t) (fun _ => bodyPost (U := U) V O bnd c t) := by
  unfold bodyPre bodyPost bodyAt1
  simp only [before_0, before_1, before_2, before_3, before_4, before_5]
  rw [show (dat (U := U) V O bnd c).Φ t.succ = (dat (U := U) V O bnd c).Φ t.castSucc from rfl,
    show (dat (U := U) V O bnd c).owesAt none t.succ = (dat (U := U) V O bnd c).owesAt none t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid1.coords t) _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (U := U) V O bnd c) (defs₀ (F := F)) Variants.none none Set.univ := fun t => by
  rw [bigSep_W1, bigSep_W1]
  exact sound_body V O bnd c t

end Cert.Kernel.TcRegion

end
-- ==== Proof.KTcRegion.lean ====
/-
  The TensorCore call as one step of the main program: from the seven arrays it moves held whole (six inputs, one
  output), what the core owes and the staging cells' launch state, the call runs to the same arrays with the inputs
  unchanged and the output at what the thirty-two write-backs of the body's blocks leave. The staging cells' waits sit
  at the lowest level, below everything the core owes, so the pipeline's waits are always allowed.
-/
import proofs.«207697_g22892175687689_cont_8to1_1704_9_alg».proof.Proof.KTcRegionBody
import Idealize.ShloMosaic.Lib.SparseCore.Launch
import Idealize.ShloMosaic.Lib.Pipeline.FrameBody
import Idealize.ShloMosaic.Lib.Tactic

set_option maxRecDepth 16384

noncomputable section

namespace Cert.Kernel.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.SparseCore (T)
open Idealize.ShloMosaic.SparseCore.Cfg (HIx)

variable {F : FTy → Type} [FloatOps F] {U : Type} [URA U]

local notation "𝕄" => MT nD τ sig (HIx 1) (Elt F) ℕ U ℕ

variable (V : (c : Dev nD) → (b : Ref sig .tc) → Buf (Elt F) ((c.tc : Thread nD τ).loc b))
  (O : Dev nD → CellTallies nD τ sig (HIx 1)) (bnd : ℕ)

/-! ## The region -/

variable (EP : Emb (URounds (GSem nD τ sig) Unit) (MT nD τ sig (HIx 1) (Elt F) ℕ U ℕ))

/-- The one admissible contents of no prefetched table. -/
abbrev adm : (p : Fin 1) → (pcfgs (F := F) p).Adm := fun p => (cfgs p).toPCfg_adm

/-- What the TensorCore owes, its recorded pairs at levels at most the bound. -/
def owesB (c : Dev nD) : sProp 𝕄 := iprop(∃ W, ⌜(K (F := F)).WBelow (T c) W bnd⌝ ∗ owes (T c) (O c) W)

/-- The output array after every write-back. -/
def outV7 (c : Dev nD) : Buf (Elt F) ((c.tc : Thread nD τ).loc main_v7) := (dat (U := U) V O bnd c).arrAt 6 cfg1.N

/-- The seven arrays the region moves, whole, at contents G. -/
def arrsAt (c : Dev nD) (G : (w : Fin cfg1.W) → Buf (Elt F) ((c.tc : Thread nD τ).loc (Pipeline.arrRef spec1 w))) : sProp 𝕄 :=
  iprop((((c.tc : Thread nD τ).loc main_v1) ↦{fullShare} G 0) ∗ (((c.tc : Thread nD τ).loc main_v2) ↦{fullShare} G 1)
    ∗ (((c.tc : Thread nD τ).loc main_v3) ↦{fullShare} G 2) ∗ (((c.tc : Thread nD τ).loc main_v4) ↦{fullShare} G 3)
    ∗ (((c.tc : Thread nD τ).loc main_v5) ↦{fullShare} G 4) ∗ (((c.tc : Thread nD τ).loc main_v6) ↦{fullShare} G 5)
    ∗ (((c.tc : Thread nD τ).loc main_v7) ↦{fullShare} G 6))

/-- The seven arrays as the region finds them, -/
def arrsIn (c : Dev nD) : sProp 𝕄 :=
  iprop((((c.tc : Thread nD τ).loc main_v1) ↦{fullShare} V c main_v1) ∗ (((c.tc : Thread nD τ).loc main_v2) ↦{fullShare} V c main_v2)
    ∗ (((c.tc : Thread nD τ).loc main_v3) ↦{fullShare} V c main_v3) ∗ (((c.tc : Thread nD τ).loc main_v4) ↦{fullShare} V c main_v4)
    ∗ (((c.tc : Thread nD τ).loc main_v5) ↦{fullShare} V c main_v5) ∗ (((c.tc : Thread nD τ).loc main_v6) ↦{fullShare} V c main_v6)
    ∗ (((c.tc : Thread nD τ).loc main_v7) ↦{fullShare} V c main_v7))

/-- and as it leaves them: the inputs unchanged, the output at what the write-backs left. -/
def arrsOut (c : Dev nD) : sProp 𝕄 :=
  iprop((((c.tc : Thread nD τ).loc main_v1) ↦{fullShare} V c main_v1) ∗ (((c.tc : Thread nD τ).loc main_v2) ↦{fullShare} V c main_v2)
    ∗ (((c.tc : Thread nD τ).loc main_v3) ↦{fullShare} V c main_v3) ∗ (((c.tc : Thread nD τ).loc main_v4) ↦{fullShare} V c main_v4)
    ∗ (((c.tc : Thread nD τ).loc main_v5) ↦{fullShare} V c main_v5) ∗ (((c.tc : Thread nD τ).loc main_v6) ↦{fullShare} V c main_v6)
    ∗ (((c.tc : Thread nD τ).loc main_v7) ↦{fullShare} outV7 (U := U) V O bnd c))

theorem share_full (c : Dev nD) (w : Fin cfg1.W) : (dat (U := U) V O bnd c).share w = fullShare :=
  (dat (U := U) V O bnd c).share_full (fun _ => rfl) w

theorem arrays_eq7 (c : Dev nD) (G : (w : Fin cfg1.W) → Buf (Elt F) ((c.tc : Thread nD τ).loc (Pipeline.arrRef spec1 w))) :
    (dat (U := U) V O bnd c).arrays G = arrsAt (U := U) c G := by
  rw [Pipeline.arrays_eq cfgs (dats (U := U) V O bnd) 0 c arr_whole1 (share_full (U := U) V O bnd c) G, bigSep_W1]
  rfl

theorem arrAt_in0 (c : Dev nD) (n : ℕ) : (dat (U := U) V O bnd c).arrAt 0 n = V c main_v1 := ((dat (U := U) V O bnd c).arrAt_in 0 rfl n).trans (A_eq V O bnd c 0)
theorem arrAt_in1 (c : Dev nD) (n : ℕ) : (dat (U := U) V O bnd c).arrAt 1 n = V c main_v2 := ((dat (U := U) V O bnd c).arrAt_in 1 rfl n).trans (A_eq V O bnd c 1)
theorem arrAt_in2 (c : Dev nD) (n : ℕ) : (dat (U := U) V O bnd c).arrAt 2 n = V c main_v3 := ((dat (U := U) V O bnd c).arrAt_in 2 rfl n).trans (A_eq V O bnd c 2)
theorem arrAt_in3 (c : Dev nD) (n : ℕ) : (dat (U := U) V O bnd c).arrAt 3 n = V c main_v4 := ((dat (U := U) V O bnd c).arrAt_in 3 rfl n).trans (A_eq V O bnd c 3)
theorem arrAt_in4 (c : Dev nD) (n : ℕ) : (dat (U := U) V O bnd c).arrAt 4 n = V c main_v5 := ((dat (U := U) V O bnd c).arrAt_in 4 rfl n).trans (A_eq V O bnd c 4)
theorem arrAt_in5 (c : Dev nD) (n : ℕ) : (dat (U := U) V O bnd c).arrAt 5 n = V c main_v6 := ((dat (U := U) V O bnd c).arrAt_in 5 rfl n).trans (A_eq V O bnd c 5)

theorem arrsAt_in (c : Dev nD) : arrsAt (U := U) c ((dat (U := U) V O bnd c).arrAt · 0) = arrsIn (U := U) V c := by
  unfold arrsAt arrsIn
  beta_reduce
  rw [arrAt_in0, arrAt_in1, arrAt_in2, arrAt_in3, arrAt_in4, arrAt_in5]
  rfl

theorem arrsAt_out (c : Dev nD) : arrsAt (U := U) c ((dat (U := U) V O bnd c).arrAt · cfg1.N) = arrsOut (U := U) V O bnd c := by
  unfold arrsAt arrsOut outV7
  beta_reduce
  rw [arrAt_in0, arrAt_in1, arrAt_in2, arrAt_in3, arrAt_in4, arrAt_in5]

theorem hin_ (c : Dev nD) : iprop((iprop(emp) : sProp 𝕄) ∗ Pipeline.prefHeld (pcfgs (F := F) 0).pre c (fun _ => fullShare) (adm (F := F) 0).1 ∗ Pipeline.scopedRest (Pipeline.pin (pcfgs (F := F)) adm 0).spec c) ⊢ (dats (U := U) V O bnd 0 c).Φ 0 := by
  dsimp only [dats, dat]
  iintro ⟨-, -, H⟩; iexact H

theorem hout_ (c : Dev nD) : (dats (U := U) V O bnd 0 c).Φ (Fin.last (Pipeline.pin (pcfgs (F := F)) adm 0).N) ⊢ iprop((iprop(emp) : sProp 𝕄) ∗ Pipeline.ownSems0 (fun k : PEmpty => k.elim) c ∗ Pipeline.scopedRest (Pipeline.pin (pcfgs (F := F)) adm 0).spec c) := by
  dsimp only [dats, dat]
  rw [Pipeline.ownSems0_none]
  iintro H
  isplitr; · iempintro
  isplitr; · iempintro
  iexact H

theorem prefHeld_none (c : Dev nD) :
    (Pipeline.prefHeld (pcfgs (F := F) 0).pre c (fun _ => fullShare) (adm (F := F) 0).1 : sProp 𝕄) = iprop(emp) := by
  unfold Pipeline.prefHeld
  exact bigSep_empty

/-- The region's record: its windows' and staging semaphores' facts, the proof data, and how the region is entered and left. -/
def seg (lv : GSem nD τ sig → HIx 1 → ℕ) (hlv : (K (F := F)).Refines lv) (hO : ∀ c g, O c g none = 0) :
    Pipeline.RegionSeg (pcfgs (F := F)) adm (dats (U := U) V O bnd) none defs₀ 𝒱₀ (K (F := F)).L lv 0 where
  win := winFacts1.to₀
  block_pos := block_pos1
  stage_whole := stage_whole1
  K := PEmpty
  osem := fun k => k.elim
  ho := Pipeline.OwnSemFacts.none _
  hbody := fun c => (body_obligation (U := U) V O bnd c).loose
  hwaits := fun c => Pipeline.cellsWaits_intro cfgs (dats (U := U) V O bnd) none 0 c fun w s t =>
    (K (F := F)).mayWait_none _ (hO c) lv hlv
  pre := fun c => iprop(owesB (U := U) O bnd c ∗ arrsIn (U := U) V c)
  post := fun c => iprop(owesB (U := U) O bnd c ∗ arrsOut (U := U) V O bnd c)
  X := fun _ => iprop(emp)
  Y := fun _ => iprop(emp)
  Z := fun _ => iprop(emp)
  hentry := fun c => by
    rw [prefHeld_none]
    refine .trans ?_ (fupd_mono (sep_mono (Entails.of_eq ((arrays_eq7 (U := U) V O bnd c _).trans (arrsAt_in (U := U) V O bnd c)).symm) .rfl))
    unfold owesB
    iintro ⟨⟨⟨%W, %hW, Ho⟩, Ha⟩, -, -⟩
    imodintro
    isplitl [Ha]; · iexact Ha
    isplitr; · iempintro
    isplitl [Ho]
    · iexists W; isplitr
      · ipureintro; exact fun p hp => Or.inl (hW p (Finset.mem_coe.mp hp))
      iexact Ho
    isplitr <;> iempintro
  hin := fun c => hin_ (U := U) V O bnd c
  hout := fun c => hout_ (U := U) V O bnd c
  hexit := fun c => by
    refine .trans (sep_mono (Entails.of_eq ((arrays_eq7 (U := U) V O bnd c _).trans (arrsAt_out (U := U) V O bnd c))) .rfl) ?_
    unfold owesB
    iintro ⟨Ha, ⟨%W, %hW, Ho⟩, -, -⟩
    imodintro
    isplitl [Ho]
    · iexists W; isplitr
      · ipureintro
        intro p hp
        rcases hW (Finset.mem_coe.mpr hp) with h | ⟨w, s, rfl⟩
        · exact h
        · exact Nat.zero_le _
      iexact Ho
    iexact Ha

set_option maxHeartbeats 1000000 in
set_option backward.isDefEq.respectTransparency.types false in
theorem region_wp [EP.LandsIn (upEmb : UEmb _ 𝕄)] (lv : GSem nD τ sig → HIx 1 → ℕ) (hlv : (K (F := F)).Refines lv)
    (hO : ∀ c g, O c g none = 0) (d : Dev nD) (Φ : PUnit → sProp 𝕄) :
    iprop(levAts (K (F := F)).L lv ∗ boundary (T d) ∗ owesB (U := U) O bnd d ∗ arrsIn (U := U) V d
        ∗ Pipeline.cellsGhost cfgs EP 0 d ∗ Pipeline.toksInit cfgs EP 0 d
        ∗ (iprop(boundary (T d) ∗ owesB (U := U) O bnd d ∗ arrsOut (U := U) V O bnd d) -∗ Φ ⟨⟩))
      ⊢ wp frame (wpE ((K (F := F)).defs (D (F := F))) 𝒱 (T d) none) Set.univ
          (Prog.lift (.customCall (SparseCore.inner (Pipeline.entry 0)) ())) Φ := by
  classical
  have hR := Pipeline.RegionSeg.wp (pcfgs (F := F)) adm (dats (U := U) V O bnd) none cellOf_inj EP defs₀ 𝒱₀ (K (F := F)).L lv
    (seg (U := U) V O bnd lv hlv hO) d none (fun _ h => nomatch h) (fun _ => .ret ⟨⟩) Φ
  have hL := (K (F := F)).wp_liftProg (Name := ℕ) (U := U) (D (F := F)) 𝒱 (T d) Set.univ none (Prog.lift (.customCall (Pipeline.entry 0) ())) Φ
  refine .trans ?_ hL
  refine .trans ?_ hR
  dsimp only [seg]
  iintro ⟨Hl, Hb, Ho, Ha, Hg, Ht, Hk⟩
  isplitl [Hk]
  · iintro ⟨Hb, Ho, Ha⟩
    rw [wp_ret]; imodintro
    iapply Hk
    isplitl [Hb]; · iexact Hb
    isplitl [Ho] <;> iassumption
  isplitl [Hb]; · iexact Hb
  isplitl [Ho Ha]
  · isplitl [Ho] <;> iassumption
  isplitl [Hl]; · iexact Hl
  isplitl [Hg] <;> iassumption

end Cert.Kernel.TcRegion

end
-- ==== Proof.KScVals.lean ====
/-
  The sixteen arrays' contents along the main program, step by step.

  V0 is the launch memory; V1 after the index argument's reshape to [512, 128]; V2 after the gather (the result rows at
  the gathered array); V3 after the position table's slice, the projection matrix's transpose and the three channel
  vectors' reshapes into columns; V4 after the TensorCore call (its output at what the block write-backs leave); V5
  after the final transpose. Each step rewrites one array from the others and leaves the rest.
-/
import proofs.«207697_g22892175687689_cont_8to1_1704_9_alg».proof.Proof.KScLaunch
import proofs.«207697_g22892175687689_cont_8to1_1704_9_alg».proof.Proof.KTcHeld
import proofs.«207697_g22892175687689_cont_8to1_1704_9_alg».proof.Proof.KTcRegion

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S512x128 EltTy.i32)
local notation "tV" => (Memref.whole Cert.Kernel.main_arg1_scv : Memref Cert.Kernel.sig Kind.scVector Space.hbm Cert.Kernel.S30522x128 EltTy.f32)
local notation "oV" => (Memref.whole Cert.Kernel.main_v1_scv : Memref Cert.Kernel.sig Kind.scVector Space.hbm Cert.Kernel.S65536x128 EltTy.f32)
local notation "sI" => (Memref.whole Cert.Kernel.cc0_scratch0 : Memref Cert.Kernel.sig Kind.scVector Space.vmem Cert.Kernel.S16x128 EltTy.i32)
local notation "sR" => (Memref.whole Cert.Kernel.cc0_scratch1 : Memref Cert.Kernel.sig Kind.scVector Space.vmem Cert.Kernel.S2x128x128 EltTy.f32)

variable (m : (ℓ : Loc nD τ sig) → Buf (Elt F) ℓ)

variable [FloatOps F] [∀ e, Nonempty (Elt F e)]

/-- At the launch. -/
abbrev V0 (d : Dev nD) : Valuation τ sig (Elt F) := fun b => m (d, b)
/-- After the index argument's reshape. -/
abbrev V1 (d : Dev nD) : Valuation τ sig (Elt F) := (op0 (F := F)).result (V0 m d)
/-- After the gather: the result rows at the gathered array. -/
abbrev V2 (d : Dev nD) : Valuation τ sig (Elt F) := Function.update (V1 m d) (r main_v1) (Gd m d)
/-- After the slice, the transpose and the three reshapes. -/
abbrev V3 (d : Dev nD) : Valuation τ sig (Elt F) :=
  (op6 (F := F)).result ((op5 (F := F)).result ((op4 (F := F)).result ((op3 (F := F)).result ((op2 (F := F)).result (V2 m d)))))
/-- The same as a family over the devices' references. -/
abbrev Vreg (d : Dev nD) (b : Ref sig .tc) : Buf (Elt F) ((d.tc : Thread nD τ).loc b) := V3 m d (r b)
/-- What the TensorCore owes before call 1 (nothing: there is one call). -/
abbrev Otc1 : Dev nD → CellTallies nD τ sig (HIx 1) := fun c => (K (F := F)).Otc c 1
/-- The TensorCore call's output array. -/
abbrev tcOutV (d : Dev nD) : Buf (Elt F) ((d.tc : Thread nD τ).loc main_v7) :=
  Cert.Kernel.TcRegion.outV7 (U := UU) (Vreg m) (Otc1 (F := F)) (8 * 1) d
/-- After the TensorCore call. -/
abbrev V4 (d : Dev nD) : Valuation τ sig (Elt F) := Function.update (V3 m d) (r main_v7) (tcOutV m d)
/-- After the final transpose. -/
abbrev V5 (d : Dev nD) : Valuation τ sig (Elt F) := (op8 (F := F)).result (V4 m d)

end Cert.Kernel.Sc
end
-- ==== Proof.KScValsFacts.lean ====
/-
  What the sixteen arrays hold at each step of the main program, read at single arrays. Each host operation rewrites
  its result array from its operand and leaves every other array; the gather rewrites the gathered array; the
  TensorCore call rewrites its output. So the reshaped indices, the table and the gathered array are what the steps
  say they are, the arrays outside a step are carried over, and the seven arguments, which no step writes, hold their
  launch contents to the end.
-/
import proofs.«207697_g22892175687689_cont_8to1_1704_9_alg».proof.Proof.KScVals

set_option maxRecDepth 16384

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.StableHlo (unary_result reshape_result unary_result_ne reshape_result_ne)

variable {F : FTy → Type}

local notation "𝕄" => MT nD τ sig (HIx 1) (Elt F) ℕ UU ℕ

section Ops
variable [FloatOps F] (W : Valuation τ sig (Elt F))

/-! ## Each host operation's result, and what it leaves alone -/

theorem op0_res : (op0 (F := F)).result W (r main_v0) = shapeCast S512x128 (W (r main_arg0)) shapeCasts_S128x512_S512x128 := by
  rw [reshape_result]; rfl
theorem op0_ne (x : Ref sig .tc) (h : x ≠ main_v0) : (op0 (F := F)).result W (r x) = W (r x) := reshape_result_ne _ _ _ _ _ _ W h
theorem op2_res : (op2 (F := F)).result W (r main_v2) = extractStridedSlice S512x128 ![0, 0] (W (r main_arg2)) slices_S519x128_S512x128_0_0 := by
  rw [unary_result]
theorem op2_ne (x : Ref sig .tc) (h : x ≠ main_v2) : (op2 (F := F)).result W (r x) = W (r x) := unary_result_ne _ _ _ _ _ W h
theorem op3_res : (op3 (F := F)).result W (r main_v3) = transpose S480x128 [1, 0] (W (r main_arg3)) transposes_S128x480_S480x128_1_0 := by
  rw [unary_result]
theorem op3_ne (x : Ref sig .tc) (h : x ≠ main_v3) : (op3 (F := F)).result W (r x) = W (r x) := unary_result_ne _ _ _ _ _ W h
theorem op4_res : (op4 (F := F)).result W (r main_v4) = shapeCast S480x1 (W (r main_arg4)) shapeCasts_S480_S480x1 := by
  rw [reshape_result]; rfl
theorem op4_ne (x : Ref sig .tc) (h : x ≠ main_v4) : (op4 (F := F)).result W (r x) = W (r x) := reshape_result_ne _ _ _ _ _ _ W h
theorem op5_res : (op5 (F := F)).result W (r main_v5) = shapeCast S480x1 (W (r main_arg5)) shapeCasts_S480_S480x1 := by
  rw [reshape_result]; rfl
theorem op5_ne (x : Ref sig .tc) (h : x ≠ main_v5) : (op5 (F := F)).result W (r x) = W (r x) := reshape_result_ne _ _ _ _ _ _ W h
theorem op6_res : (op6 (F := F)).result W (r main_v6) = shapeCast S480x1 (W (r main_arg6)) shapeCasts_S480_S480x1 := by
  rw [reshape_result]; rfl
theorem op6_ne (x : Ref sig .tc) (h : x ≠ main_v6) : (op6 (F := F)).result W (r x) = W (r x) := reshape_result_ne _ _ _ _ _ _ W h
theorem op8_res : (op8 (F := F)).result W (r main_v8)
    = transpose S128x512x480 [0, 2, 1] (W (r main_v7)) transposes_S128x480x512_S128x512x480_0_2_1 := by
  rw [unary_result]
theorem op8_ne (x : Ref sig .tc) (h : x ≠ main_v8) : (op8 (F := F)).result W (r x) = W (r x) := unary_result_ne _ _ _ _ _ W h

end Ops

variable (m : (ℓ : Loc nD τ sig) → Buf (Elt F) ℓ)

variable [FloatOps F] [∀ e, Nonempty (Elt F e)]

/-! ## After the reshape and after the gather -/

theorem V1_v0 (d : Dev nD) : V1 m d (r main_v0) = fiOf m d :=
  (op0_res (V0 m d)).trans rfl
theorem V1_arg1 (d : Dev nD) : V1 m d (r main_arg1) = m (tLoc d) :=
  (op0_ne (V0 m d) main_arg1 (by decide)).trans rfl
theorem V1_v1 (d : Dev nD) : V1 m d (r main_v1) = m (oLoc d) :=
  (op0_ne (V0 m d) main_v1 (by decide)).trans rfl

theorem V2_v0 (d : Dev nD) : V2 m d (r main_v0) = fiOf m d := by
  unfold V2; rw [Function.update_of_ne (by decide)]; exact V1_v0 m d
theorem V2_arg1 (d : Dev nD) : V2 m d (r main_arg1) = m (tLoc d) := by
  unfold V2; rw [Function.update_of_ne (by decide)]; exact V1_arg1 m d
theorem V2_v1 (d : Dev nD) : V2 m d (r main_v1) = Gd m d := by
  unfold V2; exact Function.update_self _ _ _
theorem V2_rest (d : Dev nD) : ∀ b ∈ SU \ {r main_v0, r main_arg1, r main_v1}, V2 m d b = V1 m d b := by
  intro b hb
  have hne : b ≠ r main_v1 := by
    intro h; subst h
    exact (Finset.mem_sdiff.mp hb).2 (by simp)
  unfold V2; exact Function.update_of_ne hne _ _

/-! ## After the TensorCore call -/

theorem V4_v7 (d : Dev nD) : V4 m d (r main_v7) = tcOutV m d := by
  unfold V4; exact Function.update_self _ _ _
theorem V4_keep (d : Dev nD) (b : DevRef τ sig) (h : b ≠ r main_v7) : V4 m d b = V3 m d b := by
  unfold V4; exact Function.update_of_ne h _ _

/-! ## No step writes an argument -/

/-- An array that is no operation's result and not the gathered array holds its launch contents at the end of the
    host operations before the call. -/
theorem V3_of_ne (d : Dev nD) (x : Ref sig .tc) (h0 : x ≠ main_v0) (h1 : r x ≠ r main_v1) (h2 : x ≠ main_v2) (h3 : x ≠ main_v3)
    (h4 : x ≠ main_v4) (h5 : x ≠ main_v5) (h6 : x ≠ main_v6) : V3 m d (r x) = m (d, r x) := by
  unfold V3
  rw [op6_ne _ _ h6, op5_ne _ _ h5, op4_ne _ _ h4, op3_ne _ _ h3, op2_ne _ _ h2]
  unfold V2
  rw [Function.update_of_ne h1]
  exact (op0_ne (V0 m d) x h0).trans rfl

theorem V5_of_ne (d : Dev nD) (x : Ref sig .tc) (h0 : x ≠ main_v0) (h1 : r x ≠ r main_v1) (h2 : x ≠ main_v2) (h3 : x ≠ main_v3)
    (h4 : x ≠ main_v4) (h5 : x ≠ main_v5) (h6 : x ≠ main_v6) (h7 : r x ≠ r main_v7) (h8 : x ≠ main_v8) : V5 m d (r x) = m (d, r x) := by
  unfold V5
  rw [op8_ne _ _ h8, V4_keep m d _ h7]
  exact V3_of_ne m d x h0 h1 h2 h3 h4 h5 h6

theorem V5_arg0 (d : Dev nD) : V5 m d (r main_arg0) = m ((d.tc : Thread nD τ).loc main_arg0) :=
  V5_of_ne m d main_arg0 (by decide) (by decide) (by decide) (by decide) (by decide) (by decide) (by decide) (by decide) (by decide)
theorem V5_arg1 (d : Dev nD) : V5 m d (r main_arg1) = m ((d.tc : Thread nD τ).loc main_arg1) :=
  V5_of_ne m d main_arg1 (by decide) (by decide) (by decide) (by decide) (by decide) (by decide) (by decide) (by decide) (by decide)
theorem V5_arg2 (d : Dev nD) : V5 m d (r main_arg2) = m ((d.tc : Thread nD τ).loc main_arg2) :=
  V5_of_ne m d main_arg2 (by decide) (by decide) (by decide) (by decide) (by decide) (by decide) (by decide) (by decide) (by decide)
theorem V5_arg3 (d : Dev nD) : V5 m d (r main_arg3) = m ((d.tc : Thread nD τ).loc main_arg3) :=
  V5_of_ne m d main_arg3 (by decide) (by decide) (by decide) (by decide) (by decide) (by decide) (by decide) (by decide) (by decide)
theorem V5_arg4 (d : Dev nD) : V5 m d (r main_arg4) = m ((d.tc : Thread nD τ).loc main_arg4) :=
  V5_of_ne m d main_arg4 (by decide) (by decide) (by decide) (by decide) (by decide) (by decide) (by decide) (by decide) (by decide)
theorem V5_arg5 (d : Dev nD) : V5 m d (r main_arg5) = m ((d.tc : Thread nD τ).loc main_arg5) :=
  V5_of_ne m d main_arg5 (by decide) (by decide) (by decide) (by decide) (by decide) (by decide) (by decide) (by decide) (by decide)
theorem V5_arg6 (d : Dev nD) : V5 m d (r main_arg6) = m ((d.tc : Thread nD τ).loc main_arg6) :=
  V5_of_ne m d main_arg6 (by decide) (by decide) (by decide) (by decide) (by decide) (by decide) (by decide) (by decide) (by decide)

end Cert.Kernel.Sc

end
-- ==== Proof.KScMain.lean ====
/-
  The main program on the TensorCore, and the whole program's run.

  The main program reshapes the index argument, calls the SparseCore gather, slices the position table, transposes
  the projection matrix, reshapes the three channel vectors into columns, calls the TensorCore kernel and transposes
  its result. Its proof follows the sixteen arrays' contents through these steps: the gather needs the reshaped
  indices, the table and the result rows and returns the result rows gathered; the TensorCore call needs its seven
  arrays and returns the output at what its thirty-two block write-backs leave; every host operation rewrites one
  array from the others. The seven arguments are never written, so they end unchanged, and the result is the final
  transpose of the TensorCore call's output.
-/
import proofs.«207697_g22892175687689_cont_8to1_1704_9_alg».proof.Proof.KScLaunch
import proofs.«207697_g22892175687689_cont_8to1_1704_9_alg».proof.Proof.KScVals
import proofs.«207697_g22892175687689_cont_8to1_1704_9_alg».proof.Proof.KScValsFacts
import proofs.«207697_g22892175687689_cont_8to1_1704_9_alg».proof.Proof.KTcHeld
import proofs.«207697_g22892175687689_cont_8to1_1704_9_alg».proof.Proof.KTcRegion
import proofs.«207697_g22892175687689_cont_8to1_1704_9_alg».proof.Proof.Gen.Kernel.Launch
import Idealize.ShloMosaic.Lib.Pipeline.Sound

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S512x128 EltTy.i32)
local notation "tV" => (Memref.whole Cert.Kernel.main_arg1_scv : Memref Cert.Kernel.sig Kind.scVector Space.hbm Cert.Kernel.S30522x128 EltTy.f32)
local notation "oV" => (Memref.whole Cert.Kernel.main_v1_scv : Memref Cert.Kernel.sig Kind.scVector Space.hbm Cert.Kernel.S65536x128 EltTy.f32)
local notation "sI" => (Memref.whole Cert.Kernel.cc0_scratch0 : Memref Cert.Kernel.sig Kind.scVector Space.vmem Cert.Kernel.S16x128 EltTy.i32)
local notation "sR" => (Memref.whole Cert.Kernel.cc0_scratch1 : Memref Cert.Kernel.sig Kind.scVector Space.vmem Cert.Kernel.S2x128x128 EltTy.f32)

variable (m : (ℓ : Loc nD τ sig) → Buf (Elt F) ℓ) (ρ : Dev nD → PrngReg)

/-! ## The launch element -/

/-- The launch element: the handshakes' rounds, the TensorCore pipeline's staging cells' rounds, no counter. -/
def u₀ : UU := (initOf (K (F := F)).hsCells (K (F := F)).hsToks, (initOf (Pipeline.cells cfgs cellOf_inj) (Pipeline.launchToks cfgs cellOf_inj), 1))

theorem ownU_split (a : UH) (b : UP) : (ownU ((a, (b, (1 : Counters))) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} (s : Finset I) : (bigSep s fun _ => iprop(emp)) = (iprop(emp) : sProp 𝕄) := bigSep_emp_const s

/-- What the main program's proof starts from beside the launch's deal: the pipeline's cells' ghost state and duty tokens. -/
def G (d : Dev nD) : sProp 𝕄 := iprop(Pipeline.cellsGhost cfgs EP 0 d ∗ Pipeline.toksInit cfgs EP 0 d)

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost cfgs EP cellOf_inj) $$ HP with ⟨Hg, Ht⟩
  imodintro
  isplitl [HH]; · iexact HH
  isplitl [Hg Ht]
  · unfold G
    rw [bigSep_sep']
    have e1 : (bigSep Finset.univ fun c : Dev nD => bigSep Finset.univ fun p : Fin 1 => (Pipeline.cellsGhost cfgs (EP (F := F)) p c : sProp 𝕄))
        = bigSep Finset.univ fun c : Dev nD => (Pipeline.cellsGhost cfgs (EP (F := F)) 0 c : sProp 𝕄) :=
      bigSep_congr fun c _ => bigSep_univ_of_subsingleton (0 : Fin 1)
    have e2 : (bigSep Finset.univ fun c : Dev nD => bigSep Finset.univ fun p : Fin 1 => (Pipeline.toksInit cfgs (EP (F := F)) p c : sProp 𝕄))
        = bigSep Finset.univ fun c : Dev nD => (Pipeline.toksInit cfgs (EP (F := F)) 0 c : sProp 𝕄) :=
      bigSep_congr fun c _ => bigSep_univ_of_subsingleton (0 : Fin 1)
    isplitl [Hg]
    · ihave Hg' := (Entails.of_eq e1) $$ Hg
      iexact Hg'
    · ihave Ht' := (Entails.of_eq e2) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

variable [∀ e, Nonempty (Elt F e)]

/-! ## The SparseCore call's operands, whole -/

omit [∀ e, Nonempty (Elt F e)] in
theorem bigSep_cores (Φ : Fin (grid0.bound 0) → sProp 𝕄) :
    (bigSep Finset.univ fun c : Fin ((K (F := F)).nCore 0) => Φ (Fin.cast (nCore_zero.trans bound_zero.symm) c)) = bigSep Finset.univ Φ :=
  bigSep_congr fun _ _ => congrArg Φ (Fin.ext rfl)

omit [∀ e, Nonempty (Elt F e)] in
/-- What the call takes for the two SparseCores is the three arrays whole, -/
theorem st0_eq (d : Dev nD) : (bigSep Finset.univ fun c : Fin ((K (F := F)).nCore 0) => (P m).st 0 d c)
    = iprop((iLoc d ↦{fullShare} fiOf m d) ∗ (tLoc d ↦{fullShare} m (tLoc d)) ∗ (oLoc d ↦{fullShare} m (oLoc d))) := by
  show (bigSep Finset.univ fun c : Fin ((K (F := F)).nCore 0) => bigSep Finset.univ fun i : Fin (grid0.bound 1) =>
    tilePts d (Fin.cast (nCore_zero.trans bound_zero.symm) c) i (fiOf m d) (m (tLoc d)) (m (oLoc d))) = _
  rw [bigSep_cores (F := F) (fun c => bigSep Finset.univ fun i : Fin (grid0.bound 1) => tilePts d c i (fiOf m d) (m (tLoc d)) (m (oLoc d))), ← split_call]

omit [∀ e, Nonempty (Elt F e)] in
/-- and what it hands back the same with the result rows gathered. -/
theorem dn0_eq (d : Dev nD) : (bigSep Finset.univ fun c : Fin ((K (F := F)).nCore 0) => (P m).dn 0 d c)
    = iprop((iLoc d ↦{fullShare} fiOf m d) ∗ (tLoc d ↦{fullShare} m (tLoc d)) ∗ (oLoc d ↦{fullShare} Gd m d)) := by
  show (bigSep Finset.univ fun c : Fin ((K (F := F)).nCore 0) => bigSep Finset.univ fun i : Fin (grid0.bound 1) =>
    tilePts d (Fin.cast (nCore_zero.trans bound_zero.symm) c) i (fiOf m d) (m (tLoc d)) (Gd m d)) = _
  rw [bigSep_cores (F := F) (fun c => bigSep Finset.univ fun i : Fin (grid0.bound 1) => tilePts d c i (fiOf m d) (m (tLoc d)) (Gd m d)), ← split_call]

/-! ## The main program -/

/-- What the main program leaves: the sixteen arrays at their final contents. -/
abbrev FIN (d : Dev nD) : sProp 𝕄 := held (T d) SU (V5 m d)

theorem hO1 : ∀ (c : Dev nD) g, Otc1 (F := F) c g none = 0 := fun c g => by
  unfold Otc1; rw [(K (F := F)).Otc_end c le_rfl]; rfl

set_option maxHeartbeats 2000000 in
set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg⟩
  -- the index argument's reshape
  iapply (wp_hlo_within 𝒱 (SparseCore.T d) none Set.univ (op := op0 (F := F)) (S := SU) op0_sub (V := V0 m d)) $$ [Hb Hheld]
  · isplitl [Hb]; · iexact Hb
    iexact Hheld
  iintro ⟨Hb, Hheld⟩
  rw [wp_ret]; imodintro
  -- the gather: the reshaped indices, the table and the result rows go to the SparseCores and come back
  ihave H3 := (Entails.of_eq (held_sc (F := F) d (V1 m d))) $$ Hheld
  icases H3 with ⟨Hi, Htab, Ho, Hrest⟩
  iapply ((K (F := F)).wp_run (D (F := F)) 𝒱 (EH := EH) (P := P m) κ d 0) $$ [Hst Hi Htab Ho Hb Hrest Hg]
  isplitr; · iexact Hctx
  isplitl [Hst]; · iexact Hst
  isplitl [Hi Htab Ho]
  · rw [st0_eq]
    isplitl [Hi]; · rw [← V1_v0 m d]; iexact Hi
    isplitl [Htab]; · rw [← V1_arg1 m d]; iexact Htab
    rw [← V1_v1 m d]; iexact Ho
  iintro ⟨Hst, Hdn⟩
  ihave Hdn' := (Entails.of_eq (dn0_eq m d)) $$ Hdn
  icases Hdn' with ⟨Hi, Htab, Ho⟩
  ihave Hheld := (Entails.of_eq (held_sc (F := F) d (V2 m d)).symm) $$ [Hi Htab Ho Hrest]
  · rw [V2_v0, V2_arg1, V2_v1, StableHlo.held_congr (SparseCore.T d) (V2_rest m d)]
    isplitl [Hi]; · iexact Hi
    isplitl [Htab]; · iexact Htab
    isplitl [Ho]; · iexact Ho
    iexact Hrest
  -- the position table's slice, the projection matrix's transpose, the three channel vectors' reshapes
  iapply (wp_hlo_within 𝒱 (SparseCore.T d) none Set.univ (op := op2 (F := F)) (S := SU) op2_sub (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := SU) op3_sub (V := (op2 (F := F)).result (V2 m d))) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := SU) op4_sub (V := (op3 (F := F)).result ((op2 (F := F)).result (V2 m d)))) $$ [Hb Hheld]
  · isplitl [Hb]; · iexact Hb
    iexact Hheld
  iintro ⟨Hb, Hheld⟩
  rw [wp_ret]; imodintro
  iapply (wp_hlo_within 𝒱 (SparseCore.T d) none Set.univ (op := op5 (F := F)) (S := SU) op5_sub (V := (op4 (F := F)).result ((op3 (F := F)).result ((op2 (F := F)).result (V2 m d))))) $$ [Hb Hheld]
  · isplitl [Hb]; · iexact Hb
    iexact Hheld
  iintro ⟨Hb, Hheld⟩
  rw [wp_ret]; imodintro
  iapply (wp_hlo_within 𝒱 (SparseCore.T d) none Set.univ (op := op6 (F := F)) (S := SU) op6_sub (V := (op5 (F := F)).result ((op4 (F := F)).result ((op3 (F := F)).result ((op2 (F := F)).result (V2 m d)))))) $$ [Hb Hheld]
  · isplitl [Hb]; · iexact Hb
    iexact Hheld
  iintro ⟨Hb, Hheld⟩
  rw [wp_ret]; imodintro
  -- the TensorCore call: its seven arrays, what the core owes, the staging cells' launch state
  ihave H7 := (Entails.of_eq (held_region (F := F) d (V3 m d))) $$ Hheld
  icases H7 with ⟨A1, A2, A3, A4, A5, A6, A7, Hrest⟩
  unfold SparseCore.Cfg.tcSt
  icases Hst with ⟨Howes, Htail⟩
  unfold G
  icases Hg with ⟨Hcg, Hti⟩
  ihave Hlv := ((K (F := F)).ctx_levAts κ) $$ Hctx
  iapply (Cert.Kernel.TcRegion.region_wp (U := UU) (Vreg m) (Otc1 (F := F)) (8 * 1) EP (K (F := F)).lev (by sl_refines_lev) (hO1 (F := F)) d _) $$ [Hlv Hb Howes A1 A2 A3 A4 A5 A6 A7 Hcg Hti Hrest Htail]
  isplitl [Hlv]; · iexact Hlv
  isplitl [Hb]; · iexact Hb
  isplitl [Howes]; · unfold Cert.Kernel.TcRegion.owesB; iexact Howes
  isplitl [A1 A2 A3 A4 A5 A6 A7]
  · unfold Cert.Kernel.TcRegion.arrsIn
    isplitl [A1]; · iexact A1
    isplitl [A2]; · iexact A2
    isplitl [A3]; · iexact A3
    isplitl [A4]; · iexact A4
    isplitl [A5]; · iexact A5
    isplitl [A6]; · iexact A6
    iexact A7
  isplitl [Hcg]; · iexact Hcg
  isplitl [Hti]; · iexact Hti
  iintro ⟨Hb, Howes, Harr⟩
  unfold Cert.Kernel.TcRegion.arrsOut
  icases Harr with ⟨A1, A2, A3, A4, A5, A6, A7⟩
  ihave Hheld := (Entails.of_eq (held_region (F := F) d (V4 m d)).symm) $$ [A1 A2 A3 A4 A5 A6 A7 Hrest]
  · rw [V4_keep m d (r main_v1) (by decide), V4_keep m d (r main_v2) (by decide), V4_keep m d (r main_v3) (by decide), V4_keep m d (r main_v4) (by decide),
      V4_keep m d (r main_v5) (by decide), V4_keep m d (r main_v6) (by decide), V4_v7,
      StableHlo.held_congr (SparseCore.T d) (fun b hb => V4_keep m d b (fun e => by subst e; simp at hb))]
    isplitl [A1]; · iexact A1
    isplitl [A2]; · iexact A2
    isplitl [A3]; · iexact A3
    isplitl [A4]; · iexact A4
    isplitl [A5]; · iexact A5
    isplitl [A6]; · iexact A6
    isplitl [A7]; · iexact A7
    iexact Hrest
  -- the final transpose
  iapply (wp_hlo_within 𝒱 (SparseCore.T d) none Set.univ (op := op8 (F := F)) (S := SU) op8_sub (V := V4 m d)) $$ [Hb Hheld]
  · isplitl [Hb]; · iexact Hb
    iexact Hheld
  iintro ⟨Hb, Hheld⟩
  rw [wp_ret]; imodintro
  imodintro
  isplitl [Howes Htail]
  · isplitl [Howes]; · unfold Cert.Kernel.TcRegion.owesB; iexact Howes
    iexact Htail
  iexact Hheld

/-! ## The whole program's run -/

/-- What the final state holds on device `d`: the result array, and the seven arguments as launched. -/
def fq (d : Dev nD) (s' : Phys nD τ sig (Elt F)) : Prop :=
  s'.mem.mem ((d.tc : Thread nD τ).loc main_v8) = V5 m d (r main_v8)
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)
    ∧ s'.mem.mem ((d.tc : Thread nD τ).loc main_arg6) = m ((d.tc : Thread nD τ).loc main_arg6)

theorem hfin (d : Dev nD) (s' : Phys nD τ sig (Elt F)) : iprop(FIN m d ∗ SI s') ⊢ (⌜fq m d s'⌝ : sProp 𝕄) := by
  refine (hfin8 (F := F) d (V5 m d) s').trans ?_
  iintro %h
  ipureintro
  obtain ⟨h8, h0, h1, h2, h3, h4, h5, h6⟩ := h
  exact ⟨h8, h0.trans (V5_arg0 m d), h1.trans (V5_arg1 m d), h2.trans (V5_arg2 m d), h3.trans (V5_arg3 m d), h4.trans (V5_arg4 m d),
    h5.trans (V5_arg5 m d), h6.trans (V5_arg6 m d)⟩

/-- The run's post: on every device the result array at the final transpose of the TensorCore call's output, the
    arguments unchanged. -/
def QC : PUnit × MemSt nD τ sig (Elt F) → Prop := fun st => ∀ c : Dev nD,
  st.2.mem ((c.tc : Thread nD τ).loc main_v8) = V5 m c (r main_v8)
    ∧ st.2.mem ((c.tc : Thread nD τ).loc main_arg0) = m ((c.tc : Thread nD τ).loc main_arg0)
    ∧ st.2.mem ((c.tc : Thread nD τ).loc main_arg1) = m ((c.tc : Thread nD τ).loc main_arg1)
    ∧ st.2.mem ((c.tc : Thread nD τ).loc main_arg2) = m ((c.tc : Thread nD τ).loc main_arg2)
    ∧ st.2.mem ((c.tc : Thread nD τ).loc main_arg3) = m ((c.tc : Thread nD τ).loc main_arg3)
    ∧ st.2.mem ((c.tc : Thread nD τ).loc main_arg4) = m ((c.tc : Thread nD τ).loc main_arg4)
    ∧ st.2.mem ((c.tc : Thread nD τ).loc main_arg5) = m ((c.tc : Thread nD τ).loc main_arg5)
    ∧ st.2.mem ((c.tc : Thread nD τ).loc main_arg6) = m ((c.tc : Thread nD τ).loc main_arg6)

/-- Every weakly fair execution of the device's threads (the TensorCore's main program, the two sequencers, the
    thirty-two tiles) terminates, nothing faulting, with the result and the arguments as `QC` says. -/
theorem run_main (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.Kernel.Sc
end
-- ==== Proof.TcRegionValue.lean ====
/-
  The output array of the TensorCore call in closed form. The output window's block at grid point t is rows
  [4 t, 4 t + 4) of the array, every point writes its block back, and the blocks tile the array; so the array ends as
  one function of the six input arrays: at (b, k, s), the body's output block at point b / 4, computed from the input
  blocks at that point, read at (b mod 4, k, s).
-/
import proofs.«207697_g22892175687689_cont_8to1_1704_9_alg».proof.Proof.TcRegion
import Idealize.ShloMosaic.Lib.SparseCore.Launch
import Idealize.ShloMosaic.Lib.Pipeline.FrameBody
import Idealize.ShloMosaic.Lib.Tactic
import Idealize.ShloMosaic.Lib.Pipeline.Value
import Idealize.ShloMosaic.Lib.ValueIdx

set_option maxRecDepth 16384

noncomputable section

namespace Cert.KernelIdeal.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.SparseCore (T)
open Idealize.ShloMosaic.SparseCore.Cfg (HIx)

variable {F : FTy → Type} [FloatOps F] {U : Type} [URA U]

local notation "𝕄" => MT nD τ sig (HIx 1) (Elt F) ℕ U ℕ

variable (V : (c : Dev nD) → (b : Ref sig .tc) → Buf (Elt F) ((c.tc : Thread nD τ).loc b))
  (O : Dev nD → CellTallies nD τ sig (HIx 1)) (bnd : ℕ)

open Idealize.ShloMosaic.ValueIdx

/-! ## The output array in closed form -/

/-- The grid point whose block holds batch row n of the output: four rows per point. -/
def ptOf (n : ℕ) (h : n < 128) : Fin cfg1.N := ⟨n / 4, by have := N_1; show n / 4 < grid1.N; omega⟩

/-- The output array as one function of the six input arrays: at (b, k, s), the body's output block at the point of
    row b, from the six input blocks at that point, at the block's index (b mod 4, k, s). -/
def G7 (c : Dev nD) : S128x480x512.Idx → Elt F .f32 := fun i =>
  outBlk (iblk V c 0 (ptOf (i 0).val (i 0).isLt)) (iblk V c 1 (ptOf (i 0).val (i 0).isLt)) (iblk V c 2 (ptOf (i 0).val (i 0).isLt))
    (iblk V c 3 (ptOf (i 0).val (i 0).isLt)) (iblk V c 4 (ptOf (i 0).val (i 0).isLt)) (iblk V c 5 (ptOf (i 0).val (i 0).isLt))
    (ix3 (n0 := 4) (n1 := 480) (n2 := 512) ⟨(i 0).val % 4, Nat.mod_lt _ (by norm_num)⟩ ⟨(i 1).val, (i 1).isLt⟩ ⟨(i 2).val, (i 2).isLt⟩)

/-- The output window's block index at point t is (t, 0, 0). -/
theorem idx_facts6 : ∀ t : Fin cfg1.N, win1_6.index t (0 : Fin 3) = t.val ∧ win1_6.index t (1 : Fin 3) = 0 ∧ win1_6.index t (2 : Fin 3) = 0 :=
  (by decide +kernel : ∀ t : Fin grid1.N, _)

theorem G7_congr (c : Dev nD) (t t' : Fin cfg1.N) (h : t' = t) (j : S4x480x512.Idx) :
    outBlk (iblk V c 0 t') (iblk V c 1 t') (iblk V c 2 t') (iblk V c 3 t') (iblk V c 4 t') (iblk V c 5 t') j
      = outBlk (iblk V c 0 t) (iblk V c 1 t) (iblk V c 2 t) (iblk V c 3 t) (iblk V c 4 t) (iblk V c 5 t) j := by
  subst h; rfl

/-- G7 at an index of point t's block is the body's output block at the block's own index. -/
theorem G7_at (c : Dev nD) (t : Fin cfg1.N) (j : S4x480x512.Idx) (i : S128x480x512.Idx)
    (h0 : (i 0).val = 4 * t.val + (j 0).val) (h1 : (i 1).val = (j 1).val) (h2 : (i 2).val = (j 2).val) :
    G7 V c i = outBlk (iblk V c 0 t) (iblk V c 1 t) (iblk V c 2 t) (iblk V c 3 t) (iblk V c 4 t) (iblk V c 5 t) j := by
  have hj0 : (j 0).val < 4 := (j 0).isLt
  have hp : ptOf (i 0).val (i 0).isLt = t := Fin.ext (by show (i 0).val / 4 = t.val; omega)
  unfold G7
  rw [G7_congr V c t _ hp]
  refine congrArg _ ?_
  funext a
  match a with
  | ⟨0, _⟩ => apply Fin.ext; show (i 0).val % 4 = (j 0).val; omega
  | ⟨1, _⟩ => apply Fin.ext; show (i 1).val = (j 1).val; omega
  | ⟨2, _⟩ => apply Fin.ext; show (i 2).val = (j 2).val; omega

/-- Contents of the output block, cut to what point t writes back, are point t's block of an array G as soon as
    G at (4 t + r, k, s) is the contents at (r, k, s). -/
theorem cut6_eq_read (t : Fin cfg1.N) (X : S4x480x512.Idx → Elt F .f32) (G : S128x480x512.Idx → Elt F .f32)
    (h : ∀ (j : S4x480x512.Idx) (i : S128x480x512.Idx), (i 0).val = 4 * t.val + (j 0).val → (i 1).val = (j 1).val →
      (i 2).val = (j 2).val → G i = X j) :
    (cfg1.win 6).cut (grid1.coords t) X = ((cfg1.win 6).blk t).view.read (Elt F) G := by
  obtain ⟨e0, e1, e2⟩ := idx_facts6 t
  funext j
  refine (h (win1_6.xinj (grid1.coords t) j) (((cfg1.win 6).blk t).view.emb j) ?_ ?_ ?_).symm
  · show win1_6.index t (0 : Fin 3) * 4 + 1 * (j 0).val = 4 * t.val + (j 0).val; omega
  · show win1_6.index t (1 : Fin 3) * 480 + 1 * (j 1).val = (j 1).val; omega
  · show win1_6.index t (2 : Fin 3) * 512 + 1 * (j 2).val = (j 2).val; omega

/-- What point t writes back is block t of G7. -/
theorem flushed6_eq (c : Dev nD) (t : Fin cfg1.N) :
    (dat (U := U) V O bnd c).flushed 6 t = ((cfg1.win 6).blk t).view.read (Elt F) (G7 V c) := by
  show (cfg1.win 6).cut (grid1.coords t) ((dat (U := U) V O bnd c).after 6 t) = _
  rw [after_6]
  exact cut6_eq_read t _ _ (fun j i h0 h1 h2 => G7_at V c t j i h0 h1 h2)

/-- An index of the array is in point t's block iff each coordinate is in the block's range on its axis. -/
theorem mem_blk6 (t : Fin cfg1.N) (i : S128x480x512.Idx) :
    i ∈ ((cfg1.win 6).blk t).view.set ↔ ∀ a : Fin 3, win1_6.index t a * S4x480x512.size a ≤ (i a).val ∧ (i a).val < win1_6.index t a * S4x480x512.size a + S4x480x512.size a := by
  show i ∈ ((View.whole main_v7).slice (win1_6.rect t)).set ↔ _
  rw [View.set_slice_whole, Rect.mem_set_unit]
  exact Iff.rfl

/-- Every index of the output array is in some point's block. -/
theorem cover6 (i : S128x480x512.Idx) : ∃ t : Fin cfg1.N, (cfg1.win 6).flush t = true ∧ i ∈ ((cfg1.win 6).blk t).view.set := by
  refine ⟨ptOf (i 0).val (i 0).isLt, flush1_6 _, ?_⟩
  rw [mem_blk6]
  obtain ⟨e0, e1, e2⟩ := idx_facts6 (ptOf (i 0).val (i 0).isLt)
  have hp : (ptOf (i 0).val (i 0).isLt).val = (i 0).val / 4 := rfl
  have hi0 : (i 0).val < 128 := (i 0).isLt
  have hi1 : (i 1).val < 480 := (i 1).isLt
  have hi2 : (i 2).val < 512 := (i 2).isLt
  intro a
  match a with
  | ⟨0, _⟩ => show win1_6.index _ (0 : Fin 3) * 4 ≤ (i 0).val ∧ (i 0).val < win1_6.index _ (0 : Fin 3) * 4 + 4; omega
  | ⟨1, _⟩ => show win1_6.index _ (1 : Fin 3) * 480 ≤ (i 1).val ∧ (i 1).val < win1_6.index _ (1 : Fin 3) * 480 + 480; omega
  | ⟨2, _⟩ => show win1_6.index _ (2 : Fin 3) * 512 ≤ (i 2).val ∧ (i 2).val < win1_6.index _ (2 : Fin 3) * 512 + 512; omega

/-- The output array after the run is G7 of the input arrays. -/
theorem arrAt6_eq (c : Dev nD) : (dat (U := U) V O bnd c).arrAt 6 cfg1.N = G7 V c :=
  (dat (U := U) V O bnd c).arrAt_eq_of_cover 6 (G7 V c) (fun t _ => flushed6_eq (U := U) V O bnd c t) cover6

/-- The region's output array is G7 of the input arrays. -/
theorem outV7_eq (c : Dev nD) : outV7 (U := U) V O bnd c = G7 V c := arrAt6_eq (U := U) V O bnd c

end Cert.KernelIdeal.TcRegion

end
-- ==== Proof.TcPay.lean ====
/-
  The layer-normalisation block of the TensorCore body, read at an index over the extended reals.

  The body treats a block of rows in four slabs of 512 rows. For each slab it forms the rows plus their position
  rows, multiplies the transposed weights [480,128] by the slab [512,128] (contracting the 128 row entries), adds the
  bias column, takes the mean over the 480 channels (a sum over axis 0 divided by the word of 480), subtracts it,
  takes the mean of the squares, adds the guard word, takes the reciprocal square root, multiplies, scales by the
  gamma column and adds the beta column. Channel k of row s of the result is therefore the layer normalisation of
  that row at channel k, in the product form of the specification.

  This module reads the layout operations and the two non-pointwise operations (the contraction and the sum over the
  channels) at an index (k, s).
-/
import proofs.«207697_g22892175687689_cont_8to1_1704_9_alg».proof.Proof.Gen.KernelIdeal.Skeleton
import proofs.«207697_g22892175687689_cont_8to1_1704_9_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TcPay

open Cert.KernelIdeal Cert.KernelIdeal.Gen Idealize.ShloMosaic Idealize.ShloMosaic.ValueIdx
open scoped BigOperators

variable [Cert.KernelIdeal.Facts]

/-! ## Layout operations at an index -/

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum over the channels -/

/-- Over a result index `s` of the sum over axis 0, the source index with channel `k` inserted is `(k, s)`. -/
theorem lift_ix1 (h : S480x512.Reduces [0] S512) (s : Fin 512) (k : Fin 480) :
    h.lift (ix1 s) k = ix2 k s := by
  funext c
  apply Fin.ext
  match c with
  | ⟨0, _⟩ => rfl
  | ⟨1, _⟩ => rfl

/-- The sum over axis 0 of a `[480, 512]` block, read at `s`: the plain sum over the 480 channels. -/
theorem colsum_apply (src : FVec Ideal S480x512 .f32) (h : S480x512.Reduces [0] S512) (hφ : FKind.Formats .f32)
    (hacc : (0x00000000#32 : BitVec 32) = 0x00000000#32) (s : Fin 512) :
    multiReduction (F := Ideal) .add [0] S512 src 0x00000000#32 h hφ hacc (ix1 s) = ∑ k : Fin 480, src (ix2 k s) := by
  refine (Ideal.multiReduction_add_single src _ h hφ hacc (ix1 s)).trans ?_
  exact Finset.sum_congr rfl fun k _ => congrArg src (lift_ix1 h s k)

/-! ## The contraction -/

/-- The product of the transposed weights `[480, 128]` and a slab `[512, 128]`, both contracted on their second
    axis, into the zero accumulator: at `(k, s)` the sum over the 128 row entries of the products. -/
theorem matmul_apply_ix2 (A : FVec Ideal S480x128 .f32) (B : FVec Ideal S512x128 .f32) (k : Fin 480) (s : Fin 512) :
    matmul dot_S480x128_S512x128_S480x512_1_1_0_0_n_n none A B (constant (F := Ideal) S480x512 .f32 0x00000000#32) (ix2 k s)
      = ∑ e : Fin 128, A (ix2 k e) * B (ix2 s e) := by
  show FloatOps.matmul dot_S480x128_S512x128_S480x512_1_1_0_0_n_n none A B _ (ix2 k s) = _
  rw [Ideal.matmul_constant_zero_apply,
    ← Equiv.sum_comp (contrEquiv1 dot_S480x128_S512x128_S480x512_1_1_0_0_n_n 128 rfl rfl).symm]
  refine Finset.sum_congr rfl fun e _ => ?_
  have ce := contrEquiv1_symm_val dot_S480x128_S512x128_S480x512_1_1_0_0_n_n 128 rfl rfl e
  have l : dot_S480x128_S512x128_S480x512_1_1_0_0_n_n.lhsIdx (ix2 k s)
      ((contrEquiv1 dot_S480x128_S512x128_S480x512_1_1_0_0_n_n 128 rfl rfl).symm e) = ix2 k e := by
    funext ax; apply Fin.ext
    match ax with
    | ⟨0, _⟩ => simp [DotDims.lhsIdx, dot_S480x128_S512x128_S480x512_1_1_0_0_n_n]; rfl
    | ⟨1, _⟩ => exact (DotDims.lhsIdx_val_of_single _ rfl _ _).trans ce
  have r : dot_S480x128_S512x128_S480x512_1_1_0_0_n_n.rhsIdx (ix2 k s)
      ((contrEquiv1 dot_S480x128_S512x128_S480x512_1_1_0_0_n_n 128 rfl rfl).symm e) = ix2 s e := by
    funext ax; apply Fin.ext
    match ax with
    | ⟨0, _⟩ => simp [DotDims.rhsIdx, dot_S480x128_S512x128_S480x512_1_1_0_0_n_n]; rfl
    | ⟨1, _⟩ => exact (DotDims.rhsIdx_val_of_single _ rfl _ _).trans ce
  rw [l, r]

/-! ## The slab's chain of operations -/

/-- The projection of every row of the slab to the 480 channels, plus the bias column. -/
def proj (wT : FVec Ideal S480x128 .f32) (x : FVec Ideal S512x128 .f32) (b : FVec Ideal S480x1 .f32) :
    FVec Ideal S480x512 .f32 :=
  addf (matmul dot_S480x128_S512x128_S480x512_1_1_0_0_n_n none wT x (constant S480x512 .f32 0x00000000#32))
    (broadcastTo S480x512 b broadcasts_S480x1_S480x512)

/-- At `(k, s)` it is the specification's projection of row `s` at channel `k`. -/
theorem proj_apply (wT : FVec Ideal S480x128 .f32) (x : FVec Ideal S512x128 .f32) (b : FVec Ideal S480x1 .f32)
    (k : Fin 480) (s : Fin 512) :
    proj wT x b (ix2 k s)
      = Cert.Spec.hRow (fun e => x (ix2 s e)) (fun e k' => wT (ix2 k' e)) (fun k' => b (ix2 k' (0 : Fin 1))) k := by
  show matmul dot_S480x128_S512x128_S480x512_1_1_0_0_n_n none wT x (constant (F := Ideal) S480x512 .f32 0x00000000#32) (ix2 k s)
      + broadcastTo S480x512 b broadcasts_S480x1_S480x512 (ix2 k s) = _
  rw [matmul_apply_ix2, broadcastTo_a1_ab_apply]
  unfold Cert.Spec.hRow
  exact congrArg (· + b (ix2 k (0 : Fin 1))) (Finset.sum_congr rfl fun e _ => mul_comm _ _)

/-- The mean over the 480 channels, kept as a row `[1, 512]`: the sum over axis 0 divided by the word of 480. -/
def meanRow (v : FVec Ideal S480x512 .f32) : FVec Ideal S1x512 .f32 :=
  divf (shapeCast S1x512 (multiReduction .add [0] S512 v 0x00000000#32 reduces_S480x512_S512 (.inl rfl) rfl) shapeCasts_S512_S1x512)
    (broadcast S1x512 (Scalar.ofBits .f32 0x43F00000#32))

theorem meanRow_apply (v : FVec Ideal S480x512 .f32) (s : Fin 512) :
    meanRow v (ix2 (0 : Fin 1) s) = Ideal.div (∑ k : Fin 480, v (ix2 k s)) Cert.Spec.c480 := by
  show Ideal.div (shapeCast S1x512 (multiReduction (F := Ideal) .add [0] S512 v 0x00000000#32 reduces_S480x512_S512 (.inl rfl) rfl)
      shapeCasts_S512_S1x512 (ix2 (0 : Fin 1) s)) Cert.Spec.c480 = _
  refine congrArg (fun t => Ideal.div t Cert.Spec.c480) ?_
  refine (shapeCast_a_1a_apply _ _ (0 : Fin 1) s).trans ?_
  exact colsum_apply v _ _ _ s

/-- The block minus its mean over the channels. -/
def centred (v : FVec Ideal S480x512 .f32) : FVec Ideal S480x512 .f32 :=
  subf v (broadcastTo S480x512 (meanRow v) broadcasts_S1x512_S480x512)

theorem centred_apply (v : FVec Ideal S480x512 .f32) (k : Fin 480) (s : Fin 512) :
    centred v (ix2 k s) = v (ix2 k s) - Ideal.div (∑ k' : Fin 480, v (ix2 k' s)) Cert.Spec.c480 := by
  show v (ix2 k s) - broadcastTo S480x512 (meanRow v) broadcasts_S1x512_S480x512 (ix2 k s) = _
  rw [broadcastTo_1b_ab_apply, meanRow_apply]

/-- The reciprocal square root of the guarded variance of a centred block, as a row `[1, 512]`. -/
def rstd (d : FVec Ideal S480x512 .f32) : FVec Ideal S1x512 .f32 :=
  rsqrt (addf (meanRow (mulf d d)) (broadcast S1x512 (Scalar.ofBits .f32 0x3089705F#32)))

theorem rstd_apply (d : FVec Ideal S480x512 .f32) (s : Fin 512) :
    rstd d (ix2 (0 : Fin 1) s)
      = Ideal.rsqrt (Ideal.div (∑ k : Fin 480, d (ix2 k s) * d (ix2 k s)) Cert.Spec.c480 + Cert.Spec.ceps) := by
  show Ideal.rsqrt (meanRow (mulf d d) (ix2 (0 : Fin 1) s) + Cert.Spec.ceps) = _
  rw [meanRow_apply]
  rfl

/-- The whole chain from the contraction to the last sum: the layer normalisation of the slab, channels by rows. -/
def chain (wT : FVec Ideal S480x128 .f32) (x : FVec Ideal S512x128 .f32) (b g be : FVec Ideal S480x1 .f32) :
    FVec Ideal S480x512 .f32 :=
  addf
    (mulf
      (mulf (centred (proj wT x b))
        (broadcastTo S480x512 (rstd (centred (proj wT x b))) broadcasts_S1x512_S480x512))
      (broadcastTo S480x512 g broadcasts_S480x1_S480x512))
    (broadcastTo S480x512 be broadcasts_S480x1_S480x512)

/-- THE CHAIN AT `(k, s)`: the product form of the layer normalisation of row `s` at channel `k`. -/
theorem chain_apply (wT : FVec Ideal S480x128 .f32) (x : FVec Ideal S512x128 .f32) (b g be : FVec Ideal S480x1 .f32)
    (k : Fin 480) (s : Fin 512) :
    chain wT x b g be (ix2 k s)
      = Cert.Spec.lnK (fun e => x (ix2 s e)) (fun e k' => wT (ix2 k' e)) (fun k' => b (ix2 k' (0 : Fin 1)))
          (fun k' => g (ix2 k' (0 : Fin 1))) (fun k' => be (ix2 k' (0 : Fin 1))) k := by
  show centred (proj wT x b) (ix2 k s)
        * broadcastTo S480x512 (rstd (centred (proj wT x b))) broadcasts_S1x512_S480x512 (ix2 k s)
        * broadcastTo S480x512 g broadcasts_S480x1_S480x512 (ix2 k s)
      + broadcastTo S480x512 be broadcasts_S480x1_S480x512 (ix2 k s) = _
  rw [broadcastTo_1b_ab_apply, broadcastTo_a1_ab_apply, broadcastTo_a1_ab_apply, rstd_apply]
  simp only [centred_apply, proj_apply]
  rfl

/-! ## The payloads -/

/-- The layer normalisation of the slab's row `s` at channel `k`, from the blocks as the body loads them: the
    transposed weights `wT` `[480, 128]`, the rows `xr` and the position rows `pos` `[512, 128]`, and the bias, gamma
    and beta columns `[480, 1]`. -/
abbrev slab (wT : S480x128.Idx → EReal) (xr pos : S512x128.Idx → EReal) (b g be : S480x1.Idx → EReal)
    (k : Fin 480) (s : Fin 512) : EReal :=
  Cert.Spec.lnK (fun e => xr (ix2 s e) + pos (ix2 s e)) (fun e k' => wT (ix2 k' e)) (fun k' => b (ix2 k' 0))
    (fun k' => g (ix2 k' 0)) (fun k' => be (ix2 k' 0)) k

/-- The weights are read through a shape cast to their own shape. -/
theorem pay2_eq (v0 : Vec Ideal S480x128 .f32) : k1_pay2 (F := Ideal) v0 = v0 :=
  shapeCast_self v0 shapeCasts_S480x128_S480x128

/-- So is the last slab's block of rows. -/
theorem pay7_eq (v113 : Vec Ideal S512x128 .f32) : k1_pay7 (F := Ideal) v113 = v113 :=
  shapeCast_self v113 shapeCasts_S512x128_S512x128

/-- The first slab's value is the chain over the loaded blocks (every shape cast in front of it is to the same shape). -/
theorem pay3_eq_chain (v0 : Vec Ideal S480x128 .f32) (v2 v4 : Vec Ideal S512x128 .f32) (v8 v28 v32 : Vec Ideal S480x1 .f32) :
    k1_pay3 (F := Ideal) v0 v2 v4 v8 v28 v32 = chain v0 (addf v2 v4) v8 v28 v32 := by
  show chain (shapeCast S480x128 v0 shapeCasts_S480x128_S480x128)
      (addf (shapeCast S512x128 v2 shapeCasts_S512x128_S512x128) (shapeCast S512x128 v4 shapeCasts_S512x128_S512x128))
      (shapeCast S480x1 v8 shapeCasts_S480x1_S480x1) (shapeCast S480x1 v28 shapeCasts_S480x1_S480x1)
      (shapeCast S480x1 v32 shapeCasts_S480x1_S480x1) = _
  simp only [shapeCast_self]

theorem pay3_apply (v0 : Vec Ideal S480x128 .f32) (v2 v4 : Vec Ideal S512x128 .f32) (v8 v28 v32 : Vec Ideal S480x1 .f32)
    (k : Fin 480) (s : Fin 512) :
    k1_pay3 (F := Ideal) v0 v2 v4 v8 v28 v32 (ix2 k s) = slab v0 v2 v4 v8 v28 v32 k s :=
  (congrFun (pay3_eq_chain v0 v2 v4 v8 v28 v32) (ix2 k s)).trans (chain_apply v0 (addf v2 v4) v8 v28 v32 k s)

/-- The stored block `[1, 480, 512]` is the slab's value with a unit axis in front. -/
theorem pay4_apply (v35 : FVec Ideal S480x512 .f32) (k : Fin 480) (s : Fin 512) :
    k1_pay4 (F := Ideal) v35 (ix3 (0 : Fin 1) k s) = v35 (ix2 k s) :=
  shapeCast_ab_1ab_apply v35 shapeCasts_S480x512_S1x480x512 (0 : Fin 1) k s

/-- The other three slabs: the chain over the loaded blocks, under the cast to `[1, 480, 512]`. -/
theorem pay5_eq_chain (v1 : FVec Ideal S480x128 .f32) (v39 v41 : Vec Ideal S512x128 .f32) (v45 v65 v69 : Vec Ideal S480x1 .f32) :
    k1_pay5 (F := Ideal) v1 v39 v41 v45 v65 v69
      = shapeCast S1x480x512 (chain v1 (addf v39 v41) v45 v65 v69) shapeCasts_S480x512_S1x480x512 := by
  show shapeCast S1x480x512 (chain v1
      (addf (shapeCast S512x128 v39 shapeCasts_S512x128_S512x128) (shapeCast S512x128 v41 shapeCasts_S512x128_S512x128))
      (shapeCast S480x1 v45 shapeCasts_S480x1_S480x1) (shapeCast S480x1 v65 shapeCasts_S480x1_S480x1)
      (shapeCast S480x1 v69 shapeCasts_S480x1_S480x1)) shapeCasts_S480x512_S1x480x512 = _
  simp only [shapeCast_self]

theorem pay5_apply (v1 : FVec Ideal S480x128 .f32) (v39 v41 : Vec Ideal S512x128 .f32) (v45 v65 v69 : Vec Ideal S480x1 .f32)
    (k : Fin 480) (s : Fin 512) :
    k1_pay5 (F := Ideal) v1 v39 v41 v45 v65 v69 (ix3 (0 : Fin 1) k s) = slab v1 v39 v41 v45 v65 v69 k s :=
  (congrFun (pay5_eq_chain v1 v39 v41 v45 v65 v69) (ix3 (0 : Fin 1) k s)).trans
    ((shapeCast_ab_1ab_apply _ shapeCasts_S480x512_S1x480x512 (0 : Fin 1) k s).trans
      (chain_apply v1 (addf v39 v41) v45 v65 v69 k s))

theorem pay6_eq_chain (v1 : FVec Ideal S480x128 .f32) (v76 v78 : Vec Ideal S512x128 .f32) (v82 v102 v106 : Vec Ideal S480x1 .f32) :
    k1_pay6 (F := Ideal) v1 v76 v78 v82 v102 v106
      = shapeCast S1x480x512 (chain v1 (addf v76 v78) v82 v102 v106) shapeCasts_S480x512_S1x480x512 := by
  show shapeCast S1x480x512 (chain v1
      (addf (shapeCast S512x128 v76 shapeCasts_S512x128_S512x128) (shapeCast S512x128 v78 shapeCasts_S512x128_S512x128))
      (shapeCast S480x1 v82 shapeCasts_S480x1_S480x1) (shapeCast S480x1 v102 shapeCasts_S480x1_S480x1)
      (shapeCast S480x1 v106 shapeCasts_S480x1_S480x1)) shapeCasts_S480x512_S1x480x512 = _
  simp only [shapeCast_self]

theorem pay6_apply (v1 : FVec Ideal S480x128 .f32) (v76 v78 : Vec Ideal S512x128 .f32) (v82 v102 v106 : Vec Ideal S480x1 .f32)
    (k : Fin 480) (s : Fin 512) :
    k1_pay6 (F := Ideal) v1 v76 v78 v82 v102 v106 (ix3 (0 : Fin 1) k s) = slab v1 v76 v78 v82 v102 v106 k s :=
  (congrFun (pay6_eq_chain v1 v76 v78 v82 v102 v106) (ix3 (0 : Fin 1) k s)).trans
    ((shapeCast_ab_1ab_apply _ shapeCasts_S480x512_S1x480x512 (0 : Fin 1) k s).trans
      (chain_apply v1 (addf v76 v78) v82 v102 v106 k s))

/-- The last slab's rows arrive already cast; only the position rows are cast here. -/
theorem pay1_eq_chain (v1 : FVec Ideal S480x128 .f32) (v114 : FVec Ideal S512x128 .f32) (v115 : Vec Ideal S512x128 .f32)
    (v119 v139 v143 : Vec Ideal S480x1 .f32) :
    k1_pay1 (F := Ideal) v1 v114 v115 v119 v139 v143
      = shapeCast S1x480x512 (chain v1 (addf v114 v115) v119 v139 v143) shapeCasts_S480x512_S1x480x512 := by
  show shapeCast S1x480x512 (chain v1
      (addf v114 (shapeCast S512x128 v115 shapeCasts_S512x128_S512x128))
      (shapeCast S480x1 v119 shapeCasts_S480x1_S480x1) (shapeCast S480x1 v139 shapeCasts_S480x1_S480x1)
      (shapeCast S480x1 v143 shapeCasts_S480x1_S480x1)) shapeCasts_S480x512_S1x480x512 = _
  simp only [shapeCast_self]

theorem pay1_apply (v1 : FVec Ideal S480x128 .f32) (v114 : FVec Ideal S512x128 .f32) (v115 : Vec Ideal S512x128 .f32)
    (v119 v139 v143 : Vec Ideal S480x1 .f32) (k : Fin 480) (s : Fin 512) :
    k1_pay1 (F := Ideal) v1 v114 v115 v119 v139 v143 (ix3 (0 : Fin 1) k s) = slab v1 v114 v115 v119 v139 v143 k s :=
  (congrFun (pay1_eq_chain v1 v114 v115 v119 v139 v143) (ix3 (0 : Fin 1) k s)).trans
    ((shapeCast_ab_1ab_apply _ shapeCasts_S480x512_S1x480x512 (0 : Fin 1) k s).trans
      (chain_apply v1 (addf v114 v115) v119 v139 v143 k s))

end Cert.KernelIdeal.TcPay

end
-- ==== Proof.TcRegionIdeal.lean ====
/-
  The TensorCore call's output array over the extended reals. Point t of the grid handles gathered rows
  [2048 t, 2048 t + 2048) in four slabs of 512 rows; slab r is batch row 4 t + r, and its row s is gathered row
  2048 t + 512 r + s = 512 (4 t + r) + s. Each slab's stored value at (k, s) is the layer normalisation, at channel k,
  of that gathered row plus position row s; the four stores tile the output block, so the block, and with it the whole
  array, is that one function of the index.
-/
import proofs.«207697_g22892175687689_cont_8to1_1704_9_alg».proof.Proof.TcRegionValue
import proofs.«207697_g22892175687689_cont_8to1_1704_9_alg».proof.Proof.TcPay
import proofs.«207697_g22892175687689_cont_8to1_1704_9_alg».proof.Proof.KernelValue

set_option maxRecDepth 16384

noncomputable section

namespace Cert.KernelIdeal.TcRegion

open Idealize.ShloMosaic Idealize.ShloMosaic.TcCoe Idealize.ShloMosaic.ValueIdx
open Idealize.ShloMosaic.Pipeline (Dat Cfg Window)
open Cert.KernelIdeal.Gen
open Idealize.SL Idealize.SL.RA
open Idealize.ShloMosaic.SparseCore.Cfg (HIx)

variable (V : (c : Dev nD) → (b : Ref sig .tc) → Buf (Elt Ideal) ((c.tc : Thread nD τ).loc b))

/-! ## The input blocks, read at an index -/

/-- The gathered array's block index at point t is (t, 0); the five other inputs are one block. -/
theorem idx_facts_in : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- A 512-row piece of the gathered block at point t, at (s, e): row 2048 t + o + s of the gathered array. -/
theorem ld_rows (c : Dev nD) (t : Fin cfg1.N) (off : Fin 2 → ℕ) (inb : ∀ a, off a + S512x128.size a ≤ S2048x128.size a)
    (o : ℕ) (h0 : off 0 = o) (h1 : off 1 = 0) (s : Fin 512) (e : Fin 128) (hlt : 2048 * t.val + o + s.val < 65536) :
    View.ld (iblk V c 0 t) (Rect.unit (s := S2048x128) off S512x128.size inb) (ix2 s e)
      = V c main_v1 (ix2 (⟨2048 * t.val + o + s.val, hlt⟩ : Fin 65536) e) := by
  obtain ⟨e0, e1, -⟩ := idx_facts_in t
  show V c main_v1 (((cfg1.win 0).blk t).view.emb ((Rect.unit (s := S2048x128) off S512x128.size inb).idx (ix2 s e))) = _
  refine congrArg _ ?_
  funext a
  match a with
  | ⟨0, _⟩ => apply Fin.ext; show win1_0.index t (0 : Fin 2) * 2048 + 1 * (off 0 + 1 * s.val) = 2048 * t.val + o + s.val; omega
  | ⟨1, _⟩ => apply Fin.ext; show win1_0.index t (1 : Fin 2) * 128 + 1 * (off 1 + 1 * e.val) = e.val; omega

theorem hz2 : (![0, 0] : Fin 2 → Nat) = fun _ => 0 := funext fun a => by fin_cases a <;> rfl

theorem N_eq : cfg1.N = 32 := N_1

/-- The six input arrays, as functions of their indices. -/
abbrev A1 (c : Dev nD) : S65536x128.Idx → EReal := V c main_v1
abbrev A2 (c : Dev nD) : S512x128.Idx → EReal := V c main_v2
abbrev A3 (c : Dev nD) : S480x128.Idx → EReal := V c main_v3
abbrev A4 (c : Dev nD) : S480x1.Idx → EReal := V c main_v4
abbrev A5 (c : Dev nD) : S480x1.Idx → EReal := V c main_v5
abbrev A6 (c : Dev nD) : S480x1.Idx → EReal := V c main_v6

/-- The five whole-array inputs: the one block at any point is the array, and the body loads it whole. -/
theorem ld_pos (c : Dev nD) (t : Fin cfg1.N) : View.ld (iblk V c 1 t) rP = A2 V c := by
  refine (View.ld_unit_zero (S := S512x128) hz2 inb_S512x128_S512x128_0_0 _).trans ?_
  obtain ⟨-, -, e2, e3, -⟩ := idx_facts_in t
  funext x
  show V c main_v2 (((cfg1.win 1).blk t).view.emb x) = V c main_v2 x
  refine congrArg _ ?_
  funext a
  match a with
  | ⟨0, _⟩ => apply Fin.ext; show win1_1.index t (0 : Fin 2) * 512 + 1 * (x 0).val = (x 0).val; omega
  | ⟨1, _⟩ => apply Fin.ext; show win1_1.index t (1 : Fin 2) * 128 + 1 * (x 1).val = (x 1).val; omega

theorem ld_w (c : Dev nD) (t : Fin cfg1.N) : View.ld (iblk V c 2 t) rW = A3 V c := by
  refine (View.ld_unit_zero (S := S480x128) hz2 inb_S480x128_S480x128_0_0 _).trans ?_
  obtain ⟨-, -, -, -, e4, e5, -⟩ := idx_facts_in t
  funext x
  show V c main_v3 (((cfg1.win 2).blk t).view.emb x) = V c main_v3 x
  refine congrArg _ ?_
  funext a
  match a with
  | ⟨0, _⟩ => apply Fin.ext; show win1_2.index t (0 : Fin 2) * 480 + 1 * (x 0).val = (x 0).val; omega
  | ⟨1, _⟩ => apply Fin.ext; show win1_2.index t (1 : Fin 2) * 128 + 1 * (x 1).val = (x 1).val; omega

theorem ld_b (c : Dev nD) (t : Fin cfg1.N) : View.ld (iblk V c 3 t) rC = A4 V c := by
  refine (View.ld_unit_zero (S := S480x1) hz2 inb_S480x1_S480x1_0_0 _).trans ?_
  obtain ⟨-, -, -, -, -, -, e6, e7, -⟩ := idx_facts_in t
  funext x
  show V c main_v4 (((cfg1.win 3).blk t).view.emb x) = V c main_v4 x
  refine congrArg _ ?_
  funext a
  match a with
  | ⟨0, _⟩ => apply Fin.ext; show win1_3.index t (0 : Fin 2) * 480 + 1 * (x 0).val = (x 0).val; omega
  | ⟨1, _⟩ => apply Fin.ext; show win1_3.index t (1 : Fin 2) * 1 + 1 * (x 1).val = (x 1).val; omega

theorem ld_g (c : Dev nD) (t : Fin cfg1.N) : View.ld (iblk V c 4 t) rC = A5 V c := by
  refine (View.ld_unit_zero (S := S480x1) hz2 inb_S480x1_S480x1_0_0 _).trans ?_
  obtain ⟨-, -, -, -, -, -, -, -, e8, e9, -⟩ := idx_facts_in t
  funext x
  show V c main_v5 (((cfg1.win 4).blk t).view.emb x) = V c main_v5 x
  refine congrArg _ ?_
  funext a
  match a with
  | ⟨0, _⟩ => apply Fin.ext; show win1_4.index t (0 : Fin 2) * 480 + 1 * (x 0).val = (x 0).val; omega
  | ⟨1, _⟩ => apply Fin.ext; show win1_4.index t (1 : Fin 2) * 1 + 1 * (x 1).val = (x 1).val; omega

theorem ld_be (c : Dev nD) (t : Fin cfg1.N) : View.ld (iblk V c 5 t) rC = A6 V c := by
  refine (View.ld_unit_zero (S := S480x1) hz2 inb_S480x1_S480x1_0_0 _).trans ?_
  obtain ⟨-, -, -, -, -, -, -, -, -, -, e10, e11⟩ := idx_facts_in t
  funext x
  show V c main_v6 (((cfg1.win 5).blk t).view.emb x) = V c main_v6 x
  refine congrArg _ ?_
  funext a
  match a with
  | ⟨0, _⟩ => apply Fin.ext; show win1_5.index t (0 : Fin 2) * 480 + 1 * (x 0).val = (x 0).val; omega
  | ⟨1, _⟩ => apply Fin.ext; show win1_5.index t (1 : Fin 2) * 1 + 1 * (x 1).val = (x 1).val; omega

/-! ## One slab -/

/-- The layer normalisation of row n of the gathered array plus position row s, at channel k. -/
def lnAt (c : Dev nD) (n : Fin 65536) (s : Fin 512) (k : Fin 480) : EReal :=
  Cert.Spec.lnK (fun e => A1 V c (ix2 n e) + A2 V c (ix2 s e)) (fun e k' => A3 V c (ix2 k' e))
    (fun k' => A4 V c (ix2 k' 0)) (fun k' => A5 V c (ix2 k' 0)) (fun k' => A6 V c (ix2 k' 0)) k

/-- The slab of the 512 rows at offset o of point t's block, at (k, s): the layer normalisation of gathered row
    2048 t + o + s. -/
theorem slab_blocks (c : Dev nD) (t : Fin cfg1.N) (off : Fin 2 → ℕ) (inb : ∀ a, off a + S512x128.size a ≤ S2048x128.size a)
    (o : ℕ) (h0 : off 0 = o) (h1 : off 1 = 0) (k : Fin 480) (s : Fin 512) (hlt : 2048 * t.val + o + s.val < 65536) :
    TcPay.slab (View.ld (iblk V c 2 t) rW) (View.ld (iblk V c 0 t) (Rect.unit (s := S2048x128) off S512x128.size inb))
        (View.ld (iblk V c 1 t) rP) (View.ld (iblk V c 3 t) rC) (View.ld (iblk V c 4 t) rC) (View.ld (iblk V c 5 t) rC) k s
      = lnAt V c ⟨2048 * t.val + o + s.val, hlt⟩ s k := by
  rw [ld_pos, ld_w, ld_b, ld_g, ld_be]
  unfold lnAt
  refine KVal.lnK_congr ?_ rfl rfl rfl rfl rfl
  funext e
  rw [ld_rows V c t off inb o h0 h1 s e hlt]

theorem lnAt_congr (c : Dev nD) {n n' : Fin 65536} {s s' : Fin 512} {k k' : Fin 480} (h1 : n = n') (h2 : s = s') (h3 : k = k') :
    lnAt V c n s k = lnAt V c n' s' k' := by subst h1 h2 h3; rfl

theorem pt_lt (t : Fin cfg1.N) : t.val < 32 := by
  have h := t.isLt; have hN : cfg1.N = 32 := N_eq; omega

/-! ## The output block -/

/-- The output block of point t as a function of its own index: at (r, k, s), the layer normalisation of gathered row
    512 (4 t + r) + s with position row s, at channel k. -/
def GB (c : Dev nD) (t : Fin cfg1.N) : S4x480x512.Idx → EReal := fun y =>
  lnAt V c ⟨512 * (4 * t.val + (y 0).val) + (y 2).val, by
      have ht := pt_lt t; have h0 : (y 0).val < 4 := (y 0).isLt; have h2 : (y 2).val < 512 := (y 2).isLt; omega⟩
    ⟨(y 2).val, (y 2).isLt⟩ ⟨(y 1).val, (y 1).isLt⟩

/-- A store of one slab is its piece of GB: the slab of the 512 rows at offset 512 r, stored at row r of the block. -/
theorem piece_eq (c : Dev nD) (t : Fin cfg1.N) (offO : Fin 3 → ℕ) (inbO : ∀ a, offO a + S1x480x512.size a ≤ S4x480x512.size a)
    (offX : Fin 2 → ℕ) (inbX : ∀ a, offX a + S512x128.size a ≤ S2048x128.size a) (r : ℕ) (hr : r < 4)
    (hO0 : offO 0 = r) (hO1 : offO 1 = 0) (hO2 : offO 2 = 0) (hX0 : offX 0 = 512 * r) (hX1 : offX 1 = 0)
    (pay : S1x480x512.Idx → EReal)
    (hpay : ∀ (k : Fin 480) (s : Fin 512), pay (ix3 (0 : Fin 1) k s)
      = TcPay.slab (View.ld (iblk V c 2 t) rW) (View.ld (iblk V c 0 t) (Rect.unit (s := S2048x128) offX S512x128.size inbX))
          (View.ld (iblk V c 1 t) rP) (View.ld (iblk V c 3 t) rC) (View.ld (iblk V c 4 t) rC) (View.ld (iblk V c 5 t) rC) k s)
    (x : S1x480x512.Idx) :
    pay x = GB V c t ((Rect.unit (s := S4x480x512) offO S1x480x512.size inbO).emb x) := by
  obtain ⟨z, k, s, rfl⟩ : ∃ (z : Fin 1) (k : Fin 480) (s : Fin 512), x = ix3 z k s := ⟨x 0, x 1, x 2, eq_ix3 x⟩
  obtain rfl : z = 0 := Subsingleton.elim _ _
  have ht := pt_lt t
  rw [hpay, slab_blocks V c t offX inbX (512 * r) hX0 hX1 k s (by omega)]
  unfold GB
  refine lnAt_congr V c ?_ ?_ ?_
  · apply Fin.ext
    show 2048 * t.val + 512 * r + s.val = 512 * (4 * t.val + (offO 0 + 1 * 0)) + (offO 2 + 1 * s.val)
    omega
  · apply Fin.ext
    show s.val = offO 2 + 1 * s.val
    omega
  · apply Fin.ext
    show k.val = offO 1 + 1 * k.val
    omega

/-- The body's output block at point t is GB. -/
theorem outBlk_eq (c : Dev nD) (t : Fin cfg1.N) (y : S4x480x512.Idx) :
    outBlk (F := Ideal) (iblk V c 0 t) (iblk V c 1 t) (iblk V c 2 t) (iblk V c 3 t) (iblk V c 4 t) (iblk V c 5 t) y = GB V c t y := by
  unfold outBlk
  refine View.canon_apply_of_pieces (Val := Elt Ideal) (e := .f32) (GB V c t) _ ?_ y (coverO _ _ _ _ y)
  intro p hp x
  simp only [List.mem_cons, List.not_mem_nil, or_false] at hp
  rcases hp with rfl | rfl | rfl | rfl
  · exact piece_eq V c t ![3, 0, 0] inb_S4x480x512_S1x480x512_3_0_0 ![1536, 0] inb_S2048x128_S512x128_1536_0 3 (by norm_num) rfl rfl rfl rfl rfl _
      (fun k s => by dsimp only; rw [TcPay.pay2_eq, TcPay.pay7_eq]; exact TcPay.pay1_apply _ _ _ _ _ _ k s) x
  · exact piece_eq V c t ![2, 0, 0] inb_S4x480x512_S1x480x512_2_0_0 ![1024, 0] inb_S2048x128_S512x128_1024_0 2 (by norm_num) rfl rfl rfl rfl rfl _
      (fun k s => by dsimp only; rw [TcPay.pay2_eq]; exact TcPay.pay6_apply _ _ _ _ _ _ k s) x
  · exact piece_eq V c t ![1, 0, 0] inb_S4x480x512_S1x480x512_1_0_0 ![512, 0] inb_S2048x128_S512x128_512_0 1 (by norm_num) rfl rfl rfl rfl rfl _
      (fun k s => by dsimp only; rw [TcPay.pay2_eq]; exact TcPay.pay5_apply _ _ _ _ _ _ k s) x
  · exact piece_eq V c t ![0, 0, 0] inb_S4x480x512_S1x480x512_0_0_0 ![0, 0] inb_S2048x128_S512x128_0_0 0 (by norm_num) rfl rfl rfl rfl rfl _
      (fun k s => by dsimp only; rw [TcPay.pay4_apply, TcPay.pay3_apply]) x

/-! ## The whole array -/

/-- The call's output array is the layer normalisation, row by row, of the gathered rows plus the position rows. -/
theorem G7_eq_tcOut (c : Dev nD) :
    G7 (F := Ideal) V c = KVal.tcOut (V c main_v1) (V c main_v2) (V c main_v3) (V c main_v4) (V c main_v5) (V c main_v6) := by
  funext i
  have hi0 : (i 0).val < 128 := (i 0).isLt
  unfold G7
  rw [outBlk_eq]
  unfold GB KVal.tcOut lnAt
  refine KVal.lnK_congr ?_ rfl rfl rfl rfl rfl
  funext e
  refine congrArg (fun n : Fin 65536 => A1 V c (ix2 n e) + A2 V c (ix2 (⟨(i 2).val, (i 2).isLt⟩ : Fin 512) e)) ?_
  apply Fin.ext
  show 512 * (4 * ((i 0).val / 4) + (i 0).val % 4) + (i 2).val = 512 * (i 0).val + (i 2).val
  omega

/-- The region's output array, named: the layer normalisation of the gathered rows plus the position rows. -/
theorem outV7_eq_tcOut {U : Type} [URA U] (O : Dev nD → CellTallies nD τ sig (HIx 1)) (bnd : ℕ) (c : Dev nD) :
    outV7 (F := Ideal) (U := U) V O bnd c
      = KVal.tcOut (V c main_v1) (V c main_v2) (V c main_v3) (V c main_v4) (V c main_v5) (V c main_v6) :=
  (outV7_eq (U := U) V O bnd c).trans (G7_eq_tcOut V c)

end Cert.KernelIdeal.TcRegion

end
-- ==== Proof.ScValsIdeal.lean ====
/-
  The main program's result over the extended reals. The final transpose reads the TensorCore call's output; the
  call's output is the layer normalisation of its six operands; the operands are, from the launch memory: the rows
  gathered by the reshaped index words from the table, the first 512 position rows, the transposed projection matrix
  and the bias, scale and shift as columns. Put together this is the program's pure term of its seven arguments.
-/
import proofs.«207697_g22892175687689_cont_8to1_1704_9_alg».proof.Proof.ScValsFacts
import proofs.«207697_g22892175687689_cont_8to1_1704_9_alg».proof.Proof.TcRegionIdeal
import proofs.«207697_g22892175687689_cont_8to1_1704_9_alg».proof.Proof.KernelValue
set_option maxRecDepth 16384

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.StableHlo (unary_result reshape_result unary_result_ne reshape_result_ne)

variable (m : (ℓ : Loc nD τ sig) → Buf (Elt Ideal) ℓ)

/-! ## The call's six operands, from the launch memory -/

theorem V2_of_ne (d : Dev nD) (x : Ref sig .tc) (h0 : x ≠ main_v0) (h1 : r x ≠ r main_v1) : V2 m d (r x) = m (d, r x) := by
  unfold V2
  rw [Function.update_of_ne h1]
  unfold V1
  rw [op0_ne _ _ h0]
  all_goals rfl

theorem Vreg_v1 (d : Dev nD) : Vreg m d main_v1
    = KVal.gath (F := Ideal) (shapeCast S512x128 (m ((d.tc : Thread nD τ).loc main_arg0)) shapeCasts_S128x512_S512x128) (m ((d.tc : Thread nD τ).loc main_arg1)) := by
  unfold Vreg V3
  rw [op6_ne _ _ (by decide), op5_ne _ _ (by decide), op4_ne _ _ (by decide), op3_ne _ _ (by decide), op2_ne _ _ (by decide), V2_v1]
  all_goals rfl

theorem Vreg_v2 (d : Dev nD) : Vreg m d main_v2
    = extractStridedSlice S512x128 ![0, 0] (m ((d.tc : Thread nD τ).loc main_arg2)) slices_S519x128_S512x128_0_0 := by
  unfold Vreg V3
  rw [op6_ne _ _ (by decide), op5_ne _ _ (by decide), op4_ne _ _ (by decide), op3_ne _ _ (by decide), op2_res,
    V2_of_ne m d main_arg2 (by decide) (by decide)]
  all_goals rfl

theorem Vreg_v3 (d : Dev nD) : Vreg m d main_v3
    = transpose S480x128 [1, 0] (m ((d.tc : Thread nD τ).loc main_arg3)) transposes_S128x480_S480x128_1_0 := by
  unfold Vreg V3
  rw [op6_ne _ _ (by decide), op5_ne _ _ (by decide), op4_ne _ _ (by decide), op3_res, op2_ne _ _ (by decide),
    V2_of_ne m d main_arg3 (by decide) (by decide)]
  all_goals rfl

theorem Vreg_v4 (d : Dev nD) : Vreg m d main_v4
    = shapeCast S480x1 (m ((d.tc : Thread nD τ).loc main_arg4)) shapeCasts_S480_S480x1 := by
  unfold Vreg V3
  rw [op6_ne _ _ (by decide), op5_ne _ _ (by decide), op4_res, op3_ne _ _ (by decide), op2_ne _ _ (by decide),
    V2_of_ne m d main_arg4 (by decide) (by decide)]
  all_goals rfl

theorem Vreg_v5 (d : Dev nD) : Vreg m d main_v5
    = shapeCast S480x1 (m ((d.tc : Thread nD τ).loc main_arg5)) shapeCasts_S480_S480x1 := by
  unfold Vreg V3
  rw [op6_ne _ _ (by decide), op5_res, op4_ne _ _ (by decide), op3_ne _ _ (by decide), op2_ne _ _ (by decide),
    V2_of_ne m d main_arg5 (by decide) (by decide)]
  all_goals rfl

theorem Vreg_v6 (d : Dev nD) : Vreg m d main_v6
    = shapeCast S480x1 (m ((d.tc : Thread nD τ).loc main_arg6)) shapeCasts_S480_S480x1 := by
  unfold Vreg V3
  rw [op6_res, op5_ne _ _ (by decide), op4_ne _ _ (by decide), op3_ne _ _ (by decide), op2_ne _ _ (by decide),
    V2_of_ne m d main_arg6 (by decide) (by decide)]
  all_goals rfl

/-! ## The result -/

/-- The result array at the end of the main program is the program's pure term of the seven arguments. -/
theorem V5_v8_ideal (d : Dev nD) :
    V5 m d (r main_v8) = Cert.KernelIdeal.KVal.kernOut (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) (m ((d.tc : Thread nD τ).loc main_arg6)) := by
  unfold V5
  rw [op8_res, V4_v7]
  unfold tcOutV
  rw [Cert.KernelIdeal.TcRegion.outV7_eq_tcOut, Vreg_v1, Vreg_v2, Vreg_v3, Vreg_v4, Vreg_v5, Vreg_v6]
  all_goals rfl

end Cert.KernelIdeal.Sc

end
-- ==== Proof.RefRun.lean ====
/-
  The reference program's run. Its @main is a straight line of 83 array operations once the two outlined gathers
  (each `jnp.take`: an index wrap, an in-range mask, a row gather, a select against a NaN fill) are read at their call
  sites. The operations are listed in order; the program is shown equal to that list run in sequence; and the
  result array is read back as ONE pure term `refOut` of the seven argument arrays, built from the stages below
  (the gathered word rows, the gathered position rows, their sum, the projection plus bias, the mean, the deviation,
  the variance, and the normalised, scaled and shifted result).
-/
import proofs.«207697_g22892175687689_cont_8to1_1704_9_alg».proof.ReferenceIdeal
import Idealize.ShloMosaic.Lib.StableHlo.Run
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Cert.ReferenceIdeal.Facts]

section Ops
variable {F : FTy → Type} [FloatOps F]

/-- @main's 83 operations in order, the two calls unfolded: 23 for the word rows (the zero and its broadcast, the
    sign test, the table height and its broadcast, the wrapped sum, the select between them; the index's trailing unit
    axis; the bounds and the two comparisons, their conjunction and its reduction over the unit axis; the gather; the
    mask's broadcast, the NaN fill and its broadcast, the select), the position counter, the same 23 for the position
    rows, then @main's own 36. -/
abbrev ops : List (HloOp τ sig (Elt F)) :=
  [ StableHlo.TRef.nullary main_call0.c (constantI S_ 32 0#32),
    StableHlo.TRef.unary main_call0.c main_call0.v0 (broadcastInDim S128x512 ![] bcast_S_S128x512),
    StableHlo.TRef.binary (.of main_arg0 : StableHlo.TRef sig ⟨S128x512, .i32⟩) main_call0.v0 main_call0.v1 (cmpi .slt),
    StableHlo.TRef.nullary main_call0.c_0 (constantI S_ 32 30522#32),
    StableHlo.TRef.unary main_call0.c_0 main_call0.v2 (broadcastInDim S128x512 ![] bcast_S_S128x512),
    StableHlo.TRef.binary (.of main_arg0 : StableHlo.TRef sig ⟨S128x512, .i32⟩) main_call0.v2 main_call0.v3 addi,
    StableHlo.TRef.ternary main_call0.v1 main_call0.v3 (.of main_arg0 : StableHlo.TRef sig ⟨S128x512, .i32⟩) main_call0.call0.v0 select,
    StableHlo.TRef.unary main_call0.call0.v0 main_call0.v5 (broadcastInDim S128x512x1 ![0, 1] bcast_S128x512_S128x512x1_0_1),
    StableHlo.TRef.nullary main_call0.c_1 (constantI S1 32 30521#32),
    StableHlo.TRef.nullary main_call0.c_2 (constantI S_ 32 0#32),
    StableHlo.TRef.unary main_call0.c_2 main_call0.v6 (broadcastInDim S128x512x1 ![] bcast_S_S128x512x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S128x512x1 ![0, 1, 2] bcast_S1x1x1_S128x512x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S128x512x1_S128x512_d2 h_S_),
    StableHlo.TRef.binary (.of main_arg1 : StableHlo.TRef sig ⟨S30522x128, .f32⟩) main_call0.v5 main_call0.v13 (fun x i => Host.gather gather_S30522x128_S128x512x1_S128x512x128_2_0_n_n_0_2_1128 x i),
    StableHlo.TRef.unary main_call0.v12 main_call0.v14 (broadcastInDim S128x512x128 ![0, 1] bcast_S128x512_S128x512x128_0_1),
    StableHlo.TRef.nullary main_call0.cst (constant S_ .f32 0x7FC00000#32),
    StableHlo.TRef.unary main_call0.cst main_call0.v15 (broadcastInDim S128x512x128 ![] bcast_S_S128x512x128),
    StableHlo.TRef.ternary main_call0.v14 main_call0.v13 main_call0.v15 main_call0.v16 select,
    StableHlo.nullary main_v1 (iotaInDim S512 32 0),
    StableHlo.TRef.nullary main_call1.c (constantI S_ 32 0#32),
    StableHlo.TRef.unary main_call1.c main_call1.v0 (broadcastInDim S512 ![] bcast_S_S512),
    StableHlo.TRef.binary (.of main_v1 : StableHlo.TRef sig ⟨S512, .i32⟩) main_call1.v0 main_call1.v1 (cmpi .slt),
    StableHlo.TRef.nullary main_call1.c_0 (constantI S_ 32 519#32),
    StableHlo.TRef.unary main_call1.c_0 main_call1.v2 (broadcastInDim S512 ![] bcast_S_S512),
    StableHlo.TRef.binary (.of main_v1 : StableHlo.TRef sig ⟨S512, .i32⟩) main_call1.v2 main_call1.v3 addi,
    StableHlo.TRef.ternary main_call1.v1 main_call1.v3 (.of main_v1 : StableHlo.TRef sig ⟨S512, .i32⟩) main_call1.call0.v0 select,
    StableHlo.TRef.unary main_call1.call0.v0 main_call1.v5 (broadcastInDim S512x1 ![0] bcast_S512_S512x1_0),
    StableHlo.TRef.nullary main_call1.c_1 (constantI S1 32 518#32),
    StableHlo.TRef.nullary main_call1.c_2 (constantI S_ 32 0#32),
    StableHlo.TRef.unary main_call1.c_2 main_call1.v6 (broadcastInDim S512x1 ![] bcast_S_S512x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S512x1 ![0, 1] bcast_S1x1_S512x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S512x1_S512_d1 h_S_),
    StableHlo.TRef.binary (.of main_arg2 : StableHlo.TRef sig ⟨S519x128, .f32⟩) main_call1.v5 main_call1.v13 (fun x i => Host.gather gather_S519x128_S512x1_S512x128_1_0_n_n_0_1_1128 x i),
    StableHlo.TRef.unary main_call1.v12 main_call1.v14 (broadcastInDim S512x128 ![0] bcast_S512_S512x128_0),
    StableHlo.TRef.nullary main_call1.cst (constant S_ .f32 0x7FC00000#32),
    StableHlo.TRef.unary main_call1.cst main_call1.v15 (broadcastInDim S512x128 ![] bcast_S_S512x128),
    StableHlo.TRef.ternary main_call1.v14 main_call1.v13 main_call1.v15 main_call1.v16 select,
    StableHlo.unary main_v2 main_v3 (broadcastInDim S1x512x128 ![1, 2] bcast_S512x128_S1x512x128_1_2 : (⟨S512x128, .f32⟩ : BufTy).Contents (Elt F) → (⟨S1x512x128, .f32⟩ : BufTy).Contents (Elt F)),
    StableHlo.unary main_v3 main_v4 (broadcastInDim S128x512x128 ![0, 1, 2] bcast_S1x512x128_S128x512x128_0_1_2 : (⟨S1x512x128, .f32⟩ : BufTy).Contents (Elt F) → (⟨S128x512x128, .f32⟩ : BufTy).Contents (Elt F)),
    StableHlo.binary main_v0 main_v4 main_v5 (addf : (⟨S128x512x128, .f32⟩ : BufTy).Contents (Elt F) → (⟨S128x512x128, .f32⟩ : BufTy).Contents (Elt F) → (⟨S128x512x128, .f32⟩ : BufTy).Contents (Elt F)),
    StableHlo.binary main_v5 main_arg3 main_v6 ((fun l r => Host.dotGeneral dot_S128x512x128_S128x480_S128x512x480_2_0_01_1_n_n none l r) : (⟨S128x512x128, .f32⟩ : BufTy).Contents (Elt F) → (⟨S128x480, .f32⟩ : BufTy).Contents (Elt F) → (⟨S128x512x480, .f32⟩ : BufTy).Contents (Elt F)),
    StableHlo.unary main_arg4 main_v7 (broadcastInDim S1x1x480 ![2] bcast_S480_S1x1x480_2 : (⟨S480, .f32⟩ : BufTy).Contents (Elt F) → (⟨S1x1x480, .f32⟩ : BufTy).Contents (Elt F)),
    StableHlo.unary main_v7 main_v8 (broadcastInDim S128x512x480 ![0, 1, 2] bcast_S1x1x480_S128x512x480_0_1_2 : (⟨S1x1x480, .f32⟩ : BufTy).Contents (Elt F) → (⟨S128x512x480, .f32⟩ : BufTy).Contents (Elt F)),
    StableHlo.binary main_v6 main_v8 main_v9 (addf : (⟨S128x512x480, .f32⟩ : BufTy).Contents (Elt F) → (⟨S128x512x480, .f32⟩ : BufTy).Contents (Elt F) → (⟨S128x512x480, .f32⟩ : BufTy).Contents (Elt F)),
    StableHlo.nullary main_cst (constant S_ .f32 0x00000000#32),
    StableHlo.binary main_v9 main_cst main_v10 ((fun x v => Host.reduceAdd x v reducesTo_S128x512x480_S128x512_d2 h_S_) : (⟨S128x512x480, .f32⟩ : BufTy).Contents (Elt F) → (⟨S_, .f32⟩ : BufTy).Contents (Elt F) → (⟨S128x512, .f32⟩ : BufTy).Contents (Elt F)),
    StableHlo.unary main_v10 main_v11 (broadcastInDim S128x512x1 ![0, 1] bcast_S128x512_S128x512x1_0_1 : (⟨S128x512, .f32⟩ : BufTy).Contents (Elt F) → (⟨S128x512x1, .f32⟩ : BufTy).Contents (Elt F)),
    StableHlo.nullary main_cst_0 (constant S_ .f32 0x43F00000#32),
    StableHlo.unary main_cst_0 main_v12 (broadcastInDim S128x512x1 ![] bcast_S_S128x512x1 : (⟨S_, .f32⟩ : BufTy).Contents (Elt F) → (⟨S128x512x1, .f32⟩ : BufTy).Contents (Elt F)),
    StableHlo.binary main_v11 main_v12 main_v13 (Host.divf : (⟨S128x512x1, .f32⟩ : BufTy).Contents (Elt F) → (⟨S128x512x1, .f32⟩ : BufTy).Contents (Elt F) → (⟨S128x512x1, .f32⟩ : BufTy).Contents (Elt F)),
    StableHlo.unary main_v13 main_v14 (broadcastInDim S128x512x480 ![0, 1, 2] bcast_S128x512x1_S128x512x480_0_1_2 : (⟨S128x512x1, .f32⟩ : BufTy).Contents (Elt F) → (⟨S128x512x480, .f32⟩ : BufTy).Contents (Elt F)),
    StableHlo.binary main_v9 main_v14 main_v15 (subf : (⟨S128x512x480, .f32⟩ : BufTy).Contents (Elt F) → (⟨S128x512x480, .f32⟩ : BufTy).Contents (Elt F) → (⟨S128x512x480, .f32⟩ : BufTy).Contents (Elt F)),
    StableHlo.binary main_v15 main_v15 main_v16 (mulf : (⟨S128x512x480, .f32⟩ : BufTy).Contents (Elt F) → (⟨S128x512x480, .f32⟩ : BufTy).Contents (Elt F) → (⟨S128x512x480, .f32⟩ : BufTy).Contents (Elt F)),
    StableHlo.nullary main_cst_1 (constant S_ .f32 0x00000000#32),
    StableHlo.binary main_v16 main_cst_1 main_v17 ((fun x v => Host.reduceAdd x v reducesTo_S128x512x480_S128x512_d2 h_S_) : (⟨S128x512x480, .f32⟩ : BufTy).Contents (Elt F) → (⟨S_, .f32⟩ : BufTy).Contents (Elt F) → (⟨S128x512, .f32⟩ : BufTy).Contents (Elt F)),
    StableHlo.unary main_v17 main_v18 (broadcastInDim S128x512x1 ![0, 1] bcast_S128x512_S128x512x1_0_1 : (⟨S128x512, .f32⟩ : BufTy).Contents (Elt F) → (⟨S128x512x1, .f32⟩ : BufTy).Contents (Elt F)),
    StableHlo.nullary main_cst_2 (constant S_ .f32 0x43F00000#32),
    StableHlo.unary main_cst_2 main_v19 (broadcastInDim S128x512x1 ![] bcast_S_S128x512x1 : (⟨S_, .f32⟩ : BufTy).Contents (Elt F) → (⟨S128x512x1, .f32⟩ : BufTy).Contents (Elt F)),
    StableHlo.binary main_v18 main_v19 main_v20 (Host.divf : (⟨S128x512x1, .f32⟩ : BufTy).Contents (Elt F) → (⟨S128x512x1, .f32⟩ : BufTy).Contents (Elt F) → (⟨S128x512x1, .f32⟩ : BufTy).Contents (Elt F)),
    StableHlo.unary main_v13 main_v21 (broadcastInDim S128x512x480 ![0, 1, 2] bcast_S128x512x1_S128x512x480_0_1_2 : (⟨S128x512x1, .f32⟩ : BufTy).Contents (Elt F) → (⟨S128x512x480, .f32⟩ : BufTy).Contents (Elt F)),
    StableHlo.binary main_v9 main_v21 main_v22 (subf : (⟨S128x512x480, .f32⟩ : BufTy).Contents (Elt F) → (⟨S128x512x480, .f32⟩ : BufTy).Contents (Elt F) → (⟨S128x512x480, .f32⟩ : BufTy).Contents (Elt F)),
    StableHlo.nullary main_cst_3 (constant S_ .f32 0x3089705F#32),
    StableHlo.unary main_cst_3 main_v23 (broadcastInDim S128x512x1 ![] bcast_S_S128x512x1 : (⟨S_, .f32⟩ : BufTy).Contents (Elt F) → (⟨S128x512x1, .f32⟩ : BufTy).Contents (Elt F)),
    StableHlo.binary main_v20 main_v23 main_v24 (addf : (⟨S128x512x1, .f32⟩ : BufTy).Contents (Elt F) → (⟨S128x512x1, .f32⟩ : BufTy).Contents (Elt F) → (⟨S128x512x1, .f32⟩ : BufTy).Contents (Elt F)),
    StableHlo.unary main_v24 main_v25 (Host.sqrt : (⟨S128x512x1, .f32⟩ : BufTy).Contents (Elt F) → (⟨S128x512x1, .f32⟩ : BufTy).Contents (Elt F)),
    StableHlo.unary main_v25 main_v26 (broadcastInDim S128x512x480 ![0, 1, 2] bcast_S128x512x1_S128x512x480_0_1_2 : (⟨S128x512x1, .f32⟩ : BufTy).Contents (Elt F) → (⟨S128x512x480, .f32⟩ : BufTy).Contents (Elt F)),
    StableHlo.binary main_v22 main_v26 main_v27 (Host.divf : (⟨S128x512x480, .f32⟩ : BufTy).Contents (Elt F) → (⟨S128x512x480, .f32⟩ : BufTy).Contents (Elt F) → (⟨S128x512x480, .f32⟩ : BufTy).Contents (Elt F)),
    StableHlo.unary main_arg5 main_v28 (broadcastInDim S1x1x480 ![2] bcast_S480_S1x1x480_2 : (⟨S480, .f32⟩ : BufTy).Contents (Elt F) → (⟨S1x1x480, .f32⟩ : BufTy).Contents (Elt F)),
    StableHlo.unary main_v28 main_v29 (broadcastInDim S128x512x480 ![0, 1, 2] bcast_S1x1x480_S128x512x480_0_1_2 : (⟨S1x1x480, .f32⟩ : BufTy).Contents (Elt F) → (⟨S128x512x480, .f32⟩ : BufTy).Contents (Elt F)),
    StableHlo.binary main_v27 main_v29 main_v30 (mulf : (⟨S128x512x480, .f32⟩ : BufTy).Contents (Elt F) → (⟨S128x512x480, .f32⟩ : BufTy).Contents (Elt F) → (⟨S128x512x480, .f32⟩ : BufTy).Contents (Elt F)),
    StableHlo.unary main_arg6 main_v31 (broadcastInDim S1x1x480 ![2] bcast_S480_S1x1x480_2 : (⟨S480, .f32⟩ : BufTy).Contents (Elt F) → (⟨S1x1x480, .f32⟩ : BufTy).Contents (Elt F)),
    StableHlo.unary main_v31 main_v32 (broadcastInDim S128x512x480 ![0, 1, 2] bcast_S1x1x480_S128x512x480_0_1_2 : (⟨S1x1x480, .f32⟩ : BufTy).Contents (Elt F) → (⟨S128x512x480, .f32⟩ : BufTy).Contents (Elt F)),
    StableHlo.binary main_v30 main_v32 main_v33 (addf : (⟨S128x512x480, .f32⟩ : BufTy).Contents (Elt F) → (⟨S128x512x480, .f32⟩ : BufTy).Contents (Elt F) → (⟨S128x512x480, .f32⟩ : BufTy).Contents (Elt F)) ]

-- eighty-three steps unfolded on each side, one bind under the other
set_option maxRecDepth 8192 in
/-- @main is that straight line: the functions' bodies unfolded at their calls, both sides are one chain of steps
    (sequencing reassociates by computation). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

end Ops

/-! ## The result as a pure term, stage by stage (at the extended reals) -/

section Term

/-- `jnp.take`'s wrap of the word array: `where(i < 0, i + 30522, i)`. -/
def wrapW (a0 : IVec S128x512 32) : IVec S128x512 32 :=
  select (cmpi .slt a0 (broadcastInDim S128x512 ![] bcast_S_S128x512 (constantI S_ 32 0#32)))
    (addi a0 (broadcastInDim S128x512 ![] bcast_S_S128x512 (constantI S_ 32 30522#32))) a0

/-- The wrapped words with a trailing unit axis: the row gather's start indices. -/
def idxW (a0 : IVec S128x512 32) : IVec S128x512x1 32 :=
  broadcastInDim S128x512x1 ![0, 1] bcast_S128x512_S128x512x1_0_1 (wrapW a0)

/-- The in-range mask of the word indices: `0 ≤ i` and `i ≤ 30521`, their conjunction reduced over the unit axis. -/
def okW (a0 : IVec S128x512 32) : IVec S128x512 1 :=
  Host.reduce IntOp.andi
    (andi (cmpi .sge (idxW a0) (broadcastInDim S128x512x1 ![] bcast_S_S128x512x1 (constantI S_ 32 0#32)))
      (cmpi .sle (idxW a0) (broadcastInDim S128x512x1 ![0, 1, 2] bcast_S1x1x1_S128x512x1_0_1_2
        (broadcastInDim S1x1x1 ![2] bcast_S1_S1x1x1_2 (constantI S1 32 30521#32)))))
    (constantI S_ 1 1#1) reducesTo_S128x512x1_S128x512_d2 h_S_

/-- The gathered word rows: the table's rows at the start indices where the mask holds, the NaN fill elsewhere. -/
def rowsW (a0 : IVec S128x512 32) (a1 : FVec Ideal S30522x128 .f32) : FVec Ideal S128x512x128 .f32 :=
  select (broadcastInDim S128x512x128 ![0, 1] bcast_S128x512_S128x512x128_0_1 (okW a0))
    (Host.gather gather_S30522x128_S128x512x1_S128x512x128_2_0_n_n_0_2_1128 a1 (idxW a0))
    (broadcastInDim S128x512x128 ![] bcast_S_S128x512x128 (constant S_ .f32 0x7FC00000#32))

/-- The position counter `0, 1, …, 511`. -/
def pos : IVec S512 32 := iotaInDim S512 32 0

/-- `jnp.take`'s wrap of the position counter: `where(i < 0, i + 519, i)`. -/
def wrapP : IVec S512 32 :=
  select (cmpi .slt pos (broadcastInDim S512 ![] bcast_S_S512 (constantI S_ 32 0#32)))
    (addi pos (broadcastInDim S512 ![] bcast_S_S512 (constantI S_ 32 519#32))) pos

/-- The wrapped positions with a trailing unit axis: the position gather's start indices. -/
def idxP : IVec S512x1 32 := broadcastInDim S512x1 ![0] bcast_S512_S512x1_0 wrapP

/-- The in-range mask of the position indices: `0 ≤ i` and `i ≤ 518`. -/
def okP : IVec S512 1 :=
  Host.reduce IntOp.andi
    (andi (cmpi .sge idxP (broadcastInDim S512x1 ![] bcast_S_S512x1 (constantI S_ 32 0#32)))
      (cmpi .sle idxP (broadcastInDim S512x1 ![0, 1] bcast_S1x1_S512x1_0_1
        (broadcastInDim S1x1 ![1] bcast_S1_S1x1_1 (constantI S1 32 518#32)))))
    (constantI S_ 1 1#1) reducesTo_S512x1_S512_d1 h_S_

/-- The gathered position rows. -/
def rowsP (a2 : FVec Ideal S519x128 .f32) : FVec Ideal S512x128 .f32 :=
  select (broadcastInDim S512x128 ![0] bcast_S512_S512x128_0 okP)
    (Host.gather gather_S519x128_S512x1_S512x128_1_0_n_n_0_1_1128 a2 idxP)
    (broadcastInDim S512x128 ![] bcast_S_S512x128 (constant S_ .f32 0x7FC00000#32))

/-- The embedded tokens: word rows plus position rows, the latter broadcast over the batch axis. -/
def xAll (a0 : IVec S128x512 32) (a1 : FVec Ideal S30522x128 .f32) (a2 : FVec Ideal S519x128 .f32) :
    FVec Ideal S128x512x128 .f32 :=
  addf (rowsW a0 a1) (broadcastInDim S128x512x128 ![0, 1, 2] bcast_S1x512x128_S128x512x128_0_1_2
    (broadcastInDim S1x512x128 ![1, 2] bcast_S512x128_S1x512x128_1_2 (rowsP a2)))

/-- The projection to 480 channels plus the bias. -/
def hAll (x : FVec Ideal S128x512x128 .f32) (a3 : FVec Ideal S128x480 .f32) (a4 : FVec Ideal S480 .f32) :
    FVec Ideal S128x512x480 .f32 :=
  addf (Host.dotGeneral dot_S128x512x128_S128x480_S128x512x480_2_0_01_1_n_n none x a3)
    (broadcastInDim S128x512x480 ![0, 1, 2] bcast_S1x1x480_S128x512x480_0_1_2
      (broadcastInDim S1x1x480 ![2] bcast_S480_S1x1x480_2 a4))

/-- The sum over the channel axis divided by 480, with a trailing unit axis: the mean when applied to the projection,
    the variance when applied to the squared deviations. -/
def avgAll (h : FVec Ideal S128x512x480 .f32) : FVec Ideal S128x512x1 .f32 :=
  Host.divf (broadcastInDim S128x512x1 ![0, 1] bcast_S128x512_S128x512x1_0_1
      (Host.reduceAdd h (constant S_ .f32 0x00000000#32) reducesTo_S128x512x480_S128x512_d2 h_S_))
    (broadcastInDim S128x512x1 ![] bcast_S_S128x512x1 (constant S_ .f32 0x43F00000#32))

/-- The deviation from the mean. -/
def devAll (h : FVec Ideal S128x512x480 .f32) : FVec Ideal S128x512x480 .f32 :=
  subf h (broadcastInDim S128x512x480 ![0, 1, 2] bcast_S128x512x1_S128x512x480_0_1_2 (avgAll h))

/-- The variance, with a trailing unit axis. -/
def varAll (h : FVec Ideal S128x512x480 .f32) : FVec Ideal S128x512x1 .f32 :=
  avgAll (mulf (devAll h) (devAll h))

/-- The normalised, scaled and shifted result. -/
def outAll (h : FVec Ideal S128x512x480 .f32) (a5 a6 : FVec Ideal S480 .f32) : FVec Ideal S128x512x480 .f32 :=
  addf
    (mulf
      (Host.divf (devAll h) (broadcastInDim S128x512x480 ![0, 1, 2] bcast_S128x512x1_S128x512x480_0_1_2
        (Host.sqrt (addf (varAll h) (broadcastInDim S128x512x1 ![] bcast_S_S128x512x1 (constant S_ .f32 0x3089705F#32))))))
      (broadcastInDim S128x512x480 ![0, 1, 2] bcast_S1x1x480_S128x512x480_0_1_2
        (broadcastInDim S1x1x480 ![2] bcast_S480_S1x1x480_2 a5)))
    (broadcastInDim S128x512x480 ![0, 1, 2] bcast_S1x1x480_S128x512x480_0_1_2
      (broadcastInDim S1x1x480 ![2] bcast_S480_S1x1x480_2 a6))

/-- The reference's result array as ONE pure term of its seven argument arrays: @main's operations composed. -/
def refOut (a0 : IVec S128x512 32) (a1 : FVec Ideal S30522x128 .f32) (a2 : FVec Ideal S519x128 .f32)
    (a3 : FVec Ideal S128x480 .f32) (a4 a5 a6 : FVec Ideal S480 .f32) : FVec Ideal S128x512x480 .f32 :=
  outAll (hAll (xAll a0 a1 a2) a3 a4) a5 a6

end Term

/-! ## The buffers after the line -/

section Read

-- the reductions and gathers are kept folded: the equation never looks inside them
attribute [local irreducible] Host.reduce Host.gather Host.reduceAdd in
set_option maxRecDepth 16384 in
set_option maxHeartbeats 1000000 in
/-- After the 83 operations the result buffer holds `refOut` of the argument buffers' contents: each operation's
    result read at its own buffer, every other buffer left as it was, the typed references' casts the identity. -/
theorem out_eq (V : Valuation τ sig (Elt Ideal)) :
    after (ops (F := Ideal)) V (Proc.devRef .tc main_v33)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  after_results_simp
  rfl

/-! No operation writes an argument buffer. -/
theorem arg0_eq (V : Valuation τ sig (Elt Ideal)) :
    after (ops (F := Ideal)) V (Proc.devRef .tc main_arg0) = V (Proc.devRef .tc main_arg0) := by
  after_results_simp
theorem arg1_eq (V : Valuation τ sig (Elt Ideal)) :
    after (ops (F := Ideal)) V (Proc.devRef .tc main_arg1) = V (Proc.devRef .tc main_arg1) := by
  after_results_simp
theorem arg2_eq (V : Valuation τ sig (Elt Ideal)) :
    after (ops (F := Ideal)) V (Proc.devRef .tc main_arg2) = V (Proc.devRef .tc main_arg2) := by
  after_results_simp
theorem arg3_eq (V : Valuation τ sig (Elt Ideal)) :
    after (ops (F := Ideal)) V (Proc.devRef .tc main_arg3) = V (Proc.devRef .tc main_arg3) := by
  after_results_simp
theorem arg4_eq (V : Valuation τ sig (Elt Ideal)) :
    after (ops (F := Ideal)) V (Proc.devRef .tc main_arg4) = V (Proc.devRef .tc main_arg4) := by
  after_results_simp
theorem arg5_eq (V : Valuation τ sig (Elt Ideal)) :
    after (ops (F := Ideal)) V (Proc.devRef .tc main_arg5) = V (Proc.devRef .tc main_arg5) := by
  after_results_simp
theorem arg6_eq (V : Valuation τ sig (Elt Ideal)) :
    after (ops (F := Ideal)) V (Proc.devRef .tc main_arg6) = V (Proc.devRef .tc main_arg6) := by
  after_results_simp

end Read

/-! ## The run -/

/-- On every device, from any memory with zero counters: every weakly fair execution of @main terminates with the
    result buffer at `refOut` of the arguments' launch contents and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v33).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.RefValue.lean ====
/-
  The reference's term read at an index. With every index word below the table height 30522, `jnp.take`'s wrap
  `where(i < 0, i + 30522, i)` is the identity (the word is non-negative as a signed integer), its in-range mask is
  all ones (so the select picks the gathered row, never the NaN fill), and the gather's clamp into [0, 30521] is the
  identity: the gathered row is the table row the word names. The position indices are 0 … 511, all inside [0, 518],
  so the same holds of the position rows. The projection is the sum over the 128 embedding coordinates, the two
  reductions are the sums over the 480 channels from a zero initial value, and the rest is pointwise: the term is
  the specification's quotient form.
-/
import proofs.«207697_g22892175687689_cont_8to1_1704_9_alg».proof.Proof.RefRun
import proofs.«207697_g22892175687689_cont_8to1_1704_9_alg».proof.Proof.Spec
import Idealize.ShloMosaic.Lib.IdealHost
import Idealize.ShloMosaic.Lib.ReduceAll
import Idealize.ShloMosaic.Lib.Pipeline.Value

noncomputable section

namespace Cert.ReferenceIdeal.RefValue

open Cert.ReferenceIdeal Cert.ReferenceIdeal.Facts₀ Cert.ReferenceIdeal.RefRun Idealize.ShloMosaic Idealize.ShloMosaic.ValueIdx
open scoped BigOperators

variable [Cert.ReferenceIdeal.Facts]

/-! ## Words -/

/-- A 32-bit word below 2³¹ is its own value read signed. -/
theorem toInt_of_lt {w : BitVec 32} {N : Nat} (h : w.toNat < N) (hN : N ≤ 2 ^ 31) : w.toInt = (w.toNat : Int) := by
  rw [BitVec.toInt_eq_toNat_cond]
  split <;> omega

/-- Such a word is not negative: the wrap's sign test is 0. -/
theorem slt_zero_of_lt {w : BitVec 32} {N : Nat} (h : w.toNat < N) (hN : N ≤ 2 ^ 31) : IntOp.cmpi .slt w 0#32 = 0#1 := by
  refine eq_zero_of_ne_one fun e => ?_
  have := IntOp.cmpi_slt.1 e
  rw [toInt_of_lt h hN] at this
  simp at this
  omega

/-- Such a word passes the lower bound test. -/
theorem sge_zero_of_lt {w : BitVec 32} {N : Nat} (h : w.toNat < N) (hN : N ≤ 2 ^ 31) : IntOp.cmpi .sge w 0#32 = 1#1 := by
  refine IntOp.cmpi_sge.2 ?_
  rw [toInt_of_lt h hN]
  simp

/-- A word below `N` passes the upper bound test against `N - 1`. -/
theorem sle_of_lt {w : BitVec 32} {N : Nat} (h : w.toNat < N) (hN : N ≤ 2 ^ 31) (b : BitVec 32) (hb : b.toNat = N - 1) :
    IntOp.cmpi .sle w b = 1#1 := by
  refine IntOp.cmpi_sle.2 ?_
  rw [toInt_of_lt h hN, toInt_of_lt (w := b) (N := N) (by omega) hN, hb]
  omega

/-- The gather's clamp of such a word into `[0, N - 1]` is the word's value. -/
theorem clamp_of_lt {w : BitVec 32} {N : Nat} (h : w.toNat < N) (hN : N ≤ 2 ^ 31) : min w.toInt.toNat (N - 1) = w.toNat := by
  rw [toInt_of_lt h hN]
  simp
  omega

/-- A left fold by `and` from 1 over ones is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A reduction by `and` from 1 of an array of ones is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The two row gathers read at an index -/

/-- The row gather of the word table at `(b, s, e)`: the table at the start index `idx[b, s, 0]`, read signed and
    clamped into `[0, 30521]`, column `e`. -/
theorem gatherW_apply {α : Type} (x : S30522x128.Idx → α) (idx : IVec S128x512x1 32) (b : Fin 128) (s : Fin 512) (e : Fin 128) :
    Host.gather gather_S30522x128_S128x512x1_S128x512x128_2_0_n_n_0_2_1128 x idx (ix3 b s e)
      = x (ix2 (⟨min (idx (ix3 b s (0 : Fin 1))).toInt.toNat (30522 - 1), by omega⟩ : Fin 30522) e) := by
  unfold Host.gather
  congr 1
  funext a
  refine Fin.ext ?_
  match a with
  | ⟨0, _⟩ =>
    show gather_S30522x128_S128x512x1_S128x512x128_2_0_n_n_0_2_1128.start (ix3 b s e) idx 0 + gather_S30522x128_S128x512x1_S128x512x128_2_0_n_n_0_2_1128.batchCoord (ix3 b s e) 0 + gather_S30522x128_S128x512x1_S128x512x128_2_0_n_n_0_2_1128.offCoord (ix3 b s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S30522x128_S128x512x1_S128x512x128_2_0_n_n_0_2_1128.startIndexMap from List.mem_singleton.mpr rfl)]
    have hsi : gather_S30522x128_S128x512x1_S128x512x128_2_0_n_n_0_2_1128.siIdx (ix3 b s e) ⟨List.idxOf (0 : Fin 2) gather_S30522x128_S128x512x1_S128x512x128_2_0_n_n_0_2_1128.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S30522x128_S128x512x1_S128x512x128_2_0_n_n_0_2_1128.start (ix3 b s e) idx 1 + gather_S30522x128_S128x512x1_S128x512x128_2_0_n_n_0_2_1128.batchCoord (ix3 b s e) 1 + gather_S30522x128_S128x512x1_S128x512x128_2_0_n_n_0_2_1128.offCoord (ix3 b s e) 1 = e.val
    rw [GatherDims.batchCoord_eq_zero _ _ _ List.not_mem_nil]
    unfold GatherDims.start
    rw [dif_neg (show (1 : Fin 2) ∉ gather_S30522x128_S128x512x1_S128x512x128_2_0_n_n_0_2_1128.startIndexMap from fun h => absurd (List.mem_singleton.mp h) (by decide))]
    unfold GatherDims.offCoord
    rw [dif_pos (show (1 : Fin 2) ∈ gather_S30522x128_S128x512x1_S128x512x128_2_0_n_n_0_2_1128.sKept from (GatherDims.mem_sKept _ _).mpr
      ⟨fun h => absurd (List.mem_singleton.mp h) (by decide), List.not_mem_nil⟩)]
    simp only [Nat.zero_add]
    rfl

/-- The row gather of the position table at `(s, e)`: the table at the start index `idx[s, 0]`, read signed and
    clamped into `[0, 518]`, column `e`. -/
theorem gatherP_apply {α : Type} (x : S519x128.Idx → α) (idx : IVec S512x1 32) (s : Fin 512) (e : Fin 128) :
    Host.gather gather_S519x128_S512x1_S512x128_1_0_n_n_0_1_1128 x idx (ix2 s e)
      = x (ix2 (⟨min (idx (ix2 s (0 : Fin 1))).toInt.toNat (519 - 1), by omega⟩ : Fin 519) e) := by
  unfold Host.gather
  congr 1
  funext a
  refine Fin.ext ?_
  match a with
  | ⟨0, _⟩ =>
    show gather_S519x128_S512x1_S512x128_1_0_n_n_0_1_1128.start (ix2 s e) idx 0 + gather_S519x128_S512x1_S512x128_1_0_n_n_0_1_1128.batchCoord (ix2 s e) 0 + gather_S519x128_S512x1_S512x128_1_0_n_n_0_1_1128.offCoord (ix2 s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S519x128_S512x1_S512x128_1_0_n_n_0_1_1128.startIndexMap from List.mem_singleton.mpr rfl)]
    have hsi : gather_S519x128_S512x1_S512x128_1_0_n_n_0_1_1128.siIdx (ix2 s e) ⟨List.idxOf (0 : Fin 2) gather_S519x128_S512x1_S512x128_1_0_n_n_0_1_1128.startIndexMap,
        List.idxOf_lt_length_iff.2 (List.mem_singleton.mpr rfl)⟩ = ix2 s (0 : Fin 1) := by
      funext c; refine Fin.ext ?_
      match c with
      | ⟨0, _⟩ => rfl
      | ⟨1, _⟩ => rfl
    rw [hsi]
    rfl
  | ⟨1, _⟩ =>
    show gather_S519x128_S512x1_S512x128_1_0_n_n_0_1_1128.start (ix2 s e) idx 1 + gather_S519x128_S512x1_S512x128_1_0_n_n_0_1_1128.batchCoord (ix2 s e) 1 + gather_S519x128_S512x1_S512x128_1_0_n_n_0_1_1128.offCoord (ix2 s e) 1 = e.val
    rw [GatherDims.batchCoord_eq_zero _ _ _ List.not_mem_nil]
    unfold GatherDims.start
    rw [dif_neg (show (1 : Fin 2) ∉ gather_S519x128_S512x1_S512x128_1_0_n_n_0_1_1128.startIndexMap from fun h => absurd (List.mem_singleton.mp h) (by decide))]
    unfold GatherDims.offCoord
    rw [dif_pos (show (1 : Fin 2) ∈ gather_S519x128_S512x1_S512x128_1_0_n_n_0_1_1128.sKept from (GatherDims.mem_sKept _ _).mpr
      ⟨fun h => absurd (List.mem_singleton.mp h) (by decide), List.not_mem_nil⟩)]
    simp only [Nat.zero_add]
    rfl

/-! ## Integer operations at an index (definitional) -/

theorem cmpi_apply {s : Shape} {w : Nat} (p : CmpIPredicate) (x y : IVec s w) (i : s.Idx) :
    cmpi p x y i = IntOp.cmpi p (x i) (y i) := rfl
theorem andi_apply {s : Shape} {w : Nat} (x y : IVec s w) (i : s.Idx) : andi x y i = IntOp.andi (x i) (y i) := rfl

/-! ## The gathered word rows -/

section WordRows
variable (a0 : IVec S128x512 32) (hr : ∀ i, (a0 i).toNat < 30522)
include hr

/-- With the word in range the wrap is the identity. -/
theorem wrapW_apply (i : S128x512.Idx) : wrapW a0 i = a0 i := by
  unfold wrapW
  rw [select_apply, cmpi_apply, broadcastInDim_scalar_apply]
  rw [show IntOp.cmpi .slt (a0 i) (constantI S_ 32 0#32 ix0) = 0#1 from slt_zero_of_lt (hr i) (by norm_num), select_zero]

/-- The start index of `(b, s)` is the word itself. -/
theorem idxW_apply (b : Fin 128) (s : Fin 512) (u : Fin 1) : idxW a0 (ix3 b s u) = a0 (ix2 b s) := by
  unfold idxW
  rw [broadcastInDim_apply _ _ _ (ix3 b s u) (ix2 b s) (fun a => match a with | ⟨0, _⟩ => rfl | ⟨1, _⟩ => rfl)]
  exact wrapW_apply a0 hr _

/-- The in-range mask is all ones. -/
theorem okW_apply (i : S128x512.Idx) : okW a0 i = 1#1 := by
  unfold okW
  refine reduce_andi_one _ _ _ _ (fun j3 => ?_) rfl i
  obtain ⟨b, s, u, rfl⟩ : ∃ (b : Fin 128) (s : Fin 512) (u : Fin 1), j3 = ix3 b s u := ⟨j3 0, j3 1, j3 2, eq_ix3 j3⟩
  rw [andi_apply, cmpi_apply, cmpi_apply, idxW_apply a0 hr]
  exact IntOp.andi_eq_one.2 ⟨sge_zero_of_lt (hr _) (by norm_num), sle_of_lt (hr _) (by norm_num) _ rfl⟩

/-- The gathered word row of `(b, s)` is the table row the word names. -/
theorem rowsW_apply (a1 : FVec Ideal S30522x128 .f32) (b : Fin 128) (s : Fin 512) (e : Fin 128) :
    rowsW a0 a1 (ix3 b s e) = a1 (ix2 (Cert.Spec.rowOf (a0 (ix2 b s))) e) := by
  unfold rowsW
  rw [select_apply, broadcastInDim_apply _ _ _ (ix3 b s e) (ix2 b s) (fun a => match a with | ⟨0, _⟩ => rfl | ⟨1, _⟩ => rfl),
    okW_apply a0 hr, select_one, gatherW_apply]
  refine congrArg (fun r : Fin 30522 => a1 (ix2 r e)) (Fin.ext ?_)
  show min (idxW a0 (ix3 b s (0 : Fin 1))).toInt.toNat (30522 - 1) = (Cert.Spec.rowOf (a0 (ix2 b s))).val
  rw [idxW_apply a0 hr]
  exact (clamp_of_lt (hr _) (by norm_num)).trans (Cert.Spec.rowOf_val_of_lt (hr _)).symm

end WordRows

/-! ## The gathered position rows -/

/-- The position counter at `s` is the word of `s`, below 512. -/
theorem pos_toNat (s : Fin 512) : (pos (ix1 s)).toNat = s.val := by
  show (BitVec.ofNat 32 s.val).toNat = s.val
  rw [BitVec.toNat_ofNat]
  exact Nat.mod_eq_of_lt (by omega)

theorem pos_lt (i : S512.Idx) : (pos i).toNat < 519 := by
  obtain ⟨s, rfl⟩ : ∃ s : Fin 512, i = ix1 s := ⟨i 0, eq_ix1 i⟩
  rw [pos_toNat]; omega

/-- The positions are in range: the wrap is the identity. -/
theorem wrapP_apply (i : S512.Idx) : wrapP i = pos i := by
  unfold wrapP
  rw [select_apply, cmpi_apply, broadcastInDim_scalar_apply]
  rw [show IntOp.cmpi .slt (pos i) (constantI S_ 32 0#32 ix0) = 0#1 from slt_zero_of_lt (pos_lt i) (by norm_num), select_zero]

/-- The start index of position `s` is the counter at `s`. -/
theorem idxP_apply (s : Fin 512) (u : Fin 1) : idxP (ix2 s u) = pos (ix1 s) := by
  unfold idxP
  rw [broadcastInDim_apply _ _ _ (ix2 s u) (ix1 s) (fun a => match a with | ⟨0, _⟩ => rfl)]
  exact wrapP_apply _

/-- The in-range mask of the positions is all ones. -/
theorem okP_apply (i : S512.Idx) : okP i = 1#1 := by
  unfold okP
  refine reduce_andi_one _ _ _ _ (fun j2 => ?_) rfl i
  obtain ⟨s, u, rfl⟩ : ∃ (s : Fin 512) (u : Fin 1), j2 = ix2 s u := ⟨j2 0, j2 1, eq_ix2 j2⟩
  rw [andi_apply, cmpi_apply, cmpi_apply, idxP_apply]
  exact IntOp.andi_eq_one.2 ⟨sge_zero_of_lt (pos_lt _) (by norm_num), sle_of_lt (pos_lt _) (by norm_num) _ rfl⟩

/-- The gathered position row of `s` is the position table's row `s`. -/
theorem rowsP_apply (a2 : FVec Ideal S519x128 .f32) (s : Fin 512) (e : Fin 128) :
    rowsP a2 (ix2 s e) = a2 (ix2 (⟨s.val, by omega⟩ : Fin 519) e) := by
  unfold rowsP
  rw [select_apply, broadcastInDim_apply _ _ _ (ix2 s e) (ix1 s) (fun a => match a with | ⟨0, _⟩ => rfl),
    okP_apply, select_one, gatherP_apply]
  refine congrArg (fun r : Fin 519 => a2 (ix2 r e)) (Fin.ext ?_)
  show min (idxP (ix2 s (0 : Fin 1))).toInt.toNat (519 - 1) = s.val
  rw [idxP_apply]
  exact (clamp_of_lt (pos_lt _) (by norm_num)).trans (pos_toNat s)

/-! ## The embedded token, the projection, the two averages -/

/-- The embedded token at `(b, s, e)`: the word's table row plus the position's row. -/
theorem xAll_apply (a0 : IVec S128x512 32) (hr : ∀ i, (a0 i).toNat < 30522) (a1 : FVec Ideal S30522x128 .f32)
    (a2 : FVec Ideal S519x128 .f32) (b : Fin 128) (s : Fin 512) (e : Fin 128) :
    xAll a0 a1 a2 (ix3 b s e) = Cert.Spec.x a0 a1 a2 b s e := by
  unfold xAll
  rw [addf_apply, rowsW_apply a0 hr,
    broadcastInDim_apply _ _ _ (ix3 b s e) (ix3 (0 : Fin 1) s e) (fun a => match a with | ⟨0, _⟩ => rfl | ⟨1, _⟩ => rfl | ⟨2, _⟩ => rfl),
    broadcastInDim_apply _ _ _ (ix3 (0 : Fin 1) s e) (ix2 s e) (fun a => match a with | ⟨0, _⟩ => rfl | ⟨1, _⟩ => rfl),
    rowsP_apply]
  rfl

/-- The projection at `(b, s, k)`: the sum over the 128 embedding coordinates, plus the bias. -/
theorem hAll_apply (x : FVec Ideal S128x512x128 .f32) (a3 : FVec Ideal S128x480 .f32) (a4 : FVec Ideal S480 .f32)
    (b : Fin 128) (s : Fin 512) (k : Fin 480) :
    hAll x a3 a4 (ix3 b s k) = (∑ e : Fin 128, x (ix3 b s e) * a3 (ix2 e k)) + a4 (ix1 k) := by
  unfold hAll
  rw [addf_apply,
    broadcastInDim_apply _ _ _ (ix3 b s k) (ix3 (0 : Fin 1) (0 : Fin 1) k) (fun a => match a with | ⟨0, _⟩ => rfl | ⟨1, _⟩ => rfl | ⟨2, _⟩ => rfl),
    broadcastInDim_apply _ _ _ (ix3 (0 : Fin 1) (0 : Fin 1) k) (ix1 k) (fun a => match a with | ⟨0, _⟩ => rfl)]
  refine congrArg (· + a4 (ix1 k)) ?_
  show FloatOps.dotGeneral dot_S128x512x128_S128x480_S128x512x480_2_0_01_1_n_n none .single x a3 (ix3 b s k) = _
  rw [Ideal.dotGeneral_apply]
  refine Fintype.sum_equiv (contrEquiv1 dot_S128x512x128_S128x480_S128x512x480_2_0_01_1_n_n 128 rfl rfl) _ _ (fun q => ?_)
  have hl : dot_S128x512x128_S128x480_S128x512x480_2_0_01_1_n_n.lhsIdx (ix3 b s k) q = ix3 b s (contrEquiv1 dot_S128x512x128_S128x480_S128x512x480_2_0_01_1_n_n 128 rfl rfl q) := by
    funext a; refine Fin.ext ?_
    match a with
    | ⟨0, _⟩ => rfl
    | ⟨1, _⟩ => rfl
    | ⟨2, _⟩ => exact dot_S128x512x128_S128x480_S128x512x480_2_0_01_1_n_n.lhsIdx_val_of_single rfl _ q
  have hr' : dot_S128x512x128_S128x480_S128x512x480_2_0_01_1_n_n.rhsIdx (ix3 b s k) q = ix2 (contrEquiv1 dot_S128x512x128_S128x480_S128x512x480_2_0_01_1_n_n 128 rfl rfl q) k := by
    funext a; refine Fin.ext ?_
    match a with
    | ⟨0, _⟩ => exact dot_S128x512x128_S128x480_S128x512x480_2_0_01_1_n_n.rhsIdx_val_of_single rfl _ q
    | ⟨1, _⟩ => rfl
  rw [hl, hr']

/-- The channel average at `(b, s)`: the sum over the 480 channels (from a zero initial value) divided by 480. -/
theorem avgAll_apply (h : FVec Ideal S128x512x480 .f32) (b : Fin 128) (s : Fin 512) (u : Fin 1) :
    avgAll h (ix3 b s u) = Ideal.div (∑ k : Fin 480, h (ix3 b s k)) Cert.Spec.c480 := by
  unfold avgAll
  rw [hostDivf_apply, broadcastInDim_scalar_apply, constant_apply,
    broadcastInDim_apply _ _ _ (ix3 b s u) (ix2 b s) (fun a => match a with | ⟨0, _⟩ => rfl | ⟨1, _⟩ => rfl),
    hostReduceAdd_apply, Ideal.hostReduceAdd_single _ (by decide : S128x512x480.Reduces [2] S128x512),
    constant_apply, Ideal.ofBits_zero_f32, zero_add]
  refine congrArg (fun t => Ideal.div t Cert.Spec.c480) ?_
  refine Finset.sum_congr rfl (fun k _ => congrArg h ?_)
  funext a; refine Fin.ext ?_
  match a with
  | ⟨0, _⟩ => rfl
  | ⟨1, _⟩ => rfl
  | ⟨2, _⟩ => rfl

/-- The deviation at `(b, s, k)`. -/
theorem devAll_apply (h : FVec Ideal S128x512x480 .f32) (b : Fin 128) (s : Fin 512) (k : Fin 480) :
    devAll h (ix3 b s k) = h (ix3 b s k) - Ideal.div (∑ k' : Fin 480, h (ix3 b s k')) Cert.Spec.c480 := by
  unfold devAll
  rw [subf_apply, broadcastInDim_apply _ _ _ (ix3 b s k) (ix3 b s (0 : Fin 1))
    (fun a => match a with | ⟨0, _⟩ => rfl | ⟨1, _⟩ => rfl | ⟨2, _⟩ => rfl), avgAll_apply]

/-- The variance at `(b, s)`. -/
theorem varAll_apply (h : FVec Ideal S128x512x480 .f32) (b : Fin 128) (s : Fin 512) (u : Fin 1) :
    varAll h (ix3 b s u)
      = Ideal.div (∑ k : Fin 480, devAll h (ix3 b s k) * devAll h (ix3 b s k)) Cert.Spec.c480 := by
  unfold varAll
  rw [avgAll_apply]
  rfl

/-- The result at `(b, s, k)`: the deviation over the square root of variance plus the guard, scaled and shifted. -/
theorem outAll_apply (h : FVec Ideal S128x512x480 .f32) (a5 a6 : FVec Ideal S480 .f32) (b : Fin 128) (s : Fin 512) (k : Fin 480) :
    outAll h a5 a6 (ix3 b s k)
      = Ideal.div (devAll h (ix3 b s k)) (Ideal.sqrt (varAll h (ix3 b s (0 : Fin 1)) + Cert.Spec.ceps)) * a5 (ix1 k)
        + a6 (ix1 k) := by
  unfold outAll
  rw [addf_apply, mulf_apply, hostDivf_apply,
    broadcastInDim_apply _ _ _ (ix3 b s k) (ix3 b s (0 : Fin 1))
      (fun a => match a with | ⟨0, _⟩ => rfl | ⟨1, _⟩ => rfl | ⟨2, _⟩ => rfl),
    broadcastInDim_apply _ _ _ (ix3 b s k) (ix3 (0 : Fin 1) (0 : Fin 1) k) (fun a => match a with | ⟨0, _⟩ => rfl | ⟨1, _⟩ => rfl | ⟨2, _⟩ => rfl),
    broadcastInDim_apply _ _ _ (ix3 (0 : Fin 1) (0 : Fin 1) k) (ix1 k) (fun a => match a with | ⟨0, _⟩ => rfl),
    broadcastInDim_apply _ _ _ (ix3 b s k) (ix3 (0 : Fin 1) (0 : Fin 1) k) (fun a => match a with | ⟨0, _⟩ => rfl | ⟨1, _⟩ => rfl | ⟨2, _⟩ => rfl),
    broadcastInDim_apply _ _ _ (ix3 (0 : Fin 1) (0 : Fin 1) k) (ix1 k) (fun a => match a with | ⟨0, _⟩ => rfl)]
  rfl

/-! ## The whole term -/

/-- With every index word in range the reference's term is the specification's quotient form. -/
theorem refOut_eq_GR (a0 : IVec S128x512 32) (a1 : FVec Ideal S30522x128 .f32) (a2 : FVec Ideal S519x128 .f32)
    (a3 : FVec Ideal S128x480 .f32) (a4 a5 a6 : FVec Ideal S480 .f32) (hr : ∀ i, (a0 i).toNat < 30522) :
    Cert.ReferenceIdeal.RefRun.refOut a0 a1 a2 a3 a4 a5 a6 = Cert.Spec.GR a0 a1 a2 a3 a4 a5 a6 := by
  funext j
  obtain ⟨b, s, k, rfl⟩ : ∃ (b : Fin 128) (s : Fin 512) (k : Fin 480), j = ix3 b s k := ⟨j 0, j 1, j 2, eq_ix3 j⟩
  have hh : ∀ k' : Fin 480, hAll (xAll a0 a1 a2) a3 a4 (ix3 b s k')
      = Cert.Spec.hRow (Cert.Spec.x a0 a1 a2 b s) (fun e k => a3 (ix2 e k)) (fun k => a4 (ix1 k)) k' := by
    intro k'
    rw [hAll_apply]
    unfold Cert.Spec.hRow
    refine congrArg (· + a4 (ix1 k')) ?_
    exact Finset.sum_congr rfl (fun e _ => by rw [xAll_apply a0 hr])
  unfold refOut
  rw [outAll_apply, varAll_apply]
  simp only [devAll_apply, hh]
  rfl

end Cert.ReferenceIdeal.RefValue

end
-- ==== Proof.PreFacts.lean ====
/-
  What the precondition says of the inputs.

  The precondition is a conjunction of seven conditions, each "every element of an array satisfies a test", joined
  by "and" on one-bit words. That the whole is 1 gives each condition, and each condition gives its test at every
  index. The six tests on the float inputs are |a| < +infinity; over the extended reals |a| is max a (-a) and
  the word of +infinity denotes the top element, so the test says a is neither infinity. The test on the index
  words is 0 <= a and a <= 30521 as signed numbers: a word whose signed value is not negative has that value as
  its unsigned value, so the word is below 30522.
-/
import proofs.«207697_g22892175687689_cont_8to1_1704_9_alg».proof.Pre_input_domain
import Idealize.ShloMosaic.Lib.ReduceAll
import Idealize.ShloMosaic.PureOps.Ideal

noncomputable section

namespace Cert.PreFacts

open Idealize.ShloMosaic Cert.Pre_input_domain

variable [Cert.Pre_input_domain.Facts]

/-- The shape with no axes has one index. -/
instance : Subsingleton S_.Idx := ⟨fun a b => funext fun d => d.elim0⟩

/-- A 32-bit word whose signed value lies in [0, 30521] is, as an unsigned number, below 30522. -/
theorem toNat_lt_of_signed_range (b : BitVec 32) (h0 : (0 : Int) ≤ b.toInt) (h1 : b.toInt ≤ 30521) : b.toNat < 30522 := by
  have hlt := b.isLt
  rw [BitVec.toInt_eq_toNat_cond] at h0 h1
  split_ifs at h0 h1 <;> omega

/-- Every index word is a table row: generic in the float instance (the integer conjunct does not depend on it). -/
theorem ids_lt {F : FTy → Type} [FloatOps F] (a0 : IVec S128x512 32) (a1 : FVec F S30522x128 .f32) (a2 : FVec F S519x128 .f32) (a3 : FVec F S128x480 .f32) (a4 a5 a6 : FVec F S480 .f32)
    (h : Cert.Pre_input_domain.fn (F := F) a0 a1 a2 a3 a4 a5 a6 = fun _ => 1#1) : ∀ i, (a0 i).toNat < 30522 := by
  intro i
  have h0 := congrFun h (fun a => a.elim0)
  dsimp only [fn, fn_part1, fn_part2] at h0
  simp only [andi, IntOp.andi_eq_one] at h0
  obtain ⟨_, hI⟩ := h0
  have hi := Host.reduce_andi_all _ _ _ _ _ hI i
  simp only [andi, cmpi, broadcastInDim, constantI, IntOp.andi_eq_one, IntOp.cmpi_sge, IntOp.cmpi_sle] at hi
  have e0 : (0#32 : BitVec 32).toInt = 0 := by decide
  have e1 : (30521#32 : BitVec 32).toInt = 30521 := by decide
  rw [e0, e1] at hi
  exact toNat_lt_of_signed_range _ hi.1 hi.2

/-- The word of +infinity denotes the top element. -/
theorem ofBits_inf : Ideal.ofBits .f32 0x7F800000#32 = ⊤ := by
  simp [Ideal.ofBits, Ideal.ieee]

/-- Over the extended reals, |x| < +infinity says x is a real number. -/
theorem real_of_abs_lt (x : EReal)
    (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | coe r => exact ⟨EReal.coe_ne_top _, EReal.coe_ne_bot _⟩
  | top => simp [Ideal.cmp] at h

/-- At the ideal instance the four float inputs the law needs hold real numbers. -/
theorem finite (a0 : IVec S128x512 32) (a1 : FVec Ideal S30522x128 .f32) (a2 : FVec Ideal S519x128 .f32) (a3 : FVec Ideal S128x480 .f32) (a4 a5 a6 : FVec Ideal S480 .f32)
    (h : Cert.Pre_input_domain.fn (F := Ideal) a0 a1 a2 a3 a4 a5 a6 = fun _ => 1#1) :
    (∀ i, a1 i ≠ ⊤ ∧ a1 i ≠ ⊥) ∧ (∀ i, a2 i ≠ ⊤ ∧ a2 i ≠ ⊥) ∧ (∀ i, a3 i ≠ ⊤ ∧ a3 i ≠ ⊥) ∧ (∀ i, a4 i ≠ ⊤ ∧ a4 i ≠ ⊥) := by
  have h0 := congrFun h (fun a => a.elim0)
  dsimp only [fn, fn_part1, fn_part2] at h0
  simp only [andi, IntOp.andi_eq_one] at h0
  obtain ⟨⟨⟨⟨⟨⟨h1, h2⟩, h3⟩, h4⟩, _⟩, _⟩, _⟩ := h0
  refine ⟨fun i => ?_, fun i => ?_, fun i => ?_, fun i => ?_⟩
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)
  · exact real_of_abs_lt _ (Host.reduce_andi_all _ _ _ _ _ h4 i)

end Cert.PreFacts

end
-- ==== Proof.LnLaw.lean ====
/-
  The one algebraic law of the certificate: the two ways of writing the layer normalisation agree.

  For a row of real numbers, a real matrix and a real bias, every channel h(k) is a finite sum of products of
  reals plus a real, so it is real. The divisor 480 is a nonzero real, so the mean mu is real, each deviation
  d(k) = h(k) - mu is real, and the variance (sum of d(k)^2) / 480 is a real that is at least 0. The guard eps is
  a positive real, so v = var + eps is a positive real r. At a positive real r the reciprocal square root is the
  real (sqrt r)^-1, the square root is the real sqrt r, which is not 0, and a quotient by a nonzero real y is
  the product with the real 1 / y. So  d * rsqrt v = d * (sqrt r)^-1 = d / sqrt v,  for every extended real d.
-/
import proofs.«207697_g22892175687689_cont_8to1_1704_9_alg».proof.Proof.Spec

noncomputable section

namespace Cert.Spec

open Idealize.ShloMosaic Idealize.ShloMosaic.ValueIdx
open scoped BigOperators

/-! ## The two literal words as reals -/

/-- The divisor's word denotes the real 480. -/
theorem c480_eq : c480 = ((480 : ℝ) : EReal) := by
  unfold c480
  simp [Ideal.ofBits, Ideal.ieee, -EReal.coe_mul]; norm_num

/-- The guard's word denotes a positive real (9007199 * 2^-53, about 1e-9). -/
theorem ceps_pos : ∃ p : ℝ, 0 < p ∧ ceps = (p : EReal) := by
  unfold ceps
  simp [Ideal.ofBits, Ideal.ieee, -EReal.coe_mul]

/-! ## Sums and sums of two reals stay real -/

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- A function all of whose values are real is the coercion of a real function. -/
theorem exists_real_fun {ι : Type} (f : ι → EReal) (hf : ∀ i, f i ≠ ⊤ ∧ f i ≠ ⊥) :
    ∃ g : ι → ℝ, f = fun i => ((g i : ℝ) : EReal) :=
  ⟨fun i => (f i).toReal, funext fun i => (EReal.coe_toReal (hf i).1 (hf i).2).symm⟩

/-- The sum of two reals is neither infinity. -/
theorem add_real {a b : EReal} (ha : a ≠ ⊤ ∧ a ≠ ⊥) (hb : b ≠ ⊤ ∧ b ≠ ⊥) : a + b ≠ ⊤ ∧ a + b ≠ ⊥ := by
  rw [← EReal.coe_toReal ha.1 ha.2, ← EReal.coe_toReal hb.1 hb.2, ← EReal.coe_add]
  exact ⟨EReal.coe_ne_top _, EReal.coe_ne_bot _⟩

/-! ## The row's quantities over the reals -/

section RealRow
variable (xr : Fin 128 → ℝ) (w : Fin 128 → Fin 480 → ℝ) (bias : Fin 480 → ℝ)

/-- The projection of a real row is real. -/
theorem hRow_coe (k : Fin 480) :
    hRow (fun e => ((xr e : ℝ) : EReal)) (fun e k => ((w e k : ℝ) : EReal)) (fun k => ((bias k : ℝ) : EReal)) k
      = (((∑ e : Fin 128, xr e * w e k) + bias k : ℝ) : EReal) := by
  unfold hRow
  simp only [← EReal.coe_mul]
  rw [coe_sum, ← EReal.coe_add]

/-- The variance plus the guard is a positive real. -/
theorem var_add_eps_pos :
    ∃ r : ℝ, 0 < r ∧
      varRow (fun e => ((xr e : ℝ) : EReal)) (fun e k => ((w e k : ℝ) : EReal)) (fun k => ((bias k : ℝ) : EReal)) + ceps
        = (r : EReal) := by
  obtain ⟨p, hp, hpe⟩ := ceps_pos
  have h480 : (480 : ℝ) ≠ 0 := by norm_num
  -- the mean is real
  have hmu : muRow (fun e => ((xr e : ℝ) : EReal)) (fun e k => ((w e k : ℝ) : EReal)) (fun k => ((bias k : ℝ) : EReal))
      = (((∑ k : Fin 480, ((∑ e : Fin 128, xr e * w e k) + bias k)) * (1 / 480) : ℝ) : EReal) := by
    unfold muRow
    simp only [hRow_coe]
    rw [coe_sum, c480_eq, Ideal.div_coe h480, ← EReal.coe_mul]
  -- each deviation is real
  have hd : ∀ k : Fin 480,
      dRow (fun e => ((xr e : ℝ) : EReal)) (fun e k => ((w e k : ℝ) : EReal)) (fun k => ((bias k : ℝ) : EReal)) k
        = ((((∑ e : Fin 128, xr e * w e k) + bias k)
            - (∑ k : Fin 480, ((∑ e : Fin 128, xr e * w e k) + bias k)) * (1 / 480) : ℝ) : EReal) := by
    intro k
    unfold dRow
    rw [hRow_coe, hmu, ← EReal.coe_sub]
  -- the variance is a real, a sum of squares over 480
  have hvar : varRow (fun e => ((xr e : ℝ) : EReal)) (fun e k => ((w e k : ℝ) : EReal)) (fun k => ((bias k : ℝ) : EReal))
      = (((∑ k : Fin 480,
            (((∑ e : Fin 128, xr e * w e k) + bias k)
              - (∑ k : Fin 480, ((∑ e : Fin 128, xr e * w e k) + bias k)) * (1 / 480))
            * (((∑ e : Fin 128, xr e * w e k) + bias k)
              - (∑ k : Fin 480, ((∑ e : Fin 128, xr e * w e k) + bias k)) * (1 / 480))) * (1 / 480) : ℝ) : EReal) := by
    unfold varRow
    simp only [hd, ← EReal.coe_mul]
    rw [coe_sum, c480_eq, Ideal.div_coe h480, ← EReal.coe_mul]
  refine ⟨_ + p, ?_, by rw [hvar, hpe, ← EReal.coe_add]⟩
  have hsq : 0 ≤ ∑ k : Fin 480,
            (((∑ e : Fin 128, xr e * w e k) + bias k)
              - (∑ k : Fin 480, ((∑ e : Fin 128, xr e * w e k) + bias k)) * (1 / 480))
            * (((∑ e : Fin 128, xr e * w e k) + bias k)
              - (∑ k : Fin 480, ((∑ e : Fin 128, xr e * w e k) + bias k)) * (1 / 480)) :=
    Finset.sum_nonneg (fun k _ => mul_self_nonneg _)
  have h1 : (0 : ℝ) ≤ 1 / 480 := by norm_num
  have := mul_nonneg hsq h1
  linarith

end RealRow

/-! ## The law -/

/-- At a positive real the product with the reciprocal square root is the quotient by the square root. -/
theorem mul_rsqrt_eq_div_sqrt {r : ℝ} (hr : 0 < r) (d : EReal) :
    d * Ideal.rsqrt (r : EReal) = Ideal.div d (Ideal.sqrt (r : EReal)) := by
  have hs : Real.sqrt r ≠ 0 := (Real.sqrt_pos.mpr hr).ne'
  rw [Ideal.rsqrt_coe, Ideal.sqrt_coe, if_neg (not_lt.mpr hr.le), if_neg hr.ne', if_neg (not_lt.mpr hr.le),
    Ideal.div_coe hs, one_div]

/-- One row: the two forms of the layer normalisation agree when the row, the matrix and the bias are real. -/
theorem lnK_eq_lnR (xr : Fin 128 → EReal) (w : Fin 128 → Fin 480 → EReal) (bias gam bet : Fin 480 → EReal)
    (hx : ∀ e, xr e ≠ ⊤ ∧ xr e ≠ ⊥) (hw : ∀ e k, w e k ≠ ⊤ ∧ w e k ≠ ⊥) (hb : ∀ k, bias k ≠ ⊤ ∧ bias k ≠ ⊥) (k : Fin 480) :
    lnK xr w bias gam bet k = lnR xr w bias gam bet k := by
  obtain ⟨xr', rfl⟩ := exists_real_fun xr hx
  obtain ⟨w', hw'⟩ : ∃ g : Fin 128 → Fin 480 → ℝ, w = fun e k => ((g e k : ℝ) : EReal) :=
    ⟨fun e k => (w e k).toReal, funext fun e => funext fun k => (EReal.coe_toReal (hw e k).1 (hw e k).2).symm⟩
  subst hw'
  obtain ⟨bias', rfl⟩ := exists_real_fun bias hb
  obtain ⟨r, hr, hv⟩ := var_add_eps_pos xr' w' bias'
  unfold lnK lnR
  rw [hv, mul_rsqrt_eq_div_sqrt hr]

/-- The whole arrays: the two forms agree when the two tables, the matrix and the bias are real. -/
theorem GK_eq_GR (ids : (⟨2, ![128, 512]⟩ : Shape).Idx → BitVec 32)
    (we : (⟨2, ![30522, 128]⟩ : Shape).Idx → EReal) (pe : (⟨2, ![519, 128]⟩ : Shape).Idx → EReal)
    (w : (⟨2, ![128, 480]⟩ : Shape).Idx → EReal) (bias gam bet : (⟨1, ![480]⟩ : Shape).Idx → EReal)
    (hwe : ∀ i, we i ≠ ⊤ ∧ we i ≠ ⊥) (hpe : ∀ i, pe i ≠ ⊤ ∧ pe i ≠ ⊥) (hw : ∀ i, w i ≠ ⊤ ∧ w i ≠ ⊥)
    (hb : ∀ i, bias i ≠ ⊤ ∧ bias i ≠ ⊥) :
    GK ids we pe w bias gam bet = GR ids we pe w bias gam bet := by
  funext j
  unfold GK GR
  exact lnK_eq_lnR _ _ _ _ _ (fun e => add_real (hwe _) (hpe _)) (fun e k => hw _) (fun k => hb _) _

end Cert.Spec

end
-- ==== Proof.Claims.lean ====
/-
  The certificate's five claims, from the pieces.

  Both programs (the word-level one and its reading over the extended reals) run from any memory whose index words
  name table rows, and leave the arguments as they were: the precondition gives that range of the index words, and a
  reshape reads the argument at some index, so the reshaped words are in range too. The reference runs from any
  memory. No operation was rewritten by the ideal pass, so there is nothing to preserve.

  For the algebraic claim both results are stated as the specification's product form GK of the kernel's arguments.
  The kernel's result is its pure term, which is GK. The reference's result is its own term, which is the quotient
  form GR of its arguments when the index words are in range; its arguments are the kernel's; and GK = GR when the
  two tables, the matrix and the bias hold real numbers, which the precondition says.
-/
import proofs.«207697_g22892175687689_cont_8to1_1704_9_alg».proof.Defs
import proofs.«207697_g22892175687689_cont_8to1_1704_9_alg».proof.Proof.ScMain
import proofs.«207697_g22892175687689_cont_8to1_1704_9_alg».proof.Proof.KScMain
import proofs.«207697_g22892175687689_cont_8to1_1704_9_alg».proof.Proof.ScValsIdeal
import proofs.«207697_g22892175687689_cont_8to1_1704_9_alg».proof.Proof.KernelValue
import proofs.«207697_g22892175687689_cont_8to1_1704_9_alg».proof.Proof.RefRun
import proofs.«207697_g22892175687689_cont_8to1_1704_9_alg».proof.Proof.RefValue
import proofs.«207697_g22892175687689_cont_8to1_1704_9_alg».proof.Proof.PreFacts
import proofs.«207697_g22892175687689_cont_8to1_1704_9_alg».proof.Proof.LnLaw

noncomputable section

namespace Cert.Proof.Claims

open Idealize.ShloMosaic Idealize.SL.Sem

/-- Under the precondition the reshaped index words name table rows: at the extended reals … -/
theorem preOK_ideal [Cert.Pre_input_domain.Facts]
    (m : (ℓ : Loc Cert.KernelIdeal.nD Cert.KernelIdeal.τ Cert.KernelIdeal.sig) → Buf (Elt Ideal) ℓ)
    (h : Cert.Pre_KernelIdeal m) : Cert.KernelIdeal.Sc.PreOK (F := Ideal) m :=
  fun d y => Cert.PreFacts.ids_lt (F := Ideal) _ _ _ _ _ _ _ (h d) (Shape.reshapeEquiv _ y)

/-- … and at the words. -/
theorem preOK_bits [Cert.Pre_input_domain.Facts]
    (m : (ℓ : Loc Cert.Kernel.nD Cert.Kernel.τ Cert.Kernel.sig) → Buf (Elt Bits) ℓ)
    (h : Cert.Pre_Kernel m) : Cert.Kernel.Sc.PreOK (F := Bits) m :=
  fun d y => Cert.PreFacts.ids_lt (F := Bits) _ _ _ _ _ _ _ (h d) (Shape.reshapeEquiv _ y)

theorem frame_Kernel [hKernel : Cert.Kernel.Facts] [hPre_input_domain : Cert.Pre_input_domain.Facts] : Cert.frame_Kernel :=
  fun m ρ hpre => (θ_run _ _ _).mono (fun _ h c => (h c).2) (Cert.Kernel.Sc.run_main (F := Bits) m ρ (preOK_bits m hpre))

theorem frame_KernelIdeal [hKernelIdeal : Cert.KernelIdeal.Facts] [hPre_input_domain : Cert.Pre_input_domain.Facts] :
    Cert.frame_KernelIdeal :=
  fun m ρ hpre => (θ_run _ _ _).mono (fun _ h c => (h c).2) (Cert.KernelIdeal.Sc.run_main (F := Ideal) m ρ (preOK_ideal m hpre))

theorem frame_ReferenceIdeal [hReferenceIdeal : Cert.ReferenceIdeal.Facts] [hPre_input_domain : Cert.Pre_input_domain.Facts] :
    Cert.frame_ReferenceIdeal :=
  fun m ρ _ => (θ_run _ _ _).mono (fun _ h c => (h c).2) (Cert.ReferenceIdeal.RefRun.run m ρ)

theorem preserves : Cert.preserves_Kernel_KernelIdeal := trivial

theorem algebraic [hKernelIdeal : Cert.KernelIdeal.Facts] [hReferenceIdeal : Cert.ReferenceIdeal.Facts]
    [hPre_input_domain : Cert.Pre_input_domain.Facts] : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run _ _ _).mono (fun _ h c => ⟨(h c).1.trans ?_, (h c).2⟩)
      (Cert.KernelIdeal.Sc.run_main (F := Ideal) m ρ (preOK_ideal m hpre))
    exact (Cert.KernelIdeal.Sc.V5_v8_ideal m c).trans (Cert.KernelIdeal.KVal.kernOut_eq_GK _ _ _ _ _ _ _)
  · refine (θ_run _ _ _).mono (fun _ h c => ⟨(h c).1.trans ?_, (h c).2⟩) (Cert.ReferenceIdeal.RefRun.run m' ρ')
    obtain ⟨e0, e1, e2, e3, e4, e5, e6⟩ := hagree c
    have hfin := Cert.PreFacts.finite _ _ _ _ _ _ _ (hpre c)
    rw [e0, e1, e2, e3, e4, e5, e6,
      Cert.ReferenceIdeal.RefValue.refOut_eq_GR _ _ _ _ _ _ _ (Cert.PreFacts.ids_lt (F := Ideal) _ _ _ _ _ _ _ (hpre c))]
    exact (Cert.Spec.GK_eq_GR _ _ _ _ _ _ _ hfin.1 hfin.2.1 hfin.2.2.1 hfin.2.2.2).symm

end Cert.Proof.Claims

end
-- ==== Proof.lean ====
/-
  The kernel gathers word-embedding rows on the SparseCore — thirty-two tiles, each copying its 16 rows of the reshaped
  index array into a scratch and then, chunk by chunk through two alternating slots, gathering the 128 table rows a
  scratch row names and copying them out — and then, in one TensorCore call over thirty-two blocks of four sequences,
  adds the position rows, projects the 128 entries to 480 channels, and layer-normalises over the channels with a
  product by the reciprocal square root; the result is transposed into place. The reference takes the same rows,
  adds the same position rows, projects with the same matrix and layer-normalises with a quotient by the square root.

  Frames: every index word names a table row (the precondition), so no gather is abandoned; each semaphore has at most
  one transfer outstanding and no buffer is touched while a transfer into or out of it is pending; the TensorCore
  call's staging cells wait at the lowest level. So every weakly fair execution of the device's threads ends, nothing
  faulting, and no step writes an argument.

  Values at the ideal instance: both results are, at (b, s, k), the layer normalisation at channel k of the row
  word_emb[ids[b, s], :] + pos_emb[s, :] projected by proj_w with proj_b, scaled by ln_g and shifted by ln_b. The
  kernel's product with the reciprocal square root and the reference's quotient by the square root agree because the
  float inputs are real (the precondition), which makes the variance plus the guard a positive real.

  The ideal pass rewrote nothing, so the preservation conjunct is trivial.
-/
import proofs.«207697_g22892175687689_cont_8to1_1704_9_alg».proof.Defs
import proofs.«207697_g22892175687689_cont_8to1_1704_9_alg».proof.Proof.Gen.Kernel
import proofs.«207697_g22892175687689_cont_8to1_1704_9_alg».proof.Proof.Gen.KernelIdeal
import proofs.«207697_g22892175687689_cont_8to1_1704_9_alg».proof.Proof.Gen.ReferenceIdeal
import proofs.«207697_g22892175687689_cont_8to1_1704_9_alg».proof.Proof.Gen.Pre_input_domain
import proofs.«207697_g22892175687689_cont_8to1_1704_9_alg».proof.Proof.Claims

noncomputable section

namespace Cert.Proof

theorem claim : Cert.Claim :=
  ⟨Cert.Kernel.Gen.facts, Cert.KernelIdeal.Gen.facts, Cert.ReferenceIdeal.Gen.facts, Cert.Pre_input_domain.Gen.facts,
    Claims.frame_Kernel, Claims.frame_KernelIdeal, Claims.frame_ReferenceIdeal, Claims.preserves, Claims.algebraic⟩

end Cert.Proof

end
